-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12000x3 : Shape := ⟨3, ![8, 12000, 3]⟩
abbrev S8x12000x9 : Shape := ⟨3, ![8, 12000, 9]⟩
abbrev S64x27 : Shape := ⟨2, ![64, 27]⟩
abbrev S64 : Shape := ⟨1, ![64]⟩
abbrev S128x576 : Shape := ⟨2, ![128, 576]⟩
abbrev S128 : Shape := ⟨1, ![128]⟩
abbrev S256x1152 : Shape := ⟨2, ![256, 1152]⟩
abbrev S256 : Shape := ⟨1, ![256]⟩
abbrev S256x256 : Shape := ⟨2, ![256, 256]⟩
abbrev S_ : Shape := ⟨0, ![]⟩

class Facts : Prop where
  bcast_S_S8x12000x3 : S_.BroadcastsInDim S8x12000x3 (![] : Fin 0 → Fin S8x12000x3.rank)
  reducesTo_S8x12000x3_S_d0_1_2 : S8x12000x3.ReducesTo [0, 1, 2] S_
  h_S_ : 0 < S_.numel
  bcast_S_S64x27 : S_.BroadcastsInDim S64x27 (![] : Fin 0 → Fin S64x27.rank)
  reducesTo_S64x27_S_d0_1 : S64x27.ReducesTo [0, 1] S_
  bcast_S_S64 : S_.BroadcastsInDim S64 (![] : Fin 0 → Fin S64.rank)
  reducesTo_S64_S_d0 : S64.ReducesTo [0] S_
  bcast_S_S128x576 : S_.BroadcastsInDim S128x576 (![] : Fin 0 → Fin S128x576.rank)
  reducesTo_S128x576_S_d0_1 : S128x576.ReducesTo [0, 1] S_
  bcast_S_S128 : S_.BroadcastsInDim S128 (![] : Fin 0 → Fin S128.rank)
  reducesTo_S128_S_d0 : S128.ReducesTo [0] S_
  bcast_S_S256x1152 : S_.BroadcastsInDim S256x1152 (![] : Fin 0 → Fin S256x1152.rank)
  reducesTo_S256x1152_S_d0_1 : S256x1152.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg12 : FVec F S256 .f32) (main_arg13 : FVec F S256 .f32) (main_arg14 : FVec F S256x256 .f32) (main_arg15 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_v63 main_v67

def fn_part2 {F : FTy → Type} [FloatOps F] (main_arg8 : FVec F S128 .f32) (main_arg9 : FVec F S128 .f32) (main_arg10 : FVec F S256x1152 .f32) (main_arg11 : FVec F S256 .f32) (main_arg12 : FVec F S256 .f32) (main_arg13 : FVec F S256 .f32) (main_arg14 : FVec F S256x256 .f32) (main_arg15 : FVec F S256 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x1152 .f32 := Host.absf main_arg10
  let main_cst_16 : FVec F S_ .f32 := constant S_ .f32 0x7F800000#32
  let main_v45 : FVec F S256x1152 .f32 := broadcastInDim S256x1152 ![] bcast_S_S256x1152 main_cst_16
  let main_v46 : IVec S256x1152 1 := cmpf .olt main_v44 main_v45
  let main_c_17 : IVec S_ 1 := constantI S_ 1 1#1
  let main_v47 : IVec S_ 1 := (fun x v => Host.reduce IntOp.andi x v reducesTo_S256x1152_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S64 .f32) (main_arg6 : FVec F S128x576 .f32) (main_arg7 : FVec F S128 .f32) (main_arg8 : FVec F S128 .f32) (main_arg9 : FVec F S128 .f32) (main_arg10 : FVec F S256x1152 .f32) (main_arg11 : FVec F S256 .f32) (main_arg12 : FVec F S256 .f32) (main_arg13 : FVec F S256 .f32) (main_arg14 : FVec F S256x256 .f32) (main_arg15 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x576 .f32 := Host.absf main_arg6
  let main_cst_8 : FVec F S_ .f32 := constant S_ .f32 0x7F800000#32
  let main_v25 : FVec F S128x576 .f32 := broadcastInDim S128x576 ![] bcast_S_S128x576 main_cst_8
  let main_v26 : IVec S128x576 1 := cmpf .olt main_v24 main_v25
  let main_c_9 : IVec S_ 1 := constantI S_ 1 1#1
  let main_v27 : IVec S_ 1 := (fun x v => Host.reduce IntOp.andi x v reducesTo_S128x576_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S8x12000x3 .f32) (main_arg1 : IVec S8x12000x9 32) (main_arg2 : FVec F S64x27 .f32) (main_arg3 : FVec F S64 .f32) (main_arg4 : FVec F S64 .f32) (main_arg5 : FVec F S64 .f32) (main_arg6 : FVec F S128x576 .f32) (main_arg7 : FVec F S128 .f32) (main_arg8 : FVec F S128 .f32) (main_arg9 : FVec F S128 .f32) (main_arg10 : FVec F S256x1152 .f32) (main_arg11 : FVec F S256 .f32) (main_arg12 : FVec F S256 .f32) (main_arg13 : FVec F S256 .f32) (main_arg14 : FVec F S256x256 .f32) (main_arg15 : FVec F S256 .f32) : IVec S_ 1 :=
  let main_v0 : FVec F S8x12000x3 .f32 := Host.absf main_arg0
  let main_cst : FVec F S_ .f32 := constant S_ .f32 0x7F800000#32
  let main_v1 : FVec F S8x12000x3 .f32 := broadcastInDim S8x12000x3 ![] bcast_S_S8x12000x3 main_cst
  let main_v2 : IVec S8x12000x3 1 := cmpf .olt main_v0 main_v1
  let main_c : IVec S_ 1 := constantI S_ 1 1#1
  let main_v3 : IVec S_ 1 := (fun x v => Host.reduce IntOp.andi x v reducesTo_S8x12000x3_S_d0_1_2 h_S_) main_v2 main_c
  let main_v4 : FVec F S64x27 .f32 := Host.absf main_arg2
  let main_cst_0 : FVec F S_ .f32 := constant S_ .f32 0x7F800000#32
  let main_v5 : FVec F S64x27 .f32 := broadcastInDim S64x27 ![] bcast_S_S64x27 main_cst_0
  let main_v6 : IVec S64x27 1 := cmpf .olt main_v4 main_v5
  let main_c_1 : IVec S_ 1 := constantI S_ 1 1#1
  let main_v7 : IVec S_ 1 := (fun x v => Host.reduce IntOp.andi x v reducesTo_S64x27_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S8x12000x3 : Shape := ⟨3, ![8, 12000, 3]⟩
abbrev S8x12000x9 : Shape := ⟨3, ![8, 12000, 9]⟩
abbrev S64x27 : Shape := ⟨2, ![64, 27]⟩
abbrev S64 : Shape := ⟨1, ![64]⟩
abbrev S128x576 : Shape := ⟨2, ![128, 576]⟩
abbrev S128 : Shape := ⟨1, ![128]⟩
abbrev S256x1152 : Shape := ⟨2, ![256, 1152]⟩
abbrev S256 : Shape := ⟨1, ![256]⟩
abbrev S256x256 : Shape := ⟨2, ![256, 256]⟩
abbrev S_ : Shape := ⟨0, ![]⟩
abbrev S8x12000x9x1 : Shape := ⟨4, ![8, 12000, 9, 1]⟩
abbrev S8x12000x9x3 : Shape := ⟨4, ![8, 12000, 9, 3]⟩
abbrev S8x12000x27 : Shape := ⟨3, ![8, 12000, 27]⟩
abbrev S27x64 : Shape := ⟨2, ![27, 64]⟩
abbrev S8x12000x64 : Shape := ⟨3, ![8, 12000, 64]⟩
abbrev S1x64 : Shape := ⟨2, ![1, 64]⟩
abbrev S8x400x27 : Shape := ⟨3, ![8, 400, 27]⟩
abbrev S8x400x64 : Shape := ⟨3, ![8, 400, 64]⟩
abbrev S3200x27 : Shape := ⟨2, ![3200, 27]⟩
abbrev S3200x64 : Shape := ⟨2, ![3200, 64]⟩
abbrev S1x1x64 : Shape := ⟨3, ![1, 1, 64]⟩
abbrev S8x12000x9x64 : Shape := ⟨4, ![8, 12000, 9, 64]⟩
abbrev S8x12000x576 : Shape := ⟨3, ![8, 12000, 576]⟩
abbrev S576x128 : Shape := ⟨2, ![576, 128]⟩
abbrev S8x12000x128 : Shape := ⟨3, ![8, 12000, 128]⟩
abbrev S1x128 : Shape := ⟨2, ![1, 128]⟩
abbrev S8x400x576 : Shape := ⟨3, ![8, 400, 576]⟩
abbrev S8x400x128 : Shape := ⟨3, ![8, 400, 128]⟩
abbrev S3200x576 : Shape := ⟨2, ![3200, 576]⟩
abbrev S3200x128 : Shape := ⟨2, ![3200, 128]⟩
abbrev S1x1x128 : Shape := ⟨3, ![1, 1, 128]⟩
abbrev S8x12000x9x128 : Shape := ⟨4, ![8, 12000, 9, 128]⟩
abbrev S8x12000x1152 : Shape := ⟨3, ![8, 12000, 1152]⟩
abbrev S1152x256 : Shape := ⟨2, ![1152, 256]⟩
abbrev S8x12000x256 : Shape := ⟨3, ![8, 12000, 256]⟩
abbrev S1x256 : Shape := ⟨2, ![1, 256]⟩
abbrev S8x400x1152 : Shape := ⟨3, ![8, 400, 1152]⟩
abbrev S8x400x256 : Shape := ⟨3, ![8, 400, 256]⟩
abbrev S3200x1152 : Shape := ⟨2, ![3200, 1152]⟩
abbrev S3200x256 : Shape := ⟨2, ![3200, 256]⟩
abbrev S8x256 : Shape := ⟨2, ![8, 256]⟩
abbrev S1x1x256 : Shape := ⟨3, ![1, 1, 256]⟩

abbrev nBuf : Space → Nat
  | .hbm => 124
  | .vmem => 41
  | .smem => 0
  | _ => 0

abbrev bufTy : (tb : Table) → Fin (tcTables nBuf tb) → BufTy
  | .hbm, ⟨0, _⟩ => ⟨S8x12000x3, .f32⟩
  | .hbm, ⟨1, _⟩ => ⟨S8x12000x9, .i32⟩
  | .hbm, ⟨2, _⟩ => ⟨S64x27, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128x576, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256x1152, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S_, .i32⟩
  | .hbm, ⟨17, _⟩ => ⟨S8x12000x9, .i32⟩
  | .hbm, ⟨18, _⟩ => ⟨S8x12000x9, .i1⟩
  | .hbm, ⟨19, _⟩ => ⟨S_, .i32⟩
  | .hbm, ⟨20, _⟩ => ⟨S8x12000x9, .i32⟩
  | .hbm, ⟨21, _⟩ => ⟨S8x12000x9, .i32⟩
  | .hbm, ⟨22, _⟩ => ⟨S8x12000x9, .i32⟩
  | .hbm, ⟨23, _⟩ => ⟨S8x12000x9x1, .i32⟩
  | .hbm, ⟨24, _⟩ => ⟨S8x12000x9x3, .f32⟩
  | .hbm, ⟨25, _⟩ => ⟨S8x12000x27, .f32⟩
  | .hbm, ⟨26, _⟩ => ⟨S8x12000x27, .bf16⟩
  | .hbm, ⟨27, _⟩ => ⟨S27x64, .f32⟩
  | .hbm, ⟨28, _⟩ => ⟨S27x64, .bf16⟩
  | .hbm, ⟨29, _⟩ => ⟨S8x12000x64, .f32⟩
  | .hbm, ⟨30, _⟩ => ⟨S1x64, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S1x64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S8x12000x64, .bf16⟩
  | .hbm, ⟨51, _⟩ => ⟨S_, .i32⟩
  | .hbm, ⟨52, _⟩ => ⟨S8x12000x9, .i32⟩
  | .hbm, ⟨53, _⟩ => ⟨S8x12000x9, .i1⟩
  | .hbm, ⟨54, _⟩ => ⟨S_, .i32⟩
  | .hbm, ⟨55, _⟩ => ⟨S8x12000x9, .i32⟩
  | .hbm, ⟨56, _⟩ => ⟨S8x12000x9, .i32⟩
  | .hbm, ⟨57, _⟩ => ⟨S8x12000x9, .i32⟩
  | .hbm, ⟨58, _⟩ => ⟨S8x12000x9x1, .i32⟩
  | .hbm, ⟨59, _⟩ => ⟨S8x12000x9x64, .bf16⟩
  | .hbm, ⟨60, _⟩ => ⟨S8x12000x576, .bf16⟩
  | .hbm, ⟨61, _⟩ => ⟨S576x128, .f32⟩
  | .hbm, ⟨62, _⟩ => ⟨S576x128, .bf16⟩
  | .hbm, ⟨63, _⟩ => ⟨S8x12000x128, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S1x128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S8x12000x128, .bf16⟩
  | .hbm, ⟨85, _⟩ => ⟨S_, .i32⟩
  | .hbm, ⟨86, _⟩ => ⟨S8x12000x9, .i32⟩
  | .hbm, ⟨87, _⟩ => ⟨S8x12000x9, .i1⟩
  | .hbm, ⟨88, _⟩ => ⟨S_, .i32⟩
  | .hbm, ⟨89, _⟩ => ⟨S8x12000x9, .i32⟩
  | .hbm, ⟨90, _⟩ => ⟨S8x12000x9, .i32⟩
  | .hbm, ⟨91, _⟩ => ⟨S8x12000x9, .i32⟩
  | .hbm, ⟨92, _⟩ => ⟨S8x12000x9x1, .i32⟩
  | .hbm, ⟨93, _⟩ => ⟨S8x12000x9x128, .bf16⟩
  | .hbm, ⟨94, _⟩ => ⟨S8x12000x1152, .bf16⟩
  | .hbm, ⟨95, _⟩ => ⟨S1152x256, .f32⟩
  | .hbm, ⟨96, _⟩ => ⟨S1152x256, .bf16⟩
  | .hbm, ⟨97, _⟩ => ⟨S8x12000x256, .f32⟩
  | .hbm, ⟨98, _⟩ => ⟨S1x256, .f32⟩
  | .hbm, ⟨99, _⟩ => ⟨S1x256, .f32⟩
  | .hbm, ⟨100, _⟩ => ⟨S_, .f32⟩
  | .hbm, ⟨101, _⟩ => ⟨S1x256, .f32⟩
  | .hbm, ⟨102, _⟩ => ⟨S1x256, .f32⟩
  | .hbm, ⟨103, _⟩ => ⟨S256, .f32⟩
  | .hbm, ⟨104, _⟩ => ⟨S_, .f32⟩
  | .hbm, ⟨105, _⟩ => ⟨S1x256, .f32⟩
  | .hbm, ⟨106, _⟩ => ⟨S1x256, .f32⟩
  | .hbm, ⟨107, _⟩ => ⟨S256, .f32⟩
  | .hbm, ⟨108, _⟩ => ⟨S1x256, .f32⟩
  | .hbm, ⟨109, _⟩ => ⟨S1x256, .f32⟩
  | .hbm, ⟨110, _⟩ => ⟨S256, .f32⟩
  | .hbm, ⟨111, _⟩ => ⟨S_, .f32⟩
  | .hbm, ⟨112, _⟩ => ⟨S256, .f32⟩
  | .hbm, ⟨113, _⟩ => ⟨S256, .f32⟩
  | .hbm, ⟨114, _⟩ => ⟨S256, .f32⟩
  | .hbm, ⟨115, _⟩ => ⟨S256, .f32⟩
  | .hbm, ⟨116, _⟩ => ⟨S256, .f32⟩
  | .hbm, ⟨117, _⟩ => ⟨S256, .f32⟩
  | .hbm, ⟨118, _⟩ => ⟨S8x256, .f32⟩
  | .hbm, ⟨119, _⟩ => ⟨S256x256, .f32⟩
  | .hbm, ⟨120, _⟩ => ⟨S8x256, .f32⟩
  | .hbm, ⟨121, _⟩ => ⟨S1x256, .f32⟩
  | .hbm, ⟨122, _⟩ => ⟨S8x256, .f32⟩
  | .hbm, ⟨123, _⟩ => ⟨S8x256, .f32⟩
  | .local _ .vmem, ⟨0, _⟩ => ⟨S8x400x27, .bf16⟩
  | .local _ .vmem, ⟨1, _⟩ => ⟨S8x400x27, .bf16⟩
  | .local _ .vmem, ⟨2, _⟩ => ⟨S27x64, .bf16⟩
  | .local _ .vmem, ⟨3, _⟩ => ⟨S64, .f32⟩
  | .local _ .vmem, ⟨4, _⟩ => ⟨S8x400x64, .f32⟩
  | .local _ .vmem, ⟨5, _⟩ => ⟨S8x400x64, .f32⟩
  | .local _ .vmem, ⟨6, _⟩ => ⟨S1x64, .f32⟩
  | .local _ .vmem, ⟨7, _⟩ => ⟨S1x64, .f32⟩
  | .local _ .vmem, ⟨8, _⟩ => ⟨S8x400x64, .f32⟩
  | .local _ .vmem, ⟨9, _⟩ => ⟨S8x400x64, .f32⟩
  | .local _ .vmem, ⟨10, _⟩ => ⟨S64, .f32⟩
  | .local _ .vmem, ⟨11, _⟩ => ⟨S64, .f32⟩
  | .local _ .vmem, ⟨12, _⟩ => ⟨S8x400x64, .bf16⟩
  | .local _ .vmem, ⟨13, _⟩ => ⟨S8x400x64, .bf16⟩
  | .local _ .vmem, ⟨14, _⟩ => ⟨S8x400x576, .bf16⟩
  | .local _ .vmem, ⟨15, _⟩ => ⟨S8x400x576, .bf16⟩
  | .local _ .vmem, ⟨16, _⟩ => ⟨S576x128, .bf16⟩
  | .local _ .vmem, ⟨17, _⟩ => ⟨S128, .f32⟩
  | .local _ .vmem, ⟨18, _⟩ => ⟨S8x400x128, .f32⟩
  | .local _ .vmem, ⟨19, _⟩ => ⟨S8x400x128, .f32⟩
  | .local _ .vmem, ⟨20, _⟩ => ⟨S1x128, .f32⟩
  | .local _ .vmem, ⟨21, _⟩ => ⟨S1x128, .f32⟩
  | .local _ .vmem, ⟨22, _⟩ => ⟨S8x400x128, .f32⟩
  | .local _ .vmem, ⟨23, _⟩ => ⟨S8x400x128, .f32⟩
  | .local _ .vmem, ⟨24, _⟩ => ⟨S128, .f32⟩
  | .local _ .vmem, ⟨25, _⟩ => ⟨S128, .f32⟩
  | .local _ .vmem, ⟨26, _⟩ => ⟨S8x400x128, .bf16⟩
  | .local _ .vmem, ⟨27, _⟩ => ⟨S8x400x128, .bf16⟩
  | .local _ .vmem, ⟨28, _⟩ => ⟨S8x400x1152, .bf16⟩
  | .local _ .vmem, ⟨29, _⟩ => ⟨S8x400x1152, .bf16⟩
  | .local _ .vmem, ⟨30, _⟩ => ⟨S1152x256, .bf16⟩
  | .local _ .vmem, ⟨31, _⟩ => ⟨S256, .f32⟩
  | .local _ .vmem, ⟨32, _⟩ => ⟨S8x400x256, .f32⟩
  | .local _ .vmem, ⟨33, _⟩ => ⟨S8x400x256, .f32⟩
  | .local _ .vmem, ⟨34, _⟩ => ⟨S1x256, .f32⟩
  | .local _ .vmem, ⟨35, _⟩ => ⟨S1x256, .f32⟩
  | .local _ .vmem, ⟨36, _⟩ => ⟨S8x400x256, .f32⟩
  | .local _ .vmem, ⟨37, _⟩ => ⟨S8x400x256, .f32⟩
  | .local _ .vmem, ⟨38, _⟩ => ⟨S256, .f32⟩
  | .local _ .vmem, ⟨39, _⟩ => ⟨S256, .f32⟩
  | .local _ .vmem, ⟨40, _⟩ => ⟨S8x256, .f32⟩
  | _, _ => ⟨S8x12000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_3 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38_0 : Ref sig .tc := ⟨.hbm, 63, rfl⟩
abbrev main_v38_1 : Ref sig .tc := ⟨.hbm, 64, rfl⟩
abbrev main_v38_2 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_8 : Ref sig .tc := ⟨.hbm, 85, rfl⟩
abbrev main_v55 : Ref sig .tc := ⟨.hbm, 86, rfl⟩
abbrev main_v56 : Ref sig .tc := ⟨.hbm, 87, rfl⟩
abbrev main_c_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65_0 : Ref sig .tc := ⟨.hbm, 97, rfl⟩
abbrev main_v65_1 : Ref sig .tc := ⟨.hbm, 98, rfl⟩
abbrev main_v65_2 : Ref sig .tc := ⟨.hbm, 99, rfl⟩
abbrev main_cst_10 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_11 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg5_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem5_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40

abbrev nD : Nat := 1
abbrev τ : Topo := Topo.v7x

variable {F : FTy → Type} [FloatOps F]

abbrev grid0 : Pipeline.Grid := ⟨1, ![30], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x400x27 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![30], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x400x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x400x576 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S576x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![30], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8x400x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![30], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8x400x1152 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1152x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8x400x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![30], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S8x400x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  bcast_S_S8x12000x9 : S_.BroadcastsInDim S8x12000x9 (![] : Fin 0 → Fin S8x12000x9.rank)
  bcast_S8x12000x9_S8x12000x9x1_0_1_2 : S8x12000x9.BroadcastsInDim S8x12000x9x1 (![0, 1, 2] : Fin 3 → Fin S8x12000x9x1.rank)
  shapeCasts_S8x12000x9x3_S8x12000x27 : S8x12000x9x3.ShapeCasts S8x12000x27
  bitsLt_bf16_f32 : FTy.bits .bf16 < FTy.bits .f32
  transposes_S64x27_S27x64_1_0 : S64x27.Transposes [1, 0] S27x64
  inb_S1x64_S1x64_0_0 : ∀ a, (![0, 0] : Fin 2 → Nat) a + S1x64.size a ≤ S1x64.size a
  h_S1x64 : 0 < S1x64.numel
  inb_S8x400x27_S8x400x27_0_0_0 : ∀ a, (![0, 0, 0] : Fin 3 → Nat) a + S8x400x27.size a ≤ S8x400x27.size a
  h_S8x400x27 : 0 < S8x400x27.numel
  shapeCasts_S8x400x27_S8x400x27 : S8x400x27.ShapeCasts S8x400x27
  shapeCasts_S8x400x27_S3200x27 : S8x400x27.ShapeCasts S3200x27
  inb_S27x64_S27x64_0_0 : ∀ a, (![0, 0] : Fin 2 → Nat) a + S27x64.size a ≤ S27x64.size a
  h_S27x64 : 0 < S27x64.numel
  shapeCasts_S27x64_S27x64 : S27x64.ShapeCasts S27x64
  inb_S64_S64_0 : ∀ a, (![0] : Fin 1 → Nat) a + S64.size a ≤ S64.size a
  h_S64 : 0 < S64.numel
  shapeCasts_S64_S1x64 : S64.ShapeCasts S1x64
  broadcasts_S1x64_S3200x64 : S1x64.Broadcasts S3200x64
  shapeCasts_S3200x64_S8x400x64 : S3200x64.ShapeCasts S8x400x64
  inb_S8x400x64_S8x400x64_0_0_0 : ∀ a, (![0, 0, 0] : Fin 3 → Nat) a + S8x400x64.size a ≤ S8x400x64.size a
  h_S8x400x64 : 0 < S8x400x64.numel
  shapeCasts_S1x64_S1x64 : S1x64.ShapeCasts S1x64
  reduces_S3200x64_S64 : S3200x64.Reduces [0] S64
  bcast_S_S1x64 : S_.BroadcastsInDim S1x64 (![] : Fin 0 → Fin S1x64.rank)
  shapeCasts_S1x64_S64 : S1x64.ShapeCasts S64
  bcast_S64_S1x64_1 : S64.BroadcastsInDim S1x64 (![1] : Fin 1 → Fin S1x64.rank)
  bcast_S_S64 : S_.BroadcastsInDim S64 (![] : Fin 0 → Fin S64.rank)
  shapeCasts_S8x400x64_S8x400x64 : S8x400x64.ShapeCasts S8x400x64
  shapeCasts_S64_S64 : S64.ShapeCasts S64
  shapeCasts_S64_S1x1x64 : S64.ShapeCasts S1x1x64
  broadcasts_S1x1x64_S8x400x64 : S1x1x64.Broadcasts S8x400x64
  packedbf16_S8x400x64_S8x400x64_0_0_0 : (Rect.unit (s := S8x400x64) ![0, 0, 0] S8x400x64.size inb_S8x400x64_S8x400x64_0_0_0).PackedRows (EltTy.packing .bf16)
  shapeCasts_S8x12000x9x64_S8x12000x576 : S8x12000x9x64.ShapeCasts S8x12000x576
  transposes_S128x576_S576x128_1_0 : S128x576.Transposes [1, 0] S576x128
  inb_S1x128_S1x128_0_0 : ∀ a, (![0, 0] : Fin 2 → Nat) a + S1x128.size a ≤ S1x128.size a
  h_S1x128 : 0 < S1x128.numel
  inb_S8x400x576_S8x400x576_0_0_0 : ∀ a, (![0, 0, 0] : Fin 3 → Nat) a + S8x400x576.size a ≤ S8x400x576.size a
  h_S8x400x576 : 0 < S8x400x576.numel
  shapeCasts_S8x400x576_S8x400x576 : S8x400x576.ShapeCasts S8x400x576
  shapeCasts_S8x400x576_S3200x576 : S8x400x576.ShapeCasts S3200x576
  inb_S576x128_S576x128_0_0 : ∀ a, (![0, 0] : Fin 2 → Nat) a + S576x128.size a ≤ S576x128.size a
  h_S576x128 : 0 < S576x128.numel
  shapeCasts_S576x128_S576x128 : S576x128.ShapeCasts S576x128
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  shapeCasts_S3200x128_S8x400x128 : S3200x128.ShapeCasts S8x400x128
  inb_S8x400x128_S8x400x128_0_0_0 : ∀ a, (![0, 0, 0] : Fin 3 → Nat) a + S8x400x128.size a ≤ S8x400x128.size a
  h_S8x400x128 : 0 < S8x400x128.numel
  shapeCasts_S1x128_S1x128 : S1x128.ShapeCasts S1x128
  reduces_S3200x128_S128 : S3200x128.Reduces [0] S128
  bcast_S_S1x128 : S_.BroadcastsInDim S1x128 (![] : Fin 0 → Fin S1x128.rank)
  shapeCasts_S1x128_S128 : S1x128.ShapeCasts S128
  bcast_S128_S1x128_1 : S128.BroadcastsInDim S1x128 (![1] : Fin 1 → Fin S1x128.rank)
  bcast_S_S128 : S_.BroadcastsInDim S128 (![] : Fin 0 → Fin S128.rank)
  shapeCasts_S8x400x128_S8x400x128 : S8x400x128.ShapeCasts S8x400x128
  shapeCasts_S128_S128 : S128.ShapeCasts S128
  shapeCasts_S128_S1x1x128 : S128.ShapeCasts S1x1x128
  broadcasts_S1x1x128_S8x400x128 : S1x1x128.Broadcasts S8x400x128
  packedbf16_S8x400x128_S8x400x128_0_0_0 : (Rect.unit (s := S8x400x128) ![0, 0, 0] S8x400x128.size inb_S8x400x128_S8x400x128_0_0_0).PackedRows (EltTy.packing .bf16)
  shapeCasts_S8x12000x9x128_S8x12000x1152 : S8x12000x9x128.ShapeCasts S8x12000x1152
  transposes_S256x1152_S1152x256_1_0 : S256x1152.Transposes [1, 0] S1152x256
  inb_S1x256_S1x256_0_0 : ∀ a, (![0, 0] : Fin 2 → Nat) a + S1x256.size a ≤ S1x256.size a
  h_S1x256 : 0 < S1x256.numel
  inb_S8x400x1152_S8x400x1152_0_0_0 : ∀ a, (![0, 0, 0] : Fin 3 → Nat) a + S8x400x1152.size a ≤ S8x400x1152.size a
  h_S8x400x1152 : 0 < S8x400x1152.numel
  shapeCasts_S8x400x1152_S8x400x1152 : S8x400x1152.ShapeCasts S8x400x1152
  shapeCasts_S8x400x1152_S3200x1152 : S8x400x1152.ShapeCasts S3200x1152
  inb_S1152x256_S1152x256_0_0 : ∀ a, (![0, 0] : Fin 2 → Nat) a + S1152x256.size a ≤ S1152x256.size a
  h_S1152x256 : 0 < S1152x256.numel
  shapeCasts_S1152x256_S1152x256 : S1152x256.ShapeCasts S1152x256
  inb_S256_S256_0 : ∀ a, (![0] : Fin 1 → Nat) a + S256.size a ≤ S256.size a
  h_S256 : 0 < S256.numel
  shapeCasts_S256_S1x256 : S256.ShapeCasts S1x256
  broadcasts_S1x256_S3200x256 : S1x256.Broadcasts S3200x256
  shapeCasts_S3200x256_S8x400x256 : S3200x256.ShapeCasts S8x400x256
  inb_S8x400x256_S8x400x256_0_0_0 : ∀ a, (![0, 0, 0] : Fin 3 → Nat) a + S8x400x256.size a ≤ S8x400x256.size a
  h_S8x400x256 : 0 < S8x400x256.numel
  shapeCasts_S1x256_S1x256 : S1x256.ShapeCasts S1x256
  reduces_S3200x256_S256 : S3200x256.Reduces [0] S256
  bcast_S_S1x256 : S_.BroadcastsInDim S1x256 (![] : Fin 0 → Fin S1x256.rank)
  shapeCasts_S1x256_S256 : S1x256.ShapeCasts S256
  bcast_S256_S1x256_1 : S256.BroadcastsInDim S1x256 (![1] : Fin 1 → Fin S1x256.rank)
  bcast_S_S256 : S_.BroadcastsInDim S256 (![] : Fin 0 → Fin S256.rank)
  inb_S8x256_S8x256_0_0 : ∀ a, (![0, 0] : Fin 2 → Nat) a + S8x256.size a ≤ S8x256.size a
  h_S8x256 : 0 < S8x256.numel
  shapeCasts_S8x400x256_S8x400x256 : S8x400x256.ShapeCasts S8x400x256
  shapeCasts_S256_S256 : S256.ShapeCasts S256
  shapeCasts_S256_S1x1x256 : S256.ShapeCasts S1x1x256
  broadcasts_S1x1x256_S8x400x256 : S1x1x256.Broadcasts S8x400x256
  reduces_S8x400x256_S8x256 : S8x400x256.Reduces [1] S8x256
  shapeCasts_S8x256_S8x256 : S8x256.ShapeCasts S8x256
  transposes_S256x256_S256x256_1_0 : S256x256.Transposes [1, 0] S256x256
  bcast_S1x256_S8x256_0_1 : S1x256.BroadcastsInDim S8x256 (![0, 1] : Fin 2 → Fin S8x256.rank)
  gather_S8x12000x3_S8x12000x9x1_S8x12000x9x3_3_1_0_0_1_3_113_wf : GatherDims.WF S8x12000x3 S8x12000x9x1 S8x12000x9x3 [3] [1] [0] [1] [0] 3 ![1, 1, 3]
  dot_S3200x27_S27x64_S3200x64_1_0_0_1_n_n_wf : DotDims.WF S3200x27 S27x64 S3200x64 [1] [0] [0] [1] [] []
  gather_S8x12000x64_S8x12000x9x1_S8x12000x9x64_3_1_0_0_1_3_1164_wf : GatherDims.WF S8x12000x64 S8x12000x9x1 S8x12000x9x64 [3] [1] [0] [1] [0] 3 ![1, 1, 64]
  dot_S3200x576_S576x128_S3200x128_1_0_0_1_n_n_wf : DotDims.WF S3200x576 S576x128 S3200x128 [1] [0] [0] [1] [] []
  gather_S8x12000x128_S8x12000x9x1_S8x12000x9x128_3_1_0_0_1_3_11128_wf : GatherDims.WF S8x12000x128 S8x12000x9x1 S8x12000x9x128 [3] [1] [0] [1] [0] 3 ![1, 1, 128]
  dot_S3200x1152_S1152x256_S3200x256_1_0_0_1_n_n_wf : DotDims.WF S3200x1152 S1152x256 S3200x256 [1] [0] [0] [1] [] []
  dot_S8x256_S256x256_S8x256_1_0_0_1_n_n_wf : DotDims.WF S8x256 S256x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x400x27.size a ≤ S8x12000x27.size a
  hwx0_0 : ∀ i : grid0.Coords, EltTy.bits .bf16 = 32 ∨ (Rect.block (s := S8x12000x27) S8x400x27.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x64.size a ≤ S27x64.size a
  hwx0_1 : ∀ i : grid0.Coords, EltTy.bits .bf16 = 32 ∨ (Rect.block (s := S27x64) S27x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x400x64.size a ≤ S8x12000x64.size a
  hwx0_3 : ∀ i : grid0.Coords, EltTy.bits .f32 = 32 ∨ (Rect.block (s := S8x12000x64) S8x400x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x400x64.size a ≤ S8x12000x64.size a
  hwx1_0 : ∀ i : grid1.Coords, EltTy.bits .f32 = 32 ∨ (Rect.block (s := S8x12000x64) S8x400x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x400x64.size a ≤ S8x12000x64.size a
  hwx1_3 : ∀ i : grid1.Coords, EltTy.bits .bf16 = 32 ∨ (Rect.block (s := S8x12000x64) S8x400x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x400x576.size a ≤ S8x12000x576.size a
  hwx2_0 : ∀ i : grid2.Coords, EltTy.bits .bf16 = 32 ∨ (Rect.block (s := S8x12000x576) S8x400x576.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S576x128.size a ≤ S576x128.size a
  hwx2_1 : ∀ i : grid2.Coords, EltTy.bits .bf16 = 32 ∨ (Rect.block (s := S576x128) S576x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x400x128.size a ≤ S8x12000x128.size a
  hwx2_3 : ∀ i : grid2.Coords, EltTy.bits .f32 = 32 ∨ (Rect.block (s := S8x12000x128) S8x400x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x400x128.size a ≤ S8x12000x128.size a
  hwx3_0 : ∀ i : grid3.Coords, EltTy.bits .f32 = 32 ∨ (Rect.block (s := S8x12000x128) S8x400x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x400x128.size a ≤ S8x12000x128.size a
  hwx3_3 : ∀ i : grid3.Coords, EltTy.bits .bf16 = 32 ∨ (Rect.block (s := S8x12000x128) S8x400x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x400x1152.size a ≤ S8x12000x1152.size a
  hwx4_0 : ∀ i : grid4.Coords, EltTy.bits .bf16 = 32 ∨ (Rect.block (s := S8x12000x1152) S8x400x1152.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1152x256.size a ≤ S1152x256.size a
  hwx4_1 : ∀ i : grid4.Coords, EltTy.bits .bf16 = 32 ∨ (Rect.block (s := S1152x256) S1152x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8x400x256.size a ≤ S8x12000x256.size a
  hwx4_3 : ∀ i : grid4.Coords, EltTy.bits .f32 = 32 ∨ (Rect.block (s := S8x12000x256) S8x400x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8x400x256.size a ≤ S8x12000x256.size a
  hwx5_0 : ∀ i : grid5.Coords, EltTy.bits .f32 = 32 ∨ (Rect.block (s := S8x12000x256) S8x400x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256.size a ≤ S256.size a
  hwx5_1 : ∀ i : grid5.Coords, EltTy.bits .f32 = 32 ∨ (Rect.block (s := S256) S256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S8x256.size a ≤ S8x256.size a
  hwx5_3 : ∀ i : grid5.Coords, EltTy.bits .f32 = 32 ∨ (Rect.block (s := S8x256) S8x256.size (cc5_transform_3 i) (hinb5_3 i)).WholeWords (EltTy.packing .f32)

variable [Facts₀]

def gather_S8x12000x3_S8x12000x9x1_S8x12000x9x3_3_1_0_0_1_3_113 : GatherDims S8x12000x3 S8x12000x9x1 S8x12000x9x3 where
  offsetDims := [3]
  collapsedSliceDims := [1]
  operandBatchingDims := [0]
  startIndicesBatchingDims := [0]
  startIndexMap := [1]
  indexVectorDim := 3
  sliceSizes := ![1, 1, 3]
  wf := gather_S8x12000x3_S8x12000x9x1_S8x12000x9x3_3_1_0_0_1_3_113_wf
def dot_S3200x27_S27x64_S3200x64_1_0_0_1_n_n : DotDims S3200x27 S27x64 S3200x64 where
  lhsContracting := [1]
  rhsContracting := [0]
  lhsNonContracting := [0]
  rhsNonContracting := [1]
  lhsBatch := []
  rhsBatch := []
  wf := dot_S3200x27_S27x64_S3200x64_1_0_0_1_n_n_wf
def gather_S8x12000x64_S8x12000x9x1_S8x12000x9x64_3_1_0_0_1_3_1164 : GatherDims S8x12000x64 S8x12000x9x1 S8x12000x9x64 where
  offsetDims := [3]
  collapsedSliceDims := [1]
  operandBatchingDims := [0]
  startIndicesBatchingDims := [0]
  startIndexMap := [1]
  indexVectorDim := 3
  sliceSizes := ![1, 1, 64]
  wf := gather_S8x12000x64_S8x12000x9x1_S8x12000x9x64_3_1_0_0_1_3_1164_wf
def dot_S3200x576_S576x128_S3200x128_1_0_0_1_n_n : DotDims S3200x576 S576x128 S3200x128 where
  lhsContracting := [1]
  rhsContracting := [0]
  lhsNonContracting := [0]
  rhsNonContracting := [1]
  lhsBatch := []
  rhsBatch := []
  wf := dot_S3200x576_S576x128_S3200x128_1_0_0_1_n_n_wf
def gather_S8x12000x128_S8x12000x9x1_S8x12000x9x128_3_1_0_0_1_3_11128 : GatherDims S8x12000x128 S8x12000x9x1 S8x12000x9x128 where
  offsetDims := [3]
  collapsedSliceDims := [1]
  operandBatchingDims := [0]
  startIndicesBatchingDims := [0]
  startIndexMap := [1]
  indexVectorDim := 3
  sliceSizes := ![1, 1, 128]
  wf := gather_S8x12000x128_S8x12000x9x1_S8x12000x9x128_3_1_0_0_1_3_11128_wf
def dot_S3200x1152_S1152x256_S3200x256_1_0_0_1_n_n : DotDims S3200x1152 S1152x256 S3200x256 where
  lhsContracting := [1]
  rhsContracting := [0]
  lhsNonContracting := [0]
  rhsNonContracting := [1]
  lhsBatch := []
  rhsBatch := []
  wf := dot_S3200x1152_S1152x256_S3200x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

abbrev win0_0 : Pipeline.Window sig grid0 :=
  Pipeline.Window.ofSpec (Memref.whole main_v8) S8x400x27.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S27x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S8x400x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11_0) S8x400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S8x400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S8x400x576.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S576x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38_0) S8x400x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38_0) S8x400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S8x400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S8x400x1152.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1152x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65_0) S8x400x256.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v65_1) S1x256.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65_2) S1x256.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v65_0) S8x400x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S8x256.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S8x12000x3 : Shape := ⟨3, ![8, 12000, 3]⟩
abbrev S8x12000x9 : Shape := ⟨3, ![8, 12000, 9]⟩
abbrev S64x27 : Shape := ⟨2, ![64, 27]⟩
abbrev S64 : Shape := ⟨1, ![64]⟩
abbrev S128x576 : Shape := ⟨2, ![128, 576]⟩
abbrev S128 : Shape := ⟨1, ![128]⟩
abbrev S256x1152 : Shape := ⟨2, ![256, 1152]⟩
abbrev S256 : Shape := ⟨1, ![256]⟩
abbrev S256x256 : Shape := ⟨2, ![256, 256]⟩
abbrev S_ : Shape := ⟨0, ![]⟩
abbrev S8x12000x9x1 : Shape := ⟨4, ![8, 12000, 9, 1]⟩
abbrev S8x12000x9x3 : Shape := ⟨4, ![8, 12000, 9, 3]⟩
abbrev S8x12000x27 : Shape := ⟨3, ![8, 12000, 27]⟩
abbrev S8x12000x64 : Shape := ⟨3, ![8, 12000, 64]⟩
abbrev S1x1x64 : Shape := ⟨3, ![1, 1, 64]⟩
abbrev S8x12000x9x64 : Shape := ⟨4, ![8, 12000, 9, 64]⟩
abbrev S8x12000x576 : Shape := ⟨3, ![8, 12000, 576]⟩
abbrev S8x12000x128 : Shape := ⟨3, ![8, 12000, 128]⟩
abbrev S1x1x128 : Shape := ⟨3, ![1, 1, 128]⟩
abbrev S8x12000x9x128 : Shape := ⟨4, ![8, 12000, 9, 128]⟩
abbrev S8x12000x1152 : Shape := ⟨3, ![8, 12000, 1152]⟩
abbrev S8x12000x256 : Shape := ⟨3, ![8, 12000, 256]⟩
abbrev S1x1x256 : Shape := ⟨3, ![1, 1, 256]⟩
abbrev S8x256 : Shape := ⟨2, ![8, 256]⟩
abbrev S1x256 : Shape := ⟨2, ![1, 256]⟩

abbrev nBuf : Space → Nat
  | .hbm => 206
  | .vmem => 0
  | .smem => 0
  | _ => 0

abbrev hbmTy0_0 (i : Nat) : BufTy := match i % 128 with
  | 0 => ⟨S8x12000x3, .f32⟩
  | 1 => ⟨S8x12000x9, .i32⟩
  | 2 => ⟨S64x27, .f32⟩
  | 3 => ⟨S64, .f32⟩
  | 4 => ⟨S64, .f32⟩
  | 5 => ⟨S64, .f32⟩
  | 6 => ⟨S128x576, .f32⟩
  | 7 => ⟨S128, .f32⟩
  | 8 => ⟨S128, .f32⟩
  | 9 => ⟨S128, .f32⟩
  | 10 => ⟨S256x1152, .f32⟩
  | 11 => ⟨S256, .f32⟩
  | 12 => ⟨S256, .f32⟩
  | 13 => ⟨S256, .f32⟩
  | 14 => ⟨S256x256, .f32⟩
  | 15 => ⟨S256, .f32⟩
  | 16 => ⟨S_, .i32⟩
  | 17 => ⟨S8x12000x9, .i32⟩
  | 18 => ⟨S8x12000x9, .i1⟩
  | 19 => ⟨S_, .i32⟩
  | 20 => ⟨S8x12000x9, .i32⟩
  | 21 => ⟨S8x12000x9, .i32⟩
  | 22 => ⟨S8x12000x9, .i32⟩
  | 23 => ⟨S8x12000x9x1, .i32⟩
  | 24 => ⟨S8x12000x9x3, .f32⟩
  | 25 => ⟨S8x12000x27, .f32⟩
  | 26 => ⟨S8x12000x64, .f32⟩
  | 27 => ⟨S1x1x64, .f32⟩
  | 28 => ⟨S8x12000x64, .f32⟩
  | 29 => ⟨S8x12000x64, .f32⟩
  | 30 => ⟨S_, .f32⟩
  | 31 => ⟨S64, .f32⟩
  | 32 => ⟨S_, .f32⟩
  | 33 => ⟨S64, .f32⟩
  | 34 => ⟨S64, .f32⟩
  | 35 => ⟨S_, .i32⟩
  | 36 => ⟨S_, .f32⟩
  | 37 => ⟨S64, .f32⟩
  | 38 => ⟨S1x1x64, .f32⟩
  | 39 => ⟨S_, .f32⟩
  | 40 => ⟨S1x1x64, .f32⟩
  | 41 => ⟨S1x1x64, .f32⟩
  | 42 => ⟨S8x12000x64, .f32⟩
  | 43 => ⟨S8x12000x64, .f32⟩
  | 44 => ⟨S8x12000x64, .f32⟩
  | 45 => ⟨S_, .f32⟩
  | 46 => ⟨S_, .f32⟩
  | 47 => ⟨S_, .f32⟩
  | 48 => ⟨S_, .f32⟩
  | 49 => ⟨S64, .f32⟩
  | 50 => ⟨S64, .f32⟩
  | 51 => ⟨S64, .f32⟩
  | 52 => ⟨S_, .f32⟩
  | 53 => ⟨S_, .i1⟩
  | 54 => ⟨S_, .f32⟩
  | 55 => ⟨S_, .f32⟩
  | 56 => ⟨S64, .f32⟩
  | 57 => ⟨S64, .f32⟩
  | 58 => ⟨S1x1x64, .f32⟩
  | 59 => ⟨S8x12000x64, .f32⟩
  | 60 => ⟨S8x12000x64, .f32⟩
  | 61 => ⟨S_, .f32⟩
  | 62 => ⟨S64, .f32⟩
  | 63 => ⟨S64, .f32⟩
  | 64 => ⟨S64, .f32⟩
  | 65 => ⟨S1x1x64, .f32⟩
  | 66 => ⟨S8x12000x64, .f32⟩
  | 67 => ⟨S8x12000x64, .f32⟩
  | 68 => ⟨S1x1x64, .f32⟩
  | 69 => ⟨S8x12000x64, .f32⟩
  | 70 => ⟨S8x12000x64, .f32⟩
  | 71 => ⟨S1x1x64, .f32⟩
  | 72 => ⟨S8x12000x64, .f32⟩
  | 73 => ⟨S8x12000x64, .f32⟩
  | 74 => ⟨S_, .f32⟩
  | 75 => ⟨S8x12000x64, .f32⟩
  | 76 => ⟨S8x12000x64, .f32⟩
  | 77 => ⟨S_, .i32⟩
  | 78 => ⟨S8x12000x9, .i32⟩
  | 79 => ⟨S8x12000x9, .i1⟩
  | 80 => ⟨S_, .i32⟩
  | 81 => ⟨S8x12000x9, .i32⟩
  | 82 => ⟨S8x12000x9, .i32⟩
  | 83 => ⟨S8x12000x9, .i32⟩
  | 84 => ⟨S8x12000x9x1, .i32⟩
  | 85 => ⟨S8x12000x9x64, .f32⟩
  | 86 => ⟨S8x12000x576, .f32⟩
  | 87 => ⟨S8x12000x128, .f32⟩
  | 88 => ⟨S1x1x128, .f32⟩
  | 89 => ⟨S8x12000x128, .f32⟩
  | 90 => ⟨S8x12000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x1x128, .f32⟩
  | 100 => ⟨S_, .f32⟩
  | 101 => ⟨S1x1x128, .f32⟩
  | 102 => ⟨S1x1x128, .f32⟩
  | 103 => ⟨S8x12000x128, .f32⟩
  | 104 => ⟨S8x12000x128, .f32⟩
  | 105 => ⟨S8x12000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x1x128, .f32⟩
  | 120 => ⟨S8x12000x128, .f32⟩
  | 121 => ⟨S8x12000x128, .f32⟩
  | 122 => ⟨S_, .f32⟩
  | 123 => ⟨S128, .f32⟩
  | 124 => ⟨S128, .f32⟩
  | 125 => ⟨S128, .f32⟩
  | 126 => ⟨S1x1x128, .f32⟩
  | 127 => ⟨S8x12000x128, .f32⟩
  | _ => ⟨S8x12000x3, .f32⟩

abbrev hbmTy0_1 (i : Nat) : BufTy := match i % 128 with
  | 0 => ⟨S8x12000x128, .f32⟩
  | 1 => ⟨S1x1x128, .f32⟩
  | 2 => ⟨S8x12000x128, .f32⟩
  | 3 => ⟨S8x12000x128, .f32⟩
  | 4 => ⟨S1x1x128, .f32⟩
  | 5 => ⟨S8x12000x128, .f32⟩
  | 6 => ⟨S8x12000x128, .f32⟩
  | 7 => ⟨S_, .f32⟩
  | 8 => ⟨S8x12000x128, .f32⟩
  | 9 => ⟨S8x12000x128, .f32⟩
  | 10 => ⟨S_, .i32⟩
  | 11 => ⟨S8x12000x9, .i32⟩
  | 12 => ⟨S8x12000x9, .i1⟩
  | 13 => ⟨S_, .i32⟩
  | 14 => ⟨S8x12000x9, .i32⟩
  | 15 => ⟨S8x12000x9, .i32⟩
  | 16 => ⟨S8x12000x9, .i32⟩
  | 17 => ⟨S8x12000x9x1, .i32⟩
  | 18 => ⟨S8x12000x9x128, .f32⟩
  | 19 => ⟨S8x12000x1152, .f32⟩
  | 20 => ⟨S8x12000x256, .f32⟩
  | 21 => ⟨S1x1x256, .f32⟩
  | 22 => ⟨S8x12000x256, .f32⟩
  | 23 => ⟨S8x12000x256, .f32⟩
  | 24 => ⟨S_, .f32⟩
  | 25 => ⟨S256, .f32⟩
  | 26 => ⟨S_, .f32⟩
  | 27 => ⟨S256, .f32⟩
  | 28 => ⟨S256, .f32⟩
  | 29 => ⟨S_, .i32⟩
  | 30 => ⟨S_, .f32⟩
  | 31 => ⟨S256, .f32⟩
  | 32 => ⟨S1x1x256, .f32⟩
  | 33 => ⟨S_, .f32⟩
  | 34 => ⟨S1x1x256, .f32⟩
  | 35 => ⟨S1x1x256, .f32⟩
  | 36 => ⟨S8x12000x256, .f32⟩
  | 37 => ⟨S8x12000x256, .f32⟩
  | 38 => ⟨S8x12000x256, .f32⟩
  | 39 => ⟨S_, .f32⟩
  | 40 => ⟨S_, .f32⟩
  | 41 => ⟨S_, .f32⟩
  | 42 => ⟨S_, .f32⟩
  | 43 => ⟨S256, .f32⟩
  | 44 => ⟨S256, .f32⟩
  | 45 => ⟨S256, .f32⟩
  | 46 => ⟨S_, .f32⟩
  | 47 => ⟨S_, .i1⟩
  | 48 => ⟨S_, .f32⟩
  | 49 => ⟨S_, .f32⟩
  | 50 => ⟨S256, .f32⟩
  | 51 => ⟨S256, .f32⟩
  | 52 => ⟨S1x1x256, .f32⟩
  | 53 => ⟨S8x12000x256, .f32⟩
  | 54 => ⟨S8x12000x256, .f32⟩
  | 55 => ⟨S_, .f32⟩
  | 56 => ⟨S256, .f32⟩
  | 57 => ⟨S256, .f32⟩
  | 58 => ⟨S256, .f32⟩
  | 59 => ⟨S1x1x256, .f32⟩
  | 60 => ⟨S8x12000x256, .f32⟩
  | 61 => ⟨S8x12000x256, .f32⟩
  | 62 => ⟨S1x1x256, .f32⟩
  | 63 => ⟨S8x12000x256, .f32⟩
  | 64 => ⟨S8x12000x256, .f32⟩
  | 65 => ⟨S1x1x256, .f32⟩
  | 66 => ⟨S8x12000x256, .f32⟩
  | 67 => ⟨S8x12000x256, .f32⟩
  | 68 => ⟨S_, .f32⟩
  | 69 => ⟨S8x12000x256, .f32⟩
  | 70 => ⟨S8x12000x256, .f32⟩
  | 71 => ⟨S_, .f32⟩
  | 72 => ⟨S8x256, .f32⟩
  | 73 => ⟨S256x256, .f32⟩
  | 74 => ⟨S8x256, .f32⟩
  | 75 => ⟨S1x256, .f32⟩
  | 76 => ⟨S8x256, .f32⟩
  | 77 => ⟨S8x256, .f32⟩
  | _ => ⟨S8x12000x3, .f32⟩

abbrev hbmTy (i : Nat) : BufTy := match i / 128 with
  | 0 => hbmTy0_0 i
  | 1 => hbmTy0_1 i
  | _ => ⟨S8x12000x3, .f32⟩

abbrev bufTy : (tb : Table) → Fin (tcTables nBuf tb) → BufTy
  | .hbm, ⟨i, _⟩ => hbmTy i
  | _, _ => ⟨S8x12000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_3 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_call1_cst : Ref sig .tc := ⟨.hbm, 74, rfl⟩
abbrev main_call1_v0 : Ref sig .tc := ⟨.hbm, 75, rfl⟩
abbrev main_v31 : Ref sig .tc := ⟨.hbm, 76, rfl⟩
abbrev main_c_4 : Ref sig .tc := ⟨.hbm, 77, rfl⟩
abbrev main_v32 : Ref sig .tc := ⟨.hbm, 78, rfl⟩
abbrev main_v33 : Ref sig .tc := ⟨.hbm, 79, rfl⟩
abbrev main_c_5 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_6 : Ref sig .tc := ⟨.hbm, 91, rfl⟩
abbrev main_v44 : Ref sig .tc := ⟨.hbm, 92, rfl⟩
abbrev main_cst_7 : Ref sig .tc := ⟨.hbm, 93, rfl⟩
abbrev main_v45 : Ref sig .tc := ⟨.hbm, 94, rfl⟩
abbrev main_v46 : Ref sig .tc := ⟨.hbm, 95, rfl⟩
abbrev main_c_8 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_cst_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_cst_1 : Ref sig .tc := ⟨.hbm, 107, rfl⟩
abbrev main_call2_v8 : Ref sig .tc := ⟨.hbm, 108, rfl⟩
abbrev main_call2_cst_2 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_cst_3 : Ref sig .tc := ⟨.hbm, 113, rfl⟩
abbrev main_call2_v12 : Ref sig .tc := ⟨.hbm, 114, rfl⟩
abbrev main_call2_cst_4 : Ref sig .tc := ⟨.hbm, 115, rfl⟩
abbrev main_call2_call0_v0 : Ref sig .tc := ⟨.hbm, 116, rfl⟩
abbrev main_call2_call0_v1 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_cst_9 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_call3_cst : Ref sig .tc := ⟨.hbm, 135, rfl⟩
abbrev main_call3_v0 : Ref sig .tc := ⟨.hbm, 136, rfl⟩
abbrev main_v63 : Ref sig .tc := ⟨.hbm, 137, rfl⟩
abbrev main_c_10 : Ref sig .tc := ⟨.hbm, 138, rfl⟩
abbrev main_v64 : Ref sig .tc := ⟨.hbm, 139, rfl⟩
abbrev main_v65 : Ref sig .tc := ⟨.hbm, 140, rfl⟩
abbrev main_c_11 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_cst_12 : Ref sig .tc := ⟨.hbm, 152, rfl⟩
abbrev main_v76 : Ref sig .tc := ⟨.hbm, 153, rfl⟩
abbrev main_cst_13 : Ref sig .tc := ⟨.hbm, 154, rfl⟩
abbrev main_v77 : Ref sig .tc := ⟨.hbm, 155, rfl⟩
abbrev main_v78 : Ref sig .tc := ⟨.hbm, 156, rfl⟩
abbrev main_c_14 : Ref sig .tc := ⟨.hbm, 157, rfl⟩
abbrev main_call4_cst : Ref sig .tc := ⟨.hbm, 158, rfl⟩
abbrev main_call4_v0 : Ref sig .tc := ⟨.hbm, 159, rfl⟩
abbrev main_call4_v1 : Ref sig .tc := ⟨.hbm, 160, rfl⟩
abbrev main_call4_cst_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_cst_1 : Ref sig .tc := ⟨.hbm, 168, rfl⟩
abbrev main_call4_v8 : Ref sig .tc := ⟨.hbm, 169, rfl⟩
abbrev main_call4_cst_2 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_cst_3 : Ref sig .tc := ⟨.hbm, 174, rfl⟩
abbrev main_call4_v12 : Ref sig .tc := ⟨.hbm, 175, rfl⟩
abbrev main_call4_cst_4 : Ref sig .tc := ⟨.hbm, 176, rfl⟩
abbrev main_call4_call0_v0 : Ref sig .tc := ⟨.hbm, 177, rfl⟩
abbrev main_call4_call0_v1 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_cst_15 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_call5_cst : Ref sig .tc := ⟨.hbm, 196, rfl⟩
abbrev main_call5_v0 : Ref sig .tc := ⟨.hbm, 197, rfl⟩
abbrev main_v95 : Ref sig .tc := ⟨.hbm, 198, rfl⟩
abbrev main_cst_16 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩

abbrev nD : Nat := 1
abbrev τ : Topo := Topo.v7x

variable {F : FTy → Type} [FloatOps F]

class Facts₀ : Prop where
  bcast_S_S8x12000x9 : S_.BroadcastsInDim S8x12000x9 (![] : Fin 0 → Fin S8x12000x9.rank)
  bcast_S8x12000x9_S8x12000x9x1_0_1_2 : S8x12000x9.BroadcastsInDim S8x12000x9x1 (![0, 1, 2] : Fin 3 → Fin S8x12000x9x1.rank)
  shapeCasts_S8x12000x9x3_S8x12000x27 : S8x12000x9x3.ShapeCasts S8x12000x27
  bcast_S64_S1x1x64_2 : S64.BroadcastsInDim S1x1x64 (![2] : Fin 1 → Fin S1x1x64.rank)
  bcast_S1x1x64_S8x12000x64_0_1_2 : S1x1x64.BroadcastsInDim S8x12000x64 (![0, 1, 2] : Fin 3 → Fin S8x12000x64.rank)
  reducesTo_S8x12000x64_S64_d0_1 : S8x12000x64.ReducesTo [0, 1] S64
  h_S_ : 0 < S_.numel
  bcast_S_S64 : S_.BroadcastsInDim S64 (![] : Fin 0 → Fin S64.rank)
  bcast_S_S1x1x64 : S_.BroadcastsInDim S1x1x64 (![] : Fin 0 → Fin S1x1x64.rank)
  bcast_S_S8x12000x64 : S_.BroadcastsInDim S8x12000x64 (![] : Fin 0 → Fin S8x12000x64.rank)
  shapeCasts_S8x12000x9x64_S8x12000x576 : S8x12000x9x64.ShapeCasts S8x12000x576
  bcast_S128_S1x1x128_2 : S128.BroadcastsInDim S1x1x128 (![2] : Fin 1 → Fin S1x1x128.rank)
  bcast_S1x1x128_S8x12000x128_0_1_2 : S1x1x128.BroadcastsInDim S8x12000x128 (![0, 1, 2] : Fin 3 → Fin S8x12000x128.rank)
  reducesTo_S8x12000x128_S128_d0_1 : S8x12000x128.ReducesTo [0, 1] S128
  bcast_S_S128 : S_.BroadcastsInDim S128 (![] : Fin 0 → Fin S128.rank)
  bcast_S_S1x1x128 : S_.BroadcastsInDim S1x1x128 (![] : Fin 0 → Fin S1x1x128.rank)
  bcast_S_S8x12000x128 : S_.BroadcastsInDim S8x12000x128 (![] : Fin 0 → Fin S8x12000x128.rank)
  shapeCasts_S8x12000x9x128_S8x12000x1152 : S8x12000x9x128.ShapeCasts S8x12000x1152
  bcast_S256_S1x1x256_2 : S256.BroadcastsInDim S1x1x256 (![2] : Fin 1 → Fin S1x1x256.rank)
  bcast_S1x1x256_S8x12000x256_0_1_2 : S1x1x256.BroadcastsInDim S8x12000x256 (![0, 1, 2] : Fin 3 → Fin S8x12000x256.rank)
  reducesTo_S8x12000x256_S256_d0_1 : S8x12000x256.ReducesTo [0, 1] S256
  bcast_S_S256 : S_.BroadcastsInDim S256 (![] : Fin 0 → Fin S256.rank)
  bcast_S_S1x1x256 : S_.BroadcastsInDim S1x1x256 (![] : Fin 0 → Fin S1x1x256.rank)
  bcast_S_S8x12000x256 : S_.BroadcastsInDim S8x12000x256 (![] : Fin 0 → Fin S8x12000x256.rank)
  reducesTo_S8x12000x256_S8x256_d1 : S8x12000x256.ReducesTo [1] S8x256
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  gather_S8x12000x3_S8x12000x9x1_S8x12000x9x3_3_1_0_0_1_3_113_wf : GatherDims.WF S8x12000x3 S8x12000x9x1 S8x12000x9x3 [3] [1] [0] [1] [0] 3 ![1, 1, 3]
  dot_S8x12000x27_S64x27_S8x12000x64_2_1_01_0_n_n_wf : DotDims.WF S8x12000x27 S64x27 S8x12000x64 [2] [1] [0, 1] [0] [] []
  gather_S8x12000x64_S8x12000x9x1_S8x12000x9x64_3_1_0_0_1_3_1164_wf : GatherDims.WF S8x12000x64 S8x12000x9x1 S8x12000x9x64 [3] [1] [0] [1] [0] 3 ![1, 1, 64]
  dot_S8x12000x576_S128x576_S8x12000x128_2_1_01_0_n_n_wf : DotDims.WF S8x12000x576 S128x576 S8x12000x128 [2] [1] [0, 1] [0] [] []
  gather_S8x12000x128_S8x12000x9x1_S8x12000x9x128_3_1_0_0_1_3_11128_wf : GatherDims.WF S8x12000x128 S8x12000x9x1 S8x12000x9x128 [3] [1] [0] [1] [0] 3 ![1, 1, 128]
  dot_S8x12000x1152_S256x1152_S8x12000x256_2_1_01_0_n_n_wf : DotDims.WF S8x12000x1152 S256x1152 S8x12000x256 [2] [1] [0, 1] [0] [] []
  dot_S8x256_S256x256_S8x256_1_0_0_1_n_n_wf : DotDims.WF S8x256 S256x256 S8x256 [1] [0] [0] [1] [] []

variable [Facts₀]

def gather_S8x12000x3_S8x12000x9x1_S8x12000x9x3_3_1_0_0_1_3_113 : GatherDims S8x12000x3 S8x12000x9x1 S8x12000x9x3 where
  offsetDims := [3]
  collapsedSliceDims := [1]
  operandBatchingDims := [0]
  startIndicesBatchingDims := [0]
  startIndexMap := [1]
  indexVectorDim := 3
  sliceSizes := ![1, 1, 3]
  wf := gather_S8x12000x3_S8x12000x9x1_S8x12000x9x3_3_1_0_0_1_3_113_wf
def dot_S8x12000x27_S64x27_S8x12000x64_2_1_01_0_n_n : DotDims S8x12000x27 S64x27 S8x12000x64 where
  lhsContracting := [2]
  rhsContracting := [1]
  lhsNonContracting := [0, 1]
  rhsNonContracting := [0]
  lhsBatch := []
  rhsBatch := []
  wf := dot_S8x12000x27_S64x27_S8x12000x64_2_1_01_0_n_n_wf
def gather_S8x12000x64_S8x12000x9x1_S8x12000x9x64_3_1_0_0_1_3_1164 : GatherDims S8x12000x64 S8x12000x9x1 S8x12000x9x64 where
  offsetDims := [3]
  collapsedSliceDims := [1]
  operandBatchingDims := [0]
  startIndicesBatchingDims := [0]
  startIndexMap := [1]
  indexVectorDim := 3
  sliceSizes := ![1, 1, 64]
  wf := gather_S8x12000x64_S8x12000x9x1_S8x12000x9x64_3_1_0_0_1_3_1164_wf
def dot_S8x12000x576_S128x576_S8x12000x128_2_1_01_0_n_n : DotDims S8x12000x576 S128x576 S8x12000x128 where
  lhsContracting := [2]
  rhsContracting := [1]
  lhsNonContracting := [0, 1]
  rhsNonContracting := [0]
  lhsBatch := []
  rhsBatch := []
  wf := dot_S8x12000x576_S128x576_S8x12000x128_2_1_01_0_n_n_wf
def gather_S8x12000x128_S8x12000x9x1_S8x12000x9x128_3_1_0_0_1_3_11128 : GatherDims S8x12000x128 S8x12000x9x1 S8x12000x9x128 where
  offsetDims := [3]
  collapsedSliceDims := [1]
  operandBatchingDims := [0]
  startIndicesBatchingDims := [0]
  startIndexMap := [1]
  indexVectorDim := 3
  sliceSizes := ![1, 1, 128]
  wf := gather_S8x12000x128_S8x12000x9x1_S8x12000x9x128_3_1_0_0_1_3_11128_wf
def dot_S8x12000x1152_S256x1152_S8x12000x256_2_1_01_0_n_n : DotDims S8x12000x1152 S256x1152 S8x12000x256 where
  lhsContracting := [2]
  rhsContracting := [1]
  lhsNonContracting := [0, 1]
  rhsNonContracting := [0]
  lhsBatch := []
  rhsBatch := []
  wf := dot_S8x12000x1152_S256x1152_S8x12000x256_2_1_01_0_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

class Facts : Prop extends Facts₀ where

variable [Facts]
-- ==== Proof.KRun.lean ====
/-
  The idealized kernel's run with its RESULT named.

  The program is thirteen segments: seven stretches of host operations and six pallas_call regions in between. The
  buffer contents at every segment boundary are a fold from the launch memory: a stretch applies its host operations, a
  region replaces its arrays by what its write-backs leave. Every weakly fair execution terminates, nothing faulting,
  with every unscoped buffer at the last boundary's contents; so the result buffer holds the last boundary's value of
  it, and the argument arrays are as launched.
-/
import proofs.«182203_j60619168416159_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, the arguments as launched. -/
theorem run_result : θ_run defs (onTc (τ := τ) (main (F := F))) ⟨m, fun _ => 0, ρ⟩ (fun r => ∀ c : Dev nD,
      r.2.mem ((c.tc : Thread nD τ).loc main_v86) = W13 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v86 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

end Cert.KernelIdeal.Gen

end
-- ==== Proof.KTerm.lean ====
/-
  The idealized kernel's host glue as terms, layer by layer.

  Between its pallas_calls the program prepares each layer's operands on the host: the neighbour rows gathered and laid
  side by side (`feat`, in the narrow float format), the weights transposed (`wT`), and, from the two accumulated
  column sums, the mean S/96000, the variance Q/96000 − μ·μ, the scale g·rsqrt(σ² + ε) and the shift β − μ·scale; at
  the end the 256×256 head. Each definition applies the host operations in the program's order.
-/
import proofs.«182203_j60619168416159_1_alg».proof.Proof.Gen.KernelIdeal

noncomputable section

namespace Cert.KernelIdeal.Term

open Cert.KernelIdeal Cert.KernelIdeal.Gen Idealize.ShloMosaic

variable {F : FTy → Type} [FloatOps F]

/-- The spiral indices as the gather reads them: a negative index wrapped by +12000, as a column of start indices. -/
def starts (sp : (⟨S8x12000x9, .i32⟩ : BufTy).Contents (Elt F)) : (⟨S8x12000x9x1, .i32⟩ : BufTy).Contents (Elt F) :=
  broadcastInDim S8x12000x9x1 ![0, 1, 2] bcast_S8x12000x9_S8x12000x9x1_0_1_2
    (select (cmpi .slt sp (broadcastInDim S8x12000x9 ![] bcast_S_S8x12000x9 (constantI S_ 32 0#32)))
      (addi sp (broadcastInDim S8x12000x9 ![] bcast_S_S8x12000x9 (constantI S_ 32 12000#32))) sp)

/-! ## Layer 1 -/

/-- Layer 1's gathered features. -/
def feat1 (h : (⟨S8x12000x3, .f32⟩ : BufTy).Contents (Elt F)) (sp : (⟨S8x12000x9, .i32⟩ : BufTy).Contents (Elt F)) : (⟨S8x12000x27, .bf16⟩ : BufTy).Contents (Elt F) :=
  truncf .bf16 (shapeCast S8x12000x27 (Host.gather gather_S8x12000x3_S8x12000x9x1_S8x12000x9x3_3_1_0_0_1_3_113 h (starts sp)) shapeCasts_S8x12000x9x3_S8x12000x27) bitsLt_bf16_f32

/-- Layer 1's weights, one column per output channel. -/
def wT1 (w : (⟨S64x27, .f32⟩ : BufTy).Contents (Elt F)) : (⟨S27x64, .bf16⟩ : BufTy).Contents (Elt F) :=
  truncf .bf16 (transpose S27x64 [1, 0] w transposes_S64x27_S27x64_1_0) bitsLt_bf16_f32

/-- Layer 1's column mean from the accumulated sum. -/
def mean1 (s : (⟨S1x64, .f32⟩ : BufTy).Contents (Elt F)) : (⟨S64, .f32⟩ : BufTy).Contents (Elt F) :=
  shapeCast S64 (Host.divf s (broadcastInDim S1x64 ![] bcast_S_S1x64 (constant S_ .f32 0x47BB8000#32))) shapeCasts_S1x64_S64

/-- Layer 1's column variance from the accumulated sum of squares. -/
def var1 (s q : (⟨S1x64, .f32⟩ : BufTy).Contents (Elt F)) : (⟨S64, .f32⟩ : BufTy).Contents (Elt F) :=
  shapeCast S64 (subf (Host.divf q (broadcastInDim S1x64 ![] bcast_S_S1x64 (constant S_ .f32 0x47BB8000#32)))
    (broadcastInDim S1x64 ![1] bcast_S64_S1x64_1 (mulf (mean1 s) (mean1 s)))) shapeCasts_S1x64_S64

/-- Layer 1's per-channel scale. -/
def scale1 (s q : (⟨S1x64, .f32⟩ : BufTy).Contents (Elt F)) (g : (⟨S64, .f32⟩ : BufTy).Contents (Elt F)) : (⟨S64, .f32⟩ : BufTy).Contents (Elt F) :=
  mulf g (Host.rsqrt (addf (var1 s q) (broadcastInDim S64 ![] bcast_S_S64 (constant S_ .f32 0x3727C5AC#32))))

/-- Layer 1's per-channel shift. -/
def shift1 (s q : (⟨S1x64, .f32⟩ : BufTy).Contents (Elt F)) (g bt : (⟨S64, .f32⟩ : BufTy).Contents (Elt F)) : (⟨S64, .f32⟩ : BufTy).Contents (Elt F) :=
  subf bt (mulf (mean1 s) (scale1 s q g))

/-! ## Layer 2 -/

/-- Layer 2's gathered features. -/
def feat2 (h : (⟨S8x12000x64, .bf16⟩ : BufTy).Contents (Elt F)) (sp : (⟨S8x12000x9, .i32⟩ : BufTy).Contents (Elt F)) : (⟨S8x12000x576, .bf16⟩ : BufTy).Contents (Elt F) :=
  (shapeCast S8x12000x576 (Host.gather gather_S8x12000x64_S8x12000x9x1_S8x12000x9x64_3_1_0_0_1_3_1164 h (starts sp)) shapeCasts_S8x12000x9x64_S8x12000x576)

/-- Layer 2's weights, one column per output channel. -/
def wT2 (w : (⟨S128x576, .f32⟩ : BufTy).Contents (Elt F)) : (⟨S576x128, .bf16⟩ : BufTy).Contents (Elt F) :=
  truncf .bf16 (transpose S576x128 [1, 0] w transposes_S128x576_S576x128_1_0) bitsLt_bf16_f32

/-- Layer 2's column mean from the accumulated sum. -/
def mean2 (s : (⟨S1x128, .f32⟩ : BufTy).Contents (Elt F)) : (⟨S128, .f32⟩ : BufTy).Contents (Elt F) :=
  shapeCast S128 (Host.divf s (broadcastInDim S1x128 ![] bcast_S_S1x128 (constant S_ .f32 0x47BB8000#32))) shapeCasts_S1x128_S128

/-- Layer 2's column variance from the accumulated sum of squares. -/
def var2 (s q : (⟨S1x128, .f32⟩ : BufTy).Contents (Elt F)) : (⟨S128, .f32⟩ : BufTy).Contents (Elt F) :=
  shapeCast S128 (subf (Host.divf q (broadcastInDim S1x128 ![] bcast_S_S1x128 (constant S_ .f32 0x47BB8000#32)))
    (broadcastInDim S1x128 ![1] bcast_S128_S1x128_1 (mulf (mean2 s) (mean2 s)))) shapeCasts_S1x128_S128

/-- Layer 2's per-channel scale. -/
def scale2 (s q : (⟨S1x128, .f32⟩ : BufTy).Contents (Elt F)) (g : (⟨S128, .f32⟩ : BufTy).Contents (Elt F)) : (⟨S128, .f32⟩ : BufTy).Contents (Elt F) :=
  mulf g (Host.rsqrt (addf (var2 s q) (broadcastInDim S128 ![] bcast_S_S128 (constant S_ .f32 0x3727C5AC#32))))

/-- Layer 2's per-channel shift. -/
def shift2 (s q : (⟨S1x128, .f32⟩ : BufTy).Contents (Elt F)) (g bt : (⟨S128, .f32⟩ : BufTy).Contents (Elt F)) : (⟨S128, .f32⟩ : BufTy).Contents (Elt F) :=
  subf bt (mulf (mean2 s) (scale2 s q g))

/-! ## Layer 3 -/

/-- Layer 3's gathered features. -/
def feat3 (h : (⟨S8x12000x128, .bf16⟩ : BufTy).Contents (Elt F)) (sp : (⟨S8x12000x9, .i32⟩ : BufTy).Contents (Elt F)) : (⟨S8x12000x1152, .bf16⟩ : BufTy).Contents (Elt F) :=
  (shapeCast S8x12000x1152 (Host.gather gather_S8x12000x128_S8x12000x9x1_S8x12000x9x128_3_1_0_0_1_3_11128 h (starts sp)) shapeCasts_S8x12000x9x128_S8x12000x1152)

/-- Layer 3's weights, one column per output channel. -/
def wT3 (w : (⟨S256x1152, .f32⟩ : BufTy).Contents (Elt F)) : (⟨S1152x256, .bf16⟩ : BufTy).Contents (Elt F) :=
  truncf .bf16 (transpose S1152x256 [1, 0] w transposes_S256x1152_S1152x256_1_0) bitsLt_bf16_f32

/-- Layer 3's column mean from the accumulated sum. -/
def mean3 (s : (⟨S1x256, .f32⟩ : BufTy).Contents (Elt F)) : (⟨S256, .f32⟩ : BufTy).Contents (Elt F) :=
  shapeCast S256 (Host.divf s (broadcastInDim S1x256 ![] bcast_S_S1x256 (constant S_ .f32 0x47BB8000#32))) shapeCasts_S1x256_S256

/-- Layer 3's column variance from the accumulated sum of squares. -/
def var3 (s q : (⟨S1x256, .f32⟩ : BufTy).Contents (Elt F)) : (⟨S256, .f32⟩ : BufTy).Contents (Elt F) :=
  shapeCast S256 (subf (Host.divf q (broadcastInDim S1x256 ![] bcast_S_S1x256 (constant S_ .f32 0x47BB8000#32)))
    (broadcastInDim S1x256 ![1] bcast_S256_S1x256_1 (mulf (mean3 s) (mean3 s)))) shapeCasts_S1x256_S256

/-- Layer 3's per-channel scale. -/
def scale3 (s q : (⟨S1x256, .f32⟩ : BufTy).Contents (Elt F)) (g : (⟨S256, .f32⟩ : BufTy).Contents (Elt F)) : (⟨S256, .f32⟩ : BufTy).Contents (Elt F) :=
  mulf g (Host.rsqrt (addf (var3 s q) (broadcastInDim S256 ![] bcast_S_S256 (constant S_ .f32 0x3727C5AC#32))))

/-- Layer 3's per-channel shift. -/
def shift3 (s q : (⟨S1x256, .f32⟩ : BufTy).Contents (Elt F)) (g bt : (⟨S256, .f32⟩ : BufTy).Contents (Elt F)) : (⟨S256, .f32⟩ : BufTy).Contents (Elt F) :=
  subf bt (mulf (mean3 s) (scale3 s q g))

/-! ## The head -/

/-- The head: pooled · pwᵀ + pb. -/
def head (p : (⟨S8x256, .f32⟩ : BufTy).Contents (Elt F)) (pw : (⟨S256x256, .f32⟩ : BufTy).Contents (Elt F)) (pb : (⟨S256, .f32⟩ : BufTy).Contents (Elt F)) : (⟨S8x256, .f32⟩ : BufTy).Contents (Elt F) :=
  addf (Host.dotGeneral dot_S8x256_S256x256_S8x256_1_0_0_1_n_n none p (transpose S256x256 [1, 0] pw transposes_S256x256_S256x256_1_0))
    (broadcastInDim S8x256 ![0, 1] bcast_S1x256_S8x256_0_1 (broadcastInDim S1x256 ![1] bcast_S256_S1x256_1 pb))

end Cert.KernelIdeal.Term

end
-- ==== Proof.KChain.lean ====
/-
  The buffer contents at the idealized kernel's segment boundaries, read where the next segment reads them.

  The boundaries' contents are a fold: a host stretch applies its operations to the contents before it, a region
  replaces its arrays by what its write-backs leave and keeps every other buffer. Read at the buffers each segment
  consumes, the fold says: a layer's features are the gather of the previous layer's output (of the first argument, for
  layer 1), its weights the transposed argument, the scale and shift the host arithmetic on the two accumulated sums,
  every argument as launched, and the result the head applied to the pooled array.
-/
import proofs.«182203_j60619168416159_1_alg».proof.Proof.Gen.KernelIdeal.Frame
import proofs.«182203_j60619168416159_1_alg».proof.Proof.KTerm
import Idealize.ShloMosaic.Lib.StableHlo.Run

set_option maxRecDepth 16384

noncomputable section

namespace Cert.KernelIdeal.Gen

open Idealize.ShloMosaic Idealize.ShloMosaic.TcCoe Idealize.ShloMosaic.Tactic Idealize.ShloMosaic.StableHlo
open Idealize.SL.Sem
open Idealize.ShloMosaic.Pipeline (Dat)

variable {F : FTy → Type} [FloatOps F]
variable (m : (ℓ : Loc nD τ sig) → Buf (Elt F) ℓ) (ρ : Dev nD → PrngReg)

/-- The launch contents are the launch memory. -/
theorem W0_eq (c : Dev nD) (b : Ref sig .tc) : W0 m ρ c (Proc.devRef .tc b) = m ((c : Thread nD τ).loc b) := rfl

/-! ## Arguments as launched, at the boundaries where they are read -/

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W10_main_arg12 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W10_main_arg13 (c : Dev nD) : W10 m ρ c (Proc.devRef .tc main_arg13) = m ((c : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W12_main_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-! ## Layer 1 -/

theorem W1_feat (c : Dev nD) : W1 m ρ c (Proc.devRef .tc main_v8)
    = Term.feat1 (W0 m ρ c (Proc.devRef .tc main_arg0)) (W0 m ρ c (Proc.devRef .tc main_arg1)) := by
  after_results
  rfl

theorem W1_wT (c : Dev nD) : W1 m ρ c (Proc.devRef .tc main_v10) = Term.wT1 (W0 m ρ c (Proc.devRef .tc main_arg2)) := by
  after_results
  rfl

theorem W2_y (c : Dev nD) : W2 m ρ c (Proc.devRef .tc main_v11_0) = (dat0 (V1 m ρ) c).arrAt 3 cfg0.N := W2_arr m ρ c 3
theorem W2_s (c : Dev nD) : W2 m ρ c (Proc.devRef .tc main_v11_1) = (dat0 (V1 m ρ) c).arrAt 4 cfg0.N := W2_arr m ρ c 4
theorem W2_q (c : Dev nD) : W2 m ρ c (Proc.devRef .tc main_v11_2) = (dat0 (V1 m ρ) c).arrAt 5 cfg0.N := W2_arr m ρ c 5

set_option maxHeartbeats 2000000 in
theorem W3_scale (c : Dev nD) : W3 m ρ c (Proc.devRef .tc main_v24)
    = Term.scale1 (W2 m ρ c (Proc.devRef .tc main_v11_1)) (W2 m ρ c (Proc.devRef .tc main_v11_2)) (W2 m ρ c (Proc.devRef .tc main_arg4)) := by
  after_results_simp
  rfl

set_option maxHeartbeats 2000000 in
theorem W3_shift (c : Dev nD) : W3 m ρ c (Proc.devRef .tc main_v26)
    = Term.shift1 (W2 m ρ c (Proc.devRef .tc main_v11_1)) (W2 m ρ c (Proc.devRef .tc main_v11_2)) (W2 m ρ c (Proc.devRef .tc main_arg4)) (W2 m ρ c (Proc.devRef .tc main_arg5)) := by
  after_results_simp
  rfl

theorem W3_y (c : Dev nD) : W3 m ρ c (Proc.devRef .tc main_v11_0) = W2 m ρ c (Proc.devRef .tc main_v11_0) := by
  after_results

theorem W4_h (c : Dev nD) : W4 m ρ c (Proc.devRef .tc main_v27) = (dat1 (V3 m ρ) c).arrAt 3 cfg1.N := W4_arr m ρ c 3

/-! ## Layer 2 -/

theorem W5_feat (c : Dev nD) : W5 m ρ c (Proc.devRef .tc main_v35)
    = Term.feat2 (W4 m ρ c (Proc.devRef .tc main_v27)) (W4 m ρ c (Proc.devRef .tc main_arg1)) := by
  after_results
  rfl

theorem W5_wT (c : Dev nD) : W5 m ρ c (Proc.devRef .tc main_v37) = Term.wT2 (W4 m ρ c (Proc.devRef .tc main_arg6)) := by
  after_results
  rfl

theorem W6_y (c : Dev nD) : W6 m ρ c (Proc.devRef .tc main_v38_0) = (dat2 (V5 m ρ) c).arrAt 3 cfg2.N := W6_arr m ρ c 3
theorem W6_s (c : Dev nD) : W6 m ρ c (Proc.devRef .tc main_v38_1) = (dat2 (V5 m ρ) c).arrAt 4 cfg2.N := W6_arr m ρ c 4
theorem W6_q (c : Dev nD) : W6 m ρ c (Proc.devRef .tc main_v38_2) = (dat2 (V5 m ρ) c).arrAt 5 cfg2.N := W6_arr m ρ c 5

set_option maxHeartbeats 2000000 in
theorem W7_scale (c : Dev nD) : W7 m ρ c (Proc.devRef .tc main_v51)
    = Term.scale2 (W6 m ρ c (Proc.devRef .tc main_v38_1)) (W6 m ρ c (Proc.devRef .tc main_v38_2)) (W6 m ρ c (Proc.devRef .tc main_arg8)) := by
  after_results_simp
  rfl

set_option maxHeartbeats 2000000 in
theorem W7_shift (c : Dev nD) : W7 m ρ c (Proc.devRef .tc main_v53)
    = Term.shift2 (W6 m ρ c (Proc.devRef .tc main_v38_1)) (W6 m ρ c (Proc.devRef .tc main_v38_2)) (W6 m ρ c (Proc.devRef .tc main_arg8)) (W6 m ρ c (Proc.devRef .tc main_arg9)) := by
  after_results_simp
  rfl

theorem W7_y (c : Dev nD) : W7 m ρ c (Proc.devRef .tc main_v38_0) = W6 m ρ c (Proc.devRef .tc main_v38_0) := by
  after_results

theorem W8_h (c : Dev nD) : W8 m ρ c (Proc.devRef .tc main_v54) = (dat3 (V7 m ρ) c).arrAt 3 cfg3.N := W8_arr m ρ c 3

/-! ## Layer 3 -/

theorem W9_feat (c : Dev nD) : W9 m ρ c (Proc.devRef .tc main_v62)
    = Term.feat3 (W8 m ρ c (Proc.devRef .tc main_v54)) (W8 m ρ c (Proc.devRef .tc main_arg1)) := by
  after_results
  rfl

theorem W9_wT (c : Dev nD) : W9 m ρ c (Proc.devRef .tc main_v64) = Term.wT3 (W8 m ρ c (Proc.devRef .tc main_arg10)) := by
  after_results
  rfl

theorem W10_y (c : Dev nD) : W10 m ρ c (Proc.devRef .tc main_v65_0) = (dat4 (V9 m ρ) c).arrAt 3 cfg4.N := W10_arr m ρ c 3
theorem W10_s (c : Dev nD) : W10 m ρ c (Proc.devRef .tc main_v65_1) = (dat4 (V9 m ρ) c).arrAt 4 cfg4.N := W10_arr m ρ c 4
theorem W10_q (c : Dev nD) : W10 m ρ c (Proc.devRef .tc main_v65_2) = (dat4 (V9 m ρ) c).arrAt 5 cfg4.N := W10_arr m ρ c 5

set_option maxHeartbeats 2000000 in
theorem W11_scale (c : Dev nD) : W11 m ρ c (Proc.devRef .tc main_v78)
    = Term.scale3 (W10 m ρ c (Proc.devRef .tc main_v65_1)) (W10 m ρ c (Proc.devRef .tc main_v65_2)) (W10 m ρ c (Proc.devRef .tc main_arg12)) := by
  after_results_simp
  rfl

set_option maxHeartbeats 2000000 in
theorem W11_shift (c : Dev nD) : W11 m ρ c (Proc.devRef .tc main_v80)
    = Term.shift3 (W10 m ρ c (Proc.devRef .tc main_v65_1)) (W10 m ρ c (Proc.devRef .tc main_v65_2)) (W10 m ρ c (Proc.devRef .tc main_arg12)) (W10 m ρ c (Proc.devRef .tc main_arg13)) := by
  after_results_simp
  rfl

theorem W11_y (c : Dev nD) : W11 m ρ c (Proc.devRef .tc main_v65_0) = W10 m ρ c (Proc.devRef .tc main_v65_0) := by
  after_results

theorem W12_h (c : Dev nD) : W12 m ρ c (Proc.devRef .tc main_v81) = (dat5 (V11 m ρ) c).arrAt 3 cfg5.N := W12_arr m ρ c 3

/-! ## The head -/

theorem W13_out (c : Dev nD) : W13 m ρ c (Proc.devRef .tc main_v86)
    = Term.head (W12 m ρ c (Proc.devRef .tc main_v81)) (W12 m ρ c (Proc.devRef .tc main_arg14)) (W12 m ρ c (Proc.devRef .tc main_arg15)) := by
  after_results
  rfl

end Cert.KernelIdeal.Gen

end
-- ==== Proof.RefTerm.lean ====
/-
  The reference program's value as ONE term of its argument arrays, layer by layer.

  Each layer: the neighbour rows gathered (negative spiral indices wrapped by +12000 first) and laid side by side
  (`feat`), the linear map with bias (`lin`), the column mean (`mean`), the column variance as the library routine
  spells it — the mean of the squared deviations, divided by (96000 − ddof) with ddof = 0, guarded by a select on
  96000 − 0 > 0 — (`var`), and (y − μ)·rsqrt(σ² + ε)·g + β clipped below at 0 (`layer`). Then the maximum over the
  vertices and the 256×256 head. Each definition applies the host operations in the program's order, so the program's run
  ends at `out` of its arguments by reading the operations back.
-/
import proofs.«182203_j60619168416159_1_alg».proof.Proof.Gen.ReferenceIdeal

noncomputable section

namespace Cert.ReferenceIdeal.Term

open Cert.ReferenceIdeal Cert.ReferenceIdeal.Gen Idealize.ShloMosaic

variable {F : FTy → Type} [FloatOps F]

/-- The spiral indices as the gather reads them: a negative index wrapped by +12000, as a column of start indices. -/
def starts (sp : (⟨S8x12000x9, .i32⟩ : BufTy).Contents (Elt F)) : (⟨S8x12000x9x1, .i32⟩ : BufTy).Contents (Elt F) :=
  broadcastInDim S8x12000x9x1 ![0, 1, 2] bcast_S8x12000x9_S8x12000x9x1_0_1_2
    (select (cmpi .slt sp (broadcastInDim S8x12000x9 ![] bcast_S_S8x12000x9 (constantI S_ 32 0#32)))
      (addi sp (broadcastInDim S8x12000x9 ![] bcast_S_S8x12000x9 (constantI S_ 32 12000#32))) sp)

/-! ## Layer 1 -/

/-- Layer 1's gathered features: 9 neighbour rows of 3 entries side by side. -/
def feat1 (h : (⟨S8x12000x3, .f32⟩ : BufTy).Contents (Elt F)) (sp : (⟨S8x12000x9, .i32⟩ : BufTy).Contents (Elt F)) : (⟨S8x12000x27, .f32⟩ : BufTy).Contents (Elt F) :=
  shapeCast S8x12000x27 (Host.gather gather_S8x12000x3_S8x12000x9x1_S8x12000x9x3_3_1_0_0_1_3_113 h (starts sp)) shapeCasts_S8x12000x9x3_S8x12000x27

/-- Layer 1's linear map with bias. -/
def lin1 (f : (⟨S8x12000x27, .f32⟩ : BufTy).Contents (Elt F)) (w : (⟨S64x27, .f32⟩ : BufTy).Contents (Elt F)) (b : (⟨S64, .f32⟩ : BufTy).Contents (Elt F)) : (⟨S8x12000x64, .f32⟩ : BufTy).Contents (Elt F) :=
  addf (Host.dotGeneral dot_S8x12000x27_S64x27_S8x12000x64_2_1_01_0_n_n none f w) (broadcastInDim S8x12000x64 ![0, 1, 2] bcast_S1x1x64_S8x12000x64_0_1_2 (broadcastInDim S1x1x64 ![2] bcast_S64_S1x1x64_2 b))

/-- Layer 1's column mean: (0 + sum over batch and vertex) / 96000. -/
def mean1 (y : (⟨S8x12000x64, .f32⟩ : BufTy).Contents (Elt F)) : (⟨S64, .f32⟩ : BufTy).Contents (Elt F) :=
  Host.divf (Host.reduceAdd y (constant S_ .f32 0x00000000#32) reducesTo_S8x12000x64_S64_d0_1 h_S_)
    (broadcastInDim S64 ![] bcast_S_S64 (constant S_ .f32 0x47BB8000#32))

/-- The divisor of the variance: 96000 − ddof, ddof = 0 converted from an integer. -/
def nfree1 : (⟨S_, .f32⟩ : BufTy).Contents (Elt F) := subf (constant S_ .f32 0x47BB8000#32) (sitofp .f32 (constantI S_ 32 0#32))

/-- Layer 1's deviations from the column mean (the mean kept as a [1,1,64] array). -/
def centred1 (y : (⟨S8x12000x64, .f32⟩ : BufTy).Contents (Elt F)) : (⟨S8x12000x64, .f32⟩ : BufTy).Contents (Elt F) :=
  subf y (broadcastInDim S8x12000x64 ![0, 1, 2] bcast_S1x1x64_S8x12000x64_0_1_2 (Host.divf (broadcastInDim S1x1x64 ![2] bcast_S64_S1x1x64_2 (Host.reduceAdd y (constant S_ .f32 0x00000000#32) reducesTo_S8x12000x64_S64_d0_1 h_S_)) (broadcastInDim S1x1x64 ![] bcast_S_S1x1x64 (constant S_ .f32 0x47BB8000#32))))

/-- Layer 1's column variance, guarded as the library routine guards it. -/
def var1 (y : (⟨S8x12000x64, .f32⟩ : BufTy).Contents (Elt F)) : (⟨S64, .f32⟩ : BufTy).Contents (Elt F) :=
  select (broadcastInDim S64 ![] bcast_S_S64 (cmpf .ogt (nfree1 (F := F)) (constant S_ .f32 0x00000000#32)))
    (Host.divf (Host.reduceAdd (mulf (centred1 y) (centred1 y)) (constant S_ .f32 0x00000000#32) reducesTo_S8x12000x64_S64_d0_1 h_S_)
      (broadcastInDim S64 ![] bcast_S_S64 (nfree1 (F := F))))
    (broadcastInDim S64 ![] bcast_S_S64 (id (constant S_ .f32 0x7FC00000#32)))

/-- Layer 1: normalise every column, scale, shift, clip below at zero. -/
def layer1 (f : (⟨S8x12000x27, .f32⟩ : BufTy).Contents (Elt F)) (w : (⟨S64x27, .f32⟩ : BufTy).Contents (Elt F)) (b g bt : (⟨S64, .f32⟩ : BufTy).Contents (Elt F)) : (⟨S8x12000x64, .f32⟩ : BufTy).Contents (Elt F) :=
  maximumf
    (addf
      (mulf
        (mulf (subf (lin1 f w b) (broadcastInDim S8x12000x64 ![0, 1, 2] bcast_S1x1x64_S8x12000x64_0_1_2 (broadcastInDim S1x1x64 ![2] bcast_S64_S1x1x64_2 (mean1 (lin1 f w b)))))
          (broadcastInDim S8x12000x64 ![0, 1, 2] bcast_S1x1x64_S8x12000x64_0_1_2 (broadcastInDim S1x1x64 ![2] bcast_S64_S1x1x64_2 (Host.rsqrt (addf (var1 (lin1 f w b)) (broadcastInDim S64 ![] bcast_S_S64 (constant S_ .f32 0x3727C5AC#32)))))))
        (broadcastInDim S8x12000x64 ![0, 1, 2] bcast_S1x1x64_S8x12000x64_0_1_2 (broadcastInDim S1x1x64 ![2] bcast_S64_S1x1x64_2 g)))
      (broadcastInDim S8x12000x64 ![0, 1, 2] bcast_S1x1x64_S8x12000x64_0_1_2 (broadcastInDim S1x1x64 ![2] bcast_S64_S1x1x64_2 bt)))
    (broadcastInDim S8x12000x64 ![] bcast_S_S8x12000x64 (constant S_ .f32 0x00000000#32))

/-! ## Layer 2 -/

/-- Layer 2's gathered features: 9 neighbour rows of 64 entries side by side. -/
def feat2 (h : (⟨S8x12000x64, .f32⟩ : BufTy).Contents (Elt F)) (sp : (⟨S8x12000x9, .i32⟩ : BufTy).Contents (Elt F)) : (⟨S8x12000x576, .f32⟩ : BufTy).Contents (Elt F) :=
  shapeCast S8x12000x576 (Host.gather gather_S8x12000x64_S8x12000x9x1_S8x12000x9x64_3_1_0_0_1_3_1164 h (starts sp)) shapeCasts_S8x12000x9x64_S8x12000x576

/-- Layer 2's linear map with bias. -/
def lin2 (f : (⟨S8x12000x576, .f32⟩ : BufTy).Contents (Elt F)) (w : (⟨S128x576, .f32⟩ : BufTy).Contents (Elt F)) (b : (⟨S128, .f32⟩ : BufTy).Contents (Elt F)) : (⟨S8x12000x128, .f32⟩ : BufTy).Contents (Elt F) :=
  addf (Host.dotGeneral dot_S8x12000x576_S128x576_S8x12000x128_2_1_01_0_n_n none f w) (broadcastInDim S8x12000x128 ![0, 1, 2] bcast_S1x1x128_S8x12000x128_0_1_2 (broadcastInDim S1x1x128 ![2] bcast_S128_S1x1x128_2 b))

/-- Layer 2's column mean: (0 + sum over batch and vertex) / 96000. -/
def mean2 (y : (⟨S8x12000x128, .f32⟩ : BufTy).Contents (Elt F)) : (⟨S128, .f32⟩ : BufTy).Contents (Elt F) :=
  Host.divf (Host.reduceAdd y (constant S_ .f32 0x00000000#32) reducesTo_S8x12000x128_S128_d0_1 h_S_)
    (broadcastInDim S128 ![] bcast_S_S128 (constant S_ .f32 0x47BB8000#32))

/-- The divisor of the variance: 96000 − ddof, ddof = 0 converted from an integer. -/
def nfree2 : (⟨S_, .f32⟩ : BufTy).Contents (Elt F) := subf (constant S_ .f32 0x47BB8000#32) (sitofp .f32 (constantI S_ 32 0#32))

/-- Layer 2's deviations from the column mean (the mean kept as a [1,1,128] array). -/
def centred2 (y : (⟨S8x12000x128, .f32⟩ : BufTy).Contents (Elt F)) : (⟨S8x12000x128, .f32⟩ : BufTy).Contents (Elt F) :=
  subf y (broadcastInDim S8x12000x128 ![0, 1, 2] bcast_S1x1x128_S8x12000x128_0_1_2 (Host.divf (broadcastInDim S1x1x128 ![2] bcast_S128_S1x1x128_2 (Host.reduceAdd y (constant S_ .f32 0x00000000#32) reducesTo_S8x12000x128_S128_d0_1 h_S_)) (broadcastInDim S1x1x128 ![] bcast_S_S1x1x128 (constant S_ .f32 0x47BB8000#32))))

/-- Layer 2's column variance, guarded as the library routine guards it. -/
def var2 (y : (⟨S8x12000x128, .f32⟩ : BufTy).Contents (Elt F)) : (⟨S128, .f32⟩ : BufTy).Contents (Elt F) :=
  select (broadcastInDim S128 ![] bcast_S_S128 (cmpf .ogt (nfree2 (F := F)) (constant S_ .f32 0x00000000#32)))
    (Host.divf (Host.reduceAdd (mulf (centred2 y) (centred2 y)) (constant S_ .f32 0x00000000#32) reducesTo_S8x12000x128_S128_d0_1 h_S_)
      (broadcastInDim S128 ![] bcast_S_S128 (nfree2 (F := F))))
    (broadcastInDim S128 ![] bcast_S_S128 (id (constant S_ .f32 0x7FC00000#32)))

/-- Layer 2: normalise every column, scale, shift, clip below at zero. -/
def layer2 (f : (⟨S8x12000x576, .f32⟩ : BufTy).Contents (Elt F)) (w : (⟨S128x576, .f32⟩ : BufTy).Contents (Elt F)) (b g bt : (⟨S128, .f32⟩ : BufTy).Contents (Elt F)) : (⟨S8x12000x128, .f32⟩ : BufTy).Contents (Elt F) :=
  maximumf
    (addf
      (mulf
        (mulf (subf (lin2 f w b) (broadcastInDim S8x12000x128 ![0, 1, 2] bcast_S1x1x128_S8x12000x128_0_1_2 (broadcastInDim S1x1x128 ![2] bcast_S128_S1x1x128_2 (mean2 (lin2 f w b)))))
          (broadcastInDim S8x12000x128 ![0, 1, 2] bcast_S1x1x128_S8x12000x128_0_1_2 (broadcastInDim S1x1x128 ![2] bcast_S128_S1x1x128_2 (Host.rsqrt (addf (var2 (lin2 f w b)) (broadcastInDim S128 ![] bcast_S_S128 (constant S_ .f32 0x3727C5AC#32)))))))
        (broadcastInDim S8x12000x128 ![0, 1, 2] bcast_S1x1x128_S8x12000x128_0_1_2 (broadcastInDim S1x1x128 ![2] bcast_S128_S1x1x128_2 g)))
      (broadcastInDim S8x12000x128 ![0, 1, 2] bcast_S1x1x128_S8x12000x128_0_1_2 (broadcastInDim S1x1x128 ![2] bcast_S128_S1x1x128_2 bt)))
    (broadcastInDim S8x12000x128 ![] bcast_S_S8x12000x128 (constant S_ .f32 0x00000000#32))

/-! ## Layer 3 -/

/-- Layer 3's gathered features: 9 neighbour rows of 128 entries side by side. -/
def feat3 (h : (⟨S8x12000x128, .f32⟩ : BufTy).Contents (Elt F)) (sp : (⟨S8x12000x9, .i32⟩ : BufTy).Contents (Elt F)) : (⟨S8x12000x1152, .f32⟩ : BufTy).Contents (Elt F) :=
  shapeCast S8x12000x1152 (Host.gather gather_S8x12000x128_S8x12000x9x1_S8x12000x9x128_3_1_0_0_1_3_11128 h (starts sp)) shapeCasts_S8x12000x9x128_S8x12000x1152

/-- Layer 3's linear map with bias. -/
def lin3 (f : (⟨S8x12000x1152, .f32⟩ : BufTy).Contents (Elt F)) (w : (⟨S256x1152, .f32⟩ : BufTy).Contents (Elt F)) (b : (⟨S256, .f32⟩ : BufTy).Contents (Elt F)) : (⟨S8x12000x256, .f32⟩ : BufTy).Contents (Elt F) :=
  addf (Host.dotGeneral dot_S8x12000x1152_S256x1152_S8x12000x256_2_1_01_0_n_n none f w) (broadcastInDim S8x12000x256 ![0, 1, 2] bcast_S1x1x256_S8x12000x256_0_1_2 (broadcastInDim S1x1x256 ![2] bcast_S256_S1x1x256_2 b))

/-- Layer 3's column mean: (0 + sum over batch and vertex) / 96000. -/
def mean3 (y : (⟨S8x12000x256, .f32⟩ : BufTy).Contents (Elt F)) : (⟨S256, .f32⟩ : BufTy).Contents (Elt F) :=
  Host.divf (Host.reduceAdd y (constant S_ .f32 0x00000000#32) reducesTo_S8x12000x256_S256_d0_1 h_S_)
    (broadcastInDim S256 ![] bcast_S_S256 (constant S_ .f32 0x47BB8000#32))

/-- The divisor of the variance: 96000 − ddof, ddof = 0 converted from an integer. -/
def nfree3 : (⟨S_, .f32⟩ : BufTy).Contents (Elt F) := subf (constant S_ .f32 0x47BB8000#32) (sitofp .f32 (constantI S_ 32 0#32))

/-- Layer 3's deviations from the column mean (the mean kept as a [1,1,256] array). -/
def centred3 (y : (⟨S8x12000x256, .f32⟩ : BufTy).Contents (Elt F)) : (⟨S8x12000x256, .f32⟩ : BufTy).Contents (Elt F) :=
  subf y (broadcastInDim S8x12000x256 ![0, 1, 2] bcast_S1x1x256_S8x12000x256_0_1_2 (Host.divf (broadcastInDim S1x1x256 ![2] bcast_S256_S1x1x256_2 (Host.reduceAdd y (constant S_ .f32 0x00000000#32) reducesTo_S8x12000x256_S256_d0_1 h_S_)) (broadcastInDim S1x1x256 ![] bcast_S_S1x1x256 (constant S_ .f32 0x47BB8000#32))))

/-- Layer 3's column variance, guarded as the library routine guards it. -/
def var3 (y : (⟨S8x12000x256, .f32⟩ : BufTy).Contents (Elt F)) : (⟨S256, .f32⟩ : BufTy).Contents (Elt F) :=
  select (broadcastInDim S256 ![] bcast_S_S256 (cmpf .ogt (nfree3 (F := F)) (constant S_ .f32 0x00000000#32)))
    (Host.divf (Host.reduceAdd (mulf (centred3 y) (centred3 y)) (constant S_ .f32 0x00000000#32) reducesTo_S8x12000x256_S256_d0_1 h_S_)
      (broadcastInDim S256 ![] bcast_S_S256 (nfree3 (F := F))))
    (broadcastInDim S256 ![] bcast_S_S256 (id (constant S_ .f32 0x7FC00000#32)))

/-- Layer 3: normalise every column, scale, shift, clip below at zero. -/
def layer3 (f : (⟨S8x12000x1152, .f32⟩ : BufTy).Contents (Elt F)) (w : (⟨S256x1152, .f32⟩ : BufTy).Contents (Elt F)) (b g bt : (⟨S256, .f32⟩ : BufTy).Contents (Elt F)) : (⟨S8x12000x256, .f32⟩ : BufTy).Contents (Elt F) :=
  maximumf
    (addf
      (mulf
        (mulf (subf (lin3 f w b) (broadcastInDim S8x12000x256 ![0, 1, 2] bcast_S1x1x256_S8x12000x256_0_1_2 (broadcastInDim S1x1x256 ![2] bcast_S256_S1x1x256_2 (mean3 (lin3 f w b)))))
          (broadcastInDim S8x12000x256 ![0, 1, 2] bcast_S1x1x256_S8x12000x256_0_1_2 (broadcastInDim S1x1x256 ![2] bcast_S256_S1x1x256_2 (Host.rsqrt (addf (var3 (lin3 f w b)) (broadcastInDim S256 ![] bcast_S_S256 (constant S_ .f32 0x3727C5AC#32)))))))
        (broadcastInDim S8x12000x256 ![0, 1, 2] bcast_S1x1x256_S8x12000x256_0_1_2 (broadcastInDim S1x1x256 ![2] bcast_S256_S1x1x256_2 g)))
      (broadcastInDim S8x12000x256 ![0, 1, 2] bcast_S1x1x256_S8x12000x256_0_1_2 (broadcastInDim S1x1x256 ![2] bcast_S256_S1x1x256_2 bt)))
    (broadcastInDim S8x12000x256 ![] bcast_S_S8x12000x256 (constant S_ .f32 0x00000000#32))

/-! ## The pooling and the head -/

/-- The maximum over the vertices, from −∞. -/
def pooled (h : (⟨S8x12000x256, .f32⟩ : BufTy).Contents (Elt F)) : (⟨S8x256, .f32⟩ : BufTy).Contents (Elt F) :=
  Host.reduce FloatOps.maximumf h (constant S_ .f32 0xFF800000#32) reducesTo_S8x12000x256_S8x256_d1 h_S_

/-- The head: pooled · pwᵀ + pb. -/
def head (p : (⟨S8x256, .f32⟩ : BufTy).Contents (Elt F)) (pw : (⟨S256x256, .f32⟩ : BufTy).Contents (Elt F)) (pb : (⟨S256, .f32⟩ : BufTy).Contents (Elt F)) : (⟨S8x256, .f32⟩ : BufTy).Contents (Elt F) :=
  addf (Host.dotGeneral dot_S8x256_S256x256_S8x256_1_0_0_1_n_n none p (transpose S256x256 [1, 0] pw transposes_S256x256_S256x256_1_0))
    (broadcastInDim S8x256 ![0, 1] bcast_S1x256_S8x256_0_1 (broadcastInDim S1x256 ![1] bcast_S256_S1x256_1 pb))

/-- The whole reference: three layers, the pooling, the head. -/
def out (x : (⟨S8x12000x3, .f32⟩ : BufTy).Contents (Elt F)) (sp : (⟨S8x12000x9, .i32⟩ : BufTy).Contents (Elt F))
    (w1 : (⟨S64x27, .f32⟩ : BufTy).Contents (Elt F)) (b1 g1 bt1 : (⟨S64, .f32⟩ : BufTy).Contents (Elt F))
    (w2 : (⟨S128x576, .f32⟩ : BufTy).Contents (Elt F)) (b2 g2 bt2 : (⟨S128, .f32⟩ : BufTy).Contents (Elt F))
    (w3 : (⟨S256x1152, .f32⟩ : BufTy).Contents (Elt F)) (b3 g3 bt3 : (⟨S256, .f32⟩ : BufTy).Contents (Elt F))
    (pw : (⟨S256x256, .f32⟩ : BufTy).Contents (Elt F)) (pb : (⟨S256, .f32⟩ : BufTy).Contents (Elt F)) : (⟨S8x256, .f32⟩ : BufTy).Contents (Elt F) :=
  head (pooled (layer3 (feat3 (layer2 (feat2 (layer1 (feat1 x sp) w1 b1 g1 bt1) sp) w2 b2 g2 bt2) sp) w3 b3 g3 bt3)) pw pb

end Cert.ReferenceIdeal.Term

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LayerSpec.lean ====
/-
  One layer of the network, as mathematics on the extended reals.

  A layer takes a block of rows (one row per (batch, vertex) pair, P of them) of K gathered features, applies a linear map
  with a bias, y(p,o) = ∑ₖ feat(p,k)·w(o,k) + b(o), then normalises every output channel o by the statistics of its
  column over ALL rows, and applies max(·, 0).

  The two programs spell the normalisation differently.
    * One accumulates the two column sums S(o) = ∑ₚ y(p,o) and Q(o) = ∑ₚ y(p,o)², sets μ = S/N, σ² = Q/N − μ·μ,
      scale = g·rsqrt(σ² + ε), shift = β − μ·scale, and returns max(y·scale + shift, 0)          (`bnK`).
    * The other sets μ = (0 + S)/N, σ² = (0 + ∑ₚ (y(p,o) − μ)²)/N and returns max((y − μ)·rsqrt(σ² + ε)·g + β, 0)   (`bnR`).
  For real entries and N = P they are the same real number: ∑(y−μ)² = Q − 2μS + Pμ² = Q − Nμ² , σ² ≥ 0 so σ² + ε > 0
  and its inverse square root is a positive real, and the rest is the distributive law — which needs every term real.
  N is the f32 word of 96000, ε the f32 word nearest 1e-5, both decided on their bits.
-/
import proofs.«182203_j60619168416159_1_alg».proof.Proof.LibRealValued

noncomputable section

namespace Cert.Spiral

open Idealize.ShloMosaic Cert.RealValued

/-- The row count 96000 as the f32 word both programs divide by. -/
abbrev cnt : EReal := Ideal.ofBits .f32 0x47BB8000#32
/-- The variance floor: the f32 word nearest 1e-5. -/
abbrev eps : EReal := Ideal.ofBits .f32 0x3727C5AC#32
/-- The f32 word of +0. -/
abbrev zer : EReal := Ideal.ofBits .f32 0x00000000#32
/-- The f32 word of −∞. -/
abbrev ninf : EReal := Ideal.ofBits .f32 0xFF800000#32

section Layer

variable {P : Type} [Fintype P] {K O : ℕ}

/-- The linear part: row p's features against output channel o's weights, plus the bias. -/
def lin (feat : P → Fin K → EReal) (w : Fin O → Fin K → EReal) (b : Fin O → EReal) (p : P) (o : Fin O) : EReal :=
  (∑ k, feat p k * w o k) + b o

/-- A channel's sum over all rows. -/
def colSum (y : P → Fin O → EReal) (o : Fin O) : EReal := ∑ p, y p o
/-- A channel's sum of squares over all rows. -/
def colSumSq (y : P → Fin O → EReal) (o : Fin O) : EReal := ∑ p, y p o * y p o

/-- Mean from the accumulated sum. -/
def kMean (y : P → Fin O → EReal) (o : Fin O) : EReal := Ideal.div (colSum y o) cnt
/-- Variance as E[y²] − μ². -/
def kVar (y : P → Fin O → EReal) (o : Fin O) : EReal := Ideal.div (colSumSq y o) cnt - kMean y o * kMean y o
/-- The per-channel scale g·rsqrt(σ² + ε). -/
def kScale (y : P → Fin O → EReal) (g : Fin O → EReal) (o : Fin O) : EReal := g o * Ideal.rsqrt (kVar y o + eps)
/-- The per-channel shift β − μ·scale. -/
def kShift (y : P → Fin O → EReal) (g bt : Fin O → EReal) (o : Fin O) : EReal := bt o - kMean y o * kScale y g o
/-- Normalise-and-clip in the scale/shift spelling. -/
def bnK (y : P → Fin O → EReal) (g bt : Fin O → EReal) (p : P) (o : Fin O) : EReal :=
  max (y p o * kScale y g o + kShift y g bt o) zer

/-- Mean as (0 + S)/N. -/
def rMean (y : P → Fin O → EReal) (o : Fin O) : EReal := Ideal.div (zer + colSum y o) cnt
/-- Variance as the mean of the squared deviations. -/
def rVar (y : P → Fin O → EReal) (o : Fin O) : EReal :=
  Ideal.div (zer + ∑ p, (y p o - rMean y o) * (y p o - rMean y o)) cnt
/-- Normalise-and-clip in the centred spelling. -/
def bnR (y : P → Fin O → EReal) (g bt : Fin O → EReal) (p : P) (o : Fin O) : EReal :=
  max ((y p o - rMean y o) * Ideal.rsqrt (rVar y o + eps) * g o + bt o) zer

end Layer

/-- The rows of the network: (batch, vertex). -/
abbrev Rows := Fin 8 × Fin 12000

/-- The maximum over the vertices, from −∞. -/
def pool {O : ℕ} (h : Rows → Fin O → EReal) (b : Fin 8) (o : Fin O) : EReal :=
  (Finset.univ : Finset (Fin 12000)).fold max ninf (fun v => h (b, v) o)

end Cert.Spiral

end
-- ==== Proof.KGlue.lean ====
/-
  The host's preparation of each layer, read at an index.

  From the two accumulated column sums S(o), Q(o) of a layer (kept as [1, O] arrays) the host computes the mean
  S/96000, the variance Q/96000 − μ·μ, the scale g·rsqrt(σ² + ε) and the shift β − μ·scale as [O] arrays; read at a
  channel o these are the specification's kMean, kVar, kScale, kShift of the array whose column sums were accumulated:
  each layout operation (dropping the unit axis, broadcasting a scalar, broadcasting [O] to [1, O]) read at its index,
  no algebra. The transposed weights read the weights with the coordinates exchanged. The gathered features and the
  head are the very terms of the other program: the same operations over the same dimension records, and a format
  change is the identity on the extended reals.
-/
import proofs.«182203_j60619168416159_1_alg».proof.Proof.KTerm
import proofs.«182203_j60619168416159_1_alg».proof.Proof.RefTerm
import proofs.«182203_j60619168416159_1_alg».proof.Proof.LayerSpec
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Glue

open Cert.KernelIdeal Cert.KernelIdeal.Gen Idealize.ShloMosaic Idealize.ShloMosaic.ValueIdx

/-- The host's inverse square root at an index is the extended reals'. -/
theorem hostRsqrt_apply {s : Shape} {φ : FTy} (a : FVec Ideal s φ) (i : s.Idx) : Host.rsqrt a i = Ideal.rsqrt (a i) := rfl

/-- An [a] array broadcast to [1, a] along axis 1 reads, at (u, o), the operand at o. -/
theorem bcast_a_1a_apply {a : ℕ} {α : Type} (h : (⟨1, ![a]⟩ : Shape).BroadcastsInDim ⟨2, ![1, a]⟩ ![1])
    (v : (⟨1, ![a]⟩ : Shape).Idx → α) (u : Fin 1) (o : Fin a) :
    broadcastInDim ⟨2, ![1, a]⟩ ![1] h v (ix2 u o) = v (ix1 o) := by
  refine broadcastInDim_apply _ h v _ (ix1 o) fun c => ?_
  match c with
  | ⟨0, _⟩ =>
    show o.val = if a = 1 then 0 else o.val
    split_ifs with h1
    · have := o.isLt; omega
    · rfl

/-! ## Layer 1 -/

/-- Layer 1's mean at channel o: the accumulated sum over the row count. -/
theorem mean1_apply (s : FVec Ideal S1x64 .f32) (o : Fin 64) :
    Term.mean1 (F := Ideal) s (ix1 o) = Ideal.div (s (ix2 0 o)) Cert.Spiral.cnt := by
  unfold Term.mean1
  rw [shapeCast_1a_a_apply, hostDivf_apply, broadcastInDim_scalar_apply, constant_apply]

/-- Layer 1's variance at channel o: the accumulated sum of squares over the row count, minus the squared mean. -/
theorem var1_apply (s q : FVec Ideal S1x64 .f32) (o : Fin 64) :
    Term.var1 (F := Ideal) s q (ix1 o)
      = Ideal.div (q (ix2 0 o)) Cert.Spiral.cnt - Term.mean1 (F := Ideal) s (ix1 o) * Term.mean1 (F := Ideal) s (ix1 o) := by
  unfold Term.var1
  rw [shapeCast_1a_a_apply, subf_apply, hostDivf_apply, broadcastInDim_scalar_apply, constant_apply, bcast_a_1a_apply,
    mulf_apply]

/-- Layer 1's scale at channel o is the specification's, of the array whose column sums were accumulated. -/
theorem scale1_apply (s q : FVec Ideal S1x64 .f32) (g : FVec Ideal S64 .f32) (y : Cert.Spiral.Rows → Fin 64 → EReal)
    (hs : ∀ o, s (ix2 0 o) = Cert.Spiral.colSum y o) (hq : ∀ o, q (ix2 0 o) = Cert.Spiral.colSumSq y o) (o : Fin 64) :
    Term.scale1 (F := Ideal) s q g (ix1 o) = Cert.Spiral.kScale y (fun o => g (ix1 o)) o := by
  unfold Term.scale1 Cert.Spiral.kScale Cert.Spiral.kVar Cert.Spiral.kMean
  rw [mulf_apply, hostRsqrt_apply, addf_apply, var1_apply, mean1_apply, broadcastInDim_scalar_apply, constant_apply,
    hs, hq]

/-- Layer 1's shift at channel o is the specification's. -/
theorem shift1_apply (s q : FVec Ideal S1x64 .f32) (g : FVec Ideal S64 .f32) (y : Cert.Spiral.Rows → Fin 64 → EReal)
    (hs : ∀ o, s (ix2 0 o) = Cert.Spiral.colSum y o) (hq : ∀ o, q (ix2 0 o) = Cert.Spiral.colSumSq y o)
    (bt : FVec Ideal S64 .f32) (o : Fin 64) :
    Term.shift1 (F := Ideal) s q g bt (ix1 o)
      = Cert.Spiral.kShift y (fun o => g (ix1 o)) (fun o => bt (ix1 o)) o := by
  unfold Term.shift1 Cert.Spiral.kShift Cert.Spiral.kMean
  rw [subf_apply, mulf_apply, mean1_apply, scale1_apply s q g y hs hq, hs]

/-- Layer 1's transposed weights read the weights with the coordinates exchanged (the format change is the identity). -/
theorem wT1_apply (w : FVec Ideal S64x27 .f32) (k : Fin 27) (o : Fin 64) :
    Term.wT1 (F := Ideal) w (ix2 k o) = w (ix2 o k) :=
  transpose_ix2_apply w _ k o

/-- Layer 1's gathered features are the reference's. -/
theorem feat1_eq (h : FVec Ideal S8x12000x3 .f32) (sp : IVec S8x12000x9 32) :
    Term.feat1 (F := Ideal) h sp = Cert.ReferenceIdeal.Term.feat1 (F := Ideal) h sp := rfl

/-! ## Layer 2 -/

/-- Layer 2's mean at channel o: the accumulated sum over the row count. -/
theorem mean2_apply (s : FVec Ideal S1x128 .f32) (o : Fin 128) :
    Term.mean2 (F := Ideal) s (ix1 o) = Ideal.div (s (ix2 0 o)) Cert.Spiral.cnt := by
  unfold Term.mean2
  rw [shapeCast_1a_a_apply, hostDivf_apply, broadcastInDim_scalar_apply, constant_apply]

/-- Layer 2's variance at channel o: the accumulated sum of squares over the row count, minus the squared mean. -/
theorem var2_apply (s q : FVec Ideal S1x128 .f32) (o : Fin 128) :
    Term.var2 (F := Ideal) s q (ix1 o)
      = Ideal.div (q (ix2 0 o)) Cert.Spiral.cnt - Term.mean2 (F := Ideal) s (ix1 o) * Term.mean2 (F := Ideal) s (ix1 o) := by
  unfold Term.var2
  rw [shapeCast_1a_a_apply, subf_apply, hostDivf_apply, broadcastInDim_scalar_apply, constant_apply, bcast_a_1a_apply,
    mulf_apply]

/-- Layer 2's scale at channel o is the specification's, of the array whose column sums were accumulated. -/
theorem scale2_apply (s q : FVec Ideal S1x128 .f32) (g : FVec Ideal S128 .f32) (y : Cert.Spiral.Rows → Fin 128 → EReal)
    (hs : ∀ o, s (ix2 0 o) = Cert.Spiral.colSum y o) (hq : ∀ o, q (ix2 0 o) = Cert.Spiral.colSumSq y o) (o : Fin 128) :
    Term.scale2 (F := Ideal) s q g (ix1 o) = Cert.Spiral.kScale y (fun o => g (ix1 o)) o := by
  unfold Term.scale2 Cert.Spiral.kScale Cert.Spiral.kVar Cert.Spiral.kMean
  rw [mulf_apply, hostRsqrt_apply, addf_apply, var2_apply, mean2_apply, broadcastInDim_scalar_apply, constant_apply,
    hs, hq]

/-- Layer 2's shift at channel o is the specification's. -/
theorem shift2_apply (s q : FVec Ideal S1x128 .f32) (g : FVec Ideal S128 .f32) (y : Cert.Spiral.Rows → Fin 128 → EReal)
    (hs : ∀ o, s (ix2 0 o) = Cert.Spiral.colSum y o) (hq : ∀ o, q (ix2 0 o) = Cert.Spiral.colSumSq y o)
    (bt : FVec Ideal S128 .f32) (o : Fin 128) :
    Term.shift2 (F := Ideal) s q g bt (ix1 o)
      = Cert.Spiral.kShift y (fun o => g (ix1 o)) (fun o => bt (ix1 o)) o := by
  unfold Term.shift2 Cert.Spiral.kShift Cert.Spiral.kMean
  rw [subf_apply, mulf_apply, mean2_apply, scale2_apply s q g y hs hq, hs]

/-- Layer 2's transposed weights read the weights with the coordinates exchanged (the format change is the identity). -/
theorem wT2_apply (w : FVec Ideal S128x576 .f32) (k : Fin 576) (o : Fin 128) :
    Term.wT2 (F := Ideal) w (ix2 k o) = w (ix2 o k) :=
  transpose_ix2_apply w _ k o

/-- Layer 2's gathered features are the reference's. -/
theorem feat2_eq (h : FVec Ideal S8x12000x64 .bf16) (sp : IVec S8x12000x9 32) :
    Term.feat2 (F := Ideal) h sp = Cert.ReferenceIdeal.Term.feat2 (F := Ideal) h sp := rfl

/-! ## Layer 3 -/

/-- Layer 3's mean at channel o: the accumulated sum over the row count. -/
theorem mean3_apply (s : FVec Ideal S1x256 .f32) (o : Fin 256) :
    Term.mean3 (F := Ideal) s (ix1 o) = Ideal.div (s (ix2 0 o)) Cert.Spiral.cnt := by
  unfold Term.mean3
  rw [shapeCast_1a_a_apply, hostDivf_apply, broadcastInDim_scalar_apply, constant_apply]

/-- Layer 3's variance at channel o: the accumulated sum of squares over the row count, minus the squared mean. -/
theorem var3_apply (s q : FVec Ideal S1x256 .f32) (o : Fin 256) :
    Term.var3 (F := Ideal) s q (ix1 o)
      = Ideal.div (q (ix2 0 o)) Cert.Spiral.cnt - Term.mean3 (F := Ideal) s (ix1 o) * Term.mean3 (F := Ideal) s (ix1 o) := by
  unfold Term.var3
  rw [shapeCast_1a_a_apply, subf_apply, hostDivf_apply, broadcastInDim_scalar_apply, constant_apply, bcast_a_1a_apply,
    mulf_apply]

/-- Layer 3's scale at channel o is the specification's, of the array whose column sums were accumulated. -/
theorem scale3_apply (s q : FVec Ideal S1x256 .f32) (g : FVec Ideal S256 .f32) (y : Cert.Spiral.Rows → Fin 256 → EReal)
    (hs : ∀ o, s (ix2 0 o) = Cert.Spiral.colSum y o) (hq : ∀ o, q (ix2 0 o) = Cert.Spiral.colSumSq y o) (o : Fin 256) :
    Term.scale3 (F := Ideal) s q g (ix1 o) = Cert.Spiral.kScale y (fun o => g (ix1 o)) o := by
  unfold Term.scale3 Cert.Spiral.kScale Cert.Spiral.kVar Cert.Spiral.kMean
  rw [mulf_apply, hostRsqrt_apply, addf_apply, var3_apply, mean3_apply, broadcastInDim_scalar_apply, constant_apply,
    hs, hq]

/-- Layer 3's shift at channel o is the specification's. -/
theorem shift3_apply (s q : FVec Ideal S1x256 .f32) (g : FVec Ideal S256 .f32) (y : Cert.Spiral.Rows → Fin 256 → EReal)
    (hs : ∀ o, s (ix2 0 o) = Cert.Spiral.colSum y o) (hq : ∀ o, q (ix2 0 o) = Cert.Spiral.colSumSq y o)
    (bt : FVec Ideal S256 .f32) (o : Fin 256) :
    Term.shift3 (F := Ideal) s q g bt (ix1 o)
      = Cert.Spiral.kShift y (fun o => g (ix1 o)) (fun o => bt (ix1 o)) o := by
  unfold Term.shift3 Cert.Spiral.kShift Cert.Spiral.kMean
  rw [subf_apply, mulf_apply, mean3_apply, scale3_apply s q g y hs hq, hs]

/-- Layer 3's transposed weights read the weights with the coordinates exchanged (the format change is the identity). -/
theorem wT3_apply (w : FVec Ideal S256x1152 .f32) (k : Fin 1152) (o : Fin 256) :
    Term.wT3 (F := Ideal) w (ix2 k o) = w (ix2 o k) :=
  transpose_ix2_apply w _ k o

/-- Layer 3's gathered features are the reference's. -/
theorem feat3_eq (h : FVec Ideal S8x12000x128 .bf16) (sp : IVec S8x12000x9 32) :
    Term.feat3 (F := Ideal) h sp = Cert.ReferenceIdeal.Term.feat3 (F := Ideal) h sp := rfl

/-! ## The head -/

/-- The head is the reference's. -/
theorem head_eq (p : FVec Ideal S8x256 .f32) (pw : FVec Ideal S256x256 .f32) (pb : FVec Ideal S256 .f32) :
    Term.head (F := Ideal) p pw pb = Cert.ReferenceIdeal.Term.head (F := Ideal) p pw pb := rfl

end Cert.KernelIdeal.Glue

end
-- ==== Proof.FiniteArgs.lean ====
/-
  The finiteness precondition read back.

  The precondition of the two programs says, of each of the fifteen float arrays they take, "every entry a has
  |a| < +inf", and joins the fifteen statements by "and". On the extended reals |a| = max a (-a) is +inf exactly at
  the two infinities, so the precondition holding says: every entry of every float array is a real number. The
  conjunction is nested to the left, so the last array's statement peels off first; each conjunct is one reduction
  by "and" over all axes of the comparison of |a| with the +inf word broadcast from a scalar.
-/
import proofs.«182203_j60619168416159_1_alg».proof.Proof.Gen.Pre_finite_inputs
import proofs.«182203_j60619168416159_1_alg».proof.Proof.LibRealValued

noncomputable section

namespace Cert.Finite

open Idealize.ShloMosaic Idealize.ShloMosaic.ValueIdx Cert.RealValued Cert.Pre_finite_inputs

/-- If the finiteness precondition holds of the sixteen arrays, every entry of each float array is a real number. -/
theorem args_real (a0 : FVec Ideal S8x12000x3 .f32) (a1 : IVec S8x12000x9 32) (a2 : FVec Ideal S64x27 .f32)
    (a3 a4 a5 : FVec Ideal S64 .f32) (a6 : FVec Ideal S128x576 .f32) (a7 a8 a9 : FVec Ideal S128 .f32)
    (a10 : FVec Ideal S256x1152 .f32) (a11 a12 a13 : FVec Ideal S256 .f32) (a14 : FVec Ideal S256x256 .f32)
    (a15 : FVec Ideal S256 .f32)
    (h : Cert.Pre_finite_inputs.fn (F := Ideal) a0 a1 a2 a3 a4 a5 a6 a7 a8 a9 a10 a11 a12 a13 a14 a15 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i))
      ∧ (∀ i, IsReal (a14 i)) ∧ (∀ i, IsReal (a15 i)) := by
  have h0 := congrFun h ix0
  unfold Cert.Pre_finite_inputs.fn Cert.Pre_finite_inputs.fn_part1 Cert.Pre_finite_inputs.fn_part2
    Cert.Pre_finite_inputs.fn_part3 Cert.Pre_finite_inputs.fn_part4 at h0
  dsimp only [andi] at h0
  simp only [IntOp.andi_eq_one] at h0
  obtain ⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩ := h0
  exact ⟨all_isReal a0 _ _ _ _ e0, all_isReal a2 _ _ _ _ e2, all_isReal a3 _ _ _ _ e3, all_isReal a4 _ _ _ _ e4,
    all_isReal a5 _ _ _ _ e5, all_isReal a6 _ _ _ _ e6, all_isReal a7 _ _ _ _ e7, all_isReal a8 _ _ _ _ e8,
    all_isReal a9 _ _ _ _ e9, all_isReal a10 _ _ _ _ e10, all_isReal a11 _ _ _ _ e11, all_isReal a12 _ _ _ _ e12,
    all_isReal a13 _ _ _ _ e13, all_isReal a14 _ _ _ _ e14, all_isReal a15 _ _ _ _ e15⟩

end Cert.Finite

end
-- ==== Proof.LibLossLaws.lean ====
/-
  The laws on the extended reals that join a numerically stable loss to its textbook form.

  Every float of an idealized program is an extended real, and the usual algebra (cancelling, regrouping a sum of
  products, log (a · b) = log a + log b) holds for real numbers and can fail at an infinity. The programs compared here
  work on finite inputs, so every entry they meet is a real number; this file has the laws that are then needed:

    * the stable softplus: max (x, 0) + log1p (exp (0 − |x|)) = log1p (exp x) for a real x, where |x| is spelled
      max (x, −x); and its value, the real number log (1 + exp x);
    * the square root of a nonnegative real number is the real square root; of max (a, ε) with ε ≥ 0 in particular;
    * the maximum of two real numbers, inside the extended reals, is the real maximum;
    * each float literal of the two programs denotes a real number, the small ones nonnegative, and 2.0 and 2^26 exactly;
    * real numbers are closed under −, max, negation, the square root of a nonnegative one and the softplus terms (sums,
      products and finite sums are in the imported library), and a regrouping of a sum of products of real numbers is
      proved by moving the coercions outward and appealing to the ring laws of the real numbers.

  Nothing here depends on a particular program.
-/
import Idealize.ShloMosaic.PureOps.Ideal
import Idealize.ShloMosaic.PureOps.Ideal.Laws
import Mathlib.Analysis.SpecialFunctions.Log.Basic
import Mathlib.Tactic
import proofs.«182203_j60619168416159_1_alg».proof.Proof.LibRealValued

noncomputable section

namespace Cert.LossLaws

open Idealize.ShloMosaic
open Cert.RealValued (IsReal isReal_zero isReal_sum ieee_isReal)

/-! ### Maximum, softplus and square root of real numbers -/

/-- The coercion of the real numbers into the extended reals is monotone, so it commutes with the maximum. -/
theorem max_real (a b : ℝ) : max (a : EReal) (b : EReal) = ((max a b : ℝ) : EReal) :=
  (EReal.coe_strictMono.monotone.map_max).symm

/-- log1p (exp x) of a real x is the real number log (1 + exp x): 1 + exp x is positive, so the logarithm is at no
    corner. -/
theorem log1p_exp_real (x : ℝ) :
    Ideal.log1p (Ideal.exp (x : EReal)) = ((Real.log (1 + Real.exp x) : ℝ) : EReal) := by
  have hpos : ¬ (1 + Real.exp x ≤ 0) := not_le.mpr (by positivity)
  rw [Ideal.log1p, Ideal.exp_coe, ← EReal.coe_one, ← EReal.coe_add, Ideal.log_coe, if_neg hpos]

/-- The stable softplus over the real numbers. For x ≥ 0: x + log (1 + exp (−x)) = log (exp x · (1 + exp (−x)))
    = log (exp x + 1). For x ≤ 0: |x| = −x and the left side is 0 + log (1 + exp x). -/
theorem softplus_real (x : ℝ) :
    max x 0 + Real.log (1 + Real.exp (0 - max x (-x))) = Real.log (1 + Real.exp x) := by
  rcases le_total 0 x with h | h
  · have h1 : max x 0 = x := max_eq_left h
    have h2 : max x (-x) = x := max_eq_left (by linarith)
    have hpos : (0 : ℝ) < 1 + Real.exp (-x) := by positivity
    rw [h1, h2, zero_sub]
    calc x + Real.log (1 + Real.exp (-x))
        = Real.log (Real.exp x) + Real.log (1 + Real.exp (-x)) := by rw [Real.log_exp]
      _ = Real.log (Real.exp x * (1 + Real.exp (-x))) :=
          (Real.log_mul (Real.exp_pos x).ne' hpos.ne').symm
      _ = Real.log (1 + Real.exp x) := by
          congr 1
          rw [mul_add, mul_one, ← Real.exp_add, add_neg_cancel, Real.exp_zero, add_comm]
  · have h1 : max x 0 = 0 := max_eq_right h
    have h2 : max x (-x) = -x := max_eq_right (by linarith)
    rw [h1, h2, zero_add, zero_sub, neg_neg]

/-- The stable form's inner argument 0 − |x| of a real x is the real number 0 − max (x, −x). -/
theorem neg_abs_real (x : ℝ) :
    (0 : EReal) - max (x : EReal) (-(x : EReal)) = ((0 - max x (-x) : ℝ) : EReal) := by
  rw [← EReal.coe_neg, max_real, ← EReal.coe_zero, ← EReal.coe_sub]

/-- max (x, 0) of a real x is the real maximum. -/
theorem max_zero_real (x : ℝ) : max (x : EReal) 0 = ((max x 0 : ℝ) : EReal) := by
  rw [← EReal.coe_zero, max_real]

/-- The stable softplus on the extended reals, at a real x: both sides are real numbers and the real law applies. -/
theorem softplus_stable (x : ℝ) :
    max (x : EReal) 0 + Ideal.log1p (Ideal.exp (0 - max (x : EReal) (-(x : EReal))))
      = Ideal.log1p (Ideal.exp (x : EReal)) := by
  rw [max_zero_real, neg_abs_real, log1p_exp_real, log1p_exp_real, ← EReal.coe_add, softplus_real]

/-- The stable softplus of a real x is the real number log (1 + exp x). -/
theorem softplus_stable_value (x : ℝ) :
    max (x : EReal) 0 + Ideal.log1p (Ideal.exp (0 - max (x : EReal) (-(x : EReal))))
      = ((Real.log (1 + Real.exp x) : ℝ) : EReal) := by
  rw [softplus_stable, log1p_exp_real]

/-- The square root of a nonnegative real number is the real square root. -/
theorem sqrt_real {r : ℝ} (h : 0 ≤ r) : Ideal.sqrt (r : EReal) = ((Real.sqrt r : ℝ) : EReal) := by
  rw [Ideal.sqrt_coe, if_neg (not_lt.mpr h)]

/-- The square root of max (a, ε), for real a and a real ε ≥ 0, is the real square root of the real maximum. -/
theorem sqrt_max_real (a : ℝ) {e : ℝ} (he : 0 ≤ e) :
    Ideal.sqrt (max (a : EReal) (e : EReal)) = ((Real.sqrt (max a e) : ℝ) : EReal) := by
  rw [max_real, sqrt_real (le_trans he (le_max_right a e))]

/-! ### Real numbers inside the extended reals: closure -/

/-- A coerced real number is a real number. -/
theorem isReal_coe (r : ℝ) : IsReal (r : EReal) := ⟨r, rfl⟩

/-- One is a real number. -/
theorem isReal_one : IsReal 1 := ⟨1, EReal.coe_one.symm⟩

/-- The negation of a real number is a real number. -/
theorem _root_.Cert.RealValued.IsReal.neg {a : EReal} (ha : IsReal a) : IsReal (-a) := by
  obtain ⟨r, rfl⟩ := ha
  exact ⟨-r, (EReal.coe_neg r).symm⟩

/-- The difference of two real numbers is a real number. -/
theorem _root_.Cert.RealValued.IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two real numbers is a real number. -/
theorem _root_.Cert.RealValued.IsReal.max {a b : EReal} (ha : IsReal a) (hb : IsReal b) : IsReal (Max.max a b) := by
  obtain ⟨r, rfl⟩ := ha
  obtain ⟨s, rfl⟩ := hb
  exact ⟨Max.max r s, max_real r s⟩

/-- A sum of real numbers over a whole finite index type is a real number. -/
theorem _root_.Cert.RealValued.IsReal.sum {ι : Type} [Fintype ι] {f : ι → EReal} (h : ∀ i, IsReal (f i)) : IsReal (∑ i, f i) :=
  isReal_sum Finset.univ f fun i _ => h i

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The square root of a nonnegative real number is a real number. -/
theorem _root_.Cert.RealValued.IsReal.sqrt {a : EReal} (ha : IsReal a) (h0 : 0 ≤ a) : IsReal (Ideal.sqrt a) := by
  obtain ⟨r, rfl⟩ := ha
  have hr : 0 ≤ r := by rwa [← EReal.coe_zero, EReal.coe_le_coe_iff] at h0
  exact ⟨Real.sqrt r, sqrt_real hr⟩

/-- The square root of max (a, ε), for real a and a real ε ≥ 0, is a real number. -/
theorem _root_.Cert.RealValued.IsReal.sqrt_max {a e : EReal} (ha : IsReal a) (he : IsReal e) (h0 : 0 ≤ e) :
    IsReal (Ideal.sqrt (Max.max a e)) :=
  (ha.max he).sqrt (le_trans h0 (le_max_right a e))

/-- log1p (exp a) of a real number a is a real number. -/
theorem _root_.Cert.RealValued.IsReal.log1p_exp {a : EReal} (ha : IsReal a) : IsReal (Ideal.log1p (Ideal.exp a)) := by
  obtain ⟨r, rfl⟩ := ha
  exact ⟨_, log1p_exp_real r⟩

/-- The stable softplus at a real number, stated on an extended real known to be one. -/
theorem softplus_stable_of_isReal {a : EReal} (ha : IsReal a) :
    max a 0 + Ideal.log1p (Ideal.exp (0 - max a (-a))) = Ideal.log1p (Ideal.exp a) := by
  obtain ⟨r, rfl⟩ := ha
  exact softplus_stable r

/-- The stable softplus term of a real number is a real number. -/
theorem _root_.Cert.RealValued.IsReal.softplus {a : EReal} (ha : IsReal a) :
    IsReal (Max.max a 0 + Ideal.log1p (Ideal.exp (0 - Max.max a (-a)))) := by
  rw [softplus_stable_of_isReal ha]
  exact ha.log1p_exp

/-! ### The same laws in the operations of an idealized program

An idealized program spells these terms in the float operations at the extended reals — sum, difference, maximum,
absolute value max (a, −a), exp, log1p, sqrt — and its zero as the all-zero f32 word. Each operation is by definition
the extended-real one, so the laws above apply as they stand. -/

/-- The stable softplus in a program's operations, its zero the all-zero f32 word. -/
theorem softplus_stable_ops (a : Ideal .f32) (ha : IsReal a) :
    FloatOps.addf (FloatOps.maximumf a (Ideal.ofBits .f32 0x00000000#32))
        (FloatOps.log1p (FloatOps.exp (FloatOps.subf (Ideal.ofBits .f32 0x00000000#32) (FloatOps.absf a))))
      = FloatOps.log1p (FloatOps.exp a) := by
  show max a (Ideal.ofBits .f32 0x00000000#32)
      + Ideal.log1p (Ideal.exp (Ideal.ofBits .f32 0x00000000#32 - max a (-a))) = Ideal.log1p (Ideal.exp a)
  rw [Ideal.ofBits_zero_f32]
  exact softplus_stable_of_isReal ha

/-- A program's square root of a maximum with a nonnegative real ε, at a real number: a real number. -/
theorem isReal_sqrt_max_ops {a e : Ideal .f32} (ha : IsReal a) (he : IsReal e) (h0 : (0 : EReal) ≤ e) :
    IsReal (FloatOps.sqrt (FloatOps.maximumf a e) : Ideal .f32) :=
  IsReal.sqrt_max ha he h0

/-! ### The float literals of the two programs -/

/-- An f32 word whose exponent field is not all ones denotes a real number. -/
theorem f32_isReal (w : BitVec 32) (h : (w.extractLsb' 23 8).toNat ≠ 2 ^ 8 - 1) :
    IsReal (Ideal.ofBits .f32 w) :=
  ieee_isReal 8 23 w h

/-- A float word with a clear sign bit and an exponent field that is not all ones denotes a nonnegative real number:
    its value is a natural number times a power of two. -/
theorem ieee_nonneg (e m : Nat) {w : Nat} (b : BitVec w) (h : (b.extractLsb' m e).toNat ≠ 2 ^ e - 1)
    (hs : (b.extractLsb' (e + m) 1 == 1#1) = false) : ∃ r : ℝ, 0 ≤ r ∧ Ideal.ieee e m b = (r : EReal) := by
  unfold Ideal.ieee
  dsimp only
  rw [if_neg h, hs]
  simp only [Bool.false_eq_true, if_false]
  split
  · exact ⟨_, by positivity, rfl⟩
  · exact ⟨_, by positivity, rfl⟩

/-- The same for an f32 word. -/
theorem f32_nonneg (w : BitVec 32) (h : (w.extractLsb' 23 8).toNat ≠ 2 ^ 8 - 1)
    (hs : (w.extractLsb' 31 1 == 1#1) = false) : ∃ r : ℝ, 0 ≤ r ∧ Ideal.ofBits .f32 w = (r : EReal) :=
  ieee_nonneg 8 23 w h hs

/-- 0.0 -/
theorem lit_zero : Ideal.ofBits .f32 0x00000000#32 = ((0 : ℝ) : EReal) := by
  rw [Ideal.ofBits_zero_f32, EReal.coe_zero]

/-- 1e-12 as an f32: a nonnegative real number. -/
theorem lit_eps12 : ∃ r : ℝ, 0 ≤ r ∧ Ideal.ofBits .f32 0x2B8CBCCC#32 = (r : EReal) :=
  f32_nonneg _ (by decide) (by decide)

/-- 1e-6 as an f32: a nonnegative real number. -/
theorem lit_eps6 : ∃ r : ℝ, 0 ≤ r ∧ Ideal.ofBits .f32 0x358637BD#32 = (r : EReal) :=
  f32_nonneg _ (by decide) (by decide)

/-- 2e-6 as an f32: a nonnegative real number. -/
theorem lit_2eps6 : ∃ r : ℝ, 0 ≤ r ∧ Ideal.ofBits .f32 0x360637BD#32 = (r : EReal) :=
  f32_nonneg _ (by decide) (by decide)

/-- 5.12e-10 as an f32: a nonnegative real number. -/
theorem lit_512eps12 : ∃ r : ℝ, 0 ≤ r ∧ Ideal.ofBits .f32 0x300CBCCC#32 = (r : EReal) :=
  f32_nonneg _ (by decide) (by decide)

/-- 2.0: sign 0, exponent field 128, fraction 0, that is 2^23 · 2^(128 − 127 − 23) = 2. -/
theorem lit_two : Ideal.ofBits .f32 0x40000000#32 = ((2 : ℝ) : EReal) := by
  simp [Ideal.ofBits, Ideal.ieee, -EReal.coe_mul]; norm_num

/-- 2^26: sign 0, exponent field 153, fraction 0, that is 2^23 · 2^(153 − 127 − 23) = 2^26 = 67108864. -/
theorem lit_two_pow_26 : Ideal.ofBits .f32 0x4C800000#32 = ((67108864 : ℝ) : EReal) := by
  simp [Ideal.ofBits, Ideal.ieee, -EReal.coe_mul]; norm_num

/-- Every float literal of the two programs is a real number. -/
theorem lit_isReal :
    IsReal (Ideal.ofBits .f32 0x00000000#32) ∧ IsReal (Ideal.ofBits .f32 0x2B8CBCCC#32)
      ∧ IsReal (Ideal.ofBits .f32 0x358637BD#32) ∧ IsReal (Ideal.ofBits .f32 0x360637BD#32)
      ∧ IsReal (Ideal.ofBits .f32 0x300CBCCC#32) ∧ IsReal (Ideal.ofBits .f32 0x40000000#32)
      ∧ IsReal (Ideal.ofBits .f32 0x4C800000#32) :=
  ⟨f32_isReal _ (by decide), f32_isReal _ (by decide), f32_isReal _ (by decide), f32_isReal _ (by decide),
    f32_isReal _ (by decide), f32_isReal _ (by decide), f32_isReal _ (by decide)⟩

/-- The ε under the square root is nonnegative as an extended real. -/
theorem lit_eps12_nonneg : (0 : EReal) ≤ Ideal.ofBits .f32 0x2B8CBCCC#32 := by
  obtain ⟨r, hr, e⟩ := lit_eps12
  rw [e, ← EReal.coe_zero, EReal.coe_le_coe_iff]
  exact hr

/-! ### Regrouping a sum of products of real numbers

The extended reals are not a ring: a product does not distribute over a sum, and a − a is not 0, when an infinity is
present. For real numbers move every coercion outward — each of +, −, · of coerced real numbers is the coerced
real operation — until both sides are one coerced real expression, and the ring laws of the real numbers finish. -/

/-- The squared distance regrouped: the row term a2 + c·sa + e, the column term p2 − c·sp, minus k times the product,
    against a2 + p2 − k·d plus the correction c·(sa − sp) + e. -/
theorem real_ring_example (a2 sa p2 sp d c e k : ℝ) :
    (((a2 : EReal) + (c : EReal) * (sa : EReal) + (e : EReal)) + ((p2 : EReal) - (c : EReal) * (sp : EReal)))
        - (k : EReal) * (d : EReal)
      = ((((a2 : EReal) + (p2 : EReal)) - (k : EReal) * (d : EReal)) + (c : EReal) * ((sa : EReal) - (sp : EReal)))
        + (e : EReal) := by
  simp only [← EReal.coe_add, ← EReal.coe_mul, ← EReal.coe_sub]
  congr 1
  ring

/-- The same law on extended reals known to be real numbers: name the real numbers, then proceed as above. -/
theorem real_ring_example_isReal {a2 sa p2 sp d c e k : EReal} (h1 : IsReal a2) (h2 : IsReal sa) (h3 : IsReal p2)
    (h4 : IsReal sp) (h5 : IsReal d) (h6 : IsReal c) (h7 : IsReal e) (h8 : IsReal k) :
    ((a2 + c * sa + e) + (p2 - c * sp)) - k * d = (((a2 + p2) - k * d) + c * (sa - sp)) + e := by
  obtain ⟨a2, rfl⟩ := h1
  obtain ⟨sa, rfl⟩ := h2
  obtain ⟨p2, rfl⟩ := h3
  obtain ⟨sp, rfl⟩ := h4
  obtain ⟨d, rfl⟩ := h5
  obtain ⟨c, rfl⟩ := h6
  obtain ⟨e, rfl⟩ := h7
  obtain ⟨k, rfl⟩ := h8
  exact real_ring_example a2 sa p2 sp d c e k

end Cert.LossLaws

end
-- ==== Proof.LayerMath.lean ====
/-
  One layer's normalisation, two spellings, one real number.

  For a block of P = 96000 rows with real entries y(p,o), write S = ∑ₚ y, Q = ∑ₚ y², N = 96000 and μ = S/N.
  Then ∑ₚ (y − μ)² = Q − 2μS + Nμ² = Q − Nμ², so the mean of the squared deviations equals Q/N − μ², and it is a
  nonnegative real number (a sum of squares over N). With a positive real ε the number σ² + ε is positive, its inverse
  square root ρ is a real number, and y·(g·ρ) + (β − μ·(g·ρ)) = (y − μ)·ρ·g + β by the ring laws of the real numbers.
  Division by the float word of 96000 is multiplication by the real number 1/96000; adding the float word of 0 changes
  nothing. Hence the scale/shift spelling and the centred spelling of the normalisation agree entry by entry, and every
  entry of either is a real number. The linear part of a layer, a finite sum of products of real numbers plus a real
  number, is a real number as well.
-/
import proofs.«182203_j60619168416159_1_alg».proof.Proof.LayerSpec
import proofs.«182203_j60619168416159_1_alg».proof.Proof.LibLossLaws

noncomputable section

namespace Cert.Spiral

open Idealize.ShloMosaic Cert.RealValued Cert.LossLaws

/-- The word 0x47BB8000: sign 0, exponent field 143, fraction 0x3B8000, that is (2^23 + 3899392) · 2^(143 − 127 − 23)
    = 12288000 / 128 = 96000. -/
theorem cnt_eq : cnt = ((96000 : ℝ) : EReal) := by
  simp [cnt, Ideal.ofBits, Ideal.ieee, -EReal.coe_mul]; norm_num

/-- The word of +0 is 0. -/
theorem zer_eq : zer = (0 : EReal) := by
  rw [zer, lit_zero, EReal.coe_zero]

/-- The word of −∞ is the least extended real. -/
theorem ninf_eq : ninf = (⊥ : EReal) := by
  simp [ninf, Ideal.ofBits, Ideal.ieee]

/-- A float word with a clear sign bit and an exponent field that is neither all ones nor zero denotes a positive real
    number: a positive natural number times a power of two. -/
theorem ieee_pos (e m : Nat) {w : Nat} (b : BitVec w) (h : (b.extractLsb' m e).toNat ≠ 2 ^ e - 1)
    (h0 : (b.extractLsb' m e).toNat ≠ 0)
    (hs : (b.extractLsb' (e + m) 1 == 1#1) = false) : ∃ r : ℝ, 0 < r ∧ Ideal.ieee e m b = (r : EReal) := by
  unfold Ideal.ieee
  dsimp only
  rw [if_neg h, hs, if_neg h0]
  simp only [Bool.false_eq_true, if_false]
  exact ⟨_, by positivity, rfl⟩

/-- The variance floor is a positive real number. -/
theorem eps_pos : ∃ e : ℝ, 0 < e ∧ eps = (e : EReal) :=
  ieee_pos 8 23 (0x3727C5AC#32) (by decide) (by decide) (by decide)

section Layer

variable {P : Type} [Fintype P] {K O : ℕ}

/-- The linear part of real features, weights and bias is a real number. -/
theorem lin_isReal (feat : P → Fin K → EReal) (w : Fin O → Fin K → EReal) (b : Fin O → EReal)
    (hf : ∀ p k, IsReal (feat p k)) (hw : ∀ o k, IsReal (w o k)) (hb : ∀ o, IsReal (b o)) (p : P) (o : Fin O) :
    IsReal (lin feat w b p o) := by
  unfold lin
  exact (IsReal.sum fun k => (hf p k).mul (hw o k)).add (hb o)

/-- The sum of the squared deviations from μ = S/N over N rows, divided by N, is Q/N − μ². -/
theorem dev_real (hP : Fintype.card P = 96000) (f : P → ℝ) :
    (∑ q, (f q - (∑ q, f q) * (1 / 96000)) * (f q - (∑ q, f q) * (1 / 96000))) * (1 / 96000)
      = (∑ q, f q * f q) * (1 / 96000) - ((∑ q, f q) * (1 / 96000)) * ((∑ q, f q) * (1 / 96000)) := by
  generalize hμ : (∑ q, f q) * (1 / 96000 : ℝ) = μ
  have h1 : ∀ q, (f q - μ) * (f q - μ) = f q * f q - 2 * μ * f q + μ * μ := fun q => by ring
  simp_rw [h1]
  rw [Finset.sum_add_distrib, Finset.sum_sub_distrib, ← Finset.mul_sum, Finset.sum_const, Finset.card_univ, hP,
    nsmul_eq_mul, ← hμ]
  push_cast
  ring

/-- Both spellings of the normalisation, at one entry, are one and the same real number. -/
theorem bn_real_at (hP : Fintype.card P = 96000) (y : P → Fin O → EReal) (g bt : Fin O → EReal)
    (hy : ∀ p o, IsReal (y p o)) (hg : ∀ o, IsReal (g o)) (hbt : ∀ o, IsReal (bt o)) (p : P) (o : Fin O) :
    ∃ r : ℝ, bnK y g bt p o = (r : EReal) ∧ bnR y g bt p o = (r : EReal) := by
  choose yr hyr using hy
  obtain ⟨gr, hgr⟩ := hg o
  obtain ⟨br, hbr⟩ := hbt o
  obtain ⟨e, he, hee⟩ := eps_pos
  obtain ⟨S, hS⟩ : ∃ S : ℝ, S = ∑ q, yr q o := ⟨_, rfl⟩
  obtain ⟨Q, hQ⟩ : ∃ Q : ℝ, Q = ∑ q, yr q o * yr q o := ⟨_, rfl⟩
  obtain ⟨μ, hμ⟩ : ∃ μ : ℝ, μ = S * (1 / 96000) := ⟨_, rfl⟩
  obtain ⟨D, hD⟩ : ∃ D : ℝ, D = ∑ q, (yr q o - μ) * (yr q o - μ) := ⟨_, rfl⟩
  have hcS : colSum y o = (S : EReal) := by
    unfold colSum; simp_rw [hyr]; rw [hS, coe_sum]
  have hcQ : colSumSq y o = (Q : EReal) := by
    unfold colSumSq; simp_rw [hyr, ← EReal.coe_mul]; rw [hQ, coe_sum]
  have hkM : kMean y o = (μ : EReal) := by
    unfold kMean; rw [cnt_eq, Ideal.div_coe (by norm_num), hcS, ← EReal.coe_mul, hμ]
  have hrM : rMean y o = (μ : EReal) := by
    unfold rMean; rw [cnt_eq, zer_eq, zero_add, Ideal.div_coe (by norm_num), hcS, ← EReal.coe_mul, hμ]
  have hkV : kVar y o = ((Q * (1 / 96000) - μ * μ : ℝ) : EReal) := by
    unfold kVar
    rw [hkM, cnt_eq, Ideal.div_coe (by norm_num), hcQ, ← EReal.coe_mul, ← EReal.coe_mul, ← EReal.coe_sub]
  have hrV : rVar y o = ((D * (1 / 96000) : ℝ) : EReal) := by
    unfold rVar
    rw [hrM, cnt_eq, zer_eq, zero_add, Ideal.div_coe (by norm_num)]
    simp_rw [hyr, ← EReal.coe_sub, ← EReal.coe_mul]
    rw [← coe_sum, ← EReal.coe_mul, hD]
  have hDQ : D * (1 / 96000) = Q * (1 / 96000) - μ * μ := by
    rw [hD, hQ, hμ, hS]; exact dev_real hP fun q => yr q o
  have hD0 : 0 ≤ D := by
    rw [hD]; exact Finset.sum_nonneg fun q _ => mul_self_nonneg _
  obtain ⟨v, hv⟩ : ∃ v : ℝ, v = Q * (1 / 96000) - μ * μ := ⟨_, rfl⟩
  have hv0 : 0 ≤ v := by rw [hv, ← hDQ]; positivity
  have hpos : 0 < v + e := by linarith
  have hrs : Ideal.rsqrt ((v + e : ℝ) : EReal) = (((Real.sqrt (v + e))⁻¹ : ℝ) : EReal) := by
    rw [Ideal.rsqrt_coe, if_neg (not_lt.mpr hpos.le), if_neg hpos.ne']
  refine ⟨max (yr p o * (gr * (Real.sqrt (v + e))⁻¹) + (br - μ * (gr * (Real.sqrt (v + e))⁻¹))) 0, ?_, ?_⟩
  · unfold bnK kShift kScale
    rw [hkV, ← hv, hkM, hee, hgr, hbr, hyr, zer_eq, ← EReal.coe_add, hrs]
    simp only [← EReal.coe_mul, ← EReal.coe_add, ← EReal.coe_sub]
    rw [max_zero_real]
  · unfold bnR
    rw [hrV, hDQ, ← hv, hrM, hee, hgr, hbr, hyr, zer_eq, ← EReal.coe_add, hrs]
    simp only [← EReal.coe_mul, ← EReal.coe_add, ← EReal.coe_sub]
    rw [max_zero_real]
    congr 2
    ring

/-- The scale/shift spelling and the centred spelling of the normalisation agree on real entries. -/
theorem bnK_eq_bnR (hP : Fintype.card P = 96000) (y : P → Fin O → EReal) (g bt : Fin O → EReal)
    (hy : ∀ p o, IsReal (y p o)) (hg : ∀ o, IsReal (g o)) (hbt : ∀ o, IsReal (bt o)) : bnK y g bt = bnR y g bt := by
  funext p o
  obtain ⟨r, h1, h2⟩ := bn_real_at hP y g bt hy hg hbt p o
  rw [h1, h2]

/-- Every entry of the centred spelling is a real number. -/
theorem bnR_isReal (hP : Fintype.card P = 96000) (y : P → Fin O → EReal) (g bt : Fin O → EReal)
    (hy : ∀ p o, IsReal (y p o)) (hg : ∀ o, IsReal (g o)) (hbt : ∀ o, IsReal (bt o)) (p : P) (o : Fin O) :
    IsReal (bnR y g bt p o) := by
  obtain ⟨r, _, h2⟩ := bn_real_at hP y g bt hy hg hbt p o
  exact ⟨r, h2⟩

/-- Every entry of the scale/shift spelling is a real number. -/
theorem bnK_isReal (hP : Fintype.card P = 96000) (y : P → Fin O → EReal) (g bt : Fin O → EReal)
    (hy : ∀ p o, IsReal (y p o)) (hg : ∀ o, IsReal (g o)) (hbt : ∀ o, IsReal (bt o)) (p : P) (o : Fin O) :
    IsReal (bnK y g bt p o) := by
  obtain ⟨r, h1, _⟩ := bn_real_at hP y g bt hy hg hbt p o
  exact ⟨r, h1⟩

end Layer

end Cert.Spiral

end
-- ==== Proof.BridgeMath.lean ====
/-
  One layer, the two spellings side by side.

  If a value x is max(y·scale + shift, 0) with y the layer's linear part at (row p, channel o) and scale, shift the
  per-channel scale and shift computed from the accumulated column sums, and every feature, weight, bias, gain and offset
  is a real number, then x is the centred spelling's value at (p, o) — and a real number, so that the next layer's
  features are real again. There are 8·12000 = 96000 rows, the number both spellings divide by.
-/
import proofs.«182203_j60619168416159_1_alg».proof.Proof.LayerMath

noncomputable section

namespace Cert.Spiral

open Idealize.ShloMosaic Cert.RealValued

/-- There are 96000 rows. -/
theorem card_rows : Fintype.card Rows = 96000 := by
  simp [Rows, Fintype.card_prod, Fintype.card_fin]

/-- The scale/shift spelling at one entry is the centred spelling's value, and real. -/
theorem layer_agree {K O : ℕ} (FE : Rows → Fin K → EReal) (WE : Fin O → Fin K → EReal) (BE G BT : Fin O → EReal)
    (hF : ∀ p k, IsReal (FE p k)) (hW : ∀ o k, IsReal (WE o k)) (hB : ∀ o, IsReal (BE o))
    (hG : ∀ o, IsReal (G o)) (hBT : ∀ o, IsReal (BT o))
    (x yv sc sh : EReal) (p : Rows) (o : Fin O)
    (hy : yv = lin FE WE BE p o) (hsc : sc = kScale (lin FE WE BE) G o) (hsh : sh = kShift (lin FE WE BE) G BT o)
    (hx : x = max (yv * sc + sh) zer) :
    x = bnR (lin FE WE BE) G BT p o ∧ IsReal x := by
  subst hy hsc hsh hx
  have hY : ∀ p o, IsReal (lin FE WE BE p o) := fun p o => lin_isReal FE WE BE hF hW hB p o
  have h1 := bnK_eq_bnR (P := Rows) card_rows (lin FE WE BE) G BT hY hG hBT
  exact ⟨congrFun (congrFun h1 p) o, bnK_isReal (P := Rows) card_rows (lin FE WE BE) G BT hY hG hBT p o⟩

/-- The pooled maximum of the two spellings agrees when every entry does. -/
theorem pool_congr {O : ℕ} (h h' : Rows → Fin O → EReal) (e : ∀ p o, h p o = h' p o) (b : Fin 8) (o : Fin O) :
    pool h b o = pool h' b o := by
  unfold pool
  congr 1
  funext v
  exact e (b, v) o

end Cert.Spiral

end
-- ==== Proof.RefValOps.lean ====
/-
  The reference's host operations read at one index, over arrays of shape [A, B, O]: A·B rows, O channels.

  A per-channel vector [O] stretched to [1, 1, O] and then over the rows to [A, B, O] reads its channel's entry; a
  scalar stretched to any shape reads the scalar. A sum over the two row axes is, at channel o, the initial value plus
  the sum over all rows (a, b) of the entry at (a, b, o): the indices that drop to o are exactly the (a, b, o), one per
  row. A row-by-weight product [A, B, K] · [O, K]ᵀ is, at (a, b, o), the sum over the contracted coordinate k of the
  products. A maximum over the middle axis is the fold of max over its coordinates, from the initial value.

  Two facts about literals, for the guard of the variance routine: 96000 − 0 is 96000 (the 0 an integer zero converted),
  and 96000 > 0.
-/
import Idealize.ShloMosaic.PureOps.Ideal.Laws
import Idealize.ShloMosaic.Lib.ValueIdx
import Idealize.ShloMosaic.Lib.Pipeline.Value
import proofs.«182203_j60619168416159_1_alg».proof.Proof.LayerMath

noncomputable section

namespace Cert.ReferenceIdeal.RefValue

open Idealize.ShloMosaic Idealize.ShloMosaic.ValueIdx

/-! ## Stretches -/

/-- A scalar stretched to any shape reads the scalar. -/
theorem bcast0_apply {α : Type} {t : Shape} (dims : Fin 0 → Fin t.rank) (h : (⟨0, ![]⟩ : Shape).BroadcastsInDim t dims)
    (x : (⟨0, ![]⟩ : Shape).Idx → α) (j : t.Idx) : broadcastInDim t dims h x j = x ix0 :=
  congrArg x (funext fun a => a.elim0)

/-- A vector [O] placed on the last axis of [1, 1, O] reads its entry. -/
theorem bcast1_apply {α : Type} {O : ℕ} (h : (⟨1, ![O]⟩ : Shape).BroadcastsInDim ⟨3, ![1, 1, O]⟩ ![2])
    (x : (⟨1, ![O]⟩ : Shape).Idx → α) (u v : Fin 1) (o : Fin O) :
    broadcastInDim ⟨3, ![1, 1, O]⟩ ![2] h x (ix3 u v o) = x (ix1 o) := by
  refine broadcastInDim_apply _ h x _ _ fun a => ?_
  match a with
  | ⟨0, _⟩ =>
    show o.val = if O = 1 then 0 else o.val
    have := o.isLt
    split <;> omega

/-- A [1, 1, O] array stretched over the rows to [A, B, O] reads its channel's entry. -/
theorem bcast3_apply {α : Type} {A B O : ℕ} (h : (⟨3, ![1, 1, O]⟩ : Shape).BroadcastsInDim ⟨3, ![A, B, O]⟩ ![0, 1, 2])
    (x : (⟨3, ![1, 1, O]⟩ : Shape).Idx → α) (a : Fin A) (b : Fin B) (o : Fin O) :
    broadcastInDim ⟨3, ![A, B, O]⟩ ![0, 1, 2] h x (ix3 a b o) = x (ix3 0 0 o) := by
  refine broadcastInDim_apply _ h x _ _ fun c => ?_
  match c with
  | ⟨0, _⟩ => rfl
  | ⟨1, _⟩ => rfl
  | ⟨2, _⟩ =>
    show o.val = if O = 1 then 0 else o.val
    have := o.isLt
    split <;> omega

/-- The two stretches in a row: a per-channel vector over the rows reads its channel's entry. -/
theorem chan_apply {α : Type} {A B O : ℕ} (h1 : (⟨1, ![O]⟩ : Shape).BroadcastsInDim ⟨3, ![1, 1, O]⟩ ![2])
    (h3 : (⟨3, ![1, 1, O]⟩ : Shape).BroadcastsInDim ⟨3, ![A, B, O]⟩ ![0, 1, 2])
    (x : (⟨1, ![O]⟩ : Shape).Idx → α) (a : Fin A) (b : Fin B) (o : Fin O) :
    broadcastInDim ⟨3, ![A, B, O]⟩ ![0, 1, 2] h3 (broadcastInDim ⟨3, ![1, 1, O]⟩ ![2] h1 x) (ix3 a b o) = x (ix1 o) := by
  rw [bcast3_apply, bcast1_apply]

/-! ## The sum over the rows -/

/-- The host's sum over the two row axes, at channel o: the initial value plus the sum over all rows. -/
theorem reduceRows_apply {A B O : ℕ} (h' : (⟨3, ![A, B, O]⟩ : Shape).ReducesTo [0, 1] ⟨1, ![O]⟩)
    (hu : 0 < (⟨0, ![]⟩ : Shape).numel) (y : FVec Ideal ⟨3, ![A, B, O]⟩ .f32) (init : FVec Ideal ⟨0, ![]⟩ .f32) (o : Fin O) :
    Host.reduceAdd (F := Ideal) y init h' hu (ix1 o) = init ix0 + ∑ p : Fin A × Fin B, y (ix3 p.1 p.2 o) := by
  show Ideal.hostReduceAdd h' y (init (Shape.Idx.first hu)) (ix1 o) = _
  unfold Ideal.hostReduceAdd
  rw [eq_ix0 (Shape.Idx.first hu)]
  congr 1
  have hdrop : ∀ i : (⟨3, ![A, B, O]⟩ : Shape).Idx, (h'.drop i 0).val = (i 2).val := fun i =>
    Shape.ReducesTo.drop_apply_val_of_eq h' i 0 2 Nat.zero_lt_one rfl
  have hfil : (Finset.univ.filter fun i => h'.drop i = ix1 o)
      = Finset.univ.image (fun p : Fin A × Fin B => (ix3 p.1 p.2 o : (⟨3, ![A, B, O]⟩ : Shape).Idx)) := by
    ext i
    simp only [Finset.mem_filter, Finset.mem_univ, true_and, Finset.mem_image]
    constructor
    · intro hi
      refine ⟨(i 0, i 1), ?_⟩
      have h2 : (i 2).val = o.val := by
        rw [← hdrop i, hi]
        rfl
      funext c
      apply Fin.ext
      match c with
      | ⟨0, _⟩ => rfl
      | ⟨1, _⟩ => rfl
      | ⟨2, _⟩ => exact h2.symm
    · rintro ⟨p, rfl⟩
      funext c
      apply Fin.ext
      match c with
      | ⟨0, _⟩ => exact hdrop _
  rw [hfil, Finset.sum_image]
  intro p _ q _ e
  have e0 := congrFun e 0
  have e1 := congrFun e 1
  exact Prod.ext e0 e1

/-! ## The row-by-weight product -/

/-- The rows' product with the weights, [A, B, K] · [O, K]ᵀ, at (a, b, o): the sum over the contracted coordinate. -/
theorem dotRows_apply {A B K O : ℕ} {φ₁ φ₂ : FTy}
    (w : DotDims.WF ⟨3, ![A, B, K]⟩ ⟨2, ![O, K]⟩ ⟨3, ![A, B, O]⟩ [2] [1] [0, 1] [0] [] [])
    (prec : Option ContractPrecision) (X : FVec Ideal ⟨3, ![A, B, K]⟩ φ₁) (W : FVec Ideal ⟨2, ![O, K]⟩ φ₂)
    (a : Fin A) (b : Fin B) (o : Fin O) :
    Host.dotGeneral (⟨[2], [1], [0, 1], [0], [], [], w⟩ : DotDims _ _ _) prec X W (ix3 a b o)
      = ∑ c : Fin K, X (ix3 a b c) * W (ix2 o c) := by
  show FloatOps.dotGeneral _ prec _ X W (ix3 a b o) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![A, B, K]⟩ ⟨2, ![O, K]⟩ ⟨3, ![A, B, O]⟩) K rfl rfl c
  have l3 : (⟨[2], [1], [0, 1], [0], [], [], w⟩ : DotDims ⟨3, ![A, B, K]⟩ ⟨2, ![O, K]⟩ ⟨3, ![A, B, O]⟩).lhsIdx (ix3 a b o)
      ((contrEquiv1 _ K rfl rfl).symm c) = ix3 a b c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![A, B, K]⟩ ⟨2, ![O, K]⟩ ⟨3, ![A, B, O]⟩).rhsIdx (ix3 a b o)
      ((contrEquiv1 _ K rfl rfl).symm c) = ix2 o c := by
    funext ax; apply Fin.ext
    match ax with
    | ⟨0, _⟩ => simp [DotDims.rhsIdx]; rfl
    | ⟨1, _⟩ => simp [DotDims.rhsIdx]; exact c3
  rw [l3, r3]

/-! ## The maximum over the middle axis -/

/-- The host's maximum over the middle axis of [A, B, O], at (a, o): the fold of max over b, from the initial value. -/
theorem maxMid_apply {A B O : ℕ} (h' : (⟨3, ![A, B, O]⟩ : Shape).ReducesTo [1] ⟨2, ![A, O]⟩)
    (hu : 0 < (⟨0, ![]⟩ : Shape).numel) (x : FVec Ideal ⟨3, ![A, B, O]⟩ .f32) (init : FVec Ideal ⟨0, ![]⟩ .f32)
    (a : Fin A) (o : Fin O) :
    Host.reduce (FloatOps.maximumf (F := Ideal) (φ := .f32)) x init h' hu (ix2 a o)
      = (Finset.univ : Finset (Fin B)).fold max (init ix0) (fun v => x (ix3 a v o)) := by
  have h : (⟨3, ![A, B, O]⟩ : Shape).Reduces [1] ⟨2, ![A, O]⟩ := ⟨h'.1, Nat.zero_lt_two, h'.2⟩
  rw [Host.reduce_eq_fold_single _ x init h' h hu, eq_ix0 (Shape.Idx.first hu)]
  have hx : (x ∘ h.lift (ix2 a o)) = fun v : Fin B => x (ix3 a v o) := by
    funext v
    refine congrArg x (funext fun c => Fin.ext ?_)
    match c with
    | ⟨0, _⟩ => rfl
    | ⟨1, _⟩ => rfl
    | ⟨2, _⟩ => rfl
  rw [hx]
  rfl

/-! ## Two facts about literals -/

/-- 96000 − 0, the 0 an integer zero converted, is 96000. -/
theorem nfree_apply (j : (⟨0, ![]⟩ : Shape).Idx) :
    subf (constant (F := Ideal) ⟨0, ![]⟩ .f32 0x47BB8000#32) (sitofp .f32 (constantI ⟨0, ![]⟩ 32 0#32)) j
      = Cert.Spiral.cnt := by
  show Ideal.ofBits .f32 0x47BB8000#32 - (((0#32 : BitVec 32).toInt : ℝ) : EReal) = _
  simp

/-- 96000 > 0, as the comparison's one-bit word. -/
theorem cnt_gt_zero : Ideal.cmp .ogt Cert.Spiral.cnt (Ideal.ofBits .f32 0x00000000#32) = 1#1 := by
  have h : (0 : EReal) < ((96000 : ℝ) : EReal) := by exact_mod_cast (by norm_num : (0 : ℝ) < 96000)
  rw [Ideal.ofBits_zero_f32, Cert.Spiral.cnt_eq]
  simp [Ideal.cmp, h]

end Cert.ReferenceIdeal.RefValue

end
-- ==== Proof.RefValue1.lean ====
/-
  Layer 1 of the reference, read at an index.

  The layer's linear map with bias at (batch, vertex, channel) is the sum over the 27 gathered features of feature times
  weight, plus the bias. Its column mean at a channel is (0 + the sum over all 96000 rows) / 96000. The deviations from the
  mean, the guarded column variance — the guard 96000 − 0 > 0 holds, so the select takes its first branch, the mean of the
  squared deviations — and then (y − μ)·rsqrt(σ² + ε)·g + β clipped below at 0: the centred spelling of the normalisation.
-/
import proofs.«182203_j60619168416159_1_alg».proof.Proof.RefTerm
import proofs.«182203_j60619168416159_1_alg».proof.Proof.RefValOps

noncomputable section

namespace Cert.ReferenceIdeal.RefValue

open Cert.ReferenceIdeal Cert.ReferenceIdeal.Gen Idealize.ShloMosaic Idealize.ShloMosaic.ValueIdx Cert.Spiral

/-- The linear map with bias at (batch, vertex, channel). -/
theorem lin1_apply (f : FVec Ideal S8x12000x27 .f32) (w : FVec Ideal S64x27 .f32) (b : FVec Ideal S64 .f32)
    (bb : Fin 8) (v : Fin 12000) (o : Fin 64) :
    Term.lin1 (F := Ideal) f w b (ix3 bb v o)
      = lin (P := Rows) (fun p k => f (ix3 p.1 p.2 k)) (fun o k => w (ix2 o k)) (fun o => b (ix1 o)) (bb, v) o := by
  unfold Term.lin1 lin
  rw [addf_apply, chan_apply]
  congr 1
  exact dotRows_apply _ none f w bb v o

/-- The column mean at a channel. -/
theorem mean1_apply (y : FVec Ideal S8x12000x64 .f32) (o : Fin 64) :
    Term.mean1 (F := Ideal) y (ix1 o) = rMean (P := Rows) (fun p o => y (ix3 p.1 p.2 o)) o := by
  unfold Term.mean1 rMean colSum Host.divf
  rw [reduceRows_apply, bcast0_apply]
  rfl

/-- The deviations from the column mean. -/
theorem centred1_apply (y : FVec Ideal S8x12000x64 .f32) (bb : Fin 8) (v : Fin 12000) (o : Fin 64) :
    Term.centred1 (F := Ideal) y (ix3 bb v o)
      = y (ix3 bb v o) - rMean (P := Rows) (fun p o => y (ix3 p.1 p.2 o)) o := by
  unfold Term.centred1 rMean colSum
  rw [subf_apply, bcast3_apply]
  unfold Host.divf
  rw [bcast1_apply, bcast0_apply, reduceRows_apply]
  rfl

/-- The divisor of the variance is 96000. -/
theorem nfree1_apply (j : S_.Idx) : Term.nfree1 (F := Ideal) j = cnt := nfree_apply j

/-- The guarded column variance at a channel: the guard holds, and the first branch is the mean of the squared deviations. -/
theorem var1_apply (y : FVec Ideal S8x12000x64 .f32) (o : Fin 64) :
    Term.var1 (F := Ideal) y (ix1 o) = rVar (P := Rows) (fun p o => y (ix3 p.1 p.2 o)) o := by
  unfold Term.var1
  rw [select_apply, bcast0_apply, cmpf_apply]
  have hg : FloatOps.cmpf (F := Ideal) .ogt (Term.nfree1 (F := Ideal) ix0)
      (constant (F := Ideal) S_ .f32 0x00000000#32 ix0) = 1#1 := by
    rw [nfree1_apply]; exact cnt_gt_zero
  rw [hg, select_one]
  unfold Host.divf rVar
  rw [reduceRows_apply, bcast0_apply, nfree1_apply]
  simp only [mulf_apply, centred1_apply]
  rfl

/-- Layer 1 at (batch, vertex, channel): the centred spelling of the normalisation of the linear map's output. -/
theorem layer1_apply (f : FVec Ideal S8x12000x27 .f32) (w : FVec Ideal S64x27 .f32) (b g bt : FVec Ideal S64 .f32)
    (bb : Fin 8) (v : Fin 12000) (o : Fin 64) :
    Term.layer1 (F := Ideal) f w b g bt (ix3 bb v o)
      = bnR (P := Rows) (lin (fun p k => f (ix3 p.1 p.2 k)) (fun o k => w (ix2 o k)) (fun o => b (ix1 o)))
          (fun o => g (ix1 o)) (fun o => bt (ix1 o)) (bb, v) o := by
  unfold Term.layer1 bnR
  rw [maximumf_apply, addf_apply, mulf_apply, mulf_apply, subf_apply, chan_apply, chan_apply, chan_apply, chan_apply,
    bcast0_apply, mean1_apply]
  unfold Host.rsqrt
  rw [addf_apply, var1_apply, bcast0_apply]
  simp only [lin1_apply]
  rfl

end Cert.ReferenceIdeal.RefValue

end
-- ==== Proof.RefValue2.lean ====
/-
  Layer 2 of the reference, read at an index.

  The layer's linear map with bias at (batch, vertex, channel) is the sum over the 576 gathered features of feature times
  weight, plus the bias. Its column mean at a channel is (0 + the sum over all 96000 rows) / 96000. The deviations from the
  mean, the guarded column variance — the guard 96000 − 0 > 0 holds, so the select takes its first branch, the mean of the
  squared deviations — and then (y − μ)·rsqrt(σ² + ε)·g + β clipped below at 0: the centred spelling of the normalisation.
-/
import proofs.«182203_j60619168416159_1_alg».proof.Proof.RefTerm
import proofs.«182203_j60619168416159_1_alg».proof.Proof.RefValOps

noncomputable section

namespace Cert.ReferenceIdeal.RefValue

open Cert.ReferenceIdeal Cert.ReferenceIdeal.Gen Idealize.ShloMosaic Idealize.ShloMosaic.ValueIdx Cert.Spiral

/-- The linear map with bias at (batch, vertex, channel). -/
theorem lin2_apply (f : FVec Ideal S8x12000x576 .f32) (w : FVec Ideal S128x576 .f32) (b : FVec Ideal S128 .f32)
    (bb : Fin 8) (v : Fin 12000) (o : Fin 128) :
    Term.lin2 (F := Ideal) f w b (ix3 bb v o)
      = lin (P := Rows) (fun p k => f (ix3 p.1 p.2 k)) (fun o k => w (ix2 o k)) (fun o => b (ix1 o)) (bb, v) o := by
  unfold Term.lin2 lin
  rw [addf_apply, chan_apply]
  congr 1
  exact dotRows_apply _ none f w bb v o

/-- The column mean at a channel. -/
theorem mean2_apply (y : FVec Ideal S8x12000x128 .f32) (o : Fin 128) :
    Term.mean2 (F := Ideal) y (ix1 o) = rMean (P := Rows) (fun p o => y (ix3 p.1 p.2 o)) o := by
  unfold Term.mean2 rMean colSum Host.divf
  rw [reduceRows_apply, bcast0_apply]
  rfl

/-- The deviations from the column mean. -/
theorem centred2_apply (y : FVec Ideal S8x12000x128 .f32) (bb : Fin 8) (v : Fin 12000) (o : Fin 128) :
    Term.centred2 (F := Ideal) y (ix3 bb v o)
      = y (ix3 bb v o) - rMean (P := Rows) (fun p o => y (ix3 p.1 p.2 o)) o := by
  unfold Term.centred2 rMean colSum
  rw [subf_apply, bcast3_apply]
  unfold Host.divf
  rw [bcast1_apply, bcast0_apply, reduceRows_apply]
  rfl

/-- The divisor of the variance is 96000. -/
theorem nfree2_apply (j : S_.Idx) : Term.nfree2 (F := Ideal) j = cnt := nfree_apply j

/-- The guarded column variance at a channel: the guard holds, and the first branch is the mean of the squared deviations. -/
theorem var2_apply (y : FVec Ideal S8x12000x128 .f32) (o : Fin 128) :
    Term.var2 (F := Ideal) y (ix1 o) = rVar (P := Rows) (fun p o => y (ix3 p.1 p.2 o)) o := by
  unfold Term.var2
  rw [select_apply, bcast0_apply, cmpf_apply]
  have hg : FloatOps.cmpf (F := Ideal) .ogt (Term.nfree2 (F := Ideal) ix0)
      (constant (F := Ideal) S_ .f32 0x00000000#32 ix0) = 1#1 := by
    rw [nfree2_apply]; exact cnt_gt_zero
  rw [hg, select_one]
  unfold Host.divf rVar
  rw [reduceRows_apply, bcast0_apply, nfree2_apply]
  simp only [mulf_apply, centred2_apply]
  rfl

/-- Layer 2 at (batch, vertex, channel): the centred spelling of the normalisation of the linear map's output. -/
theorem layer2_apply (f : FVec Ideal S8x12000x576 .f32) (w : FVec Ideal S128x576 .f32) (b g bt : FVec Ideal S128 .f32)
    (bb : Fin 8) (v : Fin 12000) (o : Fin 128) :
    Term.layer2 (F := Ideal) f w b g bt (ix3 bb v o)
      = bnR (P := Rows) (lin (fun p k => f (ix3 p.1 p.2 k)) (fun o k => w (ix2 o k)) (fun o => b (ix1 o)))
          (fun o => g (ix1 o)) (fun o => bt (ix1 o)) (bb, v) o := by
  unfold Term.layer2 bnR
  rw [maximumf_apply, addf_apply, mulf_apply, mulf_apply, subf_apply, chan_apply, chan_apply, chan_apply, chan_apply,
    bcast0_apply, mean2_apply]
  unfold Host.rsqrt
  rw [addf_apply, var2_apply, bcast0_apply]
  simp only [lin2_apply]
  rfl

end Cert.ReferenceIdeal.RefValue

end
-- ==== Proof.RefValue3.lean ====
/-
  Layer 3 of the reference, read at an index.

  The layer's linear map with bias at (batch, vertex, channel) is the sum over the 1152 gathered features of feature times
  weight, plus the bias. Its column mean at a channel is (0 + the sum over all 96000 rows) / 96000. The deviations from the
  mean, the guarded column variance — the guard 96000 − 0 > 0 holds, so the select takes its first branch, the mean of the
  squared deviations — and then (y − μ)·rsqrt(σ² + ε)·g + β clipped below at 0: the centred spelling of the normalisation.
-/
import proofs.«182203_j60619168416159_1_alg».proof.Proof.RefTerm
import proofs.«182203_j60619168416159_1_alg».proof.Proof.RefValOps

noncomputable section

namespace Cert.ReferenceIdeal.RefValue

open Cert.ReferenceIdeal Cert.ReferenceIdeal.Gen Idealize.ShloMosaic Idealize.ShloMosaic.ValueIdx Cert.Spiral

/-- The linear map with bias at (batch, vertex, channel). -/
theorem lin3_apply (f : FVec Ideal S8x12000x1152 .f32) (w : FVec Ideal S256x1152 .f32) (b : FVec Ideal S256 .f32)
    (bb : Fin 8) (v : Fin 12000) (o : Fin 256) :
    Term.lin3 (F := Ideal) f w b (ix3 bb v o)
      = lin (P := Rows) (fun p k => f (ix3 p.1 p.2 k)) (fun o k => w (ix2 o k)) (fun o => b (ix1 o)) (bb, v) o := by
  unfold Term.lin3 lin
  rw [addf_apply, chan_apply]
  congr 1
  exact dotRows_apply _ none f w bb v o

/-- The column mean at a channel. -/
theorem mean3_apply (y : FVec Ideal S8x12000x256 .f32) (o : Fin 256) :
    Term.mean3 (F := Ideal) y (ix1 o) = rMean (P := Rows) (fun p o => y (ix3 p.1 p.2 o)) o := by
  unfold Term.mean3 rMean colSum Host.divf
  rw [reduceRows_apply, bcast0_apply]
  rfl

/-- The deviations from the column mean. -/
theorem centred3_apply (y : FVec Ideal S8x12000x256 .f32) (bb : Fin 8) (v : Fin 12000) (o : Fin 256) :
    Term.centred3 (F := Ideal) y (ix3 bb v o)
      = y (ix3 bb v o) - rMean (P := Rows) (fun p o => y (ix3 p.1 p.2 o)) o := by
  unfold Term.centred3 rMean colSum
  rw [subf_apply, bcast3_apply]
  unfold Host.divf
  rw [bcast1_apply, bcast0_apply, reduceRows_apply]
  rfl

/-- The divisor of the variance is 96000. -/
theorem nfree3_apply (j : S_.Idx) : Term.nfree3 (F := Ideal) j = cnt := nfree_apply j

/-- The guarded column variance at a channel: the guard holds, and the first branch is the mean of the squared deviations. -/
theorem var3_apply (y : FVec Ideal S8x12000x256 .f32) (o : Fin 256) :
    Term.var3 (F := Ideal) y (ix1 o) = rVar (P := Rows) (fun p o => y (ix3 p.1 p.2 o)) o := by
  unfold Term.var3
  rw [select_apply, bcast0_apply, cmpf_apply]
  have hg : FloatOps.cmpf (F := Ideal) .ogt (Term.nfree3 (F := Ideal) ix0)
      (constant (F := Ideal) S_ .f32 0x00000000#32 ix0) = 1#1 := by
    rw [nfree3_apply]; exact cnt_gt_zero
  rw [hg, select_one]
  unfold Host.divf rVar
  rw [reduceRows_apply, bcast0_apply, nfree3_apply]
  simp only [mulf_apply, centred3_apply]
  rfl

/-- Layer 3 at (batch, vertex, channel): the centred spelling of the normalisation of the linear map's output. -/
theorem layer3_apply (f : FVec Ideal S8x12000x1152 .f32) (w : FVec Ideal S256x1152 .f32) (b g bt : FVec Ideal S256 .f32)
    (bb : Fin 8) (v : Fin 12000) (o : Fin 256) :
    Term.layer3 (F := Ideal) f w b g bt (ix3 bb v o)
      = bnR (P := Rows) (lin (fun p k => f (ix3 p.1 p.2 k)) (fun o k => w (ix2 o k)) (fun o => b (ix1 o)))
          (fun o => g (ix1 o)) (fun o => bt (ix1 o)) (bb, v) o := by
  unfold Term.layer3 bnR
  rw [maximumf_apply, addf_apply, mulf_apply, mulf_apply, subf_apply, chan_apply, chan_apply, chan_apply, chan_apply,
    bcast0_apply, mean3_apply]
  unfold Host.rsqrt
  rw [addf_apply, var3_apply, bcast0_apply]
  simp only [lin3_apply]
  rfl

end Cert.ReferenceIdeal.RefValue

end
-- ==== Proof.RefValuePool.lean ====
/-
  The reference's pooling and its gathers, read at an index.

  The maximum over the vertices of a [8, 12000, 256] array, at (batch, channel), is the fold of max over the 12000
  vertices from −∞. A gather followed by a reshape only moves entries: every entry of the gathered-and-reshaped array is
  an entry of the operand, so it is a real number when every entry of the operand is.
-/
import proofs.«182203_j60619168416159_1_alg».proof.Proof.RefTerm
import proofs.«182203_j60619168416159_1_alg».proof.Proof.RefValOps

noncomputable section

namespace Cert.ReferenceIdeal.RefValue

open Cert.ReferenceIdeal Cert.ReferenceIdeal.Gen Idealize.ShloMosaic Idealize.ShloMosaic.ValueIdx Cert.Spiral Cert.RealValued

/-- The maximum over the vertices at (batch, channel). -/
theorem pooled_apply (h : FVec Ideal S8x12000x256 .f32) (bb : Fin 8) (o : Fin 256) :
    Term.pooled (F := Ideal) h (ix2 bb o) = Cert.Spiral.pool (fun p o => h (ix3 p.1 p.2 o)) bb o := by
  unfold Term.pooled Cert.Spiral.pool
  rw [maxMid_apply]
  rfl

/-- Layer 1's gathered features are entries of the operand. -/
theorem feat1_isReal (h : FVec Ideal S8x12000x3 .f32) (sp : (⟨S8x12000x9, .i32⟩ : BufTy).Contents (Elt Ideal))
    (hh : ∀ i, IsReal (h i)) (i : S8x12000x27.Idx) : IsReal (Term.feat1 (F := Ideal) h sp i) :=
  hh _

/-- Layer 2's gathered features are entries of the operand. -/
theorem feat2_isReal (h : FVec Ideal S8x12000x64 .f32) (sp : (⟨S8x12000x9, .i32⟩ : BufTy).Contents (Elt Ideal))
    (hh : ∀ i, IsReal (h i)) (i : S8x12000x576.Idx) : IsReal (Term.feat2 (F := Ideal) h sp i) :=
  hh _

/-- Layer 3's gathered features are entries of the operand. -/
theorem feat3_isReal (h : FVec Ideal S8x12000x128 .f32) (sp : (⟨S8x12000x9, .i32⟩ : BufTy).Contents (Elt Ideal))
    (hh : ∀ i, IsReal (h i)) (i : S8x12000x1152.Idx) : IsReal (Term.feat3 (F := Ideal) h sp i) :=
  hh _

end Cert.ReferenceIdeal.RefValue

end
-- ==== Proof.RefValue.lean ====
/-
  The reference's value read at an index, all of it: the three layers in the centred spelling of the normalisation,
  the maximum over the vertices, and the gathers that only move entries.
-/
import proofs.«182203_j60619168416159_1_alg».proof.Proof.RefValue1
import proofs.«182203_j60619168416159_1_alg».proof.Proof.RefValue2
import proofs.«182203_j60619168416159_1_alg».proof.Proof.RefValue3
import proofs.«182203_j60619168416159_1_alg».proof.Proof.RefValuePool
-- ==== Proof.TileMath.lean ====
/-
  Rows visited tile by tile.

  The 96000 rows (batch b < 8, vertex v < 12000) are visited in 30 tiles of 400 vertices; inside a tile the 3200 rows
  are laid batch-major, r = 400·b + v'. A sum over all rows is the sum over the tiles of the sums over a tile's rows
  (any commutative monoid), and a maximum over the vertices is the maximum over the tiles of the maxima over a tile's
  vertices (any linear order, starting from any value e below which nothing is lost: max e (max e x) = max e x).
-/
import Mathlib.Tactic
import Mathlib.Algebra.BigOperators.Fin
import Mathlib.Data.Fintype.BigOperators
import Mathlib.Data.Finset.Fold

namespace Cert.Spiral.Tiles

/-- Row r < 3200 of tile t < 30: batch r / 400, vertex 400·t + r % 400. -/
def row (t : Fin 30) (r : Fin 3200) : Fin 8 × Fin 12000 :=
  (⟨r.val / 400, by have := r.isLt; omega⟩, ⟨400 * t.val + r.val % 400, by have := t.isLt; have := r.isLt; omega⟩)

/-- Vertex j < 400 of tile t < 30. -/
def vert (t : Fin 30) (j : Fin 400) : Fin 12000 := ⟨400 * t.val + j.val, by have := t.isLt; have := j.isLt; omega⟩

/-- A sum over all rows, tile by tile. -/
theorem sum_rows {M : Type} [AddCommMonoid M] (f : Fin 8 × Fin 12000 → M) :
    ∑ p, f p = ∑ t : Fin 30, ∑ r : Fin 3200, f (row t r) := by
  rw [← Fintype.sum_prod_type' (f := fun t r => f (row t r))]
  symm
  apply Fintype.sum_bijective (fun x : Fin 30 × Fin 3200 => row x.1 x.2)
  · rw [Fintype.bijective_iff_injective_and_card]
    constructor
    · rintro ⟨t, r⟩ ⟨t', r'⟩ h
      simp only [row, Prod.mk.injEq, Fin.mk.injEq] at h
      obtain ⟨h1, h2⟩ := h
      have := t.isLt; have := t'.isLt; have := r.isLt; have := r'.isLt
      refine Prod.ext (Fin.ext ?_) (Fin.ext ?_) <;> simp only <;> omega
    · simp
  · intro x; rfl

/-- The sum over the first n+1 tiles is the sum over the first n plus tile n's (the running total of an accumulator). -/
theorem sum_tiles_succ {M : Type} [AddCommMonoid M] (g : Fin 30 → M) (n : ℕ) (h : n + 1 < 30) :
    ∑ t : Fin 30, (if t.val ≤ n + 1 then g t else 0) = (∑ t : Fin 30, (if t.val ≤ n then g t else 0)) + g ⟨n + 1, h⟩ := by
  have key : ∀ t : Fin 30, (if t.val ≤ n + 1 then g t else 0)
      = (if t.val ≤ n then g t else 0) + (if t = ⟨n + 1, h⟩ then g t else 0) := by
    intro t
    by_cases h1 : t.val ≤ n
    · have h2 : t ≠ ⟨n + 1, h⟩ := by
        intro e; rw [e] at h1; simp at h1
      have h3 : t.val ≤ n + 1 := by omega
      simp [h1, h2, h3]
    · by_cases h2 : t = ⟨n + 1, h⟩
      · subst h2; simp
      · have h3 : ¬ t.val ≤ n + 1 := by
          intro h3; apply h2; apply Fin.ext; simp only; omega
        simp [h1, h2, h3]
  simp_rw [key, Finset.sum_add_distrib]
  congr 1
  simp

/-- A maximum over all vertices from e, tile by tile. -/
theorem fold_max_verts {α : Type} [LinearOrder α] (e : α) (g : Fin 12000 → α) :
    (Finset.univ : Finset (Fin 12000)).fold max e g
      = (Finset.univ : Finset (Fin 30)).fold max e (fun t => (Finset.univ : Finset (Fin 400)).fold max e (fun j => g (vert t j))) := by
  apply eq_of_forall_le_iff
  intro c
  simp only [Finset.le_fold_max, Finset.mem_univ, true_and]
  constructor
  · rintro (h | ⟨v, hv⟩)
    · exact Or.inl h
    · have hv' := v.isLt
      refine Or.inr ⟨⟨v.val / 400, by omega⟩, Or.inr ⟨⟨v.val % 400, Nat.mod_lt _ (by norm_num)⟩, ?_⟩⟩
      have e : vert ⟨v.val / 400, by omega⟩ ⟨v.val % 400, Nat.mod_lt _ (by norm_num)⟩ = v := by
        apply Fin.ext; simp only [vert]; omega
      rw [e]; exact hv
  · rintro (h | ⟨t, h | ⟨j, hj⟩⟩)
    · exact Or.inl h
    · exact Or.inl h
    · exact Or.inr ⟨_, hj⟩

end Cert.Spiral.Tiles
-- ==== Proof.RunningTotal.lean ====
/-
  Running totals over a row of points.

  A quantity that after point 0 is 0 + g 0 and after every later point n is what the point before left plus g n is,
  after point n, the sum of g over the points up to n; after the last point it is the sum of g over all points.
  This holds in any commutative additive monoid and for any number of points.
-/
import Mathlib.Tactic
import Mathlib.Algebra.BigOperators.Fin
import Mathlib.Data.Fintype.BigOperators

namespace Cert.Spiral.Running

/-- Only point 0 lies at or below 0. -/
theorem sum_upto_zero {M : Type} [AddCommMonoid M] {N : ℕ} (g : Fin N → M) (h : 0 < N) :
    ∑ t : Fin N, (if t.val ≤ 0 then g t else 0) = g ⟨0, h⟩ := by
  rw [Finset.sum_eq_single (⟨0, h⟩ : Fin N)]
  · simp
  · intro b _ hb
    have : ¬ b.val ≤ 0 := by
      intro hle; apply hb; apply Fin.ext; simp only; omega
    simp [this]
  · intro hne; exact absurd (Finset.mem_univ _) hne

/-- The sum over the points up to n + 1 is the sum over the points up to n plus point n + 1's term. -/
theorem sum_upto_succ {M : Type} [AddCommMonoid M] {N : ℕ} (g : Fin N → M) (n : ℕ) (h : n + 1 < N) :
    ∑ t : Fin N, (if t.val ≤ n + 1 then g t else 0) = (∑ t : Fin N, (if t.val ≤ n then g t else 0)) + g ⟨n + 1, h⟩ := by
  have key : ∀ t : Fin N, (if t.val ≤ n + 1 then g t else 0)
      = (if t.val ≤ n then g t else 0) + (if t = ⟨n + 1, h⟩ then g t else 0) := by
    intro t
    by_cases h1 : t.val ≤ n
    · have h2 : t ≠ ⟨n + 1, h⟩ := by
        intro e; rw [e] at h1; simp at h1
      have h3 : t.val ≤ n + 1 := by omega
      simp [h1, h2, h3]
    · by_cases h2 : t = ⟨n + 1, h⟩
      · subst h2; simp
      · have h3 : ¬ t.val ≤ n + 1 := by
          intro h3; apply h2; apply Fin.ext; simp only; omega
        simp [h1, h2, h3]
  simp_rw [key, Finset.sum_add_distrib]
  congr 1
  simp

/-- Every point lies at or below the last one. -/
theorem sum_upto_last {M : Type} [AddCommMonoid M] {N : ℕ} (g : Fin N → M) (n : ℕ) (h : N ≤ n + 1) :
    ∑ t : Fin N, (if t.val ≤ n then g t else 0) = ∑ t : Fin N, g t := by
  refine Finset.sum_congr rfl fun t _ => ?_
  have : t.val ≤ n := by have := t.isLt; omega
  simp [this]

/-- A running total that starts at 0 + g 0 and adds g n at point n holds, after point n, the sum of g up to n. -/
theorem total_eq {M : Type} [AddCommMonoid M] {N : ℕ} (g : Fin N → M) (acc : (n : ℕ) → n < N → M)
    (h0 : ∀ h : 0 < N, acc 0 h = 0 + g ⟨0, h⟩)
    (hs : ∀ (n : ℕ) (h : n + 1 < N), acc (n + 1) h = acc n (Nat.lt_of_succ_lt h) + g ⟨n + 1, h⟩) :
    ∀ (n : ℕ) (h : n < N), acc n h = ∑ t : Fin N, (if t.val ≤ n then g t else 0)
  | 0, h => by rw [h0 h, zero_add, sum_upto_zero g h]
  | n + 1, h => by rw [hs n h, total_eq g acc h0 hs n (Nat.lt_of_succ_lt h), sum_upto_succ g n h]

/-- After the last point the running total is the sum of g over all points. -/
theorem total_last {M : Type} [AddCommMonoid M] {N : ℕ} (g : Fin N → M) (acc : (n : ℕ) → n < N → M)
    (h0 : ∀ h : 0 < N, acc 0 h = 0 + g ⟨0, h⟩)
    (hs : ∀ (n : ℕ) (h : n + 1 < N), acc (n + 1) h = acc n (Nat.lt_of_succ_lt h) + g ⟨n + 1, h⟩)
    (n : ℕ) (h : n < N) (hl : N ≤ n + 1) : acc n h = ∑ t : Fin N, g t := by
  rw [total_eq g acc h0 hs n h, sum_upto_last g n hl]

end Cert.Spiral.Running
-- ==== Proof.KLin0.lean ====
/-
  The first layer's linear pass, read as mathematics.

  The pass visits the 12000 vertices in 30 tiles of 400. At each tile it forms y = feat · wᵀ + b for the tile's
  3200 rows (8 batches × 400 vertices, batch-major), writes that block of y to its place in the y array, and adds the
  block's column sums, and the column sums of its squares, to two running rows that were set to zero at the first
  tile and are written back once after the last. So after the pass the y array holds, at row (batch, vertex) and
  channel o, the number ∑ₖ feat((batch, vertex), k)·w(o, k) + b(o); the sum row holds every channel's sum of y
  over all 96000 rows; and the sum-of-squares row holds every channel's sum of y². The proof reads each store's
  value at an index (the product-sum of a row of the feature block with a column of the weights, the reshape
  between 3200 rows and 8 × 400, the column sum as a sum over the 3200 rows), shows by induction over the tiles that
  the running rows hold the sums over the tiles so far, and regroups the sum over the tiles' rows as the sum over
  all rows.
-/
import proofs.«182203_j60619168416159_1_alg».proof.Proof.Gen.KernelIdeal.Frame
import proofs.«182203_j60619168416159_1_alg».proof.Proof.LayerSpec
import proofs.«182203_j60619168416159_1_alg».proof.Proof.TileMath
import proofs.«182203_j60619168416159_1_alg».proof.Proof.RunningTotal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Lin0

open Cert.KernelIdeal Cert.KernelIdeal.Gen

theorem pay3_apply (x0 : Vec Ideal S8x400x27 .bf16) (x1 : Vec Ideal S27x64 .bf16) (x2 : Vec Ideal S64 .f32)
    (b : Fin 8) (j : Fin 400) (o : Fin 64) :
    k0_pay3 x0 x1 x2 (ix2 (⟨400 * b.val + j.val, by omega⟩ : Fin 3200) o)
      = (∑ k : Fin 27, x0 (ix3 b j k) * x1 (ix2 k o)) + x2 (ix1 o) := by
  unfold k0_pay3
  refine (addf_apply _ _ _).trans ?_
  congr 1
  · refine (Ideal.matmul_constant_zero_apply dot_S3200x27_S27x64_S3200x64_1_0_0_1_n_n none _ _ _).trans ?_
    refine ((contrEquiv1 dot_S3200x27_S27x64_S3200x64_1_0_0_1_n_n 27 rfl rfl).symm.sum_comp _).symm.trans ?_
    refine Finset.sum_congr rfl fun k _ => ?_
    have hl0 : ((dot_S3200x27_S27x64_S3200x64_1_0_0_1_n_n.lhsIdx (ix2 (⟨400 * b.val + j.val, by omega⟩ : Fin 3200) o)
          ((contrEquiv1 dot_S3200x27_S27x64_S3200x64_1_0_0_1_n_n 27 rfl rfl).symm k)) 0).val = 400 * b.val + j.val := rfl
    have hl1 : ((dot_S3200x27_S27x64_S3200x64_1_0_0_1_n_n.lhsIdx (ix2 (⟨400 * b.val + j.val, by omega⟩ : Fin 3200) o)
          ((contrEquiv1 dot_S3200x27_S27x64_S3200x64_1_0_0_1_n_n 27 rfl rfl).symm k)) 1).val = k.val :=
      (dot_S3200x27_S27x64_S3200x64_1_0_0_1_n_n.lhsIdx_val_of_single rfl _ _).trans (contrEquiv1_symm_val _ 27 rfl rfl k)
    have hr0 : ((dot_S3200x27_S27x64_S3200x64_1_0_0_1_n_n.rhsIdx (ix2 (⟨400 * b.val + j.val, by omega⟩ : Fin 3200) o)
          ((contrEquiv1 dot_S3200x27_S27x64_S3200x64_1_0_0_1_n_n 27 rfl rfl).symm k)) 0).val = k.val :=
      (dot_S3200x27_S27x64_S3200x64_1_0_0_1_n_n.rhsIdx_val_of_single rfl _ _).trans (contrEquiv1_symm_val _ 27 rfl rfl k)
    have hr1 : ((dot_S3200x27_S27x64_S3200x64_1_0_0_1_n_n.rhsIdx (ix2 (⟨400 * b.val + j.val, by omega⟩ : Fin 3200) o)
          ((contrEquiv1 dot_S3200x27_S27x64_S3200x64_1_0_0_1_n_n 27 rfl rfl).symm k)) 1).val = o.val := rfl
    congr 1
    · refine (shapeCast_apply (shapeCast S8x400x27 x0 shapeCasts_S8x400x27_S8x400x27) shapeCasts_S8x400x27_S3200x27 _ (ix3 b j k) ?_).trans
        (congrFun (shapeCast_self x0 _) _)
      rw [Shape.rowMajor_val_three, Shape.rowMajor_val_two, hl0, hl1]
      show (b.val * 400 + j.val) * 27 + k.val = (400 * b.val + j.val) * 27 + k.val
      omega
    · refine (congrFun (shapeCast_self x1 _) _).trans (congrArg x1 ?_)
      funext a; apply Fin.ext
      match a with
      | ⟨0, _⟩ => exact hr0
      | ⟨1, _⟩ => exact hr1
  · refine (broadcastTo_apply _ broadcasts_S1x64_S3200x64 _ (ix2 0 o) ?_).trans ?_
    · intro a
      match a with
      | ⟨0, _⟩ => rfl
      | ⟨1, _⟩ => rfl
    · refine shapeCast_apply x2 shapeCasts_S64_S1x64 _ (ix1 o) ?_
      rw [Shape.rowMajor_val_one, Shape.rowMajor_val_two]
      show o.val = 0 * 64 + o.val
      omega

theorem pay4_apply (x0 : Vec Ideal S8x400x27 .bf16) (x1 : Vec Ideal S27x64 .bf16) (x2 : Vec Ideal S64 .f32)
    (b : Fin 8) (j : Fin 400) (o : Fin 64) :
    k0_pay4 x0 x1 x2 (ix3 b j o) = k0_pay3 x0 x1 x2 (ix2 (⟨400 * b.val + j.val, by omega⟩ : Fin 3200) o) := by
  unfold k0_pay4
  refine shapeCast_apply (k0_pay3 x0 x1 x2) shapeCasts_S3200x64_S8x400x64 _ _ ?_
  rw [Shape.rowMajor_val_three, Shape.rowMajor_val_two]
  show (400 * b.val + j.val) * 64 + o.val = (b.val * 400 + j.val) * 64 + o.val
  omega

theorem lift_row (o : Fin 64) (k : Fin (S3200x64.size 0)) :
    reduces_S3200x64_S64.lift (ix1 o) k = ix2 (⟨k.val, k.isLt⟩ : Fin 3200) o := by
  funext c; apply Fin.ext
  fin_cases c <;> rfl

theorem colsum_apply (y : Vec Ideal S3200x64 .f32) (o : Fin 64) :
    shapeCast S1x64 (multiReduction (F := Ideal) .add [0] S64 y 0x00000000#32 reduces_S3200x64_S64 (.inl rfl) rfl) shapeCasts_S64_S1x64 (ix2 0 o)
      = ∑ r : Fin 3200, y (ix2 r o) := by
  refine (shapeCast_apply _ shapeCasts_S64_S1x64 _ (ix1 o) ?_).trans ?_
  · rw [Shape.rowMajor_val_one, Shape.rowMajor_val_two]
    show o.val = 0 * 64 + o.val
    omega
  · refine (Ideal.multiReduction_add_single y _ reduces_S3200x64_S64 _ _ (ix1 o)).trans ?_
    exact Finset.sum_congr rfl fun k _ => congrArg y (lift_row o k)

theorem pay5_apply (x0 : Vec Ideal S8x400x27 .bf16) (x1 : Vec Ideal S27x64 .bf16) (x2 : Vec Ideal S64 .f32)
    (acc : Vec Ideal S1x64 .f32) (o : Fin 64) :
    k0_pay5 x0 x1 x2 acc (ix2 0 o) = acc (ix2 0 o) + ∑ r : Fin 3200, k0_pay3 x0 x1 x2 (ix2 r o) := by
  unfold k0_pay5
  refine (addf_apply _ _ _).trans ?_
  congr 1
  · exact congrFun (shapeCast_self acc _) _
  · exact colsum_apply _ o

theorem pay6_apply (x0 : Vec Ideal S8x400x27 .bf16) (x1 : Vec Ideal S27x64 .bf16) (x2 : Vec Ideal S64 .f32)
    (acc : Vec Ideal S1x64 .f32) (o : Fin 64) :
    k0_pay6 x0 x1 x2 acc (ix2 0 o)
      = acc (ix2 0 o) + ∑ r : Fin 3200, k0_pay3 x0 x1 x2 (ix2 r o) * k0_pay3 x0 x1 x2 (ix2 r o) := by
  unfold k0_pay6
  refine (addf_apply _ _ _).trans ?_
  congr 1
  · exact congrFun (shapeCast_self acc _) _
  · exact colsum_apply _ o

theorem pay1_apply (o : Fin 64) : k0_pay1 (F := Ideal) (ix2 0 o) = 0 := Ideal.ofBits_zero_f32
theorem pay2_apply (o : Fin 64) : k0_pay2 (F := Ideal) (ix2 0 o) = 0 := Ideal.ofBits_zero_f32

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At the first point the block of y is the one store's payload. -/
theorem outA3 (c : Dev nD) (i : grid0.Coords) (a1 : Memref sig .tc .vmem S8x400x27 .bf16) (h1 : a1.IsWhole) (a2 : Memref sig .tc .vmem S27x64 .bf16) (h2 : a2.IsWhole) (a3 : Memref sig .tc .vmem S64 .f32) (h3 : a3.IsWhole) (a4 : Memref sig .tc .vmem S8x400x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S8x400x27 .bf16) (x1 : Vec F S27x64 .bf16) (x2 : Vec F S64 .f32) :
    out0_A_3 c i a1 h1 a2 h2 a3 h3 a4 h4 a5 h5 a6 h6 hc x0 x1 x2 = k0_pay4 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz3]
  simp only [View.readAt_eq_ld, h1.read_unread, h2.read_unread, h3.read_unread, View.ld_unit_zero (S := S8x400x27) hz3, View.ld_unit_zero (S := S27x64) hz2, View.ld_unit_zero (S := S64) hz1]

/-- At the first point the running sum is the tile's column sums added to the zero block just stored. -/
theorem outA4 (c : Dev nD) (i : grid0.Coords) (a1 : Memref sig .tc .vmem S8x400x27 .bf16) (h1 : a1.IsWhole) (a2 : Memref sig .tc .vmem S27x64 .bf16) (h2 : a2.IsWhole) (a3 : Memref sig .tc .vmem S64 .f32) (h3 : a3.IsWhole) (a4 : Memref sig .tc .vmem S8x400x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S8x400x27 .bf16) (x1 : Vec F S27x64 .bf16) (x2 : Vec F S64 .f32) :
    out0_A_4 c i a1 h1 a2 h2 a3 h3 a4 h4 a5 h5 a6 h6 hc x0 x1 x2 = k0_pay5 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, View.ld_unit_zero (S := S8x400x27) hz3, View.ld_unit_zero (S := S27x64) hz2, View.ld_unit_zero (S := S64) hz1]

/-- At the first point the running sum of squares is the tile's added to the zero block just stored. -/
theorem outA5 (c : Dev nD) (i : grid0.Coords) (a1 : Memref sig .tc .vmem S8x400x27 .bf16) (h1 : a1.IsWhole) (a2 : Memref sig .tc .vmem S27x64 .bf16) (h2 : a2.IsWhole) (a3 : Memref sig .tc .vmem S64 .f32) (h3 : a3.IsWhole) (a4 : Memref sig .tc .vmem S8x400x64 .f32) (h4 : a4.IsWhole) (a5 : Memref sig .tc .vmem S1x64 .f32) (h5 : a5.IsWhole) (a6 : Memref sig .tc .vmem S1x64 .f32) (h6 : a6.IsWhole) (hc : cond0_0 i)
    (x0 : Vec F S8x400x27 .bf16) (x1 : Vec F S27x64 .bf16) (x2 : Vec F S64 .f32) :
    out0_A_5 c i a1 h1 a2 h2 a3 h3 a4 h4 a5 h5 a6 h6 hc x0 x1 x2 = k0_pay6 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, View.ld_unit_zero (S := S8x400x27) hz3, View.ld_unit_zero (S := S27x64) hz2, View.ld_unit_zero (S := S64) hz1]

/-- At a later point the block of y is again the one store's payload. -/
theorem outB3 (c : Dev nD) (i : grid0.Coords) (a1 : Memref sig .tc .vmem S8x400x27 .bf16) (h1 : a1.IsWhole) (a2 : Memref sig .tc .vmem S27x64 .bf16) (h2 : a2.IsWhole) (a3 : Memref sig .tc .vmem S64 .f32) (h3 : a3.IsWhole) (a4 : Memref sig .tc .vmem S8x400x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S8x400x27 .bf16) (x1 : Vec F S27x64 .bf16) (x2 : Vec F S64 .f32) (xo4 xo5 : Vec F S1x64 .f32) :
    out0_B_3 c i a1 h1 a2 h2 a3 h3 a4 h4 a5 h5 a6 h6 hc x0 x1 x2 xo4 xo5 = k0_pay4 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz3]
  simp only [View.readAt_eq_ld, h1.read_unread, h2.read_unread, h3.read_unread, View.ld_unit_zero (S := S8x400x27) hz3, View.ld_unit_zero (S := S27x64) hz2, View.ld_unit_zero (S := S64) hz1]

/-- At a later point the running sum is the tile's column sums added to what the point before left. -/
theorem outB4 (c : Dev nD) (i : grid0.Coords) (a1 : Memref sig .tc .vmem S8x400x27 .bf16) (h1 : a1.IsWhole) (a2 : Memref sig .tc .vmem S27x64 .bf16) (h2 : a2.IsWhole) (a3 : Memref sig .tc .vmem S64 .f32) (h3 : a3.IsWhole) (a4 : Memref sig .tc .vmem S8x400x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S8x400x27 .bf16) (x1 : Vec F S27x64 .bf16) (x2 : Vec F S64 .f32) (xo4 xo5 : Vec F S1x64 .f32) :
    out0_B_4 c i a1 h1 a2 h2 a3 h3 a4 h4 a5 h5 a6 h6 hc x0 x1 x2 xo4 xo5 = k0_pay5 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz2]
  simp only [View.readAt_eq_ld, h1.read_unread, h2.read_unread, h3.read_unread, h5.read_unread, View.ld_unit_zero (S := S8x400x27) hz3, View.ld_unit_zero (S := S27x64) hz2, View.ld_unit_zero (S := S64) hz1, View.ld_unit_zero (S := S1x64) hz2]

/-- At a later point the running sum of squares is the tile's added to what the point before left. -/
theorem outB5 (c : Dev nD) (i : grid0.Coords) (a1 : Memref sig .tc .vmem S8x400x27 .bf16) (h1 : a1.IsWhole) (a2 : Memref sig .tc .vmem S27x64 .bf16) (h2 : a2.IsWhole) (a3 : Memref sig .tc .vmem S64 .f32) (h3 : a3.IsWhole) (a4 : Memref sig .tc .vmem S8x400x64 .f32) (h4 : a4.IsWhole) (a5 : Memref sig .tc .vmem S1x64 .f32) (h5 : a5.IsWhole) (a6 : Memref sig .tc .vmem S1x64 .f32) (h6 : a6.IsWhole) (hc : ¬cond0_0 i)
    (x0 : Vec F S8x400x27 .bf16) (x1 : Vec F S27x64 .bf16) (x2 : Vec F S64 .f32) (xo4 xo5 : Vec F S1x64 .f32) :
    out0_B_5 c i a1 h1 a2 h2 a3 h3 a4 h4 a5 h5 a6 h6 hc x0 x1 x2 xo4 xo5 = k0_pay6 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz2]
  simp only [View.readAt_eq_ld, h1.read_unread, h2.read_unread, h3.read_unread, h6.read_unread, View.ld_unit_zero (S := S8x400x27) hz3, View.ld_unit_zero (S := S27x64) hz2, View.ld_unit_zero (S := S64) hz1, View.ld_unit_zero (S := S1x64) hz2]
end Pieces

section Value
variable (V : (c : Dev nD) → (b : Ref sig .tc) → Buf (Elt Ideal) ((c : Thread nD τ).loc b))

open Cert.Spiral

/-- The gathered features: row (batch, vertex), feature k. -/
def feat (c : Dev nD) : Cert.Spiral.Rows → Fin 27 → EReal := fun p k => V c main_v8 (ix3 p.1 p.2 k)
/-- The weights, stored transposed: output channel o, feature k. -/
def wgt (c : Dev nD) : Fin 64 → Fin 27 → EReal := fun o k => V c main_v10 (ix2 k o)
/-- The bias of output channel o. -/
def bias (c : Dev nD) : Fin 64 → EReal := fun o => V c main_arg3 (ix1 o)

/-- A grid point as a tile number. -/
def tt (t : Fin cfg0.N) : Fin 30 := ⟨t.val, lt_of_lt_of_eq t.isLt N_0⟩

/-- Where the blocks sit: the feature and y blocks move along the vertex axis with the point, every other block stays. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The feature block at a point: vertex j of tile t. -/
theorem blk0_apply (c : Dev nD) (t : Fin cfg0.N) (b : Fin 8) (j : Fin 400) (k : Fin 27) :
    (iblk0 V c 0 t : Vec Ideal S8x400x27 .bf16) (ix3 b j k) = feat V c (b, Tiles.vert (tt t) j) k := by
  obtain ⟨e0, e1, e2, -⟩ := idx_facts t
  unfold iblk0 feat
  rw [View.read_apply]
  show V c main_v8 _ = V c main_v8 _
  congr 1
  funext a; apply Fin.ext
  match a with
  | ⟨0, _⟩ => show win0_0.index t (0 : Fin 3) * 8 + 1 * b.val = b.val; omega
  | ⟨1, _⟩ => show win0_0.index t (1 : Fin 3) * 400 + 1 * j.val = 400 * t.val + j.val; omega
  | ⟨2, _⟩ => show win0_0.index t (2 : Fin 3) * 27 + 1 * k.val = k.val; omega

/-- The weight block at every point is the whole array. -/
theorem blk1_apply (c : Dev nD) (t : Fin cfg0.N) (k : Fin 27) (o : Fin 64) :
    (iblk0 V c 1 t : Vec Ideal S27x64 .bf16) (ix2 k o) = wgt V c o k := by
  obtain ⟨-, -, -, e0, e1, -⟩ := idx_facts t
  unfold iblk0 wgt
  rw [View.read_apply]
  show V c main_v10 _ = V c main_v10 _
  congr 1
  funext a; apply Fin.ext
  match a with
  | ⟨0, _⟩ => show win0_1.index t (0 : Fin 2) * 27 + 1 * k.val = k.val; omega
  | ⟨1, _⟩ => show win0_1.index t (1 : Fin 2) * 64 + 1 * o.val = o.val; omega

/-- The bias block at every point is the whole array. -/
theorem blk2_apply (c : Dev nD) (t : Fin cfg0.N) (o : Fin 64) :
    (iblk0 V c 2 t : Vec Ideal S64 .f32) (ix1 o) = bias V c o := by
  obtain ⟨-, -, -, -, -, e0, -⟩ := idx_facts t
  unfold iblk0 bias
  rw [View.read_apply]
  show V c main_arg3 _ = V c main_arg3 _
  congr 1
  funext a; apply Fin.ext
  match a with
  | ⟨0, _⟩ => show win0_2.index t (0 : Fin 1) * 64 + 1 * o.val = o.val; omega

/-- The linear part of the layer on all rows. -/
abbrev Y (c : Dev nD) : Cert.Spiral.Rows → Fin 64 → EReal := lin (feat V c) (wgt V c) (bias V c)

/-- The tile's y at (batch b, vertex j of the tile) is the layer's linear part at that row. -/
theorem tile_y' (c : Dev nD) (t : Fin cfg0.N) (b : Fin 8) (j : Fin 400) (o : Fin 64) :
    k0_pay3 (F := Ideal) (iblk0 V c 0 t) (iblk0 V c 1 t) (iblk0 V c 2 t) (ix2 (⟨400 * b.val + j.val, by omega⟩ : Fin 3200) o)
      = Y V c (b, Tiles.vert (tt t) j) o := by
  refine (pay3_apply (iblk0 V c 0 t) (iblk0 V c 1 t) (iblk0 V c 2 t) b j o).trans ?_
  unfold Y lin
  congr 1
  · refine Finset.sum_congr rfl fun k _ => ?_
    congr 1
    · exact blk0_apply V c t b j k
    · exact blk1_apply V c t k o
  · exact blk2_apply V c t o

/-- Row r of the tile, batch-major. -/
theorem tile_y (c : Dev nD) (t : Fin cfg0.N) (r : Fin 3200) (o : Fin 64) :
    k0_pay3 (F := Ideal) (iblk0 V c 0 t) (iblk0 V c 1 t) (iblk0 V c 2 t) (ix2 r o) = Y V c (Tiles.row (tt t) r) o := by
  have hr := r.isLt
  have er : r = (⟨400 * (⟨r.val / 400, by omega⟩ : Fin 8).val + (⟨r.val % 400, Nat.mod_lt _ (by norm_num)⟩ : Fin 400).val,
      by dsimp only; omega⟩ : Fin 3200) := Fin.ext (by dsimp only; omega)
  exact (congrArg (fun q => k0_pay3 (F := Ideal) (iblk0 V c 0 t) (iblk0 V c 1 t) (iblk0 V c 2 t) (ix2 q o)) er).trans
    (tile_y' V c t ⟨r.val / 400, by omega⟩ ⟨r.val % 400, Nat.mod_lt _ (by norm_num)⟩ o)

/-- What the three output buffers hold after the first point, as payloads of the point's blocks. -/
theorem at_first (c : Dev nD) (t : Fin cfg0.N) (h0 : t.val % 30 = 0) :
    outsAt0 V c t.val t.isLt
      = (k0_pay4 (iblk0 V c 0 t) (iblk0 V c 1 t) (iblk0 V c 2 t), k0_pay5 (iblk0 V c 0 t) (iblk0 V c 1 t) (iblk0 V c 2 t) (k0_pay1 (F := Ideal)), k0_pay6 (iblk0 V c 0 t) (iblk0 V c 1 t) (iblk0 V c 2 t) (k0_pay2 (F := Ideal))) := by
  rw [outsAt0_A V c t h0, outA3, outA4, outA5]

/-- What the three output buffers hold after a later point, over what the point before left. -/
theorem at_later (c : Dev nD) (t : Fin cfg0.N) (h0 : ¬t.val % 30 = 0) :
    outsAt0 V c t.val t.isLt
      = (k0_pay4 (iblk0 V c 0 t) (iblk0 V c 1 t) (iblk0 V c 2 t),
         k0_pay5 (iblk0 V c 0 t) (iblk0 V c 1 t) (iblk0 V c 2 t) (outsAt0 V c (t.val - 1) (Nat.lt_of_le_of_lt (Nat.sub_le _ _) t.isLt)).2.1,
         k0_pay6 (iblk0 V c 0 t) (iblk0 V c 1 t) (iblk0 V c 2 t) (outsAt0 V c (t.val - 1) (Nat.lt_of_le_of_lt (Nat.sub_le _ _) t.isLt)).2.2) := by
  rw [outsAt0_B V c t h0, outB3, outB4, outB5]

/-- After every point the y buffer holds the point's tile of y. -/
theorem y_blk (c : Dev nD) (t : Fin cfg0.N) :
    (outsAt0 V c t.val t.isLt).1 = k0_pay4 (iblk0 V c 0 t) (iblk0 V c 1 t) (iblk0 V c 2 t) := by
  by_cases h0 : t.val % 30 = 0
  · rw [at_first V c t h0]
  · rw [at_later V c t h0]

/-- Tile t's column sum of channel o. -/
def tileSum (c : Dev nD) (o : Fin 64) (t : Fin 30) : EReal := ∑ r : Fin 3200, Y V c (Tiles.row t r) o
/-- Tile t's column sum of squares of channel o. -/
def tileSq (c : Dev nD) (o : Fin 64) (t : Fin 30) : EReal := ∑ r : Fin 3200, Y V c (Tiles.row t r) o * Y V c (Tiles.row t r) o

theorem lt30 {n : ℕ} (h : n < cfg0.N) : n < 30 := lt_of_lt_of_eq h N_0

/-- After point n the running sum is the sum of the tiles' column sums up to n. -/
theorem sum_inv (c : Dev nD) (o : Fin 64) (n : ℕ) (hn : n < cfg0.N) :
    (outsAt0 V c n hn).2.1 (ix2 0 o) = ∑ t : Fin 30, (if t.val ≤ n then tileSum V c o t else 0) := by
  refine Running.total_eq (N := 30) (tileSum V c o) (fun n h => (outsAt0 V c n (lt_of_lt_of_eq h N_0.symm)).2.1 (ix2 0 o)) ?_ ?_ n (lt30 hn)
  · intro h
    have e := at_first V c ⟨0, lt_of_lt_of_eq h N_0.symm⟩ rfl
    show (outsAt0 V c (⟨0, lt_of_lt_of_eq h N_0.symm⟩ : Fin cfg0.N).val _).2.1 (ix2 0 o) = _
    rw [e]
    show k0_pay5 _ _ _ k0_pay1 (ix2 0 o) = _
    rw [pay5_apply, pay1_apply]
    congr 1
    exact Finset.sum_congr rfl fun r _ => tile_y V c _ r o
  · intro n h
    have hB : ¬(⟨n + 1, lt_of_lt_of_eq h N_0.symm⟩ : Fin cfg0.N).val % 30 = 0 := by dsimp only; omega
    have e := at_later V c ⟨n + 1, lt_of_lt_of_eq h N_0.symm⟩ hB
    show (outsAt0 V c (⟨n + 1, lt_of_lt_of_eq h N_0.symm⟩ : Fin cfg0.N).val _).2.1 (ix2 0 o) = _
    rw [e]
    show k0_pay5 _ _ _ (outsAt0 V c n _).2.1 (ix2 0 o) = _
    rw [pay5_apply]
    congr 1
    exact Finset.sum_congr rfl fun r _ => tile_y V c _ r o

/-- After point n the running sum of squares is the sum of the tiles' up to n. -/
theorem sq_inv (c : Dev nD) (o : Fin 64) (n : ℕ) (hn : n < cfg0.N) :
    (outsAt0 V c n hn).2.2 (ix2 0 o) = ∑ t : Fin 30, (if t.val ≤ n then tileSq V c o t else 0) := by
  refine Running.total_eq (N := 30) (tileSq V c o) (fun n h => (outsAt0 V c n (lt_of_lt_of_eq h N_0.symm)).2.2 (ix2 0 o)) ?_ ?_ n (lt30 hn)
  · intro h
    have e := at_first V c ⟨0, lt_of_lt_of_eq h N_0.symm⟩ rfl
    show (outsAt0 V c (⟨0, lt_of_lt_of_eq h N_0.symm⟩ : Fin cfg0.N).val _).2.2 (ix2 0 o) = _
    rw [e]
    show k0_pay6 _ _ _ k0_pay2 (ix2 0 o) = _
    rw [pay6_apply, pay2_apply]
    congr 1
    exact Finset.sum_congr rfl fun r _ => by rw [tile_y V c _ r o]; rfl
  · intro n h
    have hB : ¬(⟨n + 1, lt_of_lt_of_eq h N_0.symm⟩ : Fin cfg0.N).val % 30 = 0 := by dsimp only; omega
    have e := at_later V c ⟨n + 1, lt_of_lt_of_eq h N_0.symm⟩ hB
    show (outsAt0 V c (⟨n + 1, lt_of_lt_of_eq h N_0.symm⟩ : Fin cfg0.N).val _).2.2 (ix2 0 o) = _
    rw [e]
    show k0_pay6 _ _ _ (outsAt0 V c n _).2.2 (ix2 0 o) = _
    rw [pay6_apply]
    congr 1
    exact Finset.sum_congr rfl fun r _ => by rw [tile_y V c _ r o]; rfl

/-- The y array after the region: the layer's linear part at every row. -/
def G3 (c : Dev nD) : S8x12000x64.Idx → EReal := fun i => Y V c (i 0, i 1) (i 2)
/-- The sum array after the region: every channel's column sum. -/
def G4 (c : Dev nD) : S1x64.Idx → EReal := fun i => colSum (Y V c) (i 1)
/-- The sum-of-squares array after the region. -/
def G5 (c : Dev nD) : S1x64.Idx → EReal := fun i => colSumSq (Y V c) (i 1)

/-- What point t writes back to the y array is tile t of the layer's linear part. -/
theorem flushed3 (c : Dev nD) (t : Fin cfg0.N) :
    (dat0 V c).flushed 3 t = ((cfg0.win 3).blk t).view.read (Elt Ideal) (G3 V c) := by
  obtain ⟨-, -, -, -, -, -, e0, e1, e2, -⟩ := idx_facts t
  show (cfg0.win 3).cut (grid0.coords t) ((dat0 V c).after 3 t) = _
  rw [after0_3, y_blk]
  funext y
  obtain ⟨b, j, o, rfl⟩ : ∃ (b : Fin 8) (j : Fin 400) (o : Fin 64), y = ix3 b j o := ⟨y 0, y 1, y 2, eq_ix3 y⟩
  show k0_pay4 (F := Ideal) (iblk0 V c 0 t) (iblk0 V c 1 t) (iblk0 V c 2 t) (ix3 b j o) = G3 V c (((cfg0.win 3).blk t).view.emb (ix3 b j o))
  refine (pay4_apply _ _ _ b j o).trans ((tile_y' V c t b j o).trans ?_)
  unfold G3
  have a0 : (((cfg0.win 3).blk t).view.emb (ix3 b j o)) 0 = b :=
    Fin.ext (by show win0_3.index t (0 : Fin 3) * 8 + 1 * b.val = b.val; omega)
  have a1 : (((cfg0.win 3).blk t).view.emb (ix3 b j o)) 1 = Tiles.vert (tt t) j :=
    Fin.ext (by show win0_3.index t (1 : Fin 3) * 400 + 1 * j.val = 400 * t.val + j.val; omega)
  have a2 : (((cfg0.win 3).blk t).view.emb (ix3 b j o)) 2 = o :=
    Fin.ext (by show win0_3.index t (2 : Fin 3) * 64 + 1 * o.val = o.val; omega)
  rw [a0, a1, a2]

/-- The one write-back of the running sum, after the last point, writes every channel's column sum. -/
theorem flushed4 (c : Dev nD) (t : Fin cfg0.N) (hf : (cfg0.win 4).flush t = true) :
    (dat0 V c).flushed 4 t = ((cfg0.win 4).blk t).view.read (Elt Ideal) (G4 V c) := by
  obtain ⟨-, -, -, -, -, -, -, -, -, e0, e1, -⟩ := idx_facts t
  have h29 : t.val % 30 = 29 := (flush0_4 t).mp hf
  have hN := lt30 t.isLt
  show (cfg0.win 4).cut (grid0.coords t) ((dat0 V c).after 4 t) = _
  rw [after0_4]
  funext y
  obtain ⟨z, o, rfl⟩ : ∃ (z : Fin 1) (o : Fin 64), y = ix2 z o := ⟨y 0, y 1, eq_ix2 y⟩
  obtain rfl : z = 0 := Subsingleton.elim _ _
  show (outsAt0 V c t.val t.isLt).2.1 (ix2 0 o) = G4 V c (((cfg0.win 4).blk t).view.emb (ix2 0 o))
  rw [sum_inv V c o t.val t.isLt, Running.sum_upto_last _ _ (by omega)]
  unfold G4 colSum
  have a1 : (((cfg0.win 4).blk t).view.emb (ix2 0 o)) 1 = o :=
    Fin.ext (by show win0_4.index t (1 : Fin 2) * 64 + 1 * o.val = o.val; omega)
  rw [a1, Tiles.sum_rows]
  rfl

/-- The one write-back of the running sum of squares writes every channel's column sum of squares. -/
theorem flushed5 (c : Dev nD) (t : Fin cfg0.N) (hf : (cfg0.win 5).flush t = true) :
    (dat0 V c).flushed 5 t = ((cfg0.win 5).blk t).view.read (Elt Ideal) (G5 V c) := by
  obtain ⟨-, -, -, -, -, -, -, -, -, -, -, e0, e1⟩ := idx_facts t
  have h29 : t.val % 30 = 29 := (flush0_5 t).mp hf
  have hN := lt30 t.isLt
  show (cfg0.win 5).cut (grid0.coords t) ((dat0 V c).after 5 t) = _
  rw [after0_5]
  funext y
  obtain ⟨z, o, rfl⟩ : ∃ (z : Fin 1) (o : Fin 64), y = ix2 z o := ⟨y 0, y 1, eq_ix2 y⟩
  obtain rfl : z = 0 := Subsingleton.elim _ _
  show (outsAt0 V c t.val t.isLt).2.2 (ix2 0 o) = G5 V c (((cfg0.win 5).blk t).view.emb (ix2 0 o))
  rw [sq_inv V c o t.val t.isLt, Running.sum_upto_last _ _ (by omega)]
  unfold G5 colSumSq
  have a1 : (((cfg0.win 5).blk t).view.emb (ix2 0 o)) 1 = o :=
    Fin.ext (by show win0_5.index t (1 : Fin 2) * 64 + 1 * o.val = o.val; omega)
  rw [a1, Tiles.sum_rows]
  rfl

/-- An index of the y array is in point t's block iff each coordinate is in the block's range on its axis. -/
theorem mem_blk3 (t : Fin cfg0.N) (i : S8x12000x64.Idx) :
    i ∈ ((cfg0.win 3).blk t).view.set ↔ ∀ a : Fin 3, win0_3.index t a * S8x400x64.size a ≤ (i a).val ∧ (i a).val < win0_3.index t a * S8x400x64.size a + S8x400x64.size a := by
  show i ∈ ((View.whole main_v11_0).slice (win0_3.rect t)).set ↔ _
  rw [View.set_slice_whole, Rect.mem_set_unit]
  exact Iff.rfl

theorem mem_blk4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v11_1).slice (win0_4.rect t)).set ↔ _
  rw [View.set_slice_whole, Rect.mem_set_unit]
  exact Iff.rfl

theorem mem_blk5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v11_2).slice (win0_5.rect t)).set ↔ _
  rw [View.set_slice_whole, Rect.mem_set_unit]
  exact Iff.rfl

/-- Vertex v lies in the block of point v / 400. -/
theorem cover3 (i : S8x12000x64.Idx) :
    ∃ t : Fin cfg0.N, (cfg0.win 3).flush t = true ∧ i ∈ ((cfg0.win 3).blk t).view.set := by
  have h0 : (i 0).val < 8 := (i 0).isLt
  have h1 : (i 1).val < 12000 := (i 1).isLt
  have h2 : (i 2).val < 64 := (i 2).isLt
  have ht : (i 1).val / 400 < cfg0.N := by rw [show cfg0.N = 30 from N_0]; omega
  refine ⟨⟨(i 1).val / 400, ht⟩, flush0_3 _, ?_⟩
  obtain ⟨-, -, -, -, -, -, e0, e1, e2, -⟩ := idx_facts ⟨(i 1).val / 400, ht⟩
  rw [mem_blk3]
  intro a
  match a with
  | ⟨0, _⟩ => show win0_3.index ⟨(i 1).val / 400, ht⟩ (0 : Fin 3) * 8 ≤ (i 0).val ∧ (i 0).val < win0_3.index ⟨(i 1).val / 400, ht⟩ (0 : Fin 3) * 8 + 8; omega
  | ⟨1, _⟩ => show win0_3.index ⟨(i 1).val / 400, ht⟩ (1 : Fin 3) * 400 ≤ (i 1).val ∧ (i 1).val < win0_3.index ⟨(i 1).val / 400, ht⟩ (1 : Fin 3) * 400 + 400; dsimp only at e1; omega
  | ⟨2, _⟩ => show win0_3.index ⟨(i 1).val / 400, ht⟩ (2 : Fin 3) * 64 ≤ (i 2).val ∧ (i 2).val < win0_3.index ⟨(i 1).val / 400, ht⟩ (2 : Fin 3) * 64 + 64; omega

theorem t29 : 29 < cfg0.N := by rw [show cfg0.N = 30 from N_0]; omega

/-- The one block of the sum array is the whole array, written back after the last point. -/
theorem cover4 (i : S1x64.Idx) :
    ∃ t : Fin cfg0.N, (cfg0.win 4).flush t = true ∧ i ∈ ((cfg0.win 4).blk t).view.set := by
  have h0 : (i 0).val < 1 := (i 0).isLt
  have h1 : (i 1).val < 64 := (i 1).isLt
  refine ⟨⟨29, t29⟩, (flush0_4 _).mpr rfl, ?_⟩
  obtain ⟨-, -, -, -, -, -, -, -, -, e0, e1, -⟩ := idx_facts ⟨29, t29⟩
  rw [mem_blk4]
  intro a
  match a with
  | ⟨0, _⟩ => show win0_4.index ⟨29, t29⟩ (0 : Fin 2) * 1 ≤ (i 0).val ∧ (i 0).val < win0_4.index ⟨29, t29⟩ (0 : Fin 2) * 1 + 1; omega
  | ⟨1, _⟩ => show win0_4.index ⟨29, t29⟩ (1 : Fin 2) * 64 ≤ (i 1).val ∧ (i 1).val < win0_4.index ⟨29, t29⟩ (1 : Fin 2) * 64 + 64; omega

theorem cover5 (i : S1x64.Idx) :
    ∃ t : Fin cfg0.N, (cfg0.win 5).flush t = true ∧ i ∈ ((cfg0.win 5).blk t).view.set := by
  have h0 : (i 0).val < 1 := (i 0).isLt
  have h1 : (i 1).val < 64 := (i 1).isLt
  refine ⟨⟨29, t29⟩, (flush0_5 _).mpr rfl, ?_⟩
  obtain ⟨-, -, -, -, -, -, -, -, -, -, -, e0, e1⟩ := idx_facts ⟨29, t29⟩
  rw [mem_blk5]
  intro a
  match a with
  | ⟨0, _⟩ => show win0_5.index ⟨29, t29⟩ (0 : Fin 2) * 1 ≤ (i 0).val ∧ (i 0).val < win0_5.index ⟨29, t29⟩ (0 : Fin 2) * 1 + 1; omega
  | ⟨1, _⟩ => show win0_5.index ⟨29, t29⟩ (1 : Fin 2) * 64 ≤ (i 1).val ∧ (i 1).val < win0_5.index ⟨29, t29⟩ (1 : Fin 2) * 64 + 64; omega

/-- After the region the y array holds the layer's linear part. -/
theorem y_final (c : Dev nD) (b : Fin 8) (v : Fin 12000) (o : Fin 64) :
    (dat0 V c).arrAt 3 cfg0.N (ix3 b v o) = Cert.Spiral.lin (feat V c) (wgt V c) (bias V c) (b, v) o :=
  congrFun ((dat0 V c).arrAt_eq_of_cover 3 (G3 V c) (fun t _ => flushed3 V c t) cover3) (ix3 b v o)

/-- After the region the sum array holds every channel's sum over all rows. -/
theorem sum_final (c : Dev nD) (o : Fin 64) :
    (dat0 V c).arrAt 4 cfg0.N (ix2 0 o) = Cert.Spiral.colSum (Cert.Spiral.lin (feat V c) (wgt V c) (bias V c)) o :=
  congrFun ((dat0 V c).arrAt_eq_of_cover 4 (G4 V c) (flushed4 V c) cover4) (ix2 0 o)

/-- After the region the sum-of-squares array holds every channel's sum of squares over all rows. -/
theorem sumsq_final (c : Dev nD) (o : Fin 64) :
    (dat0 V c).arrAt 5 cfg0.N (ix2 0 o) = Cert.Spiral.colSumSq (Cert.Spiral.lin (feat V c) (wgt V c) (bias V c)) o :=
  congrFun ((dat0 V c).arrAt_eq_of_cover 5 (G5 V c) (flushed5 V c) cover5) (ix2 0 o)

end Value

end Cert.KernelIdeal.Lin0

end
-- ==== Proof.KBn1.lean ====
/-
  The pointwise normalise-and-clip region, from blocks to the array.

  The region visits the [8, 12000, 64] array in 30 blocks of 400 vertices. At each block it stores
  max(y·scale + shift, 0), the scale and the shift being [64] arrays broadcast along the channel axis, and writes the
  block back. A block's coordinate in the array is the block index times the block size plus the coordinate inside
  the block; vertex v lies in block v / 400, so the 30 blocks cover the array, and the array ends holding
  max(y(b,v,o)·scale(o) + shift(o), 0) at every (b, v, o).
-/
import proofs.«182203_j60619168416159_1_alg».proof.Proof.Gen.KernelIdeal.Frame
import proofs.«182203_j60619168416159_1_alg».proof.Proof.LayerSpec
import Idealize.ShloMosaic.Lib.Pipeline.Value
import Idealize.ShloMosaic.Lib.ValueLayout
import Idealize.ShloMosaic.Lib.ValueIdx

set_option maxRecDepth 16384

noncomputable section

namespace Cert.KernelIdeal.Bn1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Layout operations of the payload at an index -/

/-- A [c] array cast to [1, 1, c] reads, at (u, u', o), the operand at o. -/
theorem cast_c_11c_apply {c : ℕ} {α : Type} (x : (⟨1, ![c]⟩ : Shape).Idx → α)
    (h : (⟨1, ![c]⟩ : Shape).ShapeCasts ⟨3, ![1, 1, c]⟩) (u u' : Fin 1) (o : Fin c) :
    shapeCast ⟨3, ![1, 1, c]⟩ x h (ix3 u u' o) = x (ix1 o) :=
  shapeCast_apply x h _ _ (by
    have hu : u.val = 0 := by omega
    have hu' : u'.val = 0 := by omega
    rw [Shape.rowMajor_val_three, Shape.rowMajor_val_one]
    show o.val = (u.val * 1 + u'.val) * c + o.val
    simp only [hu, hu', Nat.zero_mul, Nat.zero_add, Nat.mul_one, Nat.add_zero])

/-- A [1, 1, c] array broadcast to [a, b, c] reads, at (p, q, o), the operand at (0, 0, o). -/
theorem bcast_11c_abc_apply {a b c : ℕ} {α : Type} (v : (⟨3, ![1, 1, c]⟩ : Shape).Idx → α)
    (h : (⟨3, ![1, 1, c]⟩ : Shape).Broadcasts ⟨3, ![a, b, c]⟩) (p : Fin a) (q : Fin b) (o : Fin c) :
    broadcastTo ⟨3, ![a, b, c]⟩ v h (ix3 p q o) = v (ix3 (0 : Fin 1) (0 : Fin 1) o) := by
  refine broadcastTo_apply v h (ix3 p q o) (ix3 (0 : Fin 1) (0 : Fin 1) o) fun ax => ?_
  match ax with
  | ⟨0, _⟩ => rfl
  | ⟨1, _⟩ => rfl
  | ⟨2, _⟩ =>
    show o.val = if c = 1 then 0 else o.val
    split
    · have := o.isLt; omega
    · rfl

/-- The body's payload at (b, j, o): max(x0·x1(o) + x2(o), 0); the narrowing at the end is the identity. -/
theorem pay_apply (x0 : Vec Ideal S8x400x64 .f32) (x1 x2 : Vec Ideal S64 .f32) (b : Fin 8) (j : Fin 400) (o : Fin 64) :
    k1_pay1 (F := Ideal) x0 x1 x2 (ix3 b j o) = max (x0 (ix3 b j o) * x1 (ix1 o) + x2 (ix1 o)) Cert.Spiral.zer := by
  unfold k1_pay1
  rw [truncf_apply, maximumf_apply, addf_apply, mulf_apply, broadcast_apply]
  simp only [shapeCast_self]
  rw [bcast_11c_abc_apply, bcast_11c_abc_apply, cast_c_11c_apply, cast_c_11c_apply]
  rfl

/-! ## From blocks to the array -/

variable (V : (c : Dev nD) → (b : Ref sig .tc) → Buf (Elt Ideal) ((c : Thread nD τ).loc b))

/-- The array to be normalised, as the region finds it. -/
abbrev yArr (c : Dev nD) : S8x12000x64.Idx → EReal := V c main_v11_0
/-- The per-channel scale, as the region finds it. -/
abbrev scaleArr (c : Dev nD) : S64.Idx → EReal := V c main_v24
/-- The per-channel shift, as the region finds it. -/
abbrev shiftArr (c : Dev nD) : S64.Idx → EReal := V c main_v26

theorem zero3 : (![0, 0, 0] : Fin 3 → Nat) = fun _ => 0 := funext fun a => by fin_cases a <;> rfl
theorem zero1 : (![0] : Fin 1 → Nat) = fun _ => 0 := funext fun a => by fin_cases a <;> rfl

/-- What the output array ends holding: max(y·scale + shift, 0), the scale and shift read at the channel. -/
abbrev normClip (a0 : S8x12000x64.Idx → EReal) (a1 a2 : S64.Idx → EReal) : S8x12000x64.Idx → EReal :=
  fun i => max (a0 i * a1 (ix1 (i 2)) + a2 (ix1 (i 2))) Cert.Spiral.zer

/-- The payload at any index of the block. -/
theorem pay_at (x0 : Vec Ideal S8x400x64 .f32) (x1 x2 : Vec Ideal S64 .f32) (y : S8x400x64.Idx) :
    k1_pay1 (F := Ideal) x0 x1 x2 y = max (x0 y * x1 (ix1 (y 2)) + x2 (ix1 (y 2))) Cert.Spiral.zer := by
  obtain ⟨b, j, o, rfl⟩ : ∃ (b : Fin 8) (j : Fin 400) (o : Fin _), y = ix3 b j o := ⟨y 0, y 1, y 2, eq_ix3 y⟩
  exact pay_apply x0 x1 x2 b j o

/-- The printed index maps, decided over the grid: the row windows sit at block (0, t, 0), the channel windows at block 0. -/
theorem block_indices : ∀ t : Fin cfg1.N,
    win1_0.index t (0 : Fin 3) = 0 ∧ win1_0.index t (1 : Fin 3) = t.val ∧ win1_0.index t (2 : Fin 3) = 0
    ∧ win1_1.index t (0 : Fin 1) = 0 ∧ win1_2.index t (0 : Fin 1) = 0
    ∧ win1_3.index t (0 : Fin 3) = 0 ∧ win1_3.index t (1 : Fin 3) = t.val ∧ win1_3.index t (2 : Fin 3) = 0 :=
  (by decide +kernel : ∀ t : Fin grid1.N, _)

/-- What point t writes back is block t of the normalised-and-clipped array. -/
theorem flushed_eq (c : Dev nD) (t : Fin cfg1.N) :
    (dat1 V c).flushed 3 t
      = ((cfg1.win 3).blk t).view.read (Elt Ideal) (normClip (yArr V c) (scaleArr V c) (shiftArr V c)) := by
  show (cfg1.win 3).cut (grid1.coords t) ((dat1 V c).after 3 t) = _
  rw [after1_3]
  unfold out1_3
  rw [View.canon_unit_zero zero3]
  simp only [View.ld_unit_zero (S := S8x400x64) zero3, View.ld_unit_zero (S := S64) zero1]
  obtain ⟨e0, e1, e2, e3, e4, e5, e6, e7⟩ := block_indices t
  refine funext fun (j : S8x400x64.Idx) => ?_
  show k1_pay1 (F := Ideal) (iblk1 V c 0 t) (iblk1 V c 1 t) (iblk1 V c 2 t) j
    = normClip (yArr V c) (scaleArr V c) (shiftArr V c) (((cfg1.win 3).blk t).view.emb j)
  rw [pay_at]
  have h0 : (iblk1 V c 0 t : Vec Ideal S8x400x64 .f32) j = yArr V c (((cfg1.win 3).blk t).view.emb j) := by
    show yArr V c (((cfg1.win 0).blk t).view.emb j) = _
    refine congrArg (yArr V c) (funext fun a => Fin.ext ?_)
    match a with
    | ⟨0, _⟩ => show win1_0.index t (0 : Fin 3) * 8 + 1 * (j 0).val = win1_3.index t (0 : Fin 3) * 8 + 1 * (j 0).val; rw [e0, e5]
    | ⟨1, _⟩ => show win1_0.index t (1 : Fin 3) * 400 + 1 * (j 1).val = win1_3.index t (1 : Fin 3) * 400 + 1 * (j 1).val; rw [e1, e6]
    | ⟨2, _⟩ => show win1_0.index t (2 : Fin 3) * 64 + 1 * (j 2).val = win1_3.index t (2 : Fin 3) * 64 + 1 * (j 2).val; rw [e2, e7]
  have h1 : (iblk1 V c 1 t : Vec Ideal S64 .f32) (ix1 (j 2))
      = scaleArr V c (ix1 ((((cfg1.win 3).blk t).view.emb j : S8x12000x64.Idx) 2)) := by
    show scaleArr V c (((cfg1.win 1).blk t).view.emb (ix1 (j 2))) = _
    refine congrArg (scaleArr V c) (funext fun a => Fin.ext ?_)
    match a with
    | ⟨0, _⟩ => show win1_1.index t (0 : Fin 1) * 64 + 1 * (j 2).val = win1_3.index t (2 : Fin 3) * 64 + 1 * (j 2).val; rw [e3, e7]
  have h2 : (iblk1 V c 2 t : Vec Ideal S64 .f32) (ix1 (j 2))
      = shiftArr V c (ix1 ((((cfg1.win 3).blk t).view.emb j : S8x12000x64.Idx) 2)) := by
    show shiftArr V c (((cfg1.win 2).blk t).view.emb (ix1 (j 2))) = _
    refine congrArg (shiftArr V c) (funext fun a => Fin.ext ?_)
    match a with
    | ⟨0, _⟩ => show win1_2.index t (0 : Fin 1) * 64 + 1 * (j 2).val = win1_3.index t (2 : Fin 3) * 64 + 1 * (j 2).val; rw [e4, e7]
  rw [h0, h1, h2]

/-- An index of the array is in point t's block iff each coordinate is in the block's range on its axis. -/
theorem mem_block (t : Fin cfg1.N) (i : S8x12000x64.Idx) :
    i ∈ ((cfg1.win 3).blk t).view.set
      ↔ ∀ a : Fin 3, win1_3.index t a * S8x400x64.size a ≤ (i a).val
          ∧ (i a).val < win1_3.index t a * S8x400x64.size a + S8x400x64.size a := by
  show i ∈ ((View.whole main_v27).slice (win1_3.rect t)).set ↔ _
  rw [View.set_slice_whole, Rect.mem_set_unit]
  exact Iff.rfl

/-- Vertex v lies in block v / 400: every index of the array is in some point's block. -/
theorem covered (i : S8x12000x64.Idx) :
    ∃ t : Fin cfg1.N, (cfg1.win 3).flush t = true ∧ i ∈ ((cfg1.win 3).blk t).view.set := by
  have hi0 : (i 0).val < 8 := (i 0).isLt
  have hi1 : (i 1).val < 12000 := (i 1).isLt
  have hi2 : (i 2).val < 64 := (i 2).isLt
  have hN : cfg1.N = 30 := N_1
  let t : Fin cfg1.N := ⟨(i 1).val / 400, by rw [hN]; omega⟩
  have ht : t.val = (i 1).val / 400 := rfl
  obtain ⟨e0, e1, e2, e3, e4, e5, e6, e7⟩ := block_indices t
  refine ⟨t, flush1_3 t, ?_⟩
  rw [mem_block]
  intro a
  match a with
  | ⟨0, _⟩ => show win1_3.index t (0 : Fin 3) * 8 ≤ (i 0).val ∧ (i 0).val < win1_3.index t (0 : Fin 3) * 8 + 8; rw [e5]; omega
  | ⟨1, _⟩ => show win1_3.index t (1 : Fin 3) * 400 ≤ (i 1).val ∧ (i 1).val < win1_3.index t (1 : Fin 3) * 400 + 400; rw [e6, ht]; omega
  | ⟨2, _⟩ => show win1_3.index t (2 : Fin 3) * 64 ≤ (i 2).val ∧ (i 2).val < win1_3.index t (2 : Fin 3) * 64 + 64; rw [e7]; omega

/-- The array after the region: max(y·scale + shift, 0) everywhere. -/
theorem final (c : Dev nD) :
    (dat1 V c).arrAt 3 cfg1.N = normClip (yArr V c) (scaleArr V c) (shiftArr V c) :=
  (dat1 V c).arrAt_eq_of_cover 3 (normClip (yArr V c) (scaleArr V c) (shiftArr V c))
    (fun t _ => flushed_eq V c t) (covered)

/-- The array after the region at (b, v, o). -/
theorem h_final (c : Dev nD) (b : Fin 8) (v : Fin 12000) (o : Fin 64) :
    ((dat1 V c).arrAt 3 cfg1.N : S8x12000x64.Idx → EReal) (ix3 b v o)
      = max (yArr V c (ix3 b v o) * scaleArr V c (ix1 o) + shiftArr V c (ix1 o)) Cert.Spiral.zer := by
  rw [final V c]

end Cert.KernelIdeal.Bn1

end
-- ==== Proof.KLayer1.lean ====
/-
  The kernel's layer 1 is the reference's layer 1.

  The program runs a host stretch (gather the previous layer's output, transpose the weights), a region that stores the
  linear map's output and accumulates its column sums and column sums of squares, a host stretch that turns the two sums
  into a per-channel scale and shift, and a region that stores max(y·scale + shift, 0). Read at the boundaries between
  these segments and entry by entry, the scale-and-shift spelling of the normalisation is the reference's centred
  spelling, because every number in it is a real number; and the layer's output is real again, which the next layer needs
  of its features.
-/
import proofs.«182203_j60619168416159_1_alg».proof.Proof.KChain
import proofs.«182203_j60619168416159_1_alg».proof.Proof.KGlue
import proofs.«182203_j60619168416159_1_alg».proof.Proof.BridgeMath
import proofs.«182203_j60619168416159_1_alg».proof.Proof.RefValue
import proofs.«182203_j60619168416159_1_alg».proof.Proof.KLin0
import proofs.«182203_j60619168416159_1_alg».proof.Proof.KBn1

noncomputable section

namespace Cert.KernelIdeal.Gen

open Idealize.ShloMosaic Idealize.ShloMosaic.TcCoe Idealize.SL.Sem Idealize.ShloMosaic.ValueIdx
open Cert.Spiral Cert.RealValued

variable (m : (ℓ : Loc nD τ sig) → Buf (Elt Ideal) ℓ) (ρ : Dev nD → PrngReg)

/-- Layer 1, entry by entry: the clipped scale-and-shift of the region's y array at the boundary before the normalising
    region is the reference's layer at that entry, and a real number. The regions' results enter as hypotheses: the y
    array and the two accumulated sums are the linear map, its column sums and its column sums of squares, over the
    features, weights and bias as the region finds them. -/
theorem entry1 (c : Dev nD) (F8 : S8x12000x27.Idx → EReal) (eF8 : W1 m ρ c (Proc.devRef .tc main_v8) = F8)
    (WT : S27x64.Idx → EReal) (eWT : W1 m ρ c (Proc.devRef .tc main_v10) = WT)
    (B3 : S64.Idx → EReal) (eB3 : W1 m ρ c (Proc.devRef .tc main_arg3) = B3)
    (Y : S8x12000x64.Idx → EReal) (eY : W2 m ρ c (Proc.devRef .tc main_v11_0) = Y)
    (S Q : S1x64.Idx → EReal) (eS : W2 m ρ c (Proc.devRef .tc main_v11_1) = S) (eQ : W2 m ρ c (Proc.devRef .tc main_v11_2) = Q)
    (hY : ∀ (b : Fin 8) (v : Fin 12000) (o : Fin 64), Y (ix3 b v o)
      = lin (fun p k => F8 (ix3 p.1 p.2 k)) (fun o k => WT (ix2 k o)) (fun o => B3 (ix1 o)) (b, v) o)
    (hS : ∀ o : Fin 64, S (ix2 0 o)
      = colSum (lin (P := Rows) (fun p k => F8 (ix3 p.1 p.2 k)) (fun o k => WT (ix2 k o)) (fun o => B3 (ix1 o))) o)
    (hQ : ∀ o : Fin 64, Q (ix2 0 o)
      = colSumSq (lin (P := Rows) (fun p k => F8 (ix3 p.1 p.2 k)) (fun o k => WT (ix2 k o)) (fun o => B3 (ix1 o))) o)
    (Y3 : S8x12000x64.Idx → EReal) (eY3 : W3 m ρ c (Proc.devRef .tc main_v11_0) = Y3)
    (SC SH : S64.Idx → EReal) (eSC : W3 m ρ c (Proc.devRef .tc main_v24) = SC) (eSH : W3 m ρ c (Proc.devRef .tc main_v26) = SH)
    (rP : ∀ i, IsReal ((m ((c.tc : Thread nD τ).loc main_arg0)) i)) (rW : ∀ i, IsReal ((m ((c.tc : Thread nD τ).loc main_arg2)) i)) (rB : ∀ i, IsReal ((m ((c.tc : Thread nD τ).loc main_arg3)) i))
    (rG : ∀ i, IsReal ((m ((c.tc : Thread nD τ).loc main_arg4)) i)) (rBT : ∀ i, IsReal ((m ((c.tc : Thread nD τ).loc main_arg5)) i))
    (b : Fin 8) (v : Fin 12000) (o : Fin 64) :
    max (Y3 (ix3 b v o) * SC (ix1 o) + SH (ix1 o)) zer
        = Cert.ReferenceIdeal.Term.layer1 (F := Ideal) (Cert.ReferenceIdeal.Term.feat1 (F := Ideal) (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4)) (m ((c.tc : Thread nD τ).loc main_arg5)) (ix3 b v o)
      ∧ IsReal (max (Y3 (ix3 b v o) * SC (ix1 o) + SH (ix1 o)) zer) := by
  -- the features, weights and bias the region finds are the reference's
  have hfeat := W1_feat m ρ c
  rw [W0_eq m ρ c main_arg0, W0_eq m ρ c main_arg1, eF8] at hfeat
  have hwT := W1_wT m ρ c
  rw [W0_eq m ρ c main_arg2, eWT] at hwT
  have hb : B3 = (m ((c.tc : Thread nD τ).loc main_arg3)) := eB3.symm.trans (W1_main_arg3 m ρ c)
  have eF : (fun (p : Rows) (k : Fin 27) => F8 (ix3 p.1 p.2 k))
      = fun p k => Cert.ReferenceIdeal.Term.feat1 (F := Ideal) (m ((c.tc : Thread nD τ).loc main_arg0)) (m ((c.tc : Thread nD τ).loc main_arg1)) (ix3 p.1 p.2 k) := by
    funext p k
    exact congrFun hfeat (ix3 p.1 p.2 k)
  have eW : (fun (o : Fin 64) (k : Fin 27) => WT (ix2 k o)) = fun o k => (m ((c.tc : Thread nD τ).loc main_arg2)) (ix2 o k) := by
    funext o k
    exact (congrFun hwT (ix2 k o)).trans (Glue.wT1_apply _ k o)
  have eB : (fun o : Fin 64 => B3 (ix1 o)) = fun o => (m ((c.tc : Thread nD τ).loc main_arg3)) (ix1 o) := by
    funext o
    exact congrFun hb (ix1 o)
  rw [eF, eW, eB] at hY hS hQ
  -- the scale and the shift are the per-channel scale and shift of the linear map's columns
  have hs : ∀ o : Fin 64, (W2 m ρ c (Proc.devRef .tc main_v11_1) : S1x64.Idx → EReal) (ix2 0 o) = _ := fun o =>
    (congrFun eS (ix2 0 o)).trans (hS o)
  have hq : ∀ o : Fin 64, (W2 m ρ c (Proc.devRef .tc main_v11_2) : S1x64.Idx → EReal) (ix2 0 o) = _ := fun o =>
    (congrFun eQ (ix2 0 o)).trans (hQ o)
  have hsc := W3_scale m ρ c
  rw [W2_main_arg4 m ρ c, eSC] at hsc
  have hsh := W3_shift m ρ c
  rw [W2_main_arg4 m ρ c, W2_main_arg5 m ρ c, eSH] at hsh
  have hy3 : Y3 = Y := eY3.symm.trans ((W3_y m ρ c).trans eY)
  have key := layer_agree
    (fun p k => Cert.ReferenceIdeal.Term.feat1 (F := Ideal) (m ((c.tc : Thread nD τ).loc main_arg0)) (m ((c.tc : Thread nD τ).loc main_arg1)) (ix3 p.1 p.2 k))
    (fun o k => (m ((c.tc : Thread nD τ).loc main_arg2)) (ix2 o k)) (fun o => (m ((c.tc : Thread nD τ).loc main_arg3)) (ix1 o)) (fun o => (m ((c.tc : Thread nD τ).loc main_arg4)) (ix1 o)) (fun o => (m ((c.tc : Thread nD τ).loc main_arg5)) (ix1 o))
    (fun p k => Cert.ReferenceIdeal.RefValue.feat1_isReal (m ((c.tc : Thread nD τ).loc main_arg0)) (m ((c.tc : Thread nD τ).loc main_arg1)) rP _) (fun o k => rW _) (fun o => rB _)
    (fun o => rG _) (fun o => rBT _)
    (max (Y3 (ix3 b v o) * SC (ix1 o) + SH (ix1 o)) zer) (Y3 (ix3 b v o)) (SC (ix1 o)) (SH (ix1 o)) (b, v) o
    ((congrFun hy3 (ix3 b v o)).trans (hY b v o))
    ((congrFun hsc (ix1 o)).trans (Glue.scale1_apply _ _ _ _ hs hq o))
    ((congrFun hsh (ix1 o)).trans (Glue.shift1_apply _ _ _ _ hs hq _ o))
    rfl
  exact ⟨key.1.trans (Cert.ReferenceIdeal.RefValue.layer1_apply _ _ _ _ _ b v o).symm, key.2⟩

/-- Layer 1: at the boundary after its normalising region the output array is the reference's layer 1 of the same
    arguments, and every entry of it is a real number. -/
theorem layer1 (c : Dev nD) (rP : ∀ i, IsReal ((m ((c.tc : Thread nD τ).loc main_arg0)) i)) (rW : ∀ i, IsReal ((m ((c.tc : Thread nD τ).loc main_arg2)) i)) (rB : ∀ i, IsReal ((m ((c.tc : Thread nD τ).loc main_arg3)) i))
    (rG : ∀ i, IsReal ((m ((c.tc : Thread nD τ).loc main_arg4)) i)) (rBT : ∀ i, IsReal ((m ((c.tc : Thread nD τ).loc main_arg5)) i)) :
    W4 m ρ c (Proc.devRef .tc main_v27)
        = Cert.ReferenceIdeal.Term.layer1 (F := Ideal) (Cert.ReferenceIdeal.Term.feat1 (F := Ideal) (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4)) (m ((c.tc : Thread nD τ).loc main_arg5))
      ∧ ∀ i, IsReal ((W4 m ρ c (Proc.devRef .tc main_v27) : S8x12000x64.Idx → EReal) i) := by
  have key := entry1 m ρ c (V1 m ρ c main_v8) rfl (V1 m ρ c main_v10) rfl (V1 m ρ c main_arg3) rfl
    ((dat0 (V1 m ρ) c).arrAt 3 cfg0.N) (W2_y m ρ c)
    ((dat0 (V1 m ρ) c).arrAt 4 cfg0.N) ((dat0 (V1 m ρ) c).arrAt 5 cfg0.N) (W2_s m ρ c) (W2_q m ρ c)
    (Lin0.y_final (V1 m ρ) c) (Lin0.sum_final (V1 m ρ) c) (Lin0.sumsq_final (V1 m ρ) c)
    (V3 m ρ c main_v11_0) rfl (V3 m ρ c main_v24) (V3 m ρ c main_v26) rfl rfl
    rP rW rB rG rBT
  have hH : ∀ (b : Fin 8) (v : Fin 12000) (o : Fin 64),
      (W4 m ρ c (Proc.devRef .tc main_v27) : S8x12000x64.Idx → EReal) (ix3 b v o) = _ := fun b v o =>
    (congrFun (W4_h m ρ c) (ix3 b v o)).trans (Bn1.h_final (V3 m ρ) c b v o)
  constructor
  · show (W4 m ρ c (Proc.devRef .tc main_v27) : S8x12000x64.Idx → EReal) = _
    funext i
    obtain ⟨b, v, o, rfl⟩ : ∃ (b : Fin 8) (v : Fin 12000) (o : Fin 64), i = ix3 b v o := ⟨i 0, i 1, i 2, eq_ix3 i⟩
    exact (hH b v o).trans (key b v o).1
  · intro i
    obtain ⟨b, v, o, rfl⟩ : ∃ (b : Fin 8) (v : Fin 12000) (o : Fin 64), i = ix3 b v o := ⟨i 0, i 1, i 2, eq_ix3 i⟩
    exact (hH b v o).symm ▸ (key b v o).2

end Cert.KernelIdeal.Gen

end
-- ==== Proof.KLin2.lean ====
/-
  The second layer's linear pass, read as mathematics.

  The pass visits the 12000 vertices in 30 tiles of 400. At each tile it forms y = feat · wᵀ + b for the tile's
  3200 rows (8 batches × 400 vertices, batch-major), writes that block of y to its place in the y array, and adds the
  block's column sums, and the column sums of its squares, to two running rows that were set to zero at the first
  tile and are written back once after the last. So after the pass the y array holds, at row (batch, vertex) and
  channel o, the number ∑ₖ feat((batch, vertex), k)·w(o, k) + b(o); the sum row holds every channel's sum of y
  over all 96000 rows; and the sum-of-squares row holds every channel's sum of y². The proof reads each store's
  value at an index (the product-sum of a row of the feature block with a column of the weights, the reshape
  between 3200 rows and 8 × 400, the column sum as a sum over the 3200 rows), shows by induction over the tiles that
  the running rows hold the sums over the tiles so far, and regroups the sum over the tiles' rows as the sum over
  all rows.
-/
import proofs.«182203_j60619168416159_1_alg».proof.Proof.Gen.KernelIdeal.Frame
import proofs.«182203_j60619168416159_1_alg».proof.Proof.LayerSpec
import proofs.«182203_j60619168416159_1_alg».proof.Proof.TileMath
import proofs.«182203_j60619168416159_1_alg».proof.Proof.RunningTotal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Lin2

open Cert.KernelIdeal Cert.KernelIdeal.Gen

theorem pay3_apply (x0 : Vec Ideal S8x400x576 .bf16) (x1 : Vec Ideal S576x128 .bf16) (x2 : Vec Ideal S128 .f32)
    (b : Fin 8) (j : Fin 400) (o : Fin 128) :
    k2_pay3 x0 x1 x2 (ix2 (⟨400 * b.val + j.val, by omega⟩ : Fin 3200) o)
      = (∑ k : Fin 576, x0 (ix3 b j k) * x1 (ix2 k o)) + x2 (ix1 o) := by
  unfold k2_pay3
  refine (addf_apply _ _ _).trans ?_
  congr 1
  · refine (Ideal.matmul_constant_zero_apply dot_S3200x576_S576x128_S3200x128_1_0_0_1_n_n none _ _ _).trans ?_
    refine ((contrEquiv1 dot_S3200x576_S576x128_S3200x128_1_0_0_1_n_n 576 rfl rfl).symm.sum_comp _).symm.trans ?_
    refine Finset.sum_congr rfl fun k _ => ?_
    have hl0 : ((dot_S3200x576_S576x128_S3200x128_1_0_0_1_n_n.lhsIdx (ix2 (⟨400 * b.val + j.val, by omega⟩ : Fin 3200) o)
          ((contrEquiv1 dot_S3200x576_S576x128_S3200x128_1_0_0_1_n_n 576 rfl rfl).symm k)) 0).val = 400 * b.val + j.val := rfl
    have hl1 : ((dot_S3200x576_S576x128_S3200x128_1_0_0_1_n_n.lhsIdx (ix2 (⟨400 * b.val + j.val, by omega⟩ : Fin 3200) o)
          ((contrEquiv1 dot_S3200x576_S576x128_S3200x128_1_0_0_1_n_n 576 rfl rfl).symm k)) 1).val = k.val :=
      (dot_S3200x576_S576x128_S3200x128_1_0_0_1_n_n.lhsIdx_val_of_single rfl _ _).trans (contrEquiv1_symm_val _ 576 rfl rfl k)
    have hr0 : ((dot_S3200x576_S576x128_S3200x128_1_0_0_1_n_n.rhsIdx (ix2 (⟨400 * b.val + j.val, by omega⟩ : Fin 3200) o)
          ((contrEquiv1 dot_S3200x576_S576x128_S3200x128_1_0_0_1_n_n 576 rfl rfl).symm k)) 0).val = k.val :=
      (dot_S3200x576_S576x128_S3200x128_1_0_0_1_n_n.rhsIdx_val_of_single rfl _ _).trans (contrEquiv1_symm_val _ 576 rfl rfl k)
    have hr1 : ((dot_S3200x576_S576x128_S3200x128_1_0_0_1_n_n.rhsIdx (ix2 (⟨400 * b.val + j.val, by omega⟩ : Fin 3200) o)
          ((contrEquiv1 dot_S3200x576_S576x128_S3200x128_1_0_0_1_n_n 576 rfl rfl).symm k)) 1).val = o.val := rfl
    congr 1
    · refine (shapeCast_apply (shapeCast S8x400x576 x0 shapeCasts_S8x400x576_S8x400x576) shapeCasts_S8x400x576_S3200x576 _ (ix3 b j k) ?_).trans
        (congrFun (shapeCast_self x0 _) _)
      rw [Shape.rowMajor_val_three, Shape.rowMajor_val_two, hl0, hl1]
      show (b.val * 400 + j.val) * 576 + k.val = (400 * b.val + j.val) * 576 + k.val
      omega
    · refine (congrFun (shapeCast_self x1 _) _).trans (congrArg x1 ?_)
      funext a; apply Fin.ext
      match a with
      | ⟨0, _⟩ => exact hr0
      | ⟨1, _⟩ => exact hr1
  · refine (broadcastTo_apply _ broadcasts_S1x128_S3200x128 _ (ix2 0 o) ?_).trans ?_
    · intro a
      match a with
      | ⟨0, _⟩ => rfl
      | ⟨1, _⟩ => rfl
    · refine shapeCast_apply x2 shapeCasts_S128_S1x128 _ (ix1 o) ?_
      rw [Shape.rowMajor_val_one, Shape.rowMajor_val_two]
      show o.val = 0 * 128 + o.val
      omega

theorem pay4_apply (x0 : Vec Ideal S8x400x576 .bf16) (x1 : Vec Ideal S576x128 .bf16) (x2 : Vec Ideal S128 .f32)
    (b : Fin 8) (j : Fin 400) (o : Fin 128) :
    k2_pay4 x0 x1 x2 (ix3 b j o) = k2_pay3 x0 x1 x2 (ix2 (⟨400 * b.val + j.val, by omega⟩ : Fin 3200) o) := by
  unfold k2_pay4
  refine shapeCast_apply (k2_pay3 x0 x1 x2) shapeCasts_S3200x128_S8x400x128 _ _ ?_
  rw [Shape.rowMajor_val_three, Shape.rowMajor_val_two]
  show (400 * b.val + j.val) * 128 + o.val = (b.val * 400 + j.val) * 128 + o.val
  omega

theorem lift_row (o : Fin 128) (k : Fin (S3200x128.size 0)) :
    reduces_S3200x128_S128.lift (ix1 o) k = ix2 (⟨k.val, k.isLt⟩ : Fin 3200) o := by
  funext c; apply Fin.ext
  fin_cases c <;> rfl

theorem colsum_apply (y : Vec Ideal S3200x128 .f32) (o : Fin 128) :
    shapeCast S1x128 (multiReduction (F := Ideal) .add [0] S128 y 0x00000000#32 reduces_S3200x128_S128 (.inl rfl) rfl) shapeCasts_S128_S1x128 (ix2 0 o)
      = ∑ r : Fin 3200, y (ix2 r o) := by
  refine (shapeCast_apply _ shapeCasts_S128_S1x128 _ (ix1 o) ?_).trans ?_
  · rw [Shape.rowMajor_val_one, Shape.rowMajor_val_two]
    show o.val = 0 * 128 + o.val
    omega
  · refine (Ideal.multiReduction_add_single y _ reduces_S3200x128_S128 _ _ (ix1 o)).trans ?_
    exact Finset.sum_congr rfl fun k _ => congrArg y (lift_row o k)

theorem pay5_apply (x0 : Vec Ideal S8x400x576 .bf16) (x1 : Vec Ideal S576x128 .bf16) (x2 : Vec Ideal S128 .f32)
    (acc : Vec Ideal S1x128 .f32) (o : Fin 128) :
    k2_pay5 x0 x1 x2 acc (ix2 0 o) = acc (ix2 0 o) + ∑ r : Fin 3200, k2_pay3 x0 x1 x2 (ix2 r o) := by
  unfold k2_pay5
  refine (addf_apply _ _ _).trans ?_
  congr 1
  · exact congrFun (shapeCast_self acc _) _
  · exact colsum_apply _ o

theorem pay6_apply (x0 : Vec Ideal S8x400x576 .bf16) (x1 : Vec Ideal S576x128 .bf16) (x2 : Vec Ideal S128 .f32)
    (acc : Vec Ideal S1x128 .f32) (o : Fin 128) :
    k2_pay6 x0 x1 x2 acc (ix2 0 o)
      = acc (ix2 0 o) + ∑ r : Fin 3200, k2_pay3 x0 x1 x2 (ix2 r o) * k2_pay3 x0 x1 x2 (ix2 r o) := by
  unfold k2_pay6
  refine (addf_apply _ _ _).trans ?_
  congr 1
  · exact congrFun (shapeCast_self acc _) _
  · exact colsum_apply _ o

theorem pay1_apply (o : Fin 128) : k2_pay1 (F := Ideal) (ix2 0 o) = 0 := Ideal.ofBits_zero_f32
theorem pay2_apply (o : Fin 128) : k2_pay2 (F := Ideal) (ix2 0 o) = 0 := Ideal.ofBits_zero_f32

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At the first point the block of y is the one store's payload. -/
theorem outA3 (c : Dev nD) (i : grid2.Coords) (a1 : Memref sig .tc .vmem S8x400x576 .bf16) (h1 : a1.IsWhole) (a2 : Memref sig .tc .vmem S576x128 .bf16) (h2 : a2.IsWhole) (a3 : Memref sig .tc .vmem S128 .f32) (h3 : a3.IsWhole) (a4 : Memref sig .tc .vmem S8x400x128 .f32) (h4 : a4.IsWhole) (a5 : Memref sig .tc .vmem S1x128 .f32) (h5 : a5.IsWhole) (a6 : Memref sig .tc .vmem S1x128 .f32) (h6 : a6.IsWhole) (hc : cond2_0 i)
    (x0 : Vec F S8x400x576 .bf16) (x1 : Vec F S576x128 .bf16) (x2 : Vec F S128 .f32) :
    out2_A_3 c i a1 h1 a2 h2 a3 h3 a4 h4 a5 h5 a6 h6 hc x0 x1 x2 = k2_pay4 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  rw [View.canon_unit_zero hz3]
  simp only [View.readAt_eq_ld, h1.read_unread, h2.read_unread, h3.read_unread, View.ld_unit_zero (S := S8x400x576) hz3, View.ld_unit_zero (S := S576x128) hz2, View.ld_unit_zero (S := S128) hz1]

/-- At the first point the running sum is the tile's column sums added to the zero block just stored. -/
theorem outA4 (c : Dev nD) (i : grid2.Coords) (a1 : Memref sig .tc .vmem S8x400x576 .bf16) (h1 : a1.IsWhole) (a2 : Memref sig .tc .vmem S576x128 .bf16) (h2 : a2.IsWhole) (a3 : Memref sig .tc .vmem S128 .f32) (h3 : a3.IsWhole) (a4 : Memref sig .tc .vmem S8x400x128 .f32) (h4 : a4.IsWhole) (a5 : Memref sig .tc .vmem S1x128 .f32) (h5 : a5.IsWhole) (a6 : Memref sig .tc .vmem S1x128 .f32) (h6 : a6.IsWhole) (hc : cond2_0 i)
    (x0 : Vec F S8x400x576 .bf16) (x1 : Vec F S576x128 .bf16) (x2 : Vec F S128 .f32) :
    out2_A_4 c i a1 h1 a2 h2 a3 h3 a4 h4 a5 h5 a6 h6 hc x0 x1 x2 = k2_pay5 x0 x1 x2 k2_pay1 := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread, View.ld_unit_zero (S := S8x400x576) hz3, View.ld_unit_zero (S := S576x128) hz2, View.ld_unit_zero (S := S128) hz1]

/-- At the first point the running sum of squares is the tile's added to the zero block just stored. -/
theorem outA5 (c : Dev nD) (i : grid2.Coords) (a1 : Memref sig .tc .vmem S8x400x576 .bf16) (h1 : a1.IsWhole) (a2 : Memref sig .tc .vmem S576x128 .bf16) (h2 : a2.IsWhole) (a3 : Memref sig .tc .vmem S128 .f32) (h3 : a3.IsWhole) (a4 : Memref sig .tc .vmem S8x400x128 .f32) (h4 : a4.IsWhole) (a5 : Memref sig .tc .vmem S1x128 .f32) (h5 : a5.IsWhole) (a6 : Memref sig .tc .vmem S1x128 .f32) (h6 : a6.IsWhole) (hc : cond2_0 i)
    (x0 : Vec F S8x400x576 .bf16) (x1 : Vec F S576x128 .bf16) (x2 : Vec F S128 .f32) :
    out2_A_5 c i a1 h1 a2 h2 a3 h3 a4 h4 a5 h5 a6 h6 hc x0 x1 x2 = k2_pay6 x0 x1 x2 k2_pay2 := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread, View.ld_unit_zero (S := S8x400x576) hz3, View.ld_unit_zero (S := S576x128) hz2, View.ld_unit_zero (S := S128) hz1]

/-- At a later point the block of y is again the one store's payload. -/
theorem outB3 (c : Dev nD) (i : grid2.Coords) (a1 : Memref sig .tc .vmem S8x400x576 .bf16) (h1 : a1.IsWhole) (a2 : Memref sig .tc .vmem S576x128 .bf16) (h2 : a2.IsWhole) (a3 : Memref sig .tc .vmem S128 .f32) (h3 : a3.IsWhole) (a4 : Memref sig .tc .vmem S8x400x128 .f32) (h4 : a4.IsWhole) (a5 : Memref sig .tc .vmem S1x128 .f32) (h5 : a5.IsWhole) (a6 : Memref sig .tc .vmem S1x128 .f32) (h6 : a6.IsWhole) (hc : ¬cond2_0 i)
    (x0 : Vec F S8x400x576 .bf16) (x1 : Vec F S576x128 .bf16) (x2 : Vec F S128 .f32) (xo4 xo5 : Vec F S1x128 .f32) :
    out2_B_3 c i a1 h1 a2 h2 a3 h3 a4 h4 a5 h5 a6 h6 hc x0 x1 x2 xo4 xo5 = k2_pay4 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  rw [View.canon_unit_zero hz3]
  simp only [View.readAt_eq_ld, h1.read_unread, h2.read_unread, h3.read_unread, View.ld_unit_zero (S := S8x400x576) hz3, View.ld_unit_zero (S := S576x128) hz2, View.ld_unit_zero (S := S128) hz1]

/-- At a later point the running sum is the tile's column sums added to what the point before left. -/
theorem outB4 (c : Dev nD) (i : grid2.Coords) (a1 : Memref sig .tc .vmem S8x400x576 .bf16) (h1 : a1.IsWhole) (a2 : Memref sig .tc .vmem S576x128 .bf16) (h2 : a2.IsWhole) (a3 : Memref sig .tc .vmem S128 .f32) (h3 : a3.IsWhole) (a4 : Memref sig .tc .vmem S8x400x128 .f32) (h4 : a4.IsWhole) (a5 : Memref sig .tc .vmem S1x128 .f32) (h5 : a5.IsWhole) (a6 : Memref sig .tc .vmem S1x128 .f32) (h6 : a6.IsWhole) (hc : ¬cond2_0 i)
    (x0 : Vec F S8x400x576 .bf16) (x1 : Vec F S576x128 .bf16) (x2 : Vec F S128 .f32) (xo4 xo5 : Vec F S1x128 .f32) :
    out2_B_4 c i a1 h1 a2 h2 a3 h3 a4 h4 a5 h5 a6 h6 hc x0 x1 x2 xo4 xo5 = k2_pay5 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  rw [View.canon_unit_zero hz2]
  simp only [View.readAt_eq_ld, h1.read_unread, h2.read_unread, h3.read_unread, h5.read_unread, View.ld_unit_zero (S := S8x400x576) hz3, View.ld_unit_zero (S := S576x128) hz2, View.ld_unit_zero (S := S128) hz1, View.ld_unit_zero (S := S1x128) hz2]

/-- At a later point the running sum of squares is the tile's added to what the point before left. -/
theorem outB5 (c : Dev nD) (i : grid2.Coords) (a1 : Memref sig .tc .vmem S8x400x576 .bf16) (h1 : a1.IsWhole) (a2 : Memref sig .tc .vmem S576x128 .bf16) (h2 : a2.IsWhole) (a3 : Memref sig .tc .vmem S128 .f32) (h3 : a3.IsWhole) (a4 : Memref sig .tc .vmem S8x400x128 .f32) (h4 : a4.IsWhole) (a5 : Memref sig .tc .vmem S1x128 .f32) (h5 : a5.IsWhole) (a6 : Memref sig .tc .vmem S1x128 .f32) (h6 : a6.IsWhole) (hc : ¬cond2_0 i)
    (x0 : Vec F S8x400x576 .bf16) (x1 : Vec F S576x128 .bf16) (x2 : Vec F S128 .f32) (xo4 xo5 : Vec F S1x128 .f32) :
    out2_B_5 c i a1 h1 a2 h2 a3 h3 a4 h4 a5 h5 a6 h6 hc x0 x1 x2 xo4 xo5 = k2_pay6 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  rw [View.canon_unit_zero hz2]
  simp only [View.readAt_eq_ld, h1.read_unread, h2.read_unread, h3.read_unread, h6.read_unread, View.ld_unit_zero (S := S8x400x576) hz3, View.ld_unit_zero (S := S576x128) hz2, View.ld_unit_zero (S := S128) hz1, View.ld_unit_zero (S := S1x128) hz2]
end Pieces

section Value
variable (V : (c : Dev nD) → (b : Ref sig .tc) → Buf (Elt Ideal) ((c : Thread nD τ).loc b))

open Cert.Spiral

/-- The gathered features: row (batch, vertex), feature k. -/
def feat (c : Dev nD) : Cert.Spiral.Rows → Fin 576 → EReal := fun p k => V c main_v35 (ix3 p.1 p.2 k)
/-- The weights, stored transposed: output channel o, feature k. -/
def wgt (c : Dev nD) : Fin 128 → Fin 576 → EReal := fun o k => V c main_v37 (ix2 k o)
/-- The bias of output channel o. -/
def bias (c : Dev nD) : Fin 128 → EReal := fun o => V c main_arg7 (ix1 o)

/-- A grid point as a tile number. -/
def tt (t : Fin cfg2.N) : Fin 30 := ⟨t.val, lt_of_lt_of_eq t.isLt N_2⟩

/-- Where the blocks sit: the feature and y blocks move along the vertex axis with the point, every other block stays. -/
theorem idx_facts : ∀ t : Fin cfg2.N,
    win2_0.index t (0 : Fin 3) = 0 ∧ win2_0.index t (1 : Fin 3) = t.val ∧ win2_0.index t (2 : Fin 3) = 0
    ∧ win2_1.index t (0 : Fin 2) = 0 ∧ win2_1.index t (1 : Fin 2) = 0
    ∧ win2_2.index t (0 : Fin 1) = 0
    ∧ win2_3.index t (0 : Fin 3) = 0 ∧ win2_3.index t (1 : Fin 3) = t.val ∧ win2_3.index t (2 : Fin 3) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The feature block at a point: vertex j of tile t. -/
theorem blk0_apply (c : Dev nD) (t : Fin cfg2.N) (b : Fin 8) (j : Fin 400) (k : Fin 576) :
    (iblk2 V c 0 t : Vec Ideal S8x400x576 .bf16) (ix3 b j k) = feat V c (b, Tiles.vert (tt t) j) k := by
  obtain ⟨e0, e1, e2, -⟩ := idx_facts t
  unfold iblk2 feat
  rw [View.read_apply]
  show V c main_v35 _ = V c main_v35 _
  congr 1
  funext a; apply Fin.ext
  match a with
  | ⟨0, _⟩ => show win2_0.index t (0 : Fin 3) * 8 + 1 * b.val = b.val; omega
  | ⟨1, _⟩ => show win2_0.index t (1 : Fin 3) * 400 + 1 * j.val = 400 * t.val + j.val; omega
  | ⟨2, _⟩ => show win2_0.index t (2 : Fin 3) * 576 + 1 * k.val = k.val; omega

/-- The weight block at every point is the whole array. -/
theorem blk1_apply (c : Dev nD) (t : Fin cfg2.N) (k : Fin 576) (o : Fin 128) :
    (iblk2 V c 1 t : Vec Ideal S576x128 .bf16) (ix2 k o) = wgt V c o k := by
  obtain ⟨-, -, -, e0, e1, -⟩ := idx_facts t
  unfold iblk2 wgt
  rw [View.read_apply]
  show V c main_v37 _ = V c main_v37 _
  congr 1
  funext a; apply Fin.ext
  match a with
  | ⟨0, _⟩ => show win2_1.index t (0 : Fin 2) * 576 + 1 * k.val = k.val; omega
  | ⟨1, _⟩ => show win2_1.index t (1 : Fin 2) * 128 + 1 * o.val = o.val; omega

/-- The bias block at every point is the whole array. -/
theorem blk2_apply (c : Dev nD) (t : Fin cfg2.N) (o : Fin 128) :
    (iblk2 V c 2 t : Vec Ideal S128 .f32) (ix1 o) = bias V c o := by
  obtain ⟨-, -, -, -, -, e0, -⟩ := idx_facts t
  unfold iblk2 bias
  rw [View.read_apply]
  show V c main_arg7 _ = V c main_arg7 _
  congr 1
  funext a; apply Fin.ext
  match a with
  | ⟨0, _⟩ => show win2_2.index t (0 : Fin 1) * 128 + 1 * o.val = o.val; omega

/-- The linear part of the layer on all rows. -/
abbrev Y (c : Dev nD) : Cert.Spiral.Rows → Fin 128 → EReal := lin (feat V c) (wgt V c) (bias V c)

/-- The tile's y at (batch b, vertex j of the tile) is the layer's linear part at that row. -/
theorem tile_y' (c : Dev nD) (t : Fin cfg2.N) (b : Fin 8) (j : Fin 400) (o : Fin 128) :
    k2_pay3 (F := Ideal) (iblk2 V c 0 t) (iblk2 V c 1 t) (iblk2 V c 2 t) (ix2 (⟨400 * b.val + j.val, by omega⟩ : Fin 3200) o)
      = Y V c (b, Tiles.vert (tt t) j) o := by
  refine (pay3_apply (iblk2 V c 0 t) (iblk2 V c 1 t) (iblk2 V c 2 t) b j o).trans ?_
  unfold Y lin
  congr 1
  · refine Finset.sum_congr rfl fun k _ => ?_
    congr 1
    · exact blk0_apply V c t b j k
    · exact blk1_apply V c t k o
  · exact blk2_apply V c t o

/-- Row r of the tile, batch-major. -/
theorem tile_y (c : Dev nD) (t : Fin cfg2.N) (r : Fin 3200) (o : Fin 128) :
    k2_pay3 (F := Ideal) (iblk2 V c 0 t) (iblk2 V c 1 t) (iblk2 V c 2 t) (ix2 r o) = Y V c (Tiles.row (tt t) r) o := by
  have hr := r.isLt
  have er : r = (⟨400 * (⟨r.val / 400, by omega⟩ : Fin 8).val + (⟨r.val % 400, Nat.mod_lt _ (by norm_num)⟩ : Fin 400).val,
      by dsimp only; omega⟩ : Fin 3200) := Fin.ext (by dsimp only; omega)
  exact (congrArg (fun q => k2_pay3 (F := Ideal) (iblk2 V c 0 t) (iblk2 V c 1 t) (iblk2 V c 2 t) (ix2 q o)) er).trans
    (tile_y' V c t ⟨r.val / 400, by omega⟩ ⟨r.val % 400, Nat.mod_lt _ (by norm_num)⟩ o)

/-- What the three output buffers hold after the first point, as payloads of the point's blocks. -/
theorem at_first (c : Dev nD) (t : Fin cfg2.N) (h0 : t.val % 30 = 0) :
    outsAt2 V c t.val t.isLt
      = (k2_pay4 (iblk2 V c 0 t) (iblk2 V c 1 t) (iblk2 V c 2 t), k2_pay5 (iblk2 V c 0 t) (iblk2 V c 1 t) (iblk2 V c 2 t) (k2_pay1 (F := Ideal)), k2_pay6 (iblk2 V c 0 t) (iblk2 V c 1 t) (iblk2 V c 2 t) (k2_pay2 (F := Ideal))) := by
  rw [outsAt2_A V c t h0, outA3, outA4, outA5]

/-- What the three output buffers hold after a later point, over what the point before left. -/
theorem at_later (c : Dev nD) (t : Fin cfg2.N) (h0 : ¬t.val % 30 = 0) :
    outsAt2 V c t.val t.isLt
      = (k2_pay4 (iblk2 V c 0 t) (iblk2 V c 1 t) (iblk2 V c 2 t),
         k2_pay5 (iblk2 V c 0 t) (iblk2 V c 1 t) (iblk2 V c 2 t) (outsAt2 V c (t.val - 1) (Nat.lt_of_le_of_lt (Nat.sub_le _ _) t.isLt)).2.1,
         k2_pay6 (iblk2 V c 0 t) (iblk2 V c 1 t) (iblk2 V c 2 t) (outsAt2 V c (t.val - 1) (Nat.lt_of_le_of_lt (Nat.sub_le _ _) t.isLt)).2.2) := by
  rw [outsAt2_B V c t h0, outB3, outB4, outB5]

/-- After every point the y buffer holds the point's tile of y. -/
theorem y_blk (c : Dev nD) (t : Fin cfg2.N) :
    (outsAt2 V c t.val t.isLt).1 = k2_pay4 (iblk2 V c 0 t) (iblk2 V c 1 t) (iblk2 V c 2 t) := by
  by_cases h0 : t.val % 30 = 0
  · rw [at_first V c t h0]
  · rw [at_later V c t h0]

/-- Tile t's column sum of channel o. -/
def tileSum (c : Dev nD) (o : Fin 128) (t : Fin 30) : EReal := ∑ r : Fin 3200, Y V c (Tiles.row t r) o
/-- Tile t's column sum of squares of channel o. -/
def tileSq (c : Dev nD) (o : Fin 128) (t : Fin 30) : EReal := ∑ r : Fin 3200, Y V c (Tiles.row t r) o * Y V c (Tiles.row t r) o

theorem lt30 {n : ℕ} (h : n < cfg2.N) : n < 30 := lt_of_lt_of_eq h N_2

/-- After point n the running sum is the sum of the tiles' column sums up to n. -/
theorem sum_inv (c : Dev nD) (o : Fin 128) (n : ℕ) (hn : n < cfg2.N) :
    (outsAt2 V c n hn).2.1 (ix2 0 o) = ∑ t : Fin 30, (if t.val ≤ n then tileSum V c o t else 0) := by
  refine Running.total_eq (N := 30) (tileSum V c o) (fun n h => (outsAt2 V c n (lt_of_lt_of_eq h N_2.symm)).2.1 (ix2 0 o)) ?_ ?_ n (lt30 hn)
  · intro h
    have e := at_first V c ⟨0, lt_of_lt_of_eq h N_2.symm⟩ rfl
    show (outsAt2 V c (⟨0, lt_of_lt_of_eq h N_2.symm⟩ : Fin cfg2.N).val _).2.1 (ix2 0 o) = _
    rw [e]
    show k2_pay5 _ _ _ k2_pay1 (ix2 0 o) = _
    rw [pay5_apply, pay1_apply]
    congr 1
    exact Finset.sum_congr rfl fun r _ => tile_y V c _ r o
  · intro n h
    have hB : ¬(⟨n + 1, lt_of_lt_of_eq h N_2.symm⟩ : Fin cfg2.N).val % 30 = 0 := by dsimp only; omega
    have e := at_later V c ⟨n + 1, lt_of_lt_of_eq h N_2.symm⟩ hB
    show (outsAt2 V c (⟨n + 1, lt_of_lt_of_eq h N_2.symm⟩ : Fin cfg2.N).val _).2.1 (ix2 0 o) = _
    rw [e]
    show k2_pay5 _ _ _ (outsAt2 V c n _).2.1 (ix2 0 o) = _
    rw [pay5_apply]
    congr 1
    exact Finset.sum_congr rfl fun r _ => tile_y V c _ r o

/-- After point n the running sum of squares is the sum of the tiles' up to n. -/
theorem sq_inv (c : Dev nD) (o : Fin 128) (n : ℕ) (hn : n < cfg2.N) :
    (outsAt2 V c n hn).2.2 (ix2 0 o) = ∑ t : Fin 30, (if t.val ≤ n then tileSq V c o t else 0) := by
  refine Running.total_eq (N := 30) (tileSq V c o) (fun n h => (outsAt2 V c n (lt_of_lt_of_eq h N_2.symm)).2.2 (ix2 0 o)) ?_ ?_ n (lt30 hn)
  · intro h
    have e := at_first V c ⟨0, lt_of_lt_of_eq h N_2.symm⟩ rfl
    show (outsAt2 V c (⟨0, lt_of_lt_of_eq h N_2.symm⟩ : Fin cfg2.N).val _).2.2 (ix2 0 o) = _
    rw [e]
    show k2_pay6 _ _ _ k2_pay2 (ix2 0 o) = _
    rw [pay6_apply, pay2_apply]
    congr 1
    exact Finset.sum_congr rfl fun r _ => by rw [tile_y V c _ r o]; rfl
  · intro n h
    have hB : ¬(⟨n + 1, lt_of_lt_of_eq h N_2.symm⟩ : Fin cfg2.N).val % 30 = 0 := by dsimp only; omega
    have e := at_later V c ⟨n + 1, lt_of_lt_of_eq h N_2.symm⟩ hB
    show (outsAt2 V c (⟨n + 1, lt_of_lt_of_eq h N_2.symm⟩ : Fin cfg2.N).val _).2.2 (ix2 0 o) = _
    rw [e]
    show k2_pay6 _ _ _ (outsAt2 V c n _).2.2 (ix2 0 o) = _
    rw [pay6_apply]
    congr 1
    exact Finset.sum_congr rfl fun r _ => by rw [tile_y V c _ r o]; rfl

/-- The y array after the region: the layer's linear part at every row. -/
def G3 (c : Dev nD) : S8x12000x128.Idx → EReal := fun i => Y V c (i 0, i 1) (i 2)
/-- The sum array after the region: every channel's column sum. -/
def G4 (c : Dev nD) : S1x128.Idx → EReal := fun i => colSum (Y V c) (i 1)
/-- The sum-of-squares array after the region. -/
def G5 (c : Dev nD) : S1x128.Idx → EReal := fun i => colSumSq (Y V c) (i 1)

/-- What point t writes back to the y array is tile t of the layer's linear part. -/
theorem flushed3 (c : Dev nD) (t : Fin cfg2.N) :
    (dat2 V c).flushed 3 t = ((cfg2.win 3).blk t).view.read (Elt Ideal) (G3 V c) := by
  obtain ⟨-, -, -, -, -, -, e0, e1, e2, -⟩ := idx_facts t
  show (cfg2.win 3).cut (grid2.coords t) ((dat2 V c).after 3 t) = _
  rw [after2_3, y_blk]
  funext y
  obtain ⟨b, j, o, rfl⟩ : ∃ (b : Fin 8) (j : Fin 400) (o : Fin 128), y = ix3 b j o := ⟨y 0, y 1, y 2, eq_ix3 y⟩
  show k2_pay4 (F := Ideal) (iblk2 V c 0 t) (iblk2 V c 1 t) (iblk2 V c 2 t) (ix3 b j o) = G3 V c (((cfg2.win 3).blk t).view.emb (ix3 b j o))
  refine (pay4_apply _ _ _ b j o).trans ((tile_y' V c t b j o).trans ?_)
  unfold G3
  have a0 : (((cfg2.win 3).blk t).view.emb (ix3 b j o)) 0 = b :=
    Fin.ext (by show win2_3.index t (0 : Fin 3) * 8 + 1 * b.val = b.val; omega)
  have a1 : (((cfg2.win 3).blk t).view.emb (ix3 b j o)) 1 = Tiles.vert (tt t) j :=
    Fin.ext (by show win2_3.index t (1 : Fin 3) * 400 + 1 * j.val = 400 * t.val + j.val; omega)
  have a2 : (((cfg2.win 3).blk t).view.emb (ix3 b j o)) 2 = o :=
    Fin.ext (by show win2_3.index t (2 : Fin 3) * 128 + 1 * o.val = o.val; omega)
  rw [a0, a1, a2]

/-- The one write-back of the running sum, after the last point, writes every channel's column sum. -/
theorem flushed4 (c : Dev nD) (t : Fin cfg2.N) (hf : (cfg2.win 4).flush t = true) :
    (dat2 V c).flushed 4 t = ((cfg2.win 4).blk t).view.read (Elt Ideal) (G4 V c) := by
  obtain ⟨-, -, -, -, -, -, -, -, -, e0, e1, -⟩ := idx_facts t
  have h29 : t.val % 30 = 29 := (flush2_4 t).mp hf
  have hN := lt30 t.isLt
  show (cfg2.win 4).cut (grid2.coords t) ((dat2 V c).after 4 t) = _
  rw [after2_4]
  funext y
  obtain ⟨z, o, rfl⟩ : ∃ (z : Fin 1) (o : Fin 128), y = ix2 z o := ⟨y 0, y 1, eq_ix2 y⟩
  obtain rfl : z = 0 := Subsingleton.elim _ _
  show (outsAt2 V c t.val t.isLt).2.1 (ix2 0 o) = G4 V c (((cfg2.win 4).blk t).view.emb (ix2 0 o))
  rw [sum_inv V c o t.val t.isLt, Running.sum_upto_last _ _ (by omega)]
  unfold G4 colSum
  have a1 : (((cfg2.win 4).blk t).view.emb (ix2 0 o)) 1 = o :=
    Fin.ext (by show win2_4.index t (1 : Fin 2) * 128 + 1 * o.val = o.val; omega)
  rw [a1, Tiles.sum_rows]
  rfl

/-- The one write-back of the running sum of squares writes every channel's column sum of squares. -/
theorem flushed5 (c : Dev nD) (t : Fin cfg2.N) (hf : (cfg2.win 5).flush t = true) :
    (dat2 V c).flushed 5 t = ((cfg2.win 5).blk t).view.read (Elt Ideal) (G5 V c) := by
  obtain ⟨-, -, -, -, -, -, -, -, -, -, -, e0, e1⟩ := idx_facts t
  have h29 : t.val % 30 = 29 := (flush2_5 t).mp hf
  have hN := lt30 t.isLt
  show (cfg2.win 5).cut (grid2.coords t) ((dat2 V c).after 5 t) = _
  rw [after2_5]
  funext y
  obtain ⟨z, o, rfl⟩ : ∃ (z : Fin 1) (o : Fin 128), y = ix2 z o := ⟨y 0, y 1, eq_ix2 y⟩
  obtain rfl : z = 0 := Subsingleton.elim _ _
  show (outsAt2 V c t.val t.isLt).2.2 (ix2 0 o) = G5 V c (((cfg2.win 5).blk t).view.emb (ix2 0 o))
  rw [sq_inv V c o t.val t.isLt, Running.sum_upto_last _ _ (by omega)]
  unfold G5 colSumSq
  have a1 : (((cfg2.win 5).blk t).view.emb (ix2 0 o)) 1 = o :=
    Fin.ext (by show win2_5.index t (1 : Fin 2) * 128 + 1 * o.val = o.val; omega)
  rw [a1, Tiles.sum_rows]
  rfl

/-- An index of the y array is in point t's block iff each coordinate is in the block's range on its axis. -/
theorem mem_blk3 (t : Fin cfg2.N) (i : S8x12000x128.Idx) :
    i ∈ ((cfg2.win 3).blk t).view.set ↔ ∀ a : Fin 3, win2_3.index t a * S8x400x128.size a ≤ (i a).val ∧ (i a).val < win2_3.index t a * S8x400x128.size a + S8x400x128.size a := by
  show i ∈ ((View.whole main_v38_0).slice (win2_3.rect t)).set ↔ _
  rw [View.set_slice_whole, Rect.mem_set_unit]
  exact Iff.rfl

theorem mem_blk4 (t : Fin cfg2.N) (i : S1x128.Idx) :
    i ∈ ((cfg2.win 4).blk t).view.set ↔ ∀ a : Fin 2, win2_4.index t a * S1x128.size a ≤ (i a).val ∧ (i a).val < win2_4.index t a * S1x128.size a + S1x128.size a := by
  show i ∈ ((View.whole main_v38_1).slice (win2_4.rect t)).set ↔ _
  rw [View.set_slice_whole, Rect.mem_set_unit]
  exact Iff.rfl

theorem mem_blk5 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole main_v38_2).slice (win2_5.rect t)).set ↔ _
  rw [View.set_slice_whole, Rect.mem_set_unit]
  exact Iff.rfl

/-- Vertex v lies in the block of point v / 400. -/
theorem cover3 (i : S8x12000x128.Idx) :
    ∃ t : Fin cfg2.N, (cfg2.win 3).flush t = true ∧ i ∈ ((cfg2.win 3).blk t).view.set := by
  have h0 : (i 0).val < 8 := (i 0).isLt
  have h1 : (i 1).val < 12000 := (i 1).isLt
  have h2 : (i 2).val < 128 := (i 2).isLt
  have ht : (i 1).val / 400 < cfg2.N := by rw [show cfg2.N = 30 from N_2]; omega
  refine ⟨⟨(i 1).val / 400, ht⟩, flush2_3 _, ?_⟩
  obtain ⟨-, -, -, -, -, -, e0, e1, e2, -⟩ := idx_facts ⟨(i 1).val / 400, ht⟩
  rw [mem_blk3]
  intro a
  match a with
  | ⟨0, _⟩ => show win2_3.index ⟨(i 1).val / 400, ht⟩ (0 : Fin 3) * 8 ≤ (i 0).val ∧ (i 0).val < win2_3.index ⟨(i 1).val / 400, ht⟩ (0 : Fin 3) * 8 + 8; omega
  | ⟨1, _⟩ => show win2_3.index ⟨(i 1).val / 400, ht⟩ (1 : Fin 3) * 400 ≤ (i 1).val ∧ (i 1).val < win2_3.index ⟨(i 1).val / 400, ht⟩ (1 : Fin 3) * 400 + 400; dsimp only at e1; omega
  | ⟨2, _⟩ => show win2_3.index ⟨(i 1).val / 400, ht⟩ (2 : Fin 3) * 128 ≤ (i 2).val ∧ (i 2).val < win2_3.index ⟨(i 1).val / 400, ht⟩ (2 : Fin 3) * 128 + 128; omega

theorem t29 : 29 < cfg2.N := by rw [show cfg2.N = 30 from N_2]; omega

/-- The one block of the sum array is the whole array, written back after the last point. -/
theorem cover4 (i : S1x128.Idx) :
    ∃ t : Fin cfg2.N, (cfg2.win 4).flush t = true ∧ i ∈ ((cfg2.win 4).blk t).view.set := by
  have h0 : (i 0).val < 1 := (i 0).isLt
  have h1 : (i 1).val < 128 := (i 1).isLt
  refine ⟨⟨29, t29⟩, (flush2_4 _).mpr rfl, ?_⟩
  obtain ⟨-, -, -, -, -, -, -, -, -, e0, e1, -⟩ := idx_facts ⟨29, t29⟩
  rw [mem_blk4]
  intro a
  match a with
  | ⟨0, _⟩ => show win2_4.index ⟨29, t29⟩ (0 : Fin 2) * 1 ≤ (i 0).val ∧ (i 0).val < win2_4.index ⟨29, t29⟩ (0 : Fin 2) * 1 + 1; omega
  | ⟨1, _⟩ => show win2_4.index ⟨29, t29⟩ (1 : Fin 2) * 128 ≤ (i 1).val ∧ (i 1).val < win2_4.index ⟨29, t29⟩ (1 : Fin 2) * 128 + 128; omega

theorem cover5 (i : S1x128.Idx) :
    ∃ t : Fin cfg2.N, (cfg2.win 5).flush t = true ∧ i ∈ ((cfg2.win 5).blk t).view.set := by
  have h0 : (i 0).val < 1 := (i 0).isLt
  have h1 : (i 1).val < 128 := (i 1).isLt
  refine ⟨⟨29, t29⟩, (flush2_5 _).mpr rfl, ?_⟩
  obtain ⟨-, -, -, -, -, -, -, -, -, -, -, e0, e1⟩ := idx_facts ⟨29, t29⟩
  rw [mem_blk5]
  intro a
  match a with
  | ⟨0, _⟩ => show win2_5.index ⟨29, t29⟩ (0 : Fin 2) * 1 ≤ (i 0).val ∧ (i 0).val < win2_5.index ⟨29, t29⟩ (0 : Fin 2) * 1 + 1; omega
  | ⟨1, _⟩ => show win2_5.index ⟨29, t29⟩ (1 : Fin 2) * 128 ≤ (i 1).val ∧ (i 1).val < win2_5.index ⟨29, t29⟩ (1 : Fin 2) * 128 + 128; omega

/-- After the region the y array holds the layer's linear part. -/
theorem y_final (c : Dev nD) (b : Fin 8) (v : Fin 12000) (o : Fin 128) :
    (dat2 V c).arrAt 3 cfg2.N (ix3 b v o) = Cert.Spiral.lin (feat V c) (wgt V c) (bias V c) (b, v) o :=
  congrFun ((dat2 V c).arrAt_eq_of_cover 3 (G3 V c) (fun t _ => flushed3 V c t) cover3) (ix3 b v o)

/-- After the region the sum array holds every channel's sum over all rows. -/
theorem sum_final (c : Dev nD) (o : Fin 128) :
    (dat2 V c).arrAt 4 cfg2.N (ix2 0 o) = Cert.Spiral.colSum (Cert.Spiral.lin (feat V c) (wgt V c) (bias V c)) o :=
  congrFun ((dat2 V c).arrAt_eq_of_cover 4 (G4 V c) (flushed4 V c) cover4) (ix2 0 o)

/-- After the region the sum-of-squares array holds every channel's sum of squares over all rows. -/
theorem sumsq_final (c : Dev nD) (o : Fin 128) :
    (dat2 V c).arrAt 5 cfg2.N (ix2 0 o) = Cert.Spiral.colSumSq (Cert.Spiral.lin (feat V c) (wgt V c) (bias V c)) o :=
  congrFun ((dat2 V c).arrAt_eq_of_cover 5 (G5 V c) (flushed5 V c) cover5) (ix2 0 o)

end Value

end Cert.KernelIdeal.Lin2

end
-- ==== Proof.KBn3.lean ====
/-
  The pointwise normalise-and-clip region, from blocks to the array.

  The region visits the [8, 12000, 128] array in 30 blocks of 400 vertices. At each block it stores
  max(y·scale + shift, 0), the scale and the shift being [128] arrays broadcast along the channel axis, and writes the
  block back. A block's coordinate in the array is the block index times the block size plus the coordinate inside
  the block; vertex v lies in block v / 400, so the 30 blocks cover the array, and the array ends holding
  max(y(b,v,o)·scale(o) + shift(o), 0) at every (b, v, o).
-/
import proofs.«182203_j60619168416159_1_alg».proof.Proof.Gen.KernelIdeal.Frame
import proofs.«182203_j60619168416159_1_alg».proof.Proof.LayerSpec
import Idealize.ShloMosaic.Lib.Pipeline.Value
import Idealize.ShloMosaic.Lib.ValueLayout
import Idealize.ShloMosaic.Lib.ValueIdx

set_option maxRecDepth 16384

noncomputable section

namespace Cert.KernelIdeal.Bn3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Layout operations of the payload at an index -/

/-- A [c] array cast to [1, 1, c] reads, at (u, u', o), the operand at o. -/
theorem cast_c_11c_apply {c : ℕ} {α : Type} (x : (⟨1, ![c]⟩ : Shape).Idx → α)
    (h : (⟨1, ![c]⟩ : Shape).ShapeCasts ⟨3, ![1, 1, c]⟩) (u u' : Fin 1) (o : Fin c) :
    shapeCast ⟨3, ![1, 1, c]⟩ x h (ix3 u u' o) = x (ix1 o) :=
  shapeCast_apply x h _ _ (by
    have hu : u.val = 0 := by omega
    have hu' : u'.val = 0 := by omega
    rw [Shape.rowMajor_val_three, Shape.rowMajor_val_one]
    show o.val = (u.val * 1 + u'.val) * c + o.val
    simp only [hu, hu', Nat.zero_mul, Nat.zero_add, Nat.mul_one, Nat.add_zero])

/-- A [1, 1, c] array broadcast to [a, b, c] reads, at (p, q, o), the operand at (0, 0, o). -/
theorem bcast_11c_abc_apply {a b c : ℕ} {α : Type} (v : (⟨3, ![1, 1, c]⟩ : Shape).Idx → α)
    (h : (⟨3, ![1, 1, c]⟩ : Shape).Broadcasts ⟨3, ![a, b, c]⟩) (p : Fin a) (q : Fin b) (o : Fin c) :
    broadcastTo ⟨3, ![a, b, c]⟩ v h (ix3 p q o) = v (ix3 (0 : Fin 1) (0 : Fin 1) o) := by
  refine broadcastTo_apply v h (ix3 p q o) (ix3 (0 : Fin 1) (0 : Fin 1) o) fun ax => ?_
  match ax with
  | ⟨0, _⟩ => rfl
  | ⟨1, _⟩ => rfl
  | ⟨2, _⟩ =>
    show o.val = if c = 1 then 0 else o.val
    split
    · have := o.isLt; omega
    · rfl

/-- The body's payload at (b, j, o): max(x0·x1(o) + x2(o), 0); the narrowing at the end is the identity. -/
theorem pay_apply (x0 : Vec Ideal S8x400x128 .f32) (x1 x2 : Vec Ideal S128 .f32) (b : Fin 8) (j : Fin 400) (o : Fin 128) :
    k3_pay1 (F := Ideal) x0 x1 x2 (ix3 b j o) = max (x0 (ix3 b j o) * x1 (ix1 o) + x2 (ix1 o)) Cert.Spiral.zer := by
  unfold k3_pay1
  rw [truncf_apply, maximumf_apply, addf_apply, mulf_apply, broadcast_apply]
  simp only [shapeCast_self]
  rw [bcast_11c_abc_apply, bcast_11c_abc_apply, cast_c_11c_apply, cast_c_11c_apply]
  rfl

/-! ## From blocks to the array -/

variable (V : (c : Dev nD) → (b : Ref sig .tc) → Buf (Elt Ideal) ((c : Thread nD τ).loc b))

/-- The array to be normalised, as the region finds it. -/
abbrev yArr (c : Dev nD) : S8x12000x128.Idx → EReal := V c main_v38_0
/-- The per-channel scale, as the region finds it. -/
abbrev scaleArr (c : Dev nD) : S128.Idx → EReal := V c main_v51
/-- The per-channel shift, as the region finds it. -/
abbrev shiftArr (c : Dev nD) : S128.Idx → EReal := V c main_v53

theorem zero3 : (![0, 0, 0] : Fin 3 → Nat) = fun _ => 0 := funext fun a => by fin_cases a <;> rfl
theorem zero1 : (![0] : Fin 1 → Nat) = fun _ => 0 := funext fun a => by fin_cases a <;> rfl

/-- What the output array ends holding: max(y·scale + shift, 0), the scale and shift read at the channel. -/
abbrev normClip (a0 : S8x12000x128.Idx → EReal) (a1 a2 : S128.Idx → EReal) : S8x12000x128.Idx → EReal :=
  fun i => max (a0 i * a1 (ix1 (i 2)) + a2 (ix1 (i 2))) Cert.Spiral.zer

/-- The payload at any index of the block. -/
theorem pay_at (x0 : Vec Ideal S8x400x128 .f32) (x1 x2 : Vec Ideal S128 .f32) (y : S8x400x128.Idx) :
    k3_pay1 (F := Ideal) x0 x1 x2 y = max (x0 y * x1 (ix1 (y 2)) + x2 (ix1 (y 2))) Cert.Spiral.zer := by
  obtain ⟨b, j, o, rfl⟩ : ∃ (b : Fin 8) (j : Fin 400) (o : Fin _), y = ix3 b j o := ⟨y 0, y 1, y 2, eq_ix3 y⟩
  exact pay_apply x0 x1 x2 b j o

/-- The printed index maps, decided over the grid: the row windows sit at block (0, t, 0), the channel windows at block 0. -/
theorem block_indices : ∀ t : Fin cfg3.N,
    win3_0.index t (0 : Fin 3) = 0 ∧ win3_0.index t (1 : Fin 3) = t.val ∧ win3_0.index t (2 : Fin 3) = 0
    ∧ win3_1.index t (0 : Fin 1) = 0 ∧ win3_2.index t (0 : Fin 1) = 0
    ∧ win3_3.index t (0 : Fin 3) = 0 ∧ win3_3.index t (1 : Fin 3) = t.val ∧ win3_3.index t (2 : Fin 3) = 0 :=
  (by decide +kernel : ∀ t : Fin grid3.N, _)

/-- What point t writes back is block t of the normalised-and-clipped array. -/
theorem flushed_eq (c : Dev nD) (t : Fin cfg3.N) :
    (dat3 V c).flushed 3 t
      = ((cfg3.win 3).blk t).view.read (Elt Ideal) (normClip (yArr V c) (scaleArr V c) (shiftArr V c)) := by
  show (cfg3.win 3).cut (grid3.coords t) ((dat3 V c).after 3 t) = _
  rw [after3_3]
  unfold out3_3
  rw [View.canon_unit_zero zero3]
  simp only [View.ld_unit_zero (S := S8x400x128) zero3, View.ld_unit_zero (S := S128) zero1]
  obtain ⟨e0, e1, e2, e3, e4, e5, e6, e7⟩ := block_indices t
  refine funext fun (j : S8x400x128.Idx) => ?_
  show k3_pay1 (F := Ideal) (iblk3 V c 0 t) (iblk3 V c 1 t) (iblk3 V c 2 t) j
    = normClip (yArr V c) (scaleArr V c) (shiftArr V c) (((cfg3.win 3).blk t).view.emb j)
  rw [pay_at]
  have h0 : (iblk3 V c 0 t : Vec Ideal S8x400x128 .f32) j = yArr V c (((cfg3.win 3).blk t).view.emb j) := by
    show yArr V c (((cfg3.win 0).blk t).view.emb j) = _
    refine congrArg (yArr V c) (funext fun a => Fin.ext ?_)
    match a with
    | ⟨0, _⟩ => show win3_0.index t (0 : Fin 3) * 8 + 1 * (j 0).val = win3_3.index t (0 : Fin 3) * 8 + 1 * (j 0).val; rw [e0, e5]
    | ⟨1, _⟩ => show win3_0.index t (1 : Fin 3) * 400 + 1 * (j 1).val = win3_3.index t (1 : Fin 3) * 400 + 1 * (j 1).val; rw [e1, e6]
    | ⟨2, _⟩ => show win3_0.index t (2 : Fin 3) * 128 + 1 * (j 2).val = win3_3.index t (2 : Fin 3) * 128 + 1 * (j 2).val; rw [e2, e7]
  have h1 : (iblk3 V c 1 t : Vec Ideal S128 .f32) (ix1 (j 2))
      = scaleArr V c (ix1 ((((cfg3.win 3).blk t).view.emb j : S8x12000x128.Idx) 2)) := by
    show scaleArr V c (((cfg3.win 1).blk t).view.emb (ix1 (j 2))) = _
    refine congrArg (scaleArr V c) (funext fun a => Fin.ext ?_)
    match a with
    | ⟨0, _⟩ => show win3_1.index t (0 : Fin 1) * 128 + 1 * (j 2).val = win3_3.index t (2 : Fin 3) * 128 + 1 * (j 2).val; rw [e3, e7]
  have h2 : (iblk3 V c 2 t : Vec Ideal S128 .f32) (ix1 (j 2))
      = shiftArr V c (ix1 ((((cfg3.win 3).blk t).view.emb j : S8x12000x128.Idx) 2)) := by
    show shiftArr V c (((cfg3.win 2).blk t).view.emb (ix1 (j 2))) = _
    refine congrArg (shiftArr V c) (funext fun a => Fin.ext ?_)
    match a with
    | ⟨0, _⟩ => show win3_2.index t (0 : Fin 1) * 128 + 1 * (j 2).val = win3_3.index t (2 : Fin 3) * 128 + 1 * (j 2).val; rw [e4, e7]
  rw [h0, h1, h2]

/-- An index of the array is in point t's block iff each coordinate is in the block's range on its axis. -/
theorem mem_block (t : Fin cfg3.N) (i : S8x12000x128.Idx) :
    i ∈ ((cfg3.win 3).blk t).view.set
      ↔ ∀ a : Fin 3, win3_3.index t a * S8x400x128.size a ≤ (i a).val
          ∧ (i a).val < win3_3.index t a * S8x400x128.size a + S8x400x128.size a := by
  show i ∈ ((View.whole main_v54).slice (win3_3.rect t)).set ↔ _
  rw [View.set_slice_whole, Rect.mem_set_unit]
  exact Iff.rfl

/-- Vertex v lies in block v / 400: every index of the array is in some point's block. -/
theorem covered (i : S8x12000x128.Idx) :
    ∃ t : Fin cfg3.N, (cfg3.win 3).flush t = true ∧ i ∈ ((cfg3.win 3).blk t).view.set := by
  have hi0 : (i 0).val < 8 := (i 0).isLt
  have hi1 : (i 1).val < 12000 := (i 1).isLt
  have hi2 : (i 2).val < 128 := (i 2).isLt
  have hN : cfg3.N = 30 := N_3
  let t : Fin cfg3.N := ⟨(i 1).val / 400, by rw [hN]; omega⟩
  have ht : t.val = (i 1).val / 400 := rfl
  obtain ⟨e0, e1, e2, e3, e4, e5, e6, e7⟩ := block_indices t
  refine ⟨t, flush3_3 t, ?_⟩
  rw [mem_block]
  intro a
  match a with
  | ⟨0, _⟩ => show win3_3.index t (0 : Fin 3) * 8 ≤ (i 0).val ∧ (i 0).val < win3_3.index t (0 : Fin 3) * 8 + 8; rw [e5]; omega
  | ⟨1, _⟩ => show win3_3.index t (1 : Fin 3) * 400 ≤ (i 1).val ∧ (i 1).val < win3_3.index t (1 : Fin 3) * 400 + 400; rw [e6, ht]; omega
  | ⟨2, _⟩ => show win3_3.index t (2 : Fin 3) * 128 ≤ (i 2).val ∧ (i 2).val < win3_3.index t (2 : Fin 3) * 128 + 128; rw [e7]; omega

/-- The array after the region: max(y·scale + shift, 0) everywhere. -/
theorem final (c : Dev nD) :
    (dat3 V c).arrAt 3 cfg3.N = normClip (yArr V c) (scaleArr V c) (shiftArr V c) :=
  (dat3 V c).arrAt_eq_of_cover 3 (normClip (yArr V c) (scaleArr V c) (shiftArr V c))
    (fun t _ => flushed_eq V c t) (covered)

/-- The array after the region at (b, v, o). -/
theorem h_final (c : Dev nD) (b : Fin 8) (v : Fin 12000) (o : Fin 128) :
    ((dat3 V c).arrAt 3 cfg3.N : S8x12000x128.Idx → EReal) (ix3 b v o)
      = max (yArr V c (ix3 b v o) * scaleArr V c (ix1 o) + shiftArr V c (ix1 o)) Cert.Spiral.zer := by
  rw [final V c]

end Cert.KernelIdeal.Bn3

end
-- ==== Proof.KLayer2.lean ====
/-
  The kernel's layer 2 is the reference's layer 2.

  The program runs a host stretch (gather layer 1's output, transpose the weights), a region that stores the linear map's
  output and accumulates its column sums and column sums of squares, a host stretch that turns the two sums into a
  per-channel scale and shift, and a region that stores max(y·scale + shift, 0). Read at the boundaries between these
  segments and entry by entry, the scale-and-shift spelling of the normalisation is the reference's centred spelling,
  because every number in it is a real number — layer 1's output among them, which is what this layer asks of the layer
  before; and the layer's output is real again, which the next layer needs of its features.
-/
import proofs.«182203_j60619168416159_1_alg».proof.Proof.KChain
import proofs.«182203_j60619168416159_1_alg».proof.Proof.KGlue
import proofs.«182203_j60619168416159_1_alg».proof.Proof.BridgeMath
import proofs.«182203_j60619168416159_1_alg».proof.Proof.RefValue
import proofs.«182203_j60619168416159_1_alg».proof.Proof.KLin2
import proofs.«182203_j60619168416159_1_alg».proof.Proof.KBn3

noncomputable section

namespace Cert.KernelIdeal.Gen

open Idealize.ShloMosaic Idealize.ShloMosaic.TcCoe Idealize.SL.Sem Idealize.ShloMosaic.ValueIdx
open Cert.Spiral Cert.RealValued

variable (m : (ℓ : Loc nD τ sig) → Buf (Elt Ideal) ℓ) (ρ : Dev nD → PrngReg)

/-- Layer 2, entry by entry: the clipped scale-and-shift of the region's y array at the boundary before the normalising
    region is the reference's layer at that entry, and a real number. The regions' results enter as hypotheses: the y
    array and the two accumulated sums are the linear map, its column sums and its column sums of squares, over the
    features, weights and bias as the region finds them. Layer 1's output enters as an array of real numbers. -/
theorem entry2 (c : Dev nD) (H1 : S8x12000x64.Idx → EReal) (e1 : W4 m ρ c (Proc.devRef .tc main_v27) = H1)
    (hr1 : ∀ i, IsReal (H1 i))
    (F8 : S8x12000x576.Idx → EReal) (eF8 : W5 m ρ c (Proc.devRef .tc main_v35) = F8)
    (WT : S576x128.Idx → EReal) (eWT : W5 m ρ c (Proc.devRef .tc main_v37) = WT)
    (B3 : S128.Idx → EReal) (eB3 : W5 m ρ c (Proc.devRef .tc main_arg7) = B3)
    (Y : S8x12000x128.Idx → EReal) (eY : W6 m ρ c (Proc.devRef .tc main_v38_0) = Y)
    (S Q : S1x128.Idx → EReal) (eS : W6 m ρ c (Proc.devRef .tc main_v38_1) = S) (eQ : W6 m ρ c (Proc.devRef .tc main_v38_2) = Q)
    (hY : ∀ (b : Fin 8) (v : Fin 12000) (o : Fin 128), Y (ix3 b v o)
      = lin (fun p k => F8 (ix3 p.1 p.2 k)) (fun o k => WT (ix2 k o)) (fun o => B3 (ix1 o)) (b, v) o)
    (hS : ∀ o : Fin 128, S (ix2 0 o)
      = colSum (lin (P := Rows) (fun p k => F8 (ix3 p.1 p.2 k)) (fun o k => WT (ix2 k o)) (fun o => B3 (ix1 o))) o)
    (hQ : ∀ o : Fin 128, Q (ix2 0 o)
      = colSumSq (lin (P := Rows) (fun p k => F8 (ix3 p.1 p.2 k)) (fun o k => WT (ix2 k o)) (fun o => B3 (ix1 o))) o)
    (Y3 : S8x12000x128.Idx → EReal) (eY3 : W7 m ρ c (Proc.devRef .tc main_v38_0) = Y3)
    (SC SH : S128.Idx → EReal) (eSC : W7 m ρ c (Proc.devRef .tc main_v51) = SC) (eSH : W7 m ρ c (Proc.devRef .tc main_v53) = SH)
    (rW : ∀ i, IsReal ((m ((c.tc : Thread nD τ).loc main_arg6)) i)) (rB : ∀ i, IsReal ((m ((c.tc : Thread nD τ).loc main_arg7)) i))
    (rG : ∀ i, IsReal ((m ((c.tc : Thread nD τ).loc main_arg8)) i)) (rBT : ∀ i, IsReal ((m ((c.tc : Thread nD τ).loc main_arg9)) i))
    (b : Fin 8) (v : Fin 12000) (o : Fin 128) :
    max (Y3 (ix3 b v o) * SC (ix1 o) + SH (ix1 o)) zer
        = Cert.ReferenceIdeal.Term.layer2 (F := Ideal) (Cert.ReferenceIdeal.Term.feat2 (F := Ideal) H1 (m ((c.tc : Thread nD τ).loc main_arg1)))
            (m ((c.tc : Thread nD τ).loc main_arg6)) (m ((c.tc : Thread nD τ).loc main_arg7)) (m ((c.tc : Thread nD τ).loc main_arg8)) (m ((c.tc : Thread nD τ).loc main_arg9)) (ix3 b v o)
      ∧ IsReal (max (Y3 (ix3 b v o) * SC (ix1 o) + SH (ix1 o)) zer) := by
  -- the features, weights and bias the region finds are the reference's
  have hfeat := W5_feat m ρ c
  rw [e1, W4_main_arg1 m ρ c, eF8] at hfeat
  have hwT := W5_wT m ρ c
  rw [W4_main_arg6 m ρ c, eWT] at hwT
  have hb : B3 = (m ((c.tc : Thread nD τ).loc main_arg7)) := eB3.symm.trans (W5_main_arg7 m ρ c)
  have eF : (fun (p : Rows) (k : Fin 576) => F8 (ix3 p.1 p.2 k))
      = fun p k => Cert.ReferenceIdeal.Term.feat2 (F := Ideal) H1 (m ((c.tc : Thread nD τ).loc main_arg1)) (ix3 p.1 p.2 k) := by
    funext p k
    exact congrFun hfeat (ix3 p.1 p.2 k)
  have eW : (fun (o : Fin 128) (k : Fin 576) => WT (ix2 k o)) = fun o k => (m ((c.tc : Thread nD τ).loc main_arg6)) (ix2 o k) := by
    funext o k
    exact (congrFun hwT (ix2 k o)).trans (Glue.wT2_apply _ k o)
  have eB : (fun o : Fin 128 => B3 (ix1 o)) = fun o => (m ((c.tc : Thread nD τ).loc main_arg7)) (ix1 o) := by
    funext o
    exact congrFun hb (ix1 o)
  rw [eF, eW, eB] at hY hS hQ
  -- the scale and the shift are the per-channel scale and shift of the linear map's columns
  have hs : ∀ o : Fin 128, (W6 m ρ c (Proc.devRef .tc main_v38_1) : S1x128.Idx → EReal) (ix2 0 o) = _ := fun o =>
    (congrFun eS (ix2 0 o)).trans (hS o)
  have hq : ∀ o : Fin 128, (W6 m ρ c (Proc.devRef .tc main_v38_2) : S1x128.Idx → EReal) (ix2 0 o) = _ := fun o =>
    (congrFun eQ (ix2 0 o)).trans (hQ o)
  have hsc := W7_scale m ρ c
  rw [W6_main_arg8 m ρ c, eSC] at hsc
  have hsh := W7_shift m ρ c
  rw [W6_main_arg8 m ρ c, W6_main_arg9 m ρ c, eSH] at hsh
  have hy3 : Y3 = Y := eY3.symm.trans ((W7_y m ρ c).trans eY)
  have key := layer_agree
    (fun p k => Cert.ReferenceIdeal.Term.feat2 (F := Ideal) H1 (m ((c.tc : Thread nD τ).loc main_arg1)) (ix3 p.1 p.2 k))
    (fun o k => (m ((c.tc : Thread nD τ).loc main_arg6)) (ix2 o k)) (fun o => (m ((c.tc : Thread nD τ).loc main_arg7)) (ix1 o)) (fun o => (m ((c.tc : Thread nD τ).loc main_arg8)) (ix1 o)) (fun o => (m ((c.tc : Thread nD τ).loc main_arg9)) (ix1 o))
    (fun p k => Cert.ReferenceIdeal.RefValue.feat2_isReal H1 (m ((c.tc : Thread nD τ).loc main_arg1)) hr1 _) (fun o k => rW _) (fun o => rB _)
    (fun o => rG _) (fun o => rBT _)
    (max (Y3 (ix3 b v o) * SC (ix1 o) + SH (ix1 o)) zer) (Y3 (ix3 b v o)) (SC (ix1 o)) (SH (ix1 o)) (b, v) o
    ((congrFun hy3 (ix3 b v o)).trans (hY b v o))
    ((congrFun hsc (ix1 o)).trans (Glue.scale2_apply _ _ _ _ hs hq o))
    ((congrFun hsh (ix1 o)).trans (Glue.shift2_apply _ _ _ _ hs hq _ o))
    rfl
  exact ⟨key.1.trans (Cert.ReferenceIdeal.RefValue.layer2_apply _ _ _ _ _ b v o).symm, key.2⟩

/-- Layer 2: at the boundary after its normalising region the output array is the reference's layer 2 of layer 1's
    output (an array of real numbers) and the same arguments, and every entry of it is a real number. -/
theorem layer2 (c : Dev nD) (H1 : S8x12000x64.Idx → EReal) (e1 : W4 m ρ c (Proc.devRef .tc main_v27) = H1)
    (hr1 : ∀ i, IsReal (H1 i))
    (r6 : ∀ i, IsReal ((m ((c.tc : Thread nD τ).loc main_arg6)) i)) (r7 : ∀ i, IsReal ((m ((c.tc : Thread nD τ).loc main_arg7)) i))
    (r8 : ∀ i, IsReal ((m ((c.tc : Thread nD τ).loc main_arg8)) i)) (r9 : ∀ i, IsReal ((m ((c.tc : Thread nD τ).loc main_arg9)) i)) :
    W8 m ρ c (Proc.devRef .tc main_v54)
        = Cert.ReferenceIdeal.Term.layer2 (F := Ideal) (Cert.ReferenceIdeal.Term.feat2 (F := Ideal) H1 (m ((c.tc : Thread nD τ).loc main_arg1)))
            (m ((c.tc : Thread nD τ).loc main_arg6)) (m ((c.tc : Thread nD τ).loc main_arg7)) (m ((c.tc : Thread nD τ).loc main_arg8)) (m ((c.tc : Thread nD τ).loc main_arg9))
      ∧ ∀ i, IsReal ((W8 m ρ c (Proc.devRef .tc main_v54) : S8x12000x128.Idx → EReal) i) := by
  have key := entry2 m ρ c H1 e1 hr1 (V5 m ρ c main_v35) rfl (V5 m ρ c main_v37) rfl (V5 m ρ c main_arg7) rfl
    ((dat2 (V5 m ρ) c).arrAt 3 cfg2.N) (W6_y m ρ c)
    ((dat2 (V5 m ρ) c).arrAt 4 cfg2.N) ((dat2 (V5 m ρ) c).arrAt 5 cfg2.N) (W6_s m ρ c) (W6_q m ρ c)
    (Lin2.y_final (V5 m ρ) c) (Lin2.sum_final (V5 m ρ) c) (Lin2.sumsq_final (V5 m ρ) c)
    (V7 m ρ c main_v38_0) rfl (V7 m ρ c main_v51) (V7 m ρ c main_v53) rfl rfl
    r6 r7 r8 r9
  have hH : ∀ (b : Fin 8) (v : Fin 12000) (o : Fin 128),
      (W8 m ρ c (Proc.devRef .tc main_v54) : S8x12000x128.Idx → EReal) (ix3 b v o) = _ := fun b v o =>
    (congrFun (W8_h m ρ c) (ix3 b v o)).trans (Bn3.h_final (V7 m ρ) c b v o)
  constructor
  · show (W8 m ρ c (Proc.devRef .tc main_v54) : S8x12000x128.Idx → EReal) = _
    funext i
    obtain ⟨b, v, o, rfl⟩ : ∃ (b : Fin 8) (v : Fin 12000) (o : Fin 128), i = ix3 b v o := ⟨i 0, i 1, i 2, eq_ix3 i⟩
    exact (hH b v o).trans (key b v o).1
  · intro i
    obtain ⟨b, v, o, rfl⟩ : ∃ (b : Fin 8) (v : Fin 12000) (o : Fin 128), i = ix3 b v o := ⟨i 0, i 1, i 2, eq_ix3 i⟩
    exact (hH b v o).symm ▸ (key b v o).2

end Cert.KernelIdeal.Gen

end
-- ==== Proof.KLin4.lean ====
/-
  The third layer's linear map with its column statistics, tile by tile: every tile's rows of y = feat·w + b are
  written out, and two per-channel running totals, of y and of y², start from 0 at the first tile and grow by every
  tile's own column sums; after the last tile they are the sums over all rows.
-/
import proofs.«182203_j60619168416159_1_alg».proof.Proof.Gen.KernelIdeal.Frame
import proofs.«182203_j60619168416159_1_alg».proof.Proof.LayerSpec
import proofs.«182203_j60619168416159_1_alg».proof.Proof.TileMath
import proofs.«182203_j60619168416159_1_alg».proof.Proof.RunningTotal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Lin4

open Cert.KernelIdeal Cert.KernelIdeal.Gen

theorem pay3_apply (x0 : Vec Ideal S8x400x1152 .bf16) (x1 : Vec Ideal S1152x256 .bf16) (x2 : Vec Ideal S256 .f32)
    (b : Fin 8) (j : Fin 400) (o : Fin 256) :
    k4_pay3 x0 x1 x2 (ix2 (⟨400 * b.val + j.val, by omega⟩ : Fin 3200) o)
      = (∑ k : Fin 1152, x0 (ix3 b j k) * x1 (ix2 k o)) + x2 (ix1 o) := by
  unfold k4_pay3
  refine (addf_apply _ _ _).trans ?_
  congr 1
  · refine (Ideal.matmul_constant_zero_apply dot_S3200x1152_S1152x256_S3200x256_1_0_0_1_n_n none _ _ _).trans ?_
    refine ((contrEquiv1 dot_S3200x1152_S1152x256_S3200x256_1_0_0_1_n_n 1152 rfl rfl).symm.sum_comp _).symm.trans ?_
    refine Finset.sum_congr rfl fun k _ => ?_
    have hl0 : ((dot_S3200x1152_S1152x256_S3200x256_1_0_0_1_n_n.lhsIdx (ix2 (⟨400 * b.val + j.val, by omega⟩ : Fin 3200) o)
          ((contrEquiv1 dot_S3200x1152_S1152x256_S3200x256_1_0_0_1_n_n 1152 rfl rfl).symm k)) 0).val = 400 * b.val + j.val := rfl
    have hl1 : ((dot_S3200x1152_S1152x256_S3200x256_1_0_0_1_n_n.lhsIdx (ix2 (⟨400 * b.val + j.val, by omega⟩ : Fin 3200) o)
          ((contrEquiv1 dot_S3200x1152_S1152x256_S3200x256_1_0_0_1_n_n 1152 rfl rfl).symm k)) 1).val = k.val :=
      (dot_S3200x1152_S1152x256_S3200x256_1_0_0_1_n_n.lhsIdx_val_of_single rfl _ _).trans (contrEquiv1_symm_val _ 1152 rfl rfl k)
    have hr0 : ((dot_S3200x1152_S1152x256_S3200x256_1_0_0_1_n_n.rhsIdx (ix2 (⟨400 * b.val + j.val, by omega⟩ : Fin 3200) o)
          ((contrEquiv1 dot_S3200x1152_S1152x256_S3200x256_1_0_0_1_n_n 1152 rfl rfl).symm k)) 0).val = k.val :=
      (dot_S3200x1152_S1152x256_S3200x256_1_0_0_1_n_n.rhsIdx_val_of_single rfl _ _).trans (contrEquiv1_symm_val _ 1152 rfl rfl k)
    have hr1 : ((dot_S3200x1152_S1152x256_S3200x256_1_0_0_1_n_n.rhsIdx (ix2 (⟨400 * b.val + j.val, by omega⟩ : Fin 3200) o)
          ((contrEquiv1 dot_S3200x1152_S1152x256_S3200x256_1_0_0_1_n_n 1152 rfl rfl).symm k)) 1).val = o.val := rfl
    congr 1
    · refine (shapeCast_apply (shapeCast S8x400x1152 x0 shapeCasts_S8x400x1152_S8x400x1152) shapeCasts_S8x400x1152_S3200x1152 _ (ix3 b j k) ?_).trans
        (congrFun (shapeCast_self x0 _) _)
      rw [Shape.rowMajor_val_three, Shape.rowMajor_val_two, hl0, hl1]
      show (b.val * 400 + j.val) * 1152 + k.val = (400 * b.val + j.val) * 1152 + k.val
      omega
    · refine (congrFun (shapeCast_self x1 _) _).trans (congrArg x1 ?_)
      funext a; apply Fin.ext
      match a with
      | ⟨0, _⟩ => exact hr0
      | ⟨1, _⟩ => exact hr1
  · refine (broadcastTo_apply _ broadcasts_S1x256_S3200x256 _ (ix2 0 o) ?_).trans ?_
    · intro a
      match a with
      | ⟨0, _⟩ => rfl
      | ⟨1, _⟩ => rfl
    · refine shapeCast_apply x2 shapeCasts_S256_S1x256 _ (ix1 o) ?_
      rw [Shape.rowMajor_val_one, Shape.rowMajor_val_two]
      show o.val = 0 * 256 + o.val
      omega

theorem pay4_apply (x0 : Vec Ideal S8x400x1152 .bf16) (x1 : Vec Ideal S1152x256 .bf16) (x2 : Vec Ideal S256 .f32)
    (b : Fin 8) (j : Fin 400) (o : Fin 256) :
    k4_pay4 x0 x1 x2 (ix3 b j o) = k4_pay3 x0 x1 x2 (ix2 (⟨400 * b.val + j.val, by omega⟩ : Fin 3200) o) := by
  unfold k4_pay4
  refine shapeCast_apply (k4_pay3 x0 x1 x2) shapeCasts_S3200x256_S8x400x256 _ _ ?_
  rw [Shape.rowMajor_val_three, Shape.rowMajor_val_two]
  show (400 * b.val + j.val) * 256 + o.val = (b.val * 400 + j.val) * 256 + o.val
  omega

theorem lift_row (o : Fin 256) (k : Fin (S3200x256.size 0)) :
    reduces_S3200x256_S256.lift (ix1 o) k = ix2 (⟨k.val, k.isLt⟩ : Fin 3200) o := by
  funext c; apply Fin.ext
  fin_cases c <;> rfl

theorem colsum_apply (y : Vec Ideal S3200x256 .f32) (o : Fin 256) :
    shapeCast S1x256 (multiReduction (F := Ideal) .add [0] S256 y 0x00000000#32 reduces_S3200x256_S256 (.inl rfl) rfl) shapeCasts_S256_S1x256 (ix2 0 o)
      = ∑ r : Fin 3200, y (ix2 r o) := by
  refine (shapeCast_apply _ shapeCasts_S256_S1x256 _ (ix1 o) ?_).trans ?_
  · rw [Shape.rowMajor_val_one, Shape.rowMajor_val_two]
    show o.val = 0 * 256 + o.val
    omega
  · refine (Ideal.multiReduction_add_single y _ reduces_S3200x256_S256 _ _ (ix1 o)).trans ?_
    exact Finset.sum_congr rfl fun k _ => congrArg y (lift_row o k)

theorem pay5_apply (x0 : Vec Ideal S8x400x1152 .bf16) (x1 : Vec Ideal S1152x256 .bf16) (x2 : Vec Ideal S256 .f32)
    (acc : Vec Ideal S1x256 .f32) (o : Fin 256) :
    k4_pay5 x0 x1 x2 acc (ix2 0 o) = acc (ix2 0 o) + ∑ r : Fin 3200, k4_pay3 x0 x1 x2 (ix2 r o) := by
  unfold k4_pay5
  refine (addf_apply _ _ _).trans ?_
  congr 1
  · exact congrFun (shapeCast_self acc _) _
  · exact colsum_apply _ o

theorem pay6_apply (x0 : Vec Ideal S8x400x1152 .bf16) (x1 : Vec Ideal S1152x256 .bf16) (x2 : Vec Ideal S256 .f32)
    (acc : Vec Ideal S1x256 .f32) (o : Fin 256) :
    k4_pay6 x0 x1 x2 acc (ix2 0 o)
      = acc (ix2 0 o) + ∑ r : Fin 3200, k4_pay3 x0 x1 x2 (ix2 r o) * k4_pay3 x0 x1 x2 (ix2 r o) := by
  unfold k4_pay6
  refine (addf_apply _ _ _).trans ?_
  congr 1
  · exact congrFun (shapeCast_self acc _) _
  · exact colsum_apply _ o

theorem pay1_apply (o : Fin 256) : k4_pay1 (F := Ideal) (ix2 0 o) = 0 := Ideal.ofBits_zero_f32
theorem pay2_apply (o : Fin 256) : k4_pay2 (F := Ideal) (ix2 0 o) = 0 := Ideal.ofBits_zero_f32

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At the first point the block of y is the one store's payload. -/
theorem outA3 (c : Dev nD) (i : grid4.Coords) (a1 : Memref sig .tc .vmem S8x400x1152 .bf16) (h1 : a1.IsWhole) (a2 : Memref sig .tc .vmem S1152x256 .bf16) (h2 : a2.IsWhole) (a3 : Memref sig .tc .vmem S256 .f32) (h3 : a3.IsWhole) (a4 : Memref sig .tc .vmem S8x400x256 .f32) (h4 : a4.IsWhole) (a5 : Memref sig .tc .vmem S1x256 .f32) (h5 : a5.IsWhole) (a6 : Memref sig .tc .vmem S1x256 .f32) (h6 : a6.IsWhole) (hc : cond4_0 i)
    (x0 : Vec F S8x400x1152 .bf16) (x1 : Vec F S1152x256 .bf16) (x2 : Vec F S256 .f32) :
    out4_A_3 c i a1 h1 a2 h2 a3 h3 a4 h4 a5 h5 a6 h6 hc x0 x1 x2 = k4_pay4 x0 x1 x2 := by
  unfold out4_A_3
  rw [View.read_writes_eq_canon _ _ _ (cover4_A_3 c i a1 h1 a2 h2 a3 h3 a4 h4 a5 h5 a6 h6 hc x0 x1 x2)]
  unfold kernelRun4_A
  dsimp only
  rw [View.canon_unit_zero hz3]
  simp only [View.readAt_eq_ld, h1.read_unread, h2.read_unread, h3.read_unread, View.ld_unit_zero (S := S8x400x1152) hz3, View.ld_unit_zero (S := S1152x256) hz2, View.ld_unit_zero (S := S256) hz1]

/-- At the first point the running sum is the tile's column sums added to the zero block just stored. -/
theorem outA4 (c : Dev nD) (i : grid4.Coords) (a1 : Memref sig .tc .vmem S8x400x1152 .bf16) (h1 : a1.IsWhole) (a2 : Memref sig .tc .vmem S1152x256 .bf16) (h2 : a2.IsWhole) (a3 : Memref sig .tc .vmem S256 .f32) (h3 : a3.IsWhole) (a4 : Memref sig .tc .vmem S8x400x256 .f32) (h4 : a4.IsWhole) (a5 : Memref sig .tc .vmem S1x256 .f32) (h5 : a5.IsWhole) (a6 : Memref sig .tc .vmem S1x256 .f32) (h6 : a6.IsWhole) (hc : cond4_0 i)
    (x0 : Vec F S8x400x1152 .bf16) (x1 : Vec F S1152x256 .bf16) (x2 : Vec F S256 .f32) :
    out4_A_4 c i a1 h1 a2 h2 a3 h3 a4 h4 a5 h5 a6 h6 hc x0 x1 x2 = k4_pay5 x0 x1 x2 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x256) hz2, View.readCov_unit_zero (S := S1x256) _ hz2]
  simp only [View.readAt_eq_ld, h1.read_unread, h2.read_unread, h3.read_unread, View.ld_unit_zero (S := S8x400x1152) hz3, View.ld_unit_zero (S := S1152x256) hz2, View.ld_unit_zero (S := S256) hz1]

/-- At the first point the running sum of squares is the tile's added to the zero block just stored. -/
theorem outA5 (c : Dev nD) (i : grid4.Coords) (a1 : Memref sig .tc .vmem S8x400x1152 .bf16) (h1 : a1.IsWhole) (a2 : Memref sig .tc .vmem S1152x256 .bf16) (h2 : a2.IsWhole) (a3 : Memref sig .tc .vmem S256 .f32) (h3 : a3.IsWhole) (a4 : Memref sig .tc .vmem S8x400x256 .f32) (h4 : a4.IsWhole) (a5 : Memref sig .tc .vmem S1x256 .f32) (h5 : a5.IsWhole) (a6 : Memref sig .tc .vmem S1x256 .f32) (h6 : a6.IsWhole) (hc : cond4_0 i)
    (x0 : Vec F S8x400x1152 .bf16) (x1 : Vec F S1152x256 .bf16) (x2 : Vec F S256 .f32) :
    out4_A_5 c i a1 h1 a2 h2 a3 h3 a4 h4 a5 h5 a6 h6 hc x0 x1 x2 = k4_pay6 x0 x1 x2 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x256) hz2, View.readCov_unit_zero (S := S1x256) _ hz2]
  simp only [View.readAt_eq_ld, h1.read_unread, h2.read_unread, h3.read_unread, View.ld_unit_zero (S := S8x400x1152) hz3, View.ld_unit_zero (S := S1152x256) hz2, View.ld_unit_zero (S := S256) hz1]

/-- At a later point the block of y is again the one store's payload. -/
theorem outB3 (c : Dev nD) (i : grid4.Coords) (a1 : Memref sig .tc .vmem S8x400x1152 .bf16) (h1 : a1.IsWhole) (a2 : Memref sig .tc .vmem S1152x256 .bf16) (h2 : a2.IsWhole) (a3 : Memref sig .tc .vmem S256 .f32) (h3 : a3.IsWhole) (a4 : Memref sig .tc .vmem S8x400x256 .f32) (h4 : a4.IsWhole) (a5 : Memref sig .tc .vmem S1x256 .f32) (h5 : a5.IsWhole) (a6 : Memref sig .tc .vmem S1x256 .f32) (h6 : a6.IsWhole) (hc : ¬cond4_0 i)
    (x0 : Vec F S8x400x1152 .bf16) (x1 : Vec F S1152x256 .bf16) (x2 : Vec F S256 .f32) (xo4 xo5 : Vec F S1x256 .f32) :
    out4_B_3 c i a1 h1 a2 h2 a3 h3 a4 h4 a5 h5 a6 h6 hc x0 x1 x2 xo4 xo5 = k4_pay4 x0 x1 x2 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  rw [View.canon_unit_zero hz3]
  simp only [View.readAt_eq_ld, h1.read_unread, h2.read_unread, h3.read_unread, View.ld_unit_zero (S := S8x400x1152) hz3, View.ld_unit_zero (S := S1152x256) hz2, View.ld_unit_zero (S := S256) hz1]

/-- At a later point the running sum is the tile's column sums added to what the point before left. -/
theorem outB4 (c : Dev nD) (i : grid4.Coords) (a1 : Memref sig .tc .vmem S8x400x1152 .bf16) (h1 : a1.IsWhole) (a2 : Memref sig .tc .vmem S1152x256 .bf16) (h2 : a2.IsWhole) (a3 : Memref sig .tc .vmem S256 .f32) (h3 : a3.IsWhole) (a4 : Memref sig .tc .vmem S8x400x256 .f32) (h4 : a4.IsWhole) (a5 : Memref sig .tc .vmem S1x256 .f32) (h5 : a5.IsWhole) (a6 : Memref sig .tc .vmem S1x256 .f32) (h6 : a6.IsWhole) (hc : ¬cond4_0 i)
    (x0 : Vec F S8x400x1152 .bf16) (x1 : Vec F S1152x256 .bf16) (x2 : Vec F S256 .f32) (xo4 xo5 : Vec F S1x256 .f32) :
    out4_B_4 c i a1 h1 a2 h2 a3 h3 a4 h4 a5 h5 a6 h6 hc x0 x1 x2 xo4 xo5 = k4_pay5 x0 x1 x2 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  rw [View.canon_unit_zero hz2]
  simp only [View.readAt_eq_ld, h1.read_unread, h2.read_unread, h3.read_unread, h5.read_unread, View.ld_unit_zero (S := S8x400x1152) hz3, View.ld_unit_zero (S := S1152x256) hz2, View.ld_unit_zero (S := S256) hz1, View.ld_unit_zero (S := S1x256) hz2]

/-- At a later point the running sum of squares is the tile's added to what the point before left. -/
theorem outB5 (c : Dev nD) (i : grid4.Coords) (a1 : Memref sig .tc .vmem S8x400x1152 .bf16) (h1 : a1.IsWhole) (a2 : Memref sig .tc .vmem S1152x256 .bf16) (h2 : a2.IsWhole) (a3 : Memref sig .tc .vmem S256 .f32) (h3 : a3.IsWhole) (a4 : Memref sig .tc .vmem S8x400x256 .f32) (h4 : a4.IsWhole) (a5 : Memref sig .tc .vmem S1x256 .f32) (h5 : a5.IsWhole) (a6 : Memref sig .tc .vmem S1x256 .f32) (h6 : a6.IsWhole) (hc : ¬cond4_0 i)
    (x0 : Vec F S8x400x1152 .bf16) (x1 : Vec F S1152x256 .bf16) (x2 : Vec F S256 .f32) (xo4 xo5 : Vec F S1x256 .f32) :
    out4_B_5 c i a1 h1 a2 h2 a3 h3 a4 h4 a5 h5 a6 h6 hc x0 x1 x2 xo4 xo5 = k4_pay6 x0 x1 x2 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  rw [View.canon_unit_zero hz2]
  simp only [View.readAt_eq_ld, h1.read_unread, h2.read_unread, h3.read_unread, h6.read_unread, View.ld_unit_zero (S := S8x400x1152) hz3, View.ld_unit_zero (S := S1152x256) hz2, View.ld_unit_zero (S := S256) hz1, View.ld_unit_zero (S := S1x256) hz2]
end Pieces

section Value
variable (V : (c : Dev nD) → (b : Ref sig .tc) → Buf (Elt Ideal) ((c : Thread nD τ).loc b))

open Cert.Spiral

/-- The gathered features: row (batch, vertex), feature k. -/
def feat (c : Dev nD) : Cert.Spiral.Rows → Fin 1152 → EReal := fun p k => V c main_v62 (ix3 p.1 p.2 k)
/-- The weights, stored transposed: output channel o, feature k. -/
def wgt (c : Dev nD) : Fin 256 → Fin 1152 → EReal := fun o k => V c main_v64 (ix2 k o)
/-- The bias of output channel o. -/
def bias (c : Dev nD) : Fin 256 → EReal := fun o => V c main_arg11 (ix1 o)

/-- A grid point as a tile number. -/
def tt (t : Fin cfg4.N) : Fin 30 := ⟨t.val, lt_of_lt_of_eq t.isLt N_4⟩

/-- Where the blocks sit: the feature and y blocks move along the vertex axis with the point, every other block stays. -/
theorem idx_facts : ∀ t : Fin cfg4.N,
    win4_0.index t (0 : Fin 3) = 0 ∧ win4_0.index t (1 : Fin 3) = t.val ∧ win4_0.index t (2 : Fin 3) = 0
    ∧ win4_1.index t (0 : Fin 2) = 0 ∧ win4_1.index t (1 : Fin 2) = 0
    ∧ win4_2.index t (0 : Fin 1) = 0
    ∧ win4_3.index t (0 : Fin 3) = 0 ∧ win4_3.index t (1 : Fin 3) = t.val ∧ win4_3.index t (2 : Fin 3) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The feature block at a point: vertex j of tile t. -/
theorem blk0_apply (c : Dev nD) (t : Fin cfg4.N) (b : Fin 8) (j : Fin 400) (k : Fin 1152) :
    (iblk4 V c 0 t : Vec Ideal S8x400x1152 .bf16) (ix3 b j k) = feat V c (b, Tiles.vert (tt t) j) k := by
  obtain ⟨e0, e1, e2, -⟩ := idx_facts t
  unfold iblk4 feat
  rw [View.read_apply]
  show V c main_v62 _ = V c main_v62 _
  congr 1
  funext a; apply Fin.ext
  match a with
  | ⟨0, _⟩ => show win4_0.index t (0 : Fin 3) * 8 + 1 * b.val = b.val; omega
  | ⟨1, _⟩ => show win4_0.index t (1 : Fin 3) * 400 + 1 * j.val = 400 * t.val + j.val; omega
  | ⟨2, _⟩ => show win4_0.index t (2 : Fin 3) * 1152 + 1 * k.val = k.val; omega

/-- The weight block at every point is the whole array. -/
theorem blk1_apply (c : Dev nD) (t : Fin cfg4.N) (k : Fin 1152) (o : Fin 256) :
    (iblk4 V c 1 t : Vec Ideal S1152x256 .bf16) (ix2 k o) = wgt V c o k := by
  obtain ⟨-, -, -, e0, e1, -⟩ := idx_facts t
  unfold iblk4 wgt
  rw [View.read_apply]
  show V c main_v64 _ = V c main_v64 _
  congr 1
  funext a; apply Fin.ext
  match a with
  | ⟨0, _⟩ => show win4_1.index t (0 : Fin 2) * 1152 + 1 * k.val = k.val; omega
  | ⟨1, _⟩ => show win4_1.index t (1 : Fin 2) * 256 + 1 * o.val = o.val; omega

/-- The bias block at every point is the whole array. -/
theorem blk2_apply (c : Dev nD) (t : Fin cfg4.N) (o : Fin 256) :
    (iblk4 V c 2 t : Vec Ideal S256 .f32) (ix1 o) = bias V c o := by
  obtain ⟨-, -, -, -, -, e0, -⟩ := idx_facts t
  unfold iblk4 bias
  rw [View.read_apply]
  show V c main_arg11 _ = V c main_arg11 _
  congr 1
  funext a; apply Fin.ext
  match a with
  | ⟨0, _⟩ => show win4_2.index t (0 : Fin 1) * 256 + 1 * o.val = o.val; omega

/-- The linear part of the layer on all rows. -/
abbrev Y (c : Dev nD) : Cert.Spiral.Rows → Fin 256 → EReal := lin (feat V c) (wgt V c) (bias V c)

/-- The tile's y at (batch b, vertex j of the tile) is the layer's linear part at that row. -/
theorem tile_y' (c : Dev nD) (t : Fin cfg4.N) (b : Fin 8) (j : Fin 400) (o : Fin 256) :
    k4_pay3 (F := Ideal) (iblk4 V c 0 t) (iblk4 V c 1 t) (iblk4 V c 2 t) (ix2 (⟨400 * b.val + j.val, by omega⟩ : Fin 3200) o)
      = Y V c (b, Tiles.vert (tt t) j) o := by
  refine (pay3_apply (iblk4 V c 0 t) (iblk4 V c 1 t) (iblk4 V c 2 t) b j o).trans ?_
  unfold Y lin
  congr 1
  · refine Finset.sum_congr rfl fun k _ => ?_
    congr 1
    · exact blk0_apply V c t b j k
    · exact blk1_apply V c t k o
  · exact blk2_apply V c t o

/-- Row r of the tile, batch-major. -/
theorem tile_y (c : Dev nD) (t : Fin cfg4.N) (r : Fin 3200) (o : Fin 256) :
    k4_pay3 (F := Ideal) (iblk4 V c 0 t) (iblk4 V c 1 t) (iblk4 V c 2 t) (ix2 r o) = Y V c (Tiles.row (tt t) r) o := by
  have hr := r.isLt
  have er : r = (⟨400 * (⟨r.val / 400, by omega⟩ : Fin 8).val + (⟨r.val % 400, Nat.mod_lt _ (by norm_num)⟩ : Fin 400).val,
      by dsimp only; omega⟩ : Fin 3200) := Fin.ext (by dsimp only; omega)
  exact (congrArg (fun q => k4_pay3 (F := Ideal) (iblk4 V c 0 t) (iblk4 V c 1 t) (iblk4 V c 2 t) (ix2 q o)) er).trans
    (tile_y' V c t ⟨r.val / 400, by omega⟩ ⟨r.val % 400, Nat.mod_lt _ (by norm_num)⟩ o)

/-- What the three output buffers hold after the first point, as payloads of the point's blocks. -/
theorem at_first (c : Dev nD) (t : Fin cfg4.N) (h0 : t.val % 30 = 0) :
    outsAt4 V c t.val t.isLt
      = (k4_pay4 (iblk4 V c 0 t) (iblk4 V c 1 t) (iblk4 V c 2 t), k4_pay5 (iblk4 V c 0 t) (iblk4 V c 1 t) (iblk4 V c 2 t) (k4_pay1 (F := Ideal)), k4_pay6 (iblk4 V c 0 t) (iblk4 V c 1 t) (iblk4 V c 2 t) (k4_pay2 (F := Ideal))) := by
  rw [outsAt4_A V c t h0, outA3, outA4, outA5]

/-- What the three output buffers hold after a later point, over what the point before left. -/
theorem at_later (c : Dev nD) (t : Fin cfg4.N) (h0 : ¬t.val % 30 = 0) :
    outsAt4 V c t.val t.isLt
      = (k4_pay4 (iblk4 V c 0 t) (iblk4 V c 1 t) (iblk4 V c 2 t),
         k4_pay5 (iblk4 V c 0 t) (iblk4 V c 1 t) (iblk4 V c 2 t) (outsAt4 V c (t.val - 1) (Nat.lt_of_le_of_lt (Nat.sub_le _ _) t.isLt)).2.1,
         k4_pay6 (iblk4 V c 0 t) (iblk4 V c 1 t) (iblk4 V c 2 t) (outsAt4 V c (t.val - 1) (Nat.lt_of_le_of_lt (Nat.sub_le _ _) t.isLt)).2.2) := by
  rw [outsAt4_B V c t h0, outB3, outB4, outB5]

/-- After every point the y buffer holds the point's tile of y. -/
theorem y_blk (c : Dev nD) (t : Fin cfg4.N) :
    (outsAt4 V c t.val t.isLt).1 = k4_pay4 (iblk4 V c 0 t) (iblk4 V c 1 t) (iblk4 V c 2 t) := by
  by_cases h0 : t.val % 30 = 0
  · rw [at_first V c t h0]
  · rw [at_later V c t h0]

/-- Tile t's column sum of channel o. -/
def tileSum (c : Dev nD) (o : Fin 256) (t : Fin 30) : EReal := ∑ r : Fin 3200, Y V c (Tiles.row t r) o
/-- Tile t's column sum of squares of channel o. -/
def tileSq (c : Dev nD) (o : Fin 256) (t : Fin 30) : EReal := ∑ r : Fin 3200, Y V c (Tiles.row t r) o * Y V c (Tiles.row t r) o

theorem lt30 {n : ℕ} (h : n < cfg4.N) : n < 30 := lt_of_lt_of_eq h N_4

/-- After point n the running sum is the sum of the tiles' column sums up to n. -/
theorem sum_inv (c : Dev nD) (o : Fin 256) (n : ℕ) (hn : n < cfg4.N) :
    (outsAt4 V c n hn).2.1 (ix2 0 o) = ∑ t : Fin 30, (if t.val ≤ n then tileSum V c o t else 0) := by
  refine Running.total_eq (N := 30) (tileSum V c o) (fun n h => (outsAt4 V c n (lt_of_lt_of_eq h N_4.symm)).2.1 (ix2 0 o)) ?_ ?_ n (lt30 hn)
  · intro h
    have e := at_first V c ⟨0, lt_of_lt_of_eq h N_4.symm⟩ rfl
    show (outsAt4 V c (⟨0, lt_of_lt_of_eq h N_4.symm⟩ : Fin cfg4.N).val _).2.1 (ix2 0 o) = _
    rw [e]
    show k4_pay5 _ _ _ k4_pay1 (ix2 0 o) = _
    rw [pay5_apply, pay1_apply]
    congr 1
    exact Finset.sum_congr rfl fun r _ => tile_y V c _ r o
  · intro n h
    have hB : ¬(⟨n + 1, lt_of_lt_of_eq h N_4.symm⟩ : Fin cfg4.N).val % 30 = 0 := by dsimp only; omega
    have e := at_later V c ⟨n + 1, lt_of_lt_of_eq h N_4.symm⟩ hB
    show (outsAt4 V c (⟨n + 1, lt_of_lt_of_eq h N_4.symm⟩ : Fin cfg4.N).val _).2.1 (ix2 0 o) = _
    rw [e]
    show k4_pay5 _ _ _ (outsAt4 V c n _).2.1 (ix2 0 o) = _
    rw [pay5_apply]
    congr 1
    exact Finset.sum_congr rfl fun r _ => tile_y V c _ r o

/-- After point n the running sum of squares is the sum of the tiles' up to n. -/
theorem sq_inv (c : Dev nD) (o : Fin 256) (n : ℕ) (hn : n < cfg4.N) :
    (outsAt4 V c n hn).2.2 (ix2 0 o) = ∑ t : Fin 30, (if t.val ≤ n then tileSq V c o t else 0) := by
  refine Running.total_eq (N := 30) (tileSq V c o) (fun n h => (outsAt4 V c n (lt_of_lt_of_eq h N_4.symm)).2.2 (ix2 0 o)) ?_ ?_ n (lt30 hn)
  · intro h
    have e := at_first V c ⟨0, lt_of_lt_of_eq h N_4.symm⟩ rfl
    show (outsAt4 V c (⟨0, lt_of_lt_of_eq h N_4.symm⟩ : Fin cfg4.N).val _).2.2 (ix2 0 o) = _
    rw [e]
    show k4_pay6 _ _ _ k4_pay2 (ix2 0 o) = _
    rw [pay6_apply, pay2_apply]
    congr 1
    exact Finset.sum_congr rfl fun r _ => by rw [tile_y V c _ r o]; rfl
  · intro n h
    have hB : ¬(⟨n + 1, lt_of_lt_of_eq h N_4.symm⟩ : Fin cfg4.N).val % 30 = 0 := by dsimp only; omega
    have e := at_later V c ⟨n + 1, lt_of_lt_of_eq h N_4.symm⟩ hB
    show (outsAt4 V c (⟨n + 1, lt_of_lt_of_eq h N_4.symm⟩ : Fin cfg4.N).val _).2.2 (ix2 0 o) = _
    rw [e]
    show k4_pay6 _ _ _ (outsAt4 V c n _).2.2 (ix2 0 o) = _
    rw [pay6_apply]
    congr 1
    exact Finset.sum_congr rfl fun r _ => by rw [tile_y V c _ r o]; rfl

/-! ## The result arrays -/

/-- The y array: the layer's linear part at every row. -/
def yRes (c : Dev nD) : S8x12000x256.Idx → EReal := fun i => Y V c (i 0, i 1) (i 2)
/-- The column sums, as a one-row array. -/
def sumRes (c : Dev nD) : S1x256.Idx → EReal := fun i => colSum (Y V c) (i 1)
/-- The column sums of squares, as a one-row array. -/
def sqRes (c : Dev nD) : S1x256.Idx → EReal := fun i => colSumSq (Y V c) (i 1)

/-- What every point writes back of y is its tile of the y array. -/
theorem flushed3_eq (c : Dev nD) (t : Fin cfg4.N) :
    (dat4 V c).flushed 3 t = ((cfg4.win 3).blk t).view.read (Elt Ideal) (yRes V c) := by
  obtain ⟨-, -, -, -, -, -, e0, e1, e2, -⟩ := idx_facts t
  show (cfg4.win 3).cut (grid4.coords t) ((dat4 V c).after 3 t) = _
  rw [after4_3, y_blk]
  funext y
  obtain ⟨b, j, o, rfl⟩ : ∃ (b : Fin 8) (j : Fin 400) (o : Fin 256), y = ix3 b j o := ⟨y 0, y 1, y 2, eq_ix3 y⟩
  show k4_pay4 (F := Ideal) (iblk4 V c 0 t) (iblk4 V c 1 t) (iblk4 V c 2 t) (ix3 b j o)
    = yRes V c (((cfg4.win 3).blk t).view.emb (ix3 b j o))
  have he : ((cfg4.win 3).blk t).view.emb (ix3 b j o) = ix3 b (Tiles.vert (tt t) j) o := by
    funext a; apply Fin.ext
    match a with
    | ⟨0, _⟩ => show win4_3.index t (0 : Fin 3) * 8 + 1 * b.val = b.val; omega
    | ⟨1, _⟩ => show win4_3.index t (1 : Fin 3) * 400 + 1 * j.val = 400 * t.val + j.val; omega
    | ⟨2, _⟩ => show win4_3.index t (2 : Fin 3) * 256 + 1 * o.val = o.val; omega
  rw [he]
  exact (pay4_apply (iblk4 V c 0 t) (iblk4 V c 1 t) (iblk4 V c 2 t) b j o).trans (tile_y' V c t b j o)

/-- An entry of the y array lies in point t's tile iff each coordinate lies in the tile's range on its axis. -/
theorem mem_blk3 (t : Fin cfg4.N) (i : S8x12000x256.Idx) :
    i ∈ ((cfg4.win 3).blk t).view.set ↔ ∀ a : Fin 3, win4_3.index t a * S8x400x256.size a ≤ (i a).val
      ∧ (i a).val < win4_3.index t a * S8x400x256.size a + S8x400x256.size a := by
  show i ∈ ((View.whole main_v65_0).slice (win4_3.rect t)).set ↔ _
  rw [View.set_slice_whole, Rect.mem_set_unit]
  exact Iff.rfl

/-- Every entry of the y array lies in the tile of its vertex: vertex v is in tile v / 400. -/
theorem cover3 (i : S8x12000x256.Idx) :
    ∃ t : Fin cfg4.N, (cfg4.win 3).flush t = true ∧ i ∈ ((cfg4.win 3).blk t).view.set := by
  have h0 : (i 0).val < 8 := (i 0).isLt
  have h1 : (i 1).val < 12000 := (i 1).isLt
  have h2 : (i 2).val < 256 := (i 2).isLt
  have hN : cfg4.N = 30 := N_4
  have ht : (i 1).val / 400 < cfg4.N := by rw [hN]; omega
  obtain ⟨-, -, -, -, -, -, e0, e1, e2, -⟩ := idx_facts (⟨(i 1).val / 400, ht⟩ : Fin cfg4.N)
  dsimp only at e1
  refine ⟨⟨(i 1).val / 400, ht⟩, flush4_3 _, ?_⟩
  rw [mem_blk3]
  intro a
  match a with
  | ⟨0, _⟩ =>
    show win4_3.index ⟨(i 1).val / 400, ht⟩ (0 : Fin 3) * 8 ≤ (i 0).val
      ∧ (i 0).val < win4_3.index ⟨(i 1).val / 400, ht⟩ (0 : Fin 3) * 8 + 8
    omega
  | ⟨1, _⟩ =>
    show win4_3.index ⟨(i 1).val / 400, ht⟩ (1 : Fin 3) * 400 ≤ (i 1).val
      ∧ (i 1).val < win4_3.index ⟨(i 1).val / 400, ht⟩ (1 : Fin 3) * 400 + 400
    omega
  | ⟨2, _⟩ =>
    show win4_3.index ⟨(i 1).val / 400, ht⟩ (2 : Fin 3) * 256 ≤ (i 2).val
      ∧ (i 2).val < win4_3.index ⟨(i 1).val / 400, ht⟩ (2 : Fin 3) * 256 + 256
    omega

/-- The y array after the region. -/
theorem y_arr (c : Dev nD) : (dat4 V c).arrAt 3 cfg4.N = yRes V c :=
  (dat4 V c).arrAt_eq_of_cover 3 (yRes V c) (fun t _ => flushed3_eq V c t) cover3

/-- The y array after the region, entry by entry. -/
theorem y_final (c : Dev nD) (b : Fin 8) (v : Fin 12000) (o : Fin 256) :
    (dat4 V c).arrAt 3 cfg4.N (ix3 b v o) = lin (feat V c) (wgt V c) (bias V c) (b, v) o :=
  congrFun (y_arr V c) (ix3 b v o)

/-- The last point. -/
def tLast : Fin cfg4.N := ⟨29, by rw [show cfg4.N = 30 from N_4]; decide⟩

/-- After the last point the running sum is the column sum over all rows. -/
theorem sum_last (c : Dev nD) (t : Fin cfg4.N) (h29 : t.val = 29) : (outsAt4 V c t.val t.isLt).2.1 = sumRes V c := by
  funext i
  obtain ⟨z, o, rfl⟩ : ∃ (z : Fin 1) (o : Fin 256), i = ix2 z o := ⟨i 0, i 1, eq_ix2 i⟩
  obtain rfl : z = 0 := Subsingleton.elim _ _
  refine (sum_inv V c o t.val t.isLt).trans ?_
  rw [h29, Running.sum_upto_last (tileSum V c o) 29 (by norm_num)]
  exact (Tiles.sum_rows (fun p => Y V c p o)).symm

/-- After the last point the running sum of squares is the column sum of squares over all rows. -/
theorem sq_last (c : Dev nD) (t : Fin cfg4.N) (h29 : t.val = 29) : (outsAt4 V c t.val t.isLt).2.2 = sqRes V c := by
  funext i
  obtain ⟨z, o, rfl⟩ : ∃ (z : Fin 1) (o : Fin 256), i = ix2 z o := ⟨i 0, i 1, eq_ix2 i⟩
  obtain rfl : z = 0 := Subsingleton.elim _ _
  refine (sq_inv V c o t.val t.isLt).trans ?_
  rw [h29, Running.sum_upto_last (tileSq V c o) 29 (by norm_num)]
  exact (Tiles.sum_rows (fun p => Y V c p o * Y V c p o)).symm

/-- The one write-back of the sums, after the last point. -/
theorem flushed4_eq (c : Dev nD) (t : Fin cfg4.N) (hf : (cfg4.win 4).flush t = true) :
    (dat4 V c).flushed 4 t = ((cfg4.win 4).blk t).view.read (Elt Ideal) (sumRes V c) := by
  have hN : cfg4.N = 30 := N_4
  have h29 : t.val = 29 := by have := (flush4_4 t).mp hf; have := t.isLt; omega
  obtain ⟨-, -, -, -, -, -, -, -, -, e0, e1, -⟩ := idx_facts t
  show (cfg4.win 4).cut (grid4.coords t) ((dat4 V c).after 4 t) = _
  rw [after4_4, sum_last V c t h29]
  have hz' : (fun a => win4_4.index t a * main_v65_1.ty.shape.size a) = fun _ => 0 := funext fun a => by
    match a with
    | ⟨0, _⟩ => show win4_4.index t (0 : Fin 2) * 1 = 0; omega
    | ⟨1, _⟩ => show win4_4.index t (1 : Fin 2) * 256 = 0; omega
  exact (Memref.read_access_unit_zero (Elt Ideal) main_v65_1 hz' (fun a => by rw [congrFun hz' a]; simp) (sumRes V c)).symm

/-- The one write-back of the sums of squares, after the last point. -/
theorem flushed5_eq (c : Dev nD) (t : Fin cfg4.N) (hf : (cfg4.win 5).flush t = true) :
    (dat4 V c).flushed 5 t = ((cfg4.win 5).blk t).view.read (Elt Ideal) (sqRes V c) := by
  have hN : cfg4.N = 30 := N_4
  have h29 : t.val = 29 := by have := (flush4_5 t).mp hf; have := t.isLt; omega
  obtain ⟨-, -, -, -, -, -, -, -, -, -, -, e0, e1⟩ := idx_facts t
  show (cfg4.win 5).cut (grid4.coords t) ((dat4 V c).after 5 t) = _
  rw [after4_5, sq_last V c t h29]
  have hz' : (fun a => win4_5.index t a * main_v65_2.ty.shape.size a) = fun _ => 0 := funext fun a => by
    match a with
    | ⟨0, _⟩ => show win4_5.index t (0 : Fin 2) * 1 = 0; omega
    | ⟨1, _⟩ => show win4_5.index t (1 : Fin 2) * 256 = 0; omega
  exact (Memref.read_access_unit_zero (Elt Ideal) main_v65_2 hz' (fun a => by rw [congrFun hz' a]; simp) (sqRes V c)).symm

/-- The sums array after the region. -/
theorem sum_arr (c : Dev nD) : (dat4 V c).arrAt 4 cfg4.N = sumRes V c :=
  (dat4 V c).arrAt_eq_of_cover 4 (sumRes V c) (flushed4_eq V c) fun i =>
    ⟨tLast, (flush4_4 tLast).mpr rfl, by
      show i ∈ ((View.whole main_v65_1).slice (win4_4.rect tLast)).set
      rw [View.set_slice_whole, Rect.mem_set_unit]
      intro a
      have h0 : (i 0 : Nat) < 1 := (i 0).isLt
      have h1 : (i 1 : Nat) < 256 := (i 1).isLt
      obtain ⟨-, -, -, -, -, -, -, -, -, e0, e1, -⟩ := idx_facts tLast
      match a with
      | ⟨0, _⟩ =>
        show win4_4.index tLast (0 : Fin 2) * 1 ≤ (i 0 : Nat) ∧ (i 0 : Nat) < win4_4.index tLast (0 : Fin 2) * 1 + 1
        omega
      | ⟨1, _⟩ =>
        show win4_4.index tLast (1 : Fin 2) * 256 ≤ (i 1 : Nat) ∧ (i 1 : Nat) < win4_4.index tLast (1 : Fin 2) * 256 + 256
        omega⟩

/-- The sums-of-squares array after the region. -/
theorem sq_arr (c : Dev nD) : (dat4 V c).arrAt 5 cfg4.N = sqRes V c :=
  (dat4 V c).arrAt_eq_of_cover 5 (sqRes V c) (flushed5_eq V c) fun i =>
    ⟨tLast, (flush4_5 tLast).mpr rfl, by
      show i ∈ ((View.whole main_v65_2).slice (win4_5.rect tLast)).set
      rw [View.set_slice_whole, Rect.mem_set_unit]
      intro a
      have h0 : (i 0 : Nat) < 1 := (i 0).isLt
      have h1 : (i 1 : Nat) < 256 := (i 1).isLt
      obtain ⟨-, -, -, -, -, -, -, -, -, -, -, e0, e1⟩ := idx_facts tLast
      match a with
      | ⟨0, _⟩ =>
        show win4_5.index tLast (0 : Fin 2) * 1 ≤ (i 0 : Nat) ∧ (i 0 : Nat) < win4_5.index tLast (0 : Fin 2) * 1 + 1
        omega
      | ⟨1, _⟩ =>
        show win4_5.index tLast (1 : Fin 2) * 256 ≤ (i 1 : Nat) ∧ (i 1 : Nat) < win4_5.index tLast (1 : Fin 2) * 256 + 256
        omega⟩

/-- The column sums after the region, channel by channel. -/
theorem sum_final (c : Dev nD) (o : Fin 256) :
    (dat4 V c).arrAt 4 cfg4.N (ix2 0 o) = colSum (lin (feat V c) (wgt V c) (bias V c)) o :=
  congrFun (sum_arr V c) (ix2 0 o)

/-- The column sums of squares after the region, channel by channel. -/
theorem sumsq_final (c : Dev nD) (o : Fin 256) :
    (dat4 V c).arrAt 5 cfg4.N (ix2 0 o) = colSumSq (lin (feat V c) (wgt V c) (bias V c)) o :=
  congrFun (sq_arr V c) (ix2 0 o)

end Value
end Cert.KernelIdeal.Lin4
end
-- ==== Proof.KMax5.lean ====
/-
  The pooled maximum, region by region: the last kernel keeps, per (batch, channel), a running maximum over the vertices
  of max(y·scale + shift, 0), started from −∞ at the first tile and raised by every tile's own maximum; after the last
  tile it is the maximum over all vertices.
-/
import proofs.«182203_j60619168416159_1_alg».proof.Proof.Gen.KernelIdeal.Frame
import proofs.«182203_j60619168416159_1_alg».proof.Proof.LayerSpec
import proofs.«182203_j60619168416159_1_alg».proof.Proof.TileMath
import Idealize.ShloMosaic.Lib.Pipeline.Value
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Max5

open Cert.KernelIdeal Cert.KernelIdeal.Gen

section Pieces

variable {F : FTy → Type} [FloatOps F]

theorem hz1 : (![0] : Fin 1 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- After a point other than the first: the body's one store, the running block raised by the tile's maximum. -/
theorem out_B (c : Dev nD) (i : grid5.Coords) (a1 : Memref sig .tc .vmem S8x400x256 .f32) (h1 : a1.IsWhole)
    (a2 : Memref sig .tc .vmem S256 .f32) (h2 : a2.IsWhole) (a3 : Memref sig .tc .vmem S256 .f32) (h3 : a3.IsWhole)
    (a4 : Memref sig .tc .vmem S8x256 .f32) (h4 : a4.IsWhole) (hc : ¬cond5_0 i)
    (x0 : Vec F S8x400x256 .f32) (x1 : Vec F S256 .f32) (x2 : Vec F S256 .f32) (xo : Vec F S8x256 .f32) :
    out5_B_3 c i a1 h1 a2 h2 a3 h3 a4 h4 hc x0 x1 x2 xo = k5_pay2 x0 x1 x2 xo := by
  unfold out5_B_3
  rw [View.read_writes_eq_canon _ _ _ (cover5_B_3 c i a1 h1 a2 h2 a3 h3 a4 h4 hc x0 x1 x2 xo)]
  unfold kernelRun5_B
  dsimp only
  rw [View.canon_unit_zero hz2]
  simp only [View.readAt_eq_ld, h1.read_unread, h2.read_unread, h3.read_unread, h4.read_unread,
    View.ld_unit_zero (S := S8x400x256) hz3, View.ld_unit_zero (S := S256) hz1, View.ld_unit_zero (S := S8x256) hz2]

/-- After the first point: the −∞ block is stored first, then raised by the tile's maximum. -/
theorem out_A (c : Dev nD) (i : grid5.Coords) (a1 : Memref sig .tc .vmem S8x400x256 .f32) (h1 : a1.IsWhole)
    (a2 : Memref sig .tc .vmem S256 .f32) (h2 : a2.IsWhole) (a3 : Memref sig .tc .vmem S256 .f32) (h3 : a3.IsWhole)
    (a4 : Memref sig .tc .vmem S8x256 .f32) (h4 : a4.IsWhole) (hc : cond5_0 i)
    (x0 : Vec F S8x400x256 .f32) (x1 : Vec F S256 .f32) (x2 : Vec F S256 .f32) :
    out5_A_3 c i a1 h1 a2 h2 a3 h3 a4 h4 hc x0 x1 x2 = k5_pay2 x0 x1 x2 k5_pay1 := by
  unfold out5_A_3
  rw [View.read_writes_eq_canon _ _ _ (cover5_A_3 c i a1 h1 a2 h2 a3 h3 a4 h4 hc x0 x1 x2)]
  unfold kernelRun5_A
  dsimp only
  sl_unfold_words
  rw [View.canon_cons_unit_zero (S := S8x256) hz2, View.readCov_unit_zero (S := S8x256) _ hz2]
  simp only [View.readAt_eq_ld, h1.read_unread, h2.read_unread, h3.read_unread,
    View.ld_unit_zero (S := S8x400x256) hz3, View.ld_unit_zero (S := S256) hz1, View.ld_unit_zero (S := S8x256) hz2]

end Pieces

open Idealize.ShloMosaic.ValueIdx Cert.Spiral

/-! ## A maximum over the first tiles -/

section FirstTiles

variable {α : Type} [LinearOrder α]

/-- The first tile alone. -/
theorem fold_le_zero (e : α) (g : Fin 30 → α) :
    ((Finset.univ : Finset (Fin 30)).filter (fun t => t.val ≤ 0)).fold max e g = max e (g 0) := by
  have hs : (Finset.univ : Finset (Fin 30)).filter (fun t => t.val ≤ 0) = {0} := by
    ext t
    simp only [Finset.mem_filter, Finset.mem_univ, true_and, Finset.mem_singleton, Fin.ext_iff]
    show t.val ≤ 0 ↔ t.val = 0
    omega
  rw [hs, Finset.fold_singleton]
  exact max_comm _ _

/-- One more tile raises the maximum by that tile's value. -/
theorem fold_le_succ (e : α) (g : Fin 30 → α) (n : ℕ) (h : n + 1 < 30) :
    ((Finset.univ : Finset (Fin 30)).filter (fun t => t.val ≤ n + 1)).fold max e g
      = max (((Finset.univ : Finset (Fin 30)).filter (fun t => t.val ≤ n)).fold max e g) (g ⟨n + 1, h⟩) := by
  have hs : (Finset.univ : Finset (Fin 30)).filter (fun t => t.val ≤ n + 1)
      = insert (⟨n + 1, h⟩ : Fin 30) ((Finset.univ : Finset (Fin 30)).filter (fun t => t.val ≤ n)) := by
    ext t
    simp only [Finset.mem_filter, Finset.mem_univ, true_and, Finset.mem_insert, Fin.ext_iff]
    omega
  have hn : (⟨n + 1, h⟩ : Fin 30) ∉ (Finset.univ : Finset (Fin 30)).filter (fun t => t.val ≤ n) := by
    simp only [Finset.mem_filter, Finset.mem_univ, true_and]
    omega
  rw [hs, Finset.fold_insert hn]
  exact max_comm _ _

/-- All thirty tiles. -/
theorem fold_le_last (e : α) (g : Fin 30 → α) :
    ((Finset.univ : Finset (Fin 30)).filter (fun t => t.val ≤ 29)).fold max e g = (Finset.univ : Finset (Fin 30)).fold max e g := by
  rw [Finset.filter_true_of_mem (fun t _ => by have := t.isLt; omega)]

end FirstTiles

/-! ## The body's arithmetic at an entry -/

section Payload

/-- A per-channel vector spread over the block, read at an entry. -/
theorem chan_apply (x : Vec Ideal S256 .f32) (b : Fin 8) (j : Fin 400) (o : Fin 256) :
    broadcastTo S8x400x256 (shapeCast S1x1x256 (shapeCast S256 x shapeCasts_S256_S256) shapeCasts_S256_S1x1x256)
      broadcasts_S1x1x256_S8x400x256 (ix3 b j o) = x (ix1 o) := by
  rw [shapeCast_self]
  refine (broadcastTo_apply _ _ (ix3 b j o) (ix3 (0 : Fin 1) (0 : Fin 1) o) ?_).trans ?_
  · intro a
    match a with
    | ⟨0, _⟩ => rfl
    | ⟨1, _⟩ => rfl
    | ⟨2, _⟩ => rfl
  · refine shapeCast_apply _ _ _ (ix1 o) ?_
    rw [Shape.rowMajor_val_one, Shape.rowMajor_val_three]
    show o.val = (0 * 1 + 0) * 256 + o.val
    omega

/-- The block's maximum over its 400 vertices, from −∞. -/
theorem tileMax_apply (src : FVec Ideal S8x400x256 .f32) (b : Fin 8) (o : Fin 256) :
    multiReduction .maximumf [1] S8x256 src 0xFF800000#32 reduces_S8x400x256_S8x256 (.inl rfl) rfl (ix2 b o)
      = (Finset.univ : Finset (Fin 400)).fold max ninf (fun j => src (ix3 b j o)) := by
  refine (Ideal.multiReduction_maximumf_single src 0xFF800000#32 reduces_S8x400x256_S8x256 (.inl rfl) rfl (ix2 b o)).trans ?_
  show (Finset.univ : Finset (Fin 400)).fold max ninf (fun j => src (reduces_S8x400x256_S8x256.lift (ix2 b o) j)) = _
  refine congrArg (fun f => (Finset.univ : Finset (Fin 400)).fold max ninf f)
    (funext fun j => congrArg src (funext fun a => Fin.ext ?_))
  match a with
  | ⟨0, _⟩ => rfl
  | ⟨1, _⟩ => rfl
  | ⟨2, _⟩ => rfl

/-- The running block raised by the tile's maximum of max(y·scale + shift, 0). -/
theorem pay2_apply (x0 : Vec Ideal S8x400x256 .f32) (x1 x2 : Vec Ideal S256 .f32) (xo : Vec Ideal S8x256 .f32)
    (b : Fin 8) (o : Fin 256) :
    k5_pay2 (F := Ideal) x0 x1 x2 xo (ix2 b o)
      = max (xo (ix2 b o)) ((Finset.univ : Finset (Fin 400)).fold max ninf
          (fun j => max (x0 (ix3 b j o) * x1 (ix1 o) + x2 (ix1 o)) zer)) := by
  unfold k5_pay2
  dsimp only
  refine (maximumf_apply _ _ (ix2 b o)).trans ?_
  refine congrArg₂ max (congrFun (shapeCast_self xo _) (ix2 b o)) ((tileMax_apply _ b o).trans ?_)
  refine congrArg (fun f => (Finset.univ : Finset (Fin 400)).fold max ninf f) (funext fun j => ?_)
  show max (shapeCast S8x400x256 x0 _ (ix3 b j o) * broadcastTo S8x400x256 _ _ (ix3 b j o)
    + broadcastTo S8x400x256 _ _ (ix3 b j o)) zer = _
  rw [shapeCast_self, chan_apply, chan_apply]

/-- The −∞ block. -/
theorem pay1_apply (b : Fin 8) (o : Fin 256) : k5_pay1 (F := Ideal) (ix2 b o) = ninf := rfl

end Payload

/-! ## The blocks, read off the arrays -/

section Blocks

variable (V : (c : Dev nD) → (b : Ref sig .tc) → Buf (Elt Ideal) ((c : Thread nD τ).loc b))

/-- The region's three input arrays as the region finds them: y, the per-channel scale, the per-channel shift. -/
abbrev yArr (c : Dev nD) : S8x12000x256.Idx → EReal := V c main_v65_0
abbrev scaleArr (c : Dev nD) : S256.Idx → EReal := V c main_v78
abbrev shiftArr (c : Dev nD) : S256.Idx → EReal := V c main_v80

/-- The clipped, normalised entry of the y array. -/
def act (c : Dev nD) (p : Rows) (o : Fin 256) : EReal :=
  max (yArr V c (ix3 p.1 p.2 o) * scaleArr V c (ix1 o) + shiftArr V c (ix1 o)) zer

/-- The block indices of the three inputs, decided over the grid: the y block moves with the point along the vertices,
    the per-channel vectors stay. -/
theorem idx_in : ∀ t : Fin cfg5.N, win5_0.index t (0 : Fin 3) = 0 ∧ win5_0.index t (1 : Fin 3) = t.val
    ∧ win5_0.index t (2 : Fin 3) = 0 ∧ win5_1.index t (0 : Fin 1) = 0 ∧ win5_2.index t (0 : Fin 1) = 0 :=
  (by decide +kernel : ∀ t : Fin grid5.N, _)

/-- Entry (b, j, o) of the y block at point t is entry (b, 400·t + j, o) of the array. -/
theorem blk0_apply (c : Dev nD) (t : Fin cfg5.N) (t' : Fin 30) (ht : t'.val = t.val) (b : Fin 8) (j : Fin 400) (o : Fin 256) :
    (iblk5 V c 0 t : Vec Ideal S8x400x256 .f32) (ix3 b j o) = V c main_v65_0 (ix3 b (Tiles.vert t' j) o) := by
  obtain ⟨e0, e1, e2, -, -⟩ := idx_in t
  unfold iblk5
  rw [View.read_apply]
  show V c main_v65_0 _ = V c main_v65_0 _
  congr 1
  funext a
  apply Fin.ext
  match a with
  | ⟨0, _⟩ => show win5_0.index t (0 : Fin 3) * 8 + 1 * b.val = b.val; omega
  | ⟨1, _⟩ => show win5_0.index t (1 : Fin 3) * 400 + 1 * j.val = 400 * t'.val + j.val; omega
  | ⟨2, _⟩ => show win5_0.index t (2 : Fin 3) * 256 + 1 * o.val = o.val; omega

/-- The scale block is the scale array. -/
theorem blk1_apply (c : Dev nD) (t : Fin cfg5.N) (o : Fin 256) :
    (iblk5 V c 1 t : Vec Ideal S256 .f32) (ix1 o) = V c main_v78 (ix1 o) := by
  obtain ⟨-, -, -, e3, -⟩ := idx_in t
  unfold iblk5
  rw [View.read_apply]
  show V c main_v78 _ = V c main_v78 _
  congr 1
  funext a
  apply Fin.ext
  match a with
  | ⟨0, _⟩ => show win5_1.index t (0 : Fin 1) * 256 + 1 * o.val = o.val; omega

/-- The shift block is the shift array. -/
theorem blk2_apply (c : Dev nD) (t : Fin cfg5.N) (o : Fin 256) :
    (iblk5 V c 2 t : Vec Ideal S256 .f32) (ix1 o) = V c main_v80 (ix1 o) := by
  obtain ⟨-, -, -, -, e4⟩ := idx_in t
  unfold iblk5
  rw [View.read_apply]
  show V c main_v80 _ = V c main_v80 _
  congr 1
  funext a
  apply Fin.ext
  match a with
  | ⟨0, _⟩ => show win5_2.index t (0 : Fin 1) * 256 + 1 * o.val = o.val; omega

/-- Tile t's own maximum over its 400 vertices. -/
def tileMax (c : Dev nD) (b : Fin 8) (o : Fin 256) (t : Fin 30) : EReal :=
  (Finset.univ : Finset (Fin 400)).fold max ninf (fun j => act V c (b, Tiles.vert t j) o)

/-- The body's tile maximum at point t is tile t's. -/
theorem tile_eq (c : Dev nD) (t : Fin cfg5.N) (t' : Fin 30) (ht : t'.val = t.val) (b : Fin 8) (o : Fin 256)
    (x0 : Vec Ideal S8x400x256 .f32) (x1 x2 : Vec Ideal S256 .f32)
    (h0 : x0 = iblk5 V c 0 t) (h1 : x1 = iblk5 V c 1 t) (h2 : x2 = iblk5 V c 2 t) :
    (Finset.univ : Finset (Fin 400)).fold max ninf (fun j => max (x0 (ix3 b j o) * x1 (ix1 o) + x2 (ix1 o)) zer)
      = tileMax V c b o t' := by
  subst h0 h1 h2
  unfold tileMax act
  refine congrArg (fun f => (Finset.univ : Finset (Fin 400)).fold max ninf f) (funext fun j => ?_)
  rw [blk0_apply V c t t' ht, blk1_apply, blk2_apply]

end Blocks

/-! ## The running maximum, point by point, and the result array -/

section Run

variable (V : (c : Dev nD) → (b : Ref sig .tc) → Buf (Elt Ideal) ((c : Thread nD τ).loc b))

/-- After point n the running block holds the maximum over the first n + 1 tiles. -/
theorem outsAt_eq (c : Dev nD) (b : Fin 8) (o : Fin 256) : ∀ (n : ℕ) (hn : n < cfg5.N),
    outsAt5 V c n hn (ix2 b o)
      = ((Finset.univ : Finset (Fin 30)).filter (fun t => t.val ≤ n)).fold max ninf (tileMax V c b o)
  | 0, hn => by
    have e1 := outsAt5_A V c ⟨0, hn⟩ rfl
    have e2 := out_A (F := Ideal) c (grid5.coords ⟨0, hn⟩) (ms5_0 ⟨0, hn⟩) (hs5_0 ⟨0, hn⟩) (ms5_1 ⟨0, hn⟩) (hs5_1 ⟨0, hn⟩)
      (ms5_2 ⟨0, hn⟩) (hs5_2 ⟨0, hn⟩) (ms5_3 ⟨0, hn⟩) (hs5_3 ⟨0, hn⟩) ((hcond5_0 ⟨0, hn⟩).mpr rfl)
      (iblk5 V c 0 ⟨0, hn⟩) (iblk5 V c 1 ⟨0, hn⟩) (iblk5 V c 2 ⟨0, hn⟩)
    refine (congrFun (e1.trans e2) (ix2 b o)).trans ?_
    refine (pay2_apply (iblk5 V c 0 ⟨0, hn⟩) (iblk5 V c 1 ⟨0, hn⟩) (iblk5 V c 2 ⟨0, hn⟩) (k5_pay1 (F := Ideal)) b o).trans ?_
    rw [fold_le_zero]
    exact congrArg₂ max (pay1_apply b o) (tile_eq V c ⟨0, hn⟩ 0 rfl b o _ _ _ rfl rfl rfl)
  | n + 1, hn => by
    have hN : cfg5.N = 30 := N_5
    have hn' : n + 1 < 30 := hN ▸ hn
    have hB : ¬(⟨n + 1, hn⟩ : Fin cfg5.N).val % 30 = 0 := by dsimp only; omega
    have e1 := outsAt5_B V c ⟨n + 1, hn⟩ hB
    have e2 := out_B (F := Ideal) c (grid5.coords ⟨n + 1, hn⟩) (ms5_0 ⟨n + 1, hn⟩) (hs5_0 ⟨n + 1, hn⟩) (ms5_1 ⟨n + 1, hn⟩)
      (hs5_1 ⟨n + 1, hn⟩) (ms5_2 ⟨n + 1, hn⟩) (hs5_2 ⟨n + 1, hn⟩) (ms5_3 ⟨n + 1, hn⟩) (hs5_3 ⟨n + 1, hn⟩)
      (fun h => hB ((hcond5_0 ⟨n + 1, hn⟩).mp h))
      (iblk5 V c 0 ⟨n + 1, hn⟩) (iblk5 V c 1 ⟨n + 1, hn⟩) (iblk5 V c 2 ⟨n + 1, hn⟩)
      (outsAt5 V c n (Nat.lt_of_succ_lt hn))
    refine (congrFun (e1.trans e2) (ix2 b o)).trans ?_
    refine (pay2_apply (iblk5 V c 0 ⟨n + 1, hn⟩) (iblk5 V c 1 ⟨n + 1, hn⟩) (iblk5 V c 2 ⟨n + 1, hn⟩)
      (outsAt5 V c n (Nat.lt_of_succ_lt hn)) b o).trans ?_
    rw [fold_le_succ ninf (tileMax V c b o) n hn']
    exact congrArg₂ max (outsAt_eq c b o n (Nat.lt_of_succ_lt hn))
      (tile_eq V c ⟨n + 1, hn⟩ ⟨n + 1, hn'⟩ rfl b o _ _ _ rfl rfl rfl)

/-- The pooled maximum, as contents of the result array. -/
def pooled (c : Dev nD) : S8x256.Idx → EReal := fun i => pool (act V c) (i 0) (i 1)

/-- The last point. -/
def tLast : Fin cfg5.N := ⟨29, by rw [show cfg5.N = 30 from N_5]; decide⟩

/-- The output's one block never moves. -/
theorem idx_out : ∀ t : Fin cfg5.N, win5_3.index t (0 : Fin 2) = 0 ∧ win5_3.index t (1 : Fin 2) = 0 :=
  (by decide +kernel : ∀ t : Fin grid5.N, _)

/-- After the last point the running block is the pooled maximum. -/
theorem outsAt_last (c : Dev nD) (hn : 29 < cfg5.N) : outsAt5 V c 29 hn = pooled V c := by
  funext i
  obtain ⟨b, o, rfl⟩ : ∃ (b : Fin 8) (o : Fin 256), i = ix2 b o := ⟨i 0, i 1, eq_ix2 i⟩
  refine (outsAt_eq V c b o 29 hn).trans ?_
  rw [fold_le_last]
  exact (Tiles.fold_max_verts ninf (fun v => act V c (b, v) o)).symm

/-- The one write-back, after the last point, writes the pooled maximum. -/
theorem flushed_eq (c : Dev nD) (t : Fin cfg5.N) (hf : (cfg5.win 3).flush t = true) :
    (dat5 V c).flushed 3 t = ((cfg5.win 3).blk t).view.read (Elt Ideal) (pooled V c) := by
  have hN : cfg5.N = 30 := N_5
  have h29 : t.val = 29 := by have := (flush5_3 t).mp hf; have := t.isLt; omega
  obtain ⟨n, hn⟩ := t
  dsimp only at h29
  subst h29
  show (cfg5.win 3).cut (grid5.coords ⟨29, hn⟩) ((dat5 V c).after 3 ⟨29, hn⟩) = _
  rw [after5_3]
  show (cfg5.win 3).cut (grid5.coords ⟨29, hn⟩) (outsAt5 V c 29 hn) = _
  rw [outsAt_last]
  obtain ⟨e0, e1⟩ := idx_out ⟨29, hn⟩
  have hz' : (fun a => win5_3.index ⟨29, hn⟩ a * main_v81.ty.shape.size a) = fun _ => 0 := funext fun a => by
    match a with
    | ⟨0, _⟩ => show win5_3.index ⟨29, hn⟩ (0 : Fin 2) * 8 = 0; omega
    | ⟨1, _⟩ => show win5_3.index ⟨29, hn⟩ (1 : Fin 2) * 256 = 0; omega
  exact (Memref.read_access_unit_zero (Elt Ideal) main_v81 hz' (fun a => by rw [congrFun hz' a]; simp) (pooled V c)).symm

/-- The result array after the region: per (batch, channel), the maximum over all vertices of max(y·scale + shift, 0). -/
theorem final_eq (c : Dev nD) : (dat5 V c).arrAt 3 cfg5.N = pooled V c :=
  (dat5 V c).arrAt_eq_of_cover 3 (pooled V c) (flushed_eq V c) fun i =>
    ⟨tLast, (flush5_3 tLast).mpr rfl, by
      show i ∈ ((View.whole main_v81).slice (win5_3.rect tLast)).set
      rw [View.set_slice_whole, Rect.mem_set_unit]
      intro a
      have h0 : (i 0 : Nat) < 8 := (i 0).isLt
      have h1 : (i 1 : Nat) < 256 := (i 1).isLt
      match a with
      | ⟨0, _⟩ =>
        show win5_3.index tLast 0 * win5_3.size 0 ≤ (i 0 : Nat) ∧ (i 0 : Nat) < win5_3.index tLast 0 * win5_3.size 0 + win5_3.xsize (grid5.coords tLast) 0
        rw [show win5_3.index tLast 0 * win5_3.size 0 = 0 from by decide +kernel, show win5_3.xsize (grid5.coords tLast) 0 = 8 from by decide +kernel]; omega
      | ⟨1, _⟩ =>
        show win5_3.index tLast 1 * win5_3.size 1 ≤ (i 1 : Nat) ∧ (i 1 : Nat) < win5_3.index tLast 1 * win5_3.size 1 + win5_3.xsize (grid5.coords tLast) 1
        rw [show win5_3.index tLast 1 * win5_3.size 1 = 0 from by decide +kernel, show win5_3.xsize (grid5.coords tLast) 1 = 256 from by decide +kernel]; omega⟩

/-- The same, entry by entry. -/
theorem pooled_final (c : Dev nD) (b : Fin 8) (o : Fin 256) :
    (dat5 V c).arrAt 3 cfg5.N (ix2 b o)
      = pool (fun p o => max (yArr V c (ix3 p.1 p.2 o) * scaleArr V c (ix1 o) + shiftArr V c (ix1 o)) zer) b o :=
  congrFun (final_eq V c) (ix2 b o)

end Run

end Cert.KernelIdeal.Max5

end
-- ==== Proof.KLayer3.lean ====
/-
  The kernel's layer 3 with its pooling is the reference's.

  The program runs a host stretch (gather the previous layer's output, transpose the weights), a region that stores the
  linear map's output and accumulates its column sums and column sums of squares, a host stretch that turns the two sums
  into a per-channel scale and shift, and a region that keeps, per batch and channel, the running maximum over the
  vertices of max(y·scale + shift, 0). Entry by entry the scale-and-shift spelling of the normalisation is the reference's
  centred spelling, because every number in it is a real number; so the pooled maxima agree.
-/
import proofs.«182203_j60619168416159_1_alg».proof.Proof.KChain
import proofs.«182203_j60619168416159_1_alg».proof.Proof.KGlue
import proofs.«182203_j60619168416159_1_alg».proof.Proof.BridgeMath
import proofs.«182203_j60619168416159_1_alg».proof.Proof.RefValue
import proofs.«182203_j60619168416159_1_alg».proof.Proof.KLin4
import proofs.«182203_j60619168416159_1_alg».proof.Proof.KMax5

noncomputable section

namespace Cert.KernelIdeal.Gen

open Idealize.ShloMosaic Idealize.ShloMosaic.TcCoe Idealize.SL.Sem Idealize.ShloMosaic.ValueIdx
open Cert.Spiral Cert.RealValued

variable (m : (ℓ : Loc nD τ sig) → Buf (Elt Ideal) ℓ) (ρ : Dev nD → PrngReg)

/-- Layer 3, entry by entry: the clipped scale-and-shift of the region's y array at the boundary before the normalising
    region is the reference's layer at that entry, and a real number. The regions' results enter as hypotheses: the y
    array and the two accumulated sums are the linear map, its column sums and its column sums of squares, over the
    features, weights and bias as the region finds them. -/
theorem entry3 (c : Dev nD) (H : FVec Ideal S8x12000x128 .bf16) (ePrev : W8 m ρ c (Proc.devRef .tc main_v54) = H)
    (F8 : S8x12000x1152.Idx → EReal) (eF8 : W9 m ρ c (Proc.devRef .tc main_v62) = F8)
    (WT : S1152x256.Idx → EReal) (eWT : W9 m ρ c (Proc.devRef .tc main_v64) = WT)
    (B3 : S256.Idx → EReal) (eB3 : W9 m ρ c (Proc.devRef .tc main_arg11) = B3)
    (Y : S8x12000x256.Idx → EReal) (eY : W10 m ρ c (Proc.devRef .tc main_v65_0) = Y)
    (S Q : S1x256.Idx → EReal) (eS : W10 m ρ c (Proc.devRef .tc main_v65_1) = S) (eQ : W10 m ρ c (Proc.devRef .tc main_v65_2) = Q)
    (hY : ∀ (b : Fin 8) (v : Fin 12000) (o : Fin 256), Y (ix3 b v o)
      = lin (fun p k => F8 (ix3 p.1 p.2 k)) (fun o k => WT (ix2 k o)) (fun o => B3 (ix1 o)) (b, v) o)
    (hS : ∀ o : Fin 256, S (ix2 0 o)
      = colSum (lin (P := Rows) (fun p k => F8 (ix3 p.1 p.2 k)) (fun o k => WT (ix2 k o)) (fun o => B3 (ix1 o))) o)
    (hQ : ∀ o : Fin 256, Q (ix2 0 o)
      = colSumSq (lin (P := Rows) (fun p k => F8 (ix3 p.1 p.2 k)) (fun o k => WT (ix2 k o)) (fun o => B3 (ix1 o))) o)
    (Y3 : S8x12000x256.Idx → EReal) (eY3 : W11 m ρ c (Proc.devRef .tc main_v65_0) = Y3)
    (SC SH : S256.Idx → EReal) (eSC : W11 m ρ c (Proc.devRef .tc main_v78) = SC) (eSH : W11 m ρ c (Proc.devRef .tc main_v80) = SH)
    (rP : ∀ i, IsReal (H i)) (rW : ∀ i, IsReal ((m ((c.tc : Thread nD τ).loc main_arg10)) i)) (rB : ∀ i, IsReal ((m ((c.tc : Thread nD τ).loc main_arg11)) i))
    (rG : ∀ i, IsReal ((m ((c.tc : Thread nD τ).loc main_arg12)) i)) (rBT : ∀ i, IsReal ((m ((c.tc : Thread nD τ).loc main_arg13)) i))
    (b : Fin 8) (v : Fin 12000) (o : Fin 256) :
    max (Y3 (ix3 b v o) * SC (ix1 o) + SH (ix1 o)) zer
        = Cert.ReferenceIdeal.Term.layer3 (F := Ideal) (Cert.ReferenceIdeal.Term.feat3 (F := Ideal) H (m ((c.tc : Thread nD τ).loc main_arg1)))
            (m ((c.tc : Thread nD τ).loc main_arg10)) (m ((c.tc : Thread nD τ).loc main_arg11)) (m ((c.tc : Thread nD τ).loc main_arg12)) (m ((c.tc : Thread nD τ).loc main_arg13)) (ix3 b v o)
      ∧ IsReal (max (Y3 (ix3 b v o) * SC (ix1 o) + SH (ix1 o)) zer) := by
  -- the features, weights and bias the region finds are the reference's
  have hfeat := W9_feat m ρ c
  rw [ePrev, W8_main_arg1 m ρ c, eF8] at hfeat
  have hwT := W9_wT m ρ c
  rw [W8_main_arg10 m ρ c, eWT] at hwT
  have hb : B3 = (m ((c.tc : Thread nD τ).loc main_arg11)) := eB3.symm.trans (W9_main_arg11 m ρ c)
  have eF : (fun (p : Rows) (k : Fin 1152) => F8 (ix3 p.1 p.2 k))
      = fun p k => Cert.ReferenceIdeal.Term.feat3 (F := Ideal) H (m ((c.tc : Thread nD τ).loc main_arg1)) (ix3 p.1 p.2 k) := by
    funext p k
    exact congrFun hfeat (ix3 p.1 p.2 k)
  have eW : (fun (o : Fin 256) (k : Fin 1152) => WT (ix2 k o)) = fun o k => (m ((c.tc : Thread nD τ).loc main_arg10)) (ix2 o k) := by
    funext o k
    exact (congrFun hwT (ix2 k o)).trans (Glue.wT3_apply _ k o)
  have eB : (fun o : Fin 256 => B3 (ix1 o)) = fun o => (m ((c.tc : Thread nD τ).loc main_arg11)) (ix1 o) := by
    funext o
    exact congrFun hb (ix1 o)
  rw [eF, eW, eB] at hY hS hQ
  -- the scale and the shift are the per-channel scale and shift of the linear map's columns
  have hs : ∀ o : Fin 256, (W10 m ρ c (Proc.devRef .tc main_v65_1) : S1x256.Idx → EReal) (ix2 0 o) = _ := fun o =>
    (congrFun eS (ix2 0 o)).trans (hS o)
  have hq : ∀ o : Fin 256, (W10 m ρ c (Proc.devRef .tc main_v65_2) : S1x256.Idx → EReal) (ix2 0 o) = _ := fun o =>
    (congrFun eQ (ix2 0 o)).trans (hQ o)
  have hsc := W11_scale m ρ c
  rw [W10_main_arg12 m ρ c, eSC] at hsc
  have hsh := W11_shift m ρ c
  rw [W10_main_arg12 m ρ c, W10_main_arg13 m ρ c, eSH] at hsh
  have hy3 : Y3 = Y := eY3.symm.trans ((W11_y m ρ c).trans eY)
  have key := layer_agree
    (fun p k => Cert.ReferenceIdeal.Term.feat3 (F := Ideal) H (m ((c.tc : Thread nD τ).loc main_arg1)) (ix3 p.1 p.2 k))
    (fun o k => (m ((c.tc : Thread nD τ).loc main_arg10)) (ix2 o k)) (fun o => (m ((c.tc : Thread nD τ).loc main_arg11)) (ix1 o)) (fun o => (m ((c.tc : Thread nD τ).loc main_arg12)) (ix1 o)) (fun o => (m ((c.tc : Thread nD τ).loc main_arg13)) (ix1 o))
    (fun p k => Cert.ReferenceIdeal.RefValue.feat3_isReal H (m ((c.tc : Thread nD τ).loc main_arg1)) rP _) (fun o k => rW _) (fun o => rB _)
    (fun o => rG _) (fun o => rBT _)
    (max (Y3 (ix3 b v o) * SC (ix1 o) + SH (ix1 o)) zer) (Y3 (ix3 b v o)) (SC (ix1 o)) (SH (ix1 o)) (b, v) o
    ((congrFun hy3 (ix3 b v o)).trans (hY b v o))
    ((congrFun hsc (ix1 o)).trans (Glue.scale3_apply _ _ _ _ hs hq o))
    ((congrFun hsh (ix1 o)).trans (Glue.shift3_apply _ _ _ _ hs hq _ o))
    rfl
  exact ⟨key.1.trans (Cert.ReferenceIdeal.RefValue.layer3_apply _ _ _ _ _ b v o).symm, key.2⟩

set_option maxHeartbeats 2000000 in
/-- Layer 3 and the pooling: at the boundary after the pooling region the pooled array is the reference's maximum over the
    vertices of its layer 3 of the same arguments. -/
theorem pooled3 (c : Dev nD) (H : FVec Ideal S8x12000x128 .bf16) (ePrev : W8 m ρ c (Proc.devRef .tc main_v54) = H)
    (rP : ∀ i, IsReal (H i)) (rW : ∀ i, IsReal ((m ((c.tc : Thread nD τ).loc main_arg10)) i)) (rB : ∀ i, IsReal ((m ((c.tc : Thread nD τ).loc main_arg11)) i))
    (rG : ∀ i, IsReal ((m ((c.tc : Thread nD τ).loc main_arg12)) i)) (rBT : ∀ i, IsReal ((m ((c.tc : Thread nD τ).loc main_arg13)) i)) :
    W12 m ρ c (Proc.devRef .tc main_v81)
      = Cert.ReferenceIdeal.Term.pooled (F := Ideal)
          (Cert.ReferenceIdeal.Term.layer3 (F := Ideal) (Cert.ReferenceIdeal.Term.feat3 (F := Ideal) H (m ((c.tc : Thread nD τ).loc main_arg1)))
            (m ((c.tc : Thread nD τ).loc main_arg10)) (m ((c.tc : Thread nD τ).loc main_arg11)) (m ((c.tc : Thread nD τ).loc main_arg12)) (m ((c.tc : Thread nD τ).loc main_arg13))) := by
  have key := entry3 m ρ c H ePrev (V9 m ρ c main_v62) rfl (V9 m ρ c main_v64) rfl (V9 m ρ c main_arg11) rfl
    ((dat4 (V9 m ρ) c).arrAt 3 cfg4.N) (W10_y m ρ c)
    ((dat4 (V9 m ρ) c).arrAt 4 cfg4.N) ((dat4 (V9 m ρ) c).arrAt 5 cfg4.N) (W10_s m ρ c) (W10_q m ρ c)
    (Lin4.y_final (V9 m ρ) c) (Lin4.sum_final (V9 m ρ) c) (Lin4.sumsq_final (V9 m ρ) c)
    (V11 m ρ c main_v65_0) rfl (V11 m ρ c main_v78) (V11 m ρ c main_v80) rfl rfl
    rP rW rB rG rBT
  show (W12 m ρ c (Proc.devRef .tc main_v81) : S8x256.Idx → EReal) = _
  funext i
  obtain ⟨b, o, rfl⟩ : ∃ (b : Fin 8) (o : Fin 256), i = ix2 b o := ⟨i 0, i 1, eq_ix2 i⟩
  refine (congrFun (W12_h m ρ c) (ix2 b o)).trans ?_
  refine (Max5.pooled_final (V11 m ρ) c b o).trans ?_
  refine (pool_congr _ _ (fun p o => (key p.1 p.2 o).1) b o).trans ?_
  exact (Cert.ReferenceIdeal.RefValue.pooled_apply _ b o).symm

end Cert.KernelIdeal.Gen

end
-- ==== Proof.KOut.lean ====
/-
  The idealized kernel's result is the reference's term of the same arguments.

  Under the precondition every entry of every float argument is a real number. Layer by layer the kernel's output array
  is then the reference's layer of the same arguments and real again; the pooled array is the reference's maximum over the
  vertices; and the head is the same host arithmetic in both programs.
-/
import proofs.«182203_j60619168416159_1_alg».proof.Defs
import proofs.«182203_j60619168416159_1_alg».proof.Proof.KChain
import proofs.«182203_j60619168416159_1_alg».proof.Proof.KGlue
import proofs.«182203_j60619168416159_1_alg».proof.Proof.RefTerm
import proofs.«182203_j60619168416159_1_alg».proof.Proof.Gen.Pre_finite_inputs
import proofs.«182203_j60619168416159_1_alg».proof.Proof.FiniteArgs
import proofs.«182203_j60619168416159_1_alg».proof.Proof.KLayer1
import proofs.«182203_j60619168416159_1_alg».proof.Proof.KLayer2
import proofs.«182203_j60619168416159_1_alg».proof.Proof.KLayer3

noncomputable section

namespace Cert.KernelIdeal.Gen

open Idealize.ShloMosaic Idealize.ShloMosaic.TcCoe Idealize.SL.Sem
open Cert.RealValued

variable (m : (ℓ : Loc nD τ sig) → Buf (Elt Ideal) ℓ) (ρ : Dev nD → PrngReg)

/-- Under the precondition the last boundary's contents of the result buffer are the reference's term of the launch
    contents of the arguments. -/
theorem kernel_out (hpre : Cert.Pre_KernelIdeal m) (c : Dev nD) :
    W13 m ρ c (Proc.devRef .tc main_v86)
      = Cert.ReferenceIdeal.Term.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  -- every entry of every float argument is a real number
  obtain ⟨r0, r2, r3, r4, r5, r6, r7, r8, r9, r10, r11, r12, r13, r14, r15⟩ :=
    Cert.Finite.args_real _ _ _ _ _ _ _ _ _ _ _ _ _ _ _ _ (hpre c)
  -- the three layers, each from the one before, and the pooling
  have L1 := layer1 m ρ c r0 r2 r3 r4 r5
  have L2 := layer2 m ρ c _ L1.1 (L1.1 ▸ L1.2) r6 r7 r8 r9
  have P3 := pooled3 m ρ c _ L2.1 (L2.1 ▸ L2.2) r10 r11 r12 r13
  -- the head on the pooled array
  have h := W13_out m ρ c
  rw [P3, W12_main_arg14 m ρ c, W12_main_arg15 m ρ c] at h
  exact h.trans (Glue.head_eq _ _ _)

end Cert.KernelIdeal.Gen

end
-- ==== Proof.RefOps.lean ====
/-
  The reference program's host operations as lists, layer by layer, in the program's order: each outlined routine's
  operations stand in place of its call, over that call's own buffers. The program is the straight line of these lists
  one after the other; every operation touches device buffers only and determines its result.
-/
import proofs.«182203_j60619168416159_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 1: the wrapped spiral indices, the gather, the linear map with bias, the column mean, the guarded column variance (the outlined routine's operations in place), the normalisation, the clipping at zero (outlined likewise). -/
def opsL1 : List (HloOp τ sig (Elt F)) :=
  [ StableHlo.nullary main_c (constantI S_ 32 0#32),
    StableHlo.unary main_c main_v0 (broadcastInDim S8x12000x9 ![] bcast_S_S8x12000x9 : (⟨S_, .i32⟩ : BufTy).Contents (Elt F) → (⟨S8x12000x9, .i32⟩ : BufTy).Contents (Elt F)),
    StableHlo.binary main_arg1 main_v0 main_v1 (cmpi .slt : (⟨S8x12000x9, .i32⟩ : BufTy).Contents (Elt F) → (⟨S8x12000x9, .i32⟩ : BufTy).Contents (Elt F) → (⟨S8x12000x9, .i1⟩ : BufTy).Contents (Elt F)),
    StableHlo.nullary main_c_0 (constantI S_ 32 12000#32),
    StableHlo.unary main_c_0 main_v2 (broadcastInDim S8x12000x9 ![] bcast_S_S8x12000x9 : (⟨S_, .i32⟩ : BufTy).Contents (Elt F) → (⟨S8x12000x9, .i32⟩ : BufTy).Contents (Elt F)),
    StableHlo.binary main_arg1 main_v2 main_v3 (addi : (⟨S8x12000x9, .i32⟩ : BufTy).Contents (Elt F) → (⟨S8x12000x9, .i32⟩ : BufTy).Contents (Elt F) → (⟨S8x12000x9, .i32⟩ : BufTy).Contents (Elt F)),
    StableHlo.ternary main_v1 main_v3 main_arg1 main_v4 (select : (⟨S8x12000x9, .i1⟩ : BufTy).Contents (Elt F) → (⟨S8x12000x9, .i32⟩ : BufTy).Contents (Elt F) → (⟨S8x12000x9, .i32⟩ : BufTy).Contents (Elt F) → (⟨S8x12000x9, .i32⟩ : BufTy).Contents (Elt F)),
    StableHlo.unary main_v4 main_v5 (broadcastInDim S8x12000x9x1 ![0, 1, 2] bcast_S8x12000x9_S8x12000x9x1_0_1_2 : (⟨S8x12000x9, .i32⟩ : BufTy).Contents (Elt F) → (⟨S8x12000x9x1, .i32⟩ : BufTy).Contents (Elt F)),
    StableHlo.binary main_arg0 main_v5 main_v6 ((fun x i => Host.gather gather_S8x12000x3_S8x12000x9x1_S8x12000x9x3_3_1_0_0_1_3_113 x i) : (⟨S8x12000x3, .f32⟩ : BufTy).Contents (Elt F) → (⟨S8x12000x9x1, .i32⟩ : BufTy).Contents (Elt F) → (⟨S8x12000x9x3, .f32⟩ : BufTy).Contents (Elt F)),
    StableHlo.reshape main_v6 main_v7 rfl shapeCasts_S8x12000x9x3_S8x12000x27,
    StableHlo.binary main_v7 main_arg2 main_v8 ((fun l r => Host.dotGeneral dot_S8x12000x27_S64x27_S8x12000x64_2_1_01_0_n_n none l r) : (⟨S8x12000x27, .f32⟩ : BufTy).Contents (Elt F) → (⟨S64x27, .f32⟩ : BufTy).Contents (Elt F) → (⟨S8x12000x64, .f32⟩ : BufTy).Contents (Elt F)),
    StableHlo.unary main_arg3 main_v9 (broadcastInDim S1x1x64 ![2] bcast_S64_S1x1x64_2 : (⟨S64, .f32⟩ : BufTy).Contents (Elt F) → (⟨S1x1x64, .f32⟩ : BufTy).Contents (Elt F)),
    StableHlo.unary main_v9 main_v10 (broadcastInDim S8x12000x64 ![0, 1, 2] bcast_S1x1x64_S8x12000x64_0_1_2 : (⟨S1x1x64, .f32⟩ : BufTy).Contents (Elt F) → (⟨S8x12000x64, .f32⟩ : BufTy).Contents (Elt F)),
    StableHlo.binary main_v8 main_v10 main_v11 (addf : (⟨S8x12000x64, .f32⟩ : BufTy).Contents (Elt F) → (⟨S8x12000x64, .f32⟩ : BufTy).Contents (Elt F) → (⟨S8x12000x64, .f32⟩ : BufTy).Contents (Elt F)),
    StableHlo.nullary main_cst (constant S_ .f32 0x00000000#32),
    StableHlo.binary main_v11 main_cst main_v12 ((fun x v => Host.reduceAdd x v reducesTo_S8x12000x64_S64_d0_1 h_S_) : (⟨S8x12000x64, .f32⟩ : BufTy).Contents (Elt F) → (⟨S_, .f32⟩ : BufTy).Contents (Elt F) → (⟨S64, .f32⟩ : BufTy).Contents (Elt F)),
    StableHlo.nullary main_cst_1 (constant S_ .f32 0x47BB8000#32),
    StableHlo.unary main_cst_1 main_v13 (broadcastInDim S64 ![] bcast_S_S64 : (⟨S_, .f32⟩ : BufTy).Contents (Elt F) → (⟨S64, .f32⟩ : BufTy).Contents (Elt F)),
    StableHlo.binary main_v12 main_v13 main_v14 (Host.divf : (⟨S64, .f32⟩ : BufTy).Contents (Elt F) → (⟨S64, .f32⟩ : BufTy).Contents (Elt F) → (⟨S64, .f32⟩ : BufTy).Contents (Elt F)),
    StableHlo.nullary main_c_2 (constantI S_ 32 0#32),
    StableHlo.TRef.nullary main_call0.cst (constant S_ .f32 0x00000000#32),
    StableHlo.TRef.binary (.of main_v11 : StableHlo.TRef sig ⟨S8x12000x64, .f32⟩) main_call0.cst main_call0.v0 (fun x v => Host.reduceAdd x v reducesTo_S8x12000x64_S64_d0_1 h_S_),
    StableHlo.TRef.unary main_call0.v0 main_call0.v1 (broadcastInDim S1x1x64 ![2] bcast_S64_S1x1x64_2),
    StableHlo.TRef.nullary main_call0.cst_0 (constant S_ .f32 0x47BB8000#32),
    StableHlo.TRef.unary main_call0.cst_0 main_call0.v2 (broadcastInDim S1x1x64 ![] bcast_S_S1x1x64),
    StableHlo.TRef.binary main_call0.v1 main_call0.v2 main_call0.v3 Host.divf,
    StableHlo.TRef.unary main_call0.v3 main_call0.v4 (broadcastInDim S8x12000x64 ![0, 1, 2] bcast_S1x1x64_S8x12000x64_0_1_2),
    StableHlo.TRef.binary (.of main_v11 : StableHlo.TRef sig ⟨S8x12000x64, .f32⟩) main_call0.v4 main_call0.v5 subf,
    StableHlo.TRef.binary main_call0.v5 main_call0.v5 main_call0.v6 mulf,
    StableHlo.TRef.unary (.of main_c_2 : StableHlo.TRef sig ⟨S_, .i32⟩) main_call0.v7 (sitofp .f32),
    StableHlo.TRef.nullary main_call0.cst_1 (constant S_ .f32 0x47BB8000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x12000x64_S64_d0_1 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v14 main_v16 (broadcastInDim S1x1x64 ![2] bcast_S64_S1x1x64_2 : (⟨S64, .f32⟩ : BufTy).Contents (Elt F) → (⟨S1x1x64, .f32⟩ : BufTy).Contents (Elt F)),
    StableHlo.unary main_v16 main_v17 (broadcastInDim S8x12000x64 ![0, 1, 2] bcast_S1x1x64_S8x12000x64_0_1_2 : (⟨S1x1x64, .f32⟩ : BufTy).Contents (Elt F) → (⟨S8x12000x64, .f32⟩ : BufTy).Contents (Elt F)),
    StableHlo.binary main_v11 main_v17 main_v18 (subf : (⟨S8x12000x64, .f32⟩ : BufTy).Contents (Elt F) → (⟨S8x12000x64, .f32⟩ : BufTy).Contents (Elt F) → (⟨S8x12000x64, .f32⟩ : BufTy).Contents (Elt F)),
    StableHlo.nullary main_cst_3 (constant S_ .f32 0x3727C5AC#32),
    StableHlo.unary main_cst_3 main_v19 (broadcastInDim S64 ![] bcast_S_S64 : (⟨S_, .f32⟩ : BufTy).Contents (Elt F) → (⟨S64, .f32⟩ : BufTy).Contents (Elt F)),
    StableHlo.binary main_v15 main_v19 main_v20 (addf : (⟨S64, .f32⟩ : BufTy).Contents (Elt F) → (⟨S64, .f32⟩ : BufTy).Contents (Elt F) → (⟨S64, .f32⟩ : BufTy).Contents (Elt F)),
    StableHlo.unary main_v20 main_v21 (Host.rsqrt : (⟨S64, .f32⟩ : BufTy).Contents (Elt F) → (⟨S64, .f32⟩ : BufTy).Contents (Elt F)),
    StableHlo.unary main_v21 main_v22 (broadcastInDim S1x1x64 ![2] bcast_S64_S1x1x64_2 : (⟨S64, .f32⟩ : BufTy).Contents (Elt F) → (⟨S1x1x64, .f32⟩ : BufTy).Contents (Elt F)),
    StableHlo.unary main_v22 main_v23 (broadcastInDim S8x12000x64 ![0, 1, 2] bcast_S1x1x64_S8x12000x64_0_1_2 : (⟨S1x1x64, .f32⟩ : BufTy).Contents (Elt F) → (⟨S8x12000x64, .f32⟩ : BufTy).Contents (Elt F)),
    StableHlo.binary main_v18 main_v23 main_v24 (mulf : (⟨S8x12000x64, .f32⟩ : BufTy).Contents (Elt F) → (⟨S8x12000x64, .f32⟩ : BufTy).Contents (Elt F) → (⟨S8x12000x64, .f32⟩ : BufTy).Contents (Elt F)),
    StableHlo.unary main_arg4 main_v25 (broadcastInDim S1x1x64 ![2] bcast_S64_S1x1x64_2 : (⟨S64, .f32⟩ : BufTy).Contents (Elt F) → (⟨S1x1x64, .f32⟩ : BufTy).Contents (Elt F)),
    StableHlo.unary main_v25 main_v26 (broadcastInDim S8x12000x64 ![0, 1, 2] bcast_S1x1x64_S8x12000x64_0_1_2 : (⟨S1x1x64, .f32⟩ : BufTy).Contents (Elt F) → (⟨S8x12000x64, .f32⟩ : BufTy).Contents (Elt F)),
    StableHlo.binary main_v24 main_v26 main_v27 (mulf : (⟨S8x12000x64, .f32⟩ : BufTy).Contents (Elt F) → (⟨S8x12000x64, .f32⟩ : BufTy).Contents (Elt F) → (⟨S8x12000x64, .f32⟩ : BufTy).Contents (Elt F)),
    StableHlo.unary main_arg5 main_v28 (broadcastInDim S1x1x64 ![2] bcast_S64_S1x1x64_2 : (⟨S64, .f32⟩ : BufTy).Contents (Elt F) → (⟨S1x1x64, .f32⟩ : BufTy).Contents (Elt F)),
    StableHlo.unary main_v28 main_v29 (broadcastInDim S8x12000x64 ![0, 1, 2] bcast_S1x1x64_S8x12000x64_0_1_2 : (⟨S1x1x64, .f32⟩ : BufTy).Contents (Elt F) → (⟨S8x12000x64, .f32⟩ : BufTy).Contents (Elt F)),
    StableHlo.binary main_v27 main_v29 main_v30 (addf : (⟨S8x12000x64, .f32⟩ : BufTy).Contents (Elt F) → (⟨S8x12000x64, .f32⟩ : BufTy).Contents (Elt F) → (⟨S8x12000x64, .f32⟩ : BufTy).Contents (Elt F)),
    StableHlo.TRef.nullary main_call1.cst (constant S_ .f32 0x00000000#32),
    StableHlo.TRef.unary main_call1.cst main_call1.v0 (broadcastInDim S8x12000x64 ![] bcast_S_S8x12000x64),
    StableHlo.TRef.binary (.of main_v30 : StableHlo.TRef sig ⟨S8x12000x64, .f32⟩) main_call1.v0 main_call1.v1 maximumf ]

/-- Layer 2, first part: from the wrapped indices to the column mean laid out as a [1,1,128] array. -/
def opsL2a : List (HloOp τ sig (Elt F)) :=
  [ StableHlo.nullary main_c_4 (constantI S_ 32 0#32),
    StableHlo.unary main_c_4 main_v32 (broadcastInDim S8x12000x9 ![] bcast_S_S8x12000x9 : (⟨S_, .i32⟩ : BufTy).Contents (Elt F) → (⟨S8x12000x9, .i32⟩ : BufTy).Contents (Elt F)),
    StableHlo.binary main_arg1 main_v32 main_v33 (cmpi .slt : (⟨S8x12000x9, .i32⟩ : BufTy).Contents (Elt F) → (⟨S8x12000x9, .i32⟩ : BufTy).Contents (Elt F) → (⟨S8x12000x9, .i1⟩ : BufTy).Contents (Elt F)),
    StableHlo.nullary main_c_5 (constantI S_ 32 12000#32),
    StableHlo.unary main_c_5 main_v34 (broadcastInDim S8x12000x9 ![] bcast_S_S8x12000x9 : (⟨S_, .i32⟩ : BufTy).Contents (Elt F) → (⟨S8x12000x9, .i32⟩ : BufTy).Contents (Elt F)),
    StableHlo.binary main_arg1 main_v34 main_v35 (addi : (⟨S8x12000x9, .i32⟩ : BufTy).Contents (Elt F) → (⟨S8x12000x9, .i32⟩ : BufTy).Contents (Elt F) → (⟨S8x12000x9, .i32⟩ : BufTy).Contents (Elt F)),
    StableHlo.ternary main_v33 main_v35 main_arg1 main_v36 (select : (⟨S8x12000x9, .i1⟩ : BufTy).Contents (Elt F) → (⟨S8x12000x9, .i32⟩ : BufTy).Contents (Elt F) → (⟨S8x12000x9, .i32⟩ : BufTy).Contents (Elt F) → (⟨S8x12000x9, .i32⟩ : BufTy).Contents (Elt F)),
    StableHlo.unary main_v36 main_v37 (broadcastInDim S8x12000x9x1 ![0, 1, 2] bcast_S8x12000x9_S8x12000x9x1_0_1_2 : (⟨S8x12000x9, .i32⟩ : BufTy).Contents (Elt F) → (⟨S8x12000x9x1, .i32⟩ : BufTy).Contents (Elt F)),
    StableHlo.binary main_v31 main_v37 main_v38 ((fun x i => Host.gather gather_S8x12000x64_S8x12000x9x1_S8x12000x9x64_3_1_0_0_1_3_1164 x i) : (⟨S8x12000x64, .f32⟩ : BufTy).Contents (Elt F) → (⟨S8x12000x9x1, .i32⟩ : BufTy).Contents (Elt F) → (⟨S8x12000x9x64, .f32⟩ : BufTy).Contents (Elt F)),
    StableHlo.reshape main_v38 main_v39 rfl shapeCasts_S8x12000x9x64_S8x12000x576,
    StableHlo.binary main_v39 main_arg6 main_v40 ((fun l r => Host.dotGeneral dot_S8x12000x576_S128x576_S8x12000x128_2_1_01_0_n_n none l r) : (⟨S8x12000x576, .f32⟩ : BufTy).Contents (Elt F) → (⟨S128x576, .f32⟩ : BufTy).Contents (Elt F) → (⟨S8x12000x128, .f32⟩ : BufTy).Contents (Elt F)),
    StableHlo.unary main_arg7 main_v41 (broadcastInDim S1x1x128 ![2] bcast_S128_S1x1x128_2 : (⟨S128, .f32⟩ : BufTy).Contents (Elt F) → (⟨S1x1x128, .f32⟩ : BufTy).Contents (Elt F)),
    StableHlo.unary main_v41 main_v42 (broadcastInDim S8x12000x128 ![0, 1, 2] bcast_S1x1x128_S8x12000x128_0_1_2 : (⟨S1x1x128, .f32⟩ : BufTy).Contents (Elt F) → (⟨S8x12000x128, .f32⟩ : BufTy).Contents (Elt F)),
    StableHlo.binary main_v40 main_v42 main_v43 (addf : (⟨S8x12000x128, .f32⟩ : BufTy).Contents (Elt F) → (⟨S8x12000x128, .f32⟩ : BufTy).Contents (Elt F) → (⟨S8x12000x128, .f32⟩ : BufTy).Contents (Elt F)),
    StableHlo.nullary main_cst_6 (constant S_ .f32 0x00000000#32),
    StableHlo.binary main_v43 main_cst_6 main_v44 ((fun x v => Host.reduceAdd x v reducesTo_S8x12000x128_S128_d0_1 h_S_) : (⟨S8x12000x128, .f32⟩ : BufTy).Contents (Elt F) → (⟨S_, .f32⟩ : BufTy).Contents (Elt F) → (⟨S128, .f32⟩ : BufTy).Contents (Elt F)),
    StableHlo.nullary main_cst_7 (constant S_ .f32 0x47BB8000#32),
    StableHlo.unary main_cst_7 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v43 : StableHlo.TRef sig ⟨S8x12000x128, .f32⟩) main_call2.cst main_call2.v0 (fun x v => Host.reduceAdd x v reducesTo_S8x12000x128_S128_d0_1 h_S_),
    StableHlo.TRef.unary main_call2.v0 main_call2.v1 (broadcastInDim S1x1x128 ![2] bcast_S128_S1x1x128_2),
    StableHlo.TRef.nullary main_call2.cst_0 (constant S_ .f32 0x47BB8000#32),
    StableHlo.TRef.unary main_call2.cst_0 main_call2.v2 (broadcastInDim S1x1x128 ![] bcast_S_S1x1x128),
    StableHlo.TRef.binary main_call2.v1 main_call2.v2 main_call2.v3 Host.divf,
    StableHlo.TRef.unary main_call2.v3 main_call2.v4 (broadcastInDim S8x12000x128 ![0, 1, 2] bcast_S1x1x128_S8x12000x128_0_1_2),
    StableHlo.TRef.binary (.of main_v43 : StableHlo.TRef sig ⟨S8x12000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x47BB8000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8x12000x128_S128_d0_1 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v46 main_v48 (broadcastInDim S1x1x128 ![2] bcast_S128_S1x1x128_2 : (⟨S128, .f32⟩ : BufTy).Contents (Elt F) → (⟨S1x1x128, .f32⟩ : BufTy).Contents (Elt F)) ]

/-- Layer 2, second part: the normalisation and the clipping at zero. -/
def opsL2b : List (HloOp τ sig (Elt F)) :=
  [ StableHlo.unary main_v48 main_v49 (broadcastInDim S8x12000x128 ![0, 1, 2] bcast_S1x1x128_S8x12000x128_0_1_2 : (⟨S1x1x128, .f32⟩ : BufTy).Contents (Elt F) → (⟨S8x12000x128, .f32⟩ : BufTy).Contents (Elt F)),
    StableHlo.binary main_v43 main_v49 main_v50 (subf : (⟨S8x12000x128, .f32⟩ : BufTy).Contents (Elt F) → (⟨S8x12000x128, .f32⟩ : BufTy).Contents (Elt F) → (⟨S8x12000x128, .f32⟩ : BufTy).Contents (Elt F)),
    StableHlo.nullary main_cst_9 (constant S_ .f32 0x3727C5AC#32),
    StableHlo.unary main_cst_9 main_v51 (broadcastInDim S128 ![] bcast_S_S128 : (⟨S_, .f32⟩ : BufTy).Contents (Elt F) → (⟨S128, .f32⟩ : BufTy).Contents (Elt F)),
    StableHlo.binary main_v47 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x1x128 ![2] bcast_S128_S1x1x128_2 : (⟨S128, .f32⟩ : BufTy).Contents (Elt F) → (⟨S1x1x128, .f32⟩ : BufTy).Contents (Elt F)),
    StableHlo.unary main_v54 main_v55 (broadcastInDim S8x12000x128 ![0, 1, 2] bcast_S1x1x128_S8x12000x128_0_1_2 : (⟨S1x1x128, .f32⟩ : BufTy).Contents (Elt F) → (⟨S8x12000x128, .f32⟩ : BufTy).Contents (Elt F)),
    StableHlo.binary main_v50 main_v55 main_v56 (mulf : (⟨S8x12000x128, .f32⟩ : BufTy).Contents (Elt F) → (⟨S8x12000x128, .f32⟩ : BufTy).Contents (Elt F) → (⟨S8x12000x128, .f32⟩ : BufTy).Contents (Elt F)),
    StableHlo.unary main_arg8 main_v57 (broadcastInDim S1x1x128 ![2] bcast_S128_S1x1x128_2 : (⟨S128, .f32⟩ : BufTy).Contents (Elt F) → (⟨S1x1x128, .f32⟩ : BufTy).Contents (Elt F)),
    StableHlo.unary main_v57 main_v58 (broadcastInDim S8x12000x128 ![0, 1, 2] bcast_S1x1x128_S8x12000x128_0_1_2 : (⟨S1x1x128, .f32⟩ : BufTy).Contents (Elt F) → (⟨S8x12000x128, .f32⟩ : BufTy).Contents (Elt F)),
    StableHlo.binary main_v56 main_v58 main_v59 (mulf : (⟨S8x12000x128, .f32⟩ : BufTy).Contents (Elt F) → (⟨S8x12000x128, .f32⟩ : BufTy).Contents (Elt F) → (⟨S8x12000x128, .f32⟩ : BufTy).Contents (Elt F)),
    StableHlo.unary main_arg9 main_v60 (broadcastInDim S1x1x128 ![2] bcast_S128_S1x1x128_2 : (⟨S128, .f32⟩ : BufTy).Contents (Elt F) → (⟨S1x1x128, .f32⟩ : BufTy).Contents (Elt F)),
    StableHlo.unary main_v60 main_v61 (broadcastInDim S8x12000x128 ![0, 1, 2] bcast_S1x1x128_S8x12000x128_0_1_2 : (⟨S1x1x128, .f32⟩ : BufTy).Contents (Elt F) → (⟨S8x12000x128, .f32⟩ : BufTy).Contents (Elt F)),
    StableHlo.binary main_v59 main_v61 main_v62 (addf : (⟨S8x12000x128, .f32⟩ : BufTy).Contents (Elt F) → (⟨S8x12000x128, .f32⟩ : BufTy).Contents (Elt F) → (⟨S8x12000x128, .f32⟩ : BufTy).Contents (Elt F)),
    StableHlo.TRef.nullary main_call3.cst (constant S_ .f32 0x00000000#32),
    StableHlo.TRef.unary main_call3.cst main_call3.v0 (broadcastInDim S8x12000x128 ![] bcast_S_S8x12000x128),
    StableHlo.TRef.binary (.of main_v62 : StableHlo.TRef sig ⟨S8x12000x128, .f32⟩) main_call3.v0 main_call3.v1 maximumf ]

/-- Layer 3: as layer 1 at 1152 gathered features and 256 channels. -/
def opsL3 : List (HloOp τ sig (Elt F)) :=
  [ StableHlo.nullary main_c_10 (constantI S_ 32 0#32),
    StableHlo.unary main_c_10 main_v64 (broadcastInDim S8x12000x9 ![] bcast_S_S8x12000x9 : (⟨S_, .i32⟩ : BufTy).Contents (Elt F) → (⟨S8x12000x9, .i32⟩ : BufTy).Contents (Elt F)),
    StableHlo.binary main_arg1 main_v64 main_v65 (cmpi .slt : (⟨S8x12000x9, .i32⟩ : BufTy).Contents (Elt F) → (⟨S8x12000x9, .i32⟩ : BufTy).Contents (Elt F) → (⟨S8x12000x9, .i1⟩ : BufTy).Contents (Elt F)),
    StableHlo.nullary main_c_11 (constantI S_ 32 12000#32),
    StableHlo.unary main_c_11 main_v66 (broadcastInDim S8x12000x9 ![] bcast_S_S8x12000x9 : (⟨S_, .i32⟩ : BufTy).Contents (Elt F) → (⟨S8x12000x9, .i32⟩ : BufTy).Contents (Elt F)),
    StableHlo.binary main_arg1 main_v66 main_v67 (addi : (⟨S8x12000x9, .i32⟩ : BufTy).Contents (Elt F) → (⟨S8x12000x9, .i32⟩ : BufTy).Contents (Elt F) → (⟨S8x12000x9, .i32⟩ : BufTy).Contents (Elt F)),
    StableHlo.ternary main_v65 main_v67 main_arg1 main_v68 (select : (⟨S8x12000x9, .i1⟩ : BufTy).Contents (Elt F) → (⟨S8x12000x9, .i32⟩ : BufTy).Contents (Elt F) → (⟨S8x12000x9, .i32⟩ : BufTy).Contents (Elt F) → (⟨S8x12000x9, .i32⟩ : BufTy).Contents (Elt F)),
    StableHlo.unary main_v68 main_v69 (broadcastInDim S8x12000x9x1 ![0, 1, 2] bcast_S8x12000x9_S8x12000x9x1_0_1_2 : (⟨S8x12000x9, .i32⟩ : BufTy).Contents (Elt F) → (⟨S8x12000x9x1, .i32⟩ : BufTy).Contents (Elt F)),
    StableHlo.binary main_v63 main_v69 main_v70 ((fun x i => Host.gather gather_S8x12000x128_S8x12000x9x1_S8x12000x9x128_3_1_0_0_1_3_11128 x i) : (⟨S8x12000x128, .f32⟩ : BufTy).Contents (Elt F) → (⟨S8x12000x9x1, .i32⟩ : BufTy).Contents (Elt F) → (⟨S8x12000x9x128, .f32⟩ : BufTy).Contents (Elt F)),
    StableHlo.reshape main_v70 main_v71 rfl shapeCasts_S8x12000x9x128_S8x12000x1152,
    StableHlo.binary main_v71 main_arg10 main_v72 ((fun l r => Host.dotGeneral dot_S8x12000x1152_S256x1152_S8x12000x256_2_1_01_0_n_n none l r) : (⟨S8x12000x1152, .f32⟩ : BufTy).Contents (Elt F) → (⟨S256x1152, .f32⟩ : BufTy).Contents (Elt F) → (⟨S8x12000x256, .f32⟩ : BufTy).Contents (Elt F)),
    StableHlo.unary main_arg11 main_v73 (broadcastInDim S1x1x256 ![2] bcast_S256_S1x1x256_2 : (⟨S256, .f32⟩ : BufTy).Contents (Elt F) → (⟨S1x1x256, .f32⟩ : BufTy).Contents (Elt F)),
    StableHlo.unary main_v73 main_v74 (broadcastInDim S8x12000x256 ![0, 1, 2] bcast_S1x1x256_S8x12000x256_0_1_2 : (⟨S1x1x256, .f32⟩ : BufTy).Contents (Elt F) → (⟨S8x12000x256, .f32⟩ : BufTy).Contents (Elt F)),
    StableHlo.binary main_v72 main_v74 main_v75 (addf : (⟨S8x12000x256, .f32⟩ : BufTy).Contents (Elt F) → (⟨S8x12000x256, .f32⟩ : BufTy).Contents (Elt F) → (⟨S8x12000x256, .f32⟩ : BufTy).Contents (Elt F)),
    StableHlo.nullary main_cst_12 (constant S_ .f32 0x00000000#32),
    StableHlo.binary main_v75 main_cst_12 main_v76 ((fun x v => Host.reduceAdd x v reducesTo_S8x12000x256_S256_d0_1 h_S_) : (⟨S8x12000x256, .f32⟩ : BufTy).Contents (Elt F) → (⟨S_, .f32⟩ : BufTy).Contents (Elt F) → (⟨S256, .f32⟩ : BufTy).Contents (Elt F)),
    StableHlo.nullary main_cst_13 (constant S_ .f32 0x47BB8000#32),
    StableHlo.unary main_cst_13 main_v77 (broadcastInDim S256 ![] bcast_S_S256 : (⟨S_, .f32⟩ : BufTy).Contents (Elt F) → (⟨S256, .f32⟩ : BufTy).Contents (Elt F)),
    StableHlo.binary main_v76 main_v77 main_v78 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call4.cst (constant S_ .f32 0x00000000#32),
    StableHlo.TRef.binary (.of main_v75 : StableHlo.TRef sig ⟨S8x12000x256, .f32⟩) main_call4.cst main_call4.v0 (fun x v => Host.reduceAdd x v reducesTo_S8x12000x256_S256_d0_1 h_S_),
    StableHlo.TRef.unary main_call4.v0 main_call4.v1 (broadcastInDim S1x1x256 ![2] bcast_S256_S1x1x256_2),
    StableHlo.TRef.nullary main_call4.cst_0 (constant S_ .f32 0x47BB8000#32),
    StableHlo.TRef.unary main_call4.cst_0 main_call4.v2 (broadcastInDim S1x1x256 ![] bcast_S_S1x1x256),
    StableHlo.TRef.binary main_call4.v1 main_call4.v2 main_call4.v3 Host.divf,
    StableHlo.TRef.unary main_call4.v3 main_call4.v4 (broadcastInDim S8x12000x256 ![0, 1, 2] bcast_S1x1x256_S8x12000x256_0_1_2),
    StableHlo.TRef.binary (.of main_v75 : StableHlo.TRef sig ⟨S8x12000x256, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47BB8000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S8x12000x256_S256_d0_1 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v78 main_v80 (broadcastInDim S1x1x256 ![2] bcast_S256_S1x1x256_2 : (⟨S256, .f32⟩ : BufTy).Contents (Elt F) → (⟨S1x1x256, .f32⟩ : BufTy).Contents (Elt F)),
    StableHlo.unary main_v80 main_v81 (broadcastInDim S8x12000x256 ![0, 1, 2] bcast_S1x1x256_S8x12000x256_0_1_2 : (⟨S1x1x256, .f32⟩ : BufTy).Contents (Elt F) → (⟨S8x12000x256, .f32⟩ : BufTy).Contents (Elt F)),
    StableHlo.binary main_v75 main_v81 main_v82 (subf : (⟨S8x12000x256, .f32⟩ : BufTy).Contents (Elt F) → (⟨S8x12000x256, .f32⟩ : BufTy).Contents (Elt F) → (⟨S8x12000x256, .f32⟩ : BufTy).Contents (Elt F)),
    StableHlo.nullary main_cst_15 (constant S_ .f32 0x3727C5AC#32),
    StableHlo.unary main_cst_15 main_v83 (broadcastInDim S256 ![] bcast_S_S256 : (⟨S_, .f32⟩ : BufTy).Contents (Elt F) → (⟨S256, .f32⟩ : BufTy).Contents (Elt F)),
    StableHlo.binary main_v79 main_v83 main_v84 (addf : (⟨S256, .f32⟩ : BufTy).Contents (Elt F) → (⟨S256, .f32⟩ : BufTy).Contents (Elt F) → (⟨S256, .f32⟩ : BufTy).Contents (Elt F)),
    StableHlo.unary main_v84 main_v85 (Host.rsqrt : (⟨S256, .f32⟩ : BufTy).Contents (Elt F) → (⟨S256, .f32⟩ : BufTy).Contents (Elt F)),
    StableHlo.unary main_v85 main_v86 (broadcastInDim S1x1x256 ![2] bcast_S256_S1x1x256_2 : (⟨S256, .f32⟩ : BufTy).Contents (Elt F) → (⟨S1x1x256, .f32⟩ : BufTy).Contents (Elt F)),
    StableHlo.unary main_v86 main_v87 (broadcastInDim S8x12000x256 ![0, 1, 2] bcast_S1x1x256_S8x12000x256_0_1_2 : (⟨S1x1x256, .f32⟩ : BufTy).Contents (Elt F) → (⟨S8x12000x256, .f32⟩ : BufTy).Contents (Elt F)),
    StableHlo.binary main_v82 main_v87 main_v88 (mulf : (⟨S8x12000x256, .f32⟩ : BufTy).Contents (Elt F) → (⟨S8x12000x256, .f32⟩ : BufTy).Contents (Elt F) → (⟨S8x12000x256, .f32⟩ : BufTy).Contents (Elt F)),
    StableHlo.unary main_arg12 main_v89 (broadcastInDim S1x1x256 ![2] bcast_S256_S1x1x256_2 : (⟨S256, .f32⟩ : BufTy).Contents (Elt F) → (⟨S1x1x256, .f32⟩ : BufTy).Contents (Elt F)),
    StableHlo.unary main_v89 main_v90 (broadcastInDim S8x12000x256 ![0, 1, 2] bcast_S1x1x256_S8x12000x256_0_1_2 : (⟨S1x1x256, .f32⟩ : BufTy).Contents (Elt F) → (⟨S8x12000x256, .f32⟩ : BufTy).Contents (Elt F)),
    StableHlo.binary main_v88 main_v90 main_v91 (mulf : (⟨S8x12000x256, .f32⟩ : BufTy).Contents (Elt F) → (⟨S8x12000x256, .f32⟩ : BufTy).Contents (Elt F) → (⟨S8x12000x256, .f32⟩ : BufTy).Contents (Elt F)),
    StableHlo.unary main_arg13 main_v92 (broadcastInDim S1x1x256 ![2] bcast_S256_S1x1x256_2 : (⟨S256, .f32⟩ : BufTy).Contents (Elt F) → (⟨S1x1x256, .f32⟩ : BufTy).Contents (Elt F)),
    StableHlo.unary main_v92 main_v93 (broadcastInDim S8x12000x256 ![0, 1, 2] bcast_S1x1x256_S8x12000x256_0_1_2 : (⟨S1x1x256, .f32⟩ : BufTy).Contents (Elt F) → (⟨S8x12000x256, .f32⟩ : BufTy).Contents (Elt F)),
    StableHlo.binary main_v91 main_v93 main_v94 (addf : (⟨S8x12000x256, .f32⟩ : BufTy).Contents (Elt F) → (⟨S8x12000x256, .f32⟩ : BufTy).Contents (Elt F) → (⟨S8x12000x256, .f32⟩ : BufTy).Contents (Elt F)),
    StableHlo.TRef.nullary main_call5.cst (constant S_ .f32 0x00000000#32),
    StableHlo.TRef.unary main_call5.cst main_call5.v0 (broadcastInDim S8x12000x256 ![] bcast_S_S8x12000x256),
    StableHlo.TRef.binary (.of main_v94 : StableHlo.TRef sig ⟨S8x12000x256, .f32⟩) main_call5.v0 main_call5.v1 maximumf ]

/-- The maximum over the vertices and the head's product and bias layout. -/
def opsHd0 : List (HloOp τ sig (Elt F)) :=
  [ StableHlo.nullary main_cst_16 (constant S_ .f32 0xFF800000#32),
    StableHlo.binary main_v95 main_cst_16 main_v96 ((fun x v => Host.reduce FloatOps.maximumf x v reducesTo_S8x12000x256_S8x256_d1 h_S_) : (⟨S8x12000x256, .f32⟩ : BufTy).Contents (Elt F) → (⟨S_, .f32⟩ : BufTy).Contents (Elt F) → (⟨S8x256, .f32⟩ : BufTy).Contents (Elt F)),
    StableHlo.unary main_arg14 main_v97 ((transpose S256x256 [1, 0] · transposes_S256x256_S256x256_1_0) : (⟨S256x256, .f32⟩ : BufTy).Contents (Elt F) → (⟨S256x256, .f32⟩ : BufTy).Contents (Elt F)),
    StableHlo.binary main_v96 main_v97 main_v98 ((fun l r => Host.dotGeneral dot_S8x256_S256x256_S8x256_1_0_0_1_n_n none l r) : (⟨S8x256, .f32⟩ : BufTy).Contents (Elt F) → (⟨S256x256, .f32⟩ : BufTy).Contents (Elt F) → (⟨S8x256, .f32⟩ : BufTy).Contents (Elt F)),
    StableHlo.unary main_arg15 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S8x256 ![0, 1] bcast_S1x256_S8x256_0_1 : (⟨S1x256, .f32⟩ : BufTy).Contents (Elt F) → (⟨S8x256, .f32⟩ : BufTy).Contents (Elt F)) ]

/-- The head's final addition. -/
def opsHd1 : List (HloOp τ sig (Elt F)) :=
  [ StableHlo.binary main_v98 main_v100 main_v101 (addf : (⟨S8x256, .f32⟩ : BufTy).Contents (Elt F) → (⟨S8x256, .f32⟩ : BufTy).Contents (Elt F) → (⟨S8x256, .f32⟩ : BufTy).Contents (Elt F)) ]

/-- The whole program's operations: the three windows one after the other. -/
def ops : List (HloOp τ sig (Elt F)) := (opsL1 ++ opsL2a) ++ ((opsL2b ++ (opsL3 ++ opsHd0)) ++ opsHd1)

set_option maxRecDepth 8192 in
set_option maxHeartbeats 4000000 in
/-- The program's first window is layer 1 followed by the first part of layer 2. -/
theorem part0_eq (c : Dev nD) : main_part0 (F := F) c = seq (opsL1 ++ opsL2a) := by
  rw [seq_append]
  simp only [main_part0, fn_var.body, fn_where.body, fn_relu.body, fn_var_0.body, fn_where_1.body, opsL1, opsL2a, seq, bind_assoc, pure_bind]
  rfl

set_option maxRecDepth 8192 in
set_option maxHeartbeats 4000000 in
/-- The second window is the rest of layer 2, layer 3, and the pooling with the head's product. -/
theorem part1_eq (c : Dev nD) : main_part1 (F := F) c = seq (opsL2b ++ (opsL3 ++ opsHd0)) := by
  rw [seq_append, seq_append]
  simp only [main_part1, fn_relu_2.body, fn_var_3.body, fn_where_4.body, fn_relu_5.body, opsL2b, opsL3, opsHd0, seq, bind_assoc, pure_bind]
  rfl

/-- The last window is the head's final addition. -/
theorem part2_eq (c : Dev nD) : main_part2 (F := F) c = seq opsHd1 := by
  simp only [main_part2, opsHd1, seq, bind_assoc, pure_bind]

/-- The program is the straight line of its operations. -/
theorem main_eq (c : Dev nD) : main (F := F) c = seq ops := by
  rw [ops, seq_append (opsL1 ++ opsL2a), seq_append (opsL2b ++ (opsL3 ++ opsHd0)), ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of the two one after the other. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem opsL1_sub : (opsL1 : List (HloOp τ sig (Elt F))).Forall fun op => op.bufs ⊆ tcRefs τ sig := by
  rw [opsL1]
  exact ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL1_fresh : (opsL1 : List (HloOp τ sig (Elt F))).Forall fun op => op.fresh = ∅ := by
  rw [opsL1]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsL2a_sub : (opsL2a : List (HloOp τ sig (Elt F))).Forall fun op => op.bufs ⊆ tcRefs τ sig := by
  rw [opsL2a]
  exact ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

theorem opsL2a_fresh : (opsL2a : List (HloOp τ sig (Elt F))).Forall fun op => op.fresh = ∅ := by
  rw [opsL2a]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsL2b_sub : (opsL2b : List (HloOp τ sig (Elt F))).Forall fun op => op.bufs ⊆ tcRefs τ sig := by
  rw [opsL2b]
  exact ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL2b_fresh : (opsL2b : List (HloOp τ sig (Elt F))).Forall fun op => op.fresh = ∅ := by
  rw [opsL2b]
  exact ⟨rfl, rfl, rfl, rfl, rfl, rfl, rfl, rfl, rfl, rfl, rfl, rfl, rfl, rfl, rfl, rfl, rfl, rfl⟩

theorem opsL3_sub : (opsL3 : List (HloOp τ sig (Elt F))).Forall fun op => op.bufs ⊆ tcRefs τ sig := by
  rw [opsL3]
  exact ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL3_fresh : (opsL3 : List (HloOp τ sig (Elt F))).Forall fun op => op.fresh = ∅ := by
  rw [opsL3]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsHd0_sub : (opsHd0 : List (HloOp τ sig (Elt F))).Forall fun op => op.bufs ⊆ tcRefs τ sig := by
  rw [opsHd0]
  exact ⟨nullary_bufs_sub .., binary_bufs_sub .., unary_bufs_sub .., binary_bufs_sub .., unary_bufs_sub .., unary_bufs_sub ..⟩

theorem opsHd0_fresh : (opsHd0 : List (HloOp τ sig (Elt F))).Forall fun op => op.fresh = ∅ := by
  rw [opsHd0]
  exact ⟨rfl, rfl, rfl, rfl, rfl, rfl⟩

theorem opsHd1_sub : (opsHd1 : List (HloOp τ sig (Elt F))).Forall fun op => op.bufs ⊆ tcRefs τ sig := by
  rw [opsHd1]
  exact binary_bufs_sub ..

theorem opsHd1_fresh : (opsHd1 : List (HloOp τ sig (Elt F))).Forall fun op => op.fresh = ∅ := by
  rw [opsHd1]
  exact rfl

/-- Every operation touches the device's own references only. -/
theorem ops_sub : (ops : List (HloOp τ sig (Elt F))).Forall fun op => op.bufs ⊆ tcRefs τ sig :=
  forall_append (forall_append opsL1_sub opsL2a_sub) (forall_append (forall_append opsL2b_sub (forall_append opsL3_sub opsHd0_sub)) opsHd1_sub)

/-- Every operation determines its result. -/
theorem ops_fresh : ∀ op ∈ (ops : List (HloOp τ sig (Elt F))), op.fresh = ∅ :=
  List.forall_iff_forall_mem.1
    (forall_append (forall_append opsL1_fresh opsL2a_fresh) (forall_append (forall_append opsL2b_fresh (forall_append opsL3_fresh opsHd0_fresh)) opsHd1_fresh))

end Cert.ReferenceIdeal.Hand

end
-- ==== Proof.RefRunL1.lean ====
/-
  Layer 1 of the reference read back: from any starting contents its operations leave, at the layer's result buffer,
  the layer's term (gather, linear map with bias, column mean and guarded variance, normalisation, clipping at zero)
  of the argument arrays, and every argument array as it was.
-/
import proofs.«182203_j60619168416159_1_alg».proof.Proof.RefOps
import proofs.«182203_j60619168416159_1_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- What the stretch leaves at its result buffer, from any starting contents: the layer's term of the contents it reads. -/
theorem l1_val (V : Valuation τ sig (Elt F)) :
    after opsL1 V (Proc.devRef .tc main_v31)
      = Term.layer1 (Term.feat1 (V (Proc.devRef .tc main_arg0)) (V (Proc.devRef .tc main_arg1))) (V (Proc.devRef .tc main_arg2)) (V (Proc.devRef .tc main_arg3)) (V (Proc.devRef .tc main_arg4)) (V (Proc.devRef .tc main_arg5)) := by
  rw [opsL1]
  after_results_simp
  rfl

set_option maxRecDepth 8192 in
set_option maxHeartbeats 4000000 in
/-- The stretch leaves argument 0 as it was. -/
theorem l1_arg0 (V : Valuation τ sig (Elt F)) :
    after opsL1 V (Proc.devRef .tc main_arg0) = (V (Proc.devRef .tc main_arg0)) := by
  rw [opsL1]
  after_results_simp

set_option maxRecDepth 8192 in
set_option maxHeartbeats 4000000 in
/-- The stretch leaves argument 1 as it was. -/
theorem l1_arg1 (V : Valuation τ sig (Elt F)) :
    after opsL1 V (Proc.devRef .tc main_arg1) = (V (Proc.devRef .tc main_arg1)) := by
  rw [opsL1]
  after_results_simp

set_option maxRecDepth 8192 in
set_option maxHeartbeats 4000000 in
/-- The stretch leaves argument 2 as it was. -/
theorem l1_arg2 (V : Valuation τ sig (Elt F)) :
    after opsL1 V (Proc.devRef .tc main_arg2) = (V (Proc.devRef .tc main_arg2)) := by
  rw [opsL1]
  after_results_simp

set_option maxRecDepth 8192 in
set_option maxHeartbeats 4000000 in
/-- The stretch leaves argument 3 as it was. -/
theorem l1_arg3 (V : Valuation τ sig (Elt F)) :
    after opsL1 V (Proc.devRef .tc main_arg3) = (V (Proc.devRef .tc main_arg3)) := by
  rw [opsL1]
  after_results_simp

set_option maxRecDepth 8192 in
set_option maxHeartbeats 4000000 in
/-- The stretch leaves argument 4 as it was. -/
theorem l1_arg4 (V : Valuation τ sig (Elt F)) :
    after opsL1 V (Proc.devRef .tc main_arg4) = (V (Proc.devRef .tc main_arg4)) := by
  rw [opsL1]
  after_results_simp

set_option maxRecDepth 8192 in
set_option maxHeartbeats 4000000 in
/-- The stretch leaves argument 5 as it was. -/
theorem l1_arg5 (V : Valuation τ sig (Elt F)) :
    after opsL1 V (Proc.devRef .tc main_arg5) = (V (Proc.devRef .tc main_arg5)) := by
  rw [opsL1]
  after_results_simp

set_option maxRecDepth 8192 in
set_option maxHeartbeats 4000000 in
/-- The stretch leaves argument 6 as it was. -/
theorem l1_arg6 (V : Valuation τ sig (Elt F)) :
    after opsL1 V (Proc.devRef .tc main_arg6) = (V (Proc.devRef .tc main_arg6)) := by
  rw [opsL1]
  after_results_simp

set_option maxRecDepth 8192 in
set_option maxHeartbeats 4000000 in
/-- The stretch leaves argument 7 as it was. -/
theorem l1_arg7 (V : Valuation τ sig (Elt F)) :
    after opsL1 V (Proc.devRef .tc main_arg7) = (V (Proc.devRef .tc main_arg7)) := by
  rw [opsL1]
  after_results_simp

set_option maxRecDepth 8192 in
set_option maxHeartbeats 4000000 in
/-- The stretch leaves argument 8 as it was. -/
theorem l1_arg8 (V : Valuation τ sig (Elt F)) :
    after opsL1 V (Proc.devRef .tc main_arg8) = (V (Proc.devRef .tc main_arg8)) := by
  rw [opsL1]
  after_results_simp

set_option maxRecDepth 8192 in
set_option maxHeartbeats 4000000 in
/-- The stretch leaves argument 9 as it was. -/
theorem l1_arg9 (V : Valuation τ sig (Elt F)) :
    after opsL1 V (Proc.devRef .tc main_arg9) = (V (Proc.devRef .tc main_arg9)) := by
  rw [opsL1]
  after_results_simp

set_option maxRecDepth 8192 in
set_option maxHeartbeats 4000000 in
/-- The stretch leaves argument 10 as it was. -/
theorem l1_arg10 (V : Valuation τ sig (Elt F)) :
    after opsL1 V (Proc.devRef .tc main_arg10) = (V (Proc.devRef .tc main_arg10)) := by
  rw [opsL1]
  after_results_simp

set_option maxRecDepth 8192 in
set_option maxHeartbeats 4000000 in
/-- The stretch leaves argument 11 as it was. -/
theorem l1_arg11 (V : Valuation τ sig (Elt F)) :
    after opsL1 V (Proc.devRef .tc main_arg11) = (V (Proc.devRef .tc main_arg11)) := by
  rw [opsL1]
  after_results_simp

set_option maxRecDepth 8192 in
set_option maxHeartbeats 4000000 in
/-- The stretch leaves argument 12 as it was. -/
theorem l1_arg12 (V : Valuation τ sig (Elt F)) :
    after opsL1 V (Proc.devRef .tc main_arg12) = (V (Proc.devRef .tc main_arg12)) := by
  rw [opsL1]
  after_results_simp

set_option maxRecDepth 8192 in
set_option maxHeartbeats 4000000 in
/-- The stretch leaves argument 13 as it was. -/
theorem l1_arg13 (V : Valuation τ sig (Elt F)) :
    after opsL1 V (Proc.devRef .tc main_arg13) = (V (Proc.devRef .tc main_arg13)) := by
  rw [opsL1]
  after_results_simp

set_option maxRecDepth 8192 in
set_option maxHeartbeats 4000000 in
/-- The stretch leaves argument 14 as it was. -/
theorem l1_arg14 (V : Valuation τ sig (Elt F)) :
    after opsL1 V (Proc.devRef .tc main_arg14) = (V (Proc.devRef .tc main_arg14)) := by
  rw [opsL1]
  after_results_simp

set_option maxRecDepth 8192 in
set_option maxHeartbeats 4000000 in
/-- The stretch leaves argument 15 as it was. -/
theorem l1_arg15 (V : Valuation τ sig (Elt F)) :
    after opsL1 V (Proc.devRef .tc main_arg15) = (V (Proc.devRef .tc main_arg15)) := by
  rw [opsL1]
  after_results_simp

end Cert.ReferenceIdeal.Hand

end
-- ==== Proof.RefRunL2.lean ====
/-
  Layer 2 of the reference read back: from any starting contents its operations leave, at the layer's result buffer,
  the layer's term of layer 1's result and the argument arrays, and every argument array as it was.
-/
import proofs.«182203_j60619168416159_1_alg».proof.Proof.RefOps
import proofs.«182203_j60619168416159_1_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- What the stretch leaves at its result buffer, from any starting contents: the layer's term of the contents it reads. -/
theorem l2_val (V : Valuation τ sig (Elt F)) :
    after opsL2b (after opsL2a V) (Proc.devRef .tc main_v63)
      = Term.layer2 (Term.feat2 (V (Proc.devRef .tc main_v31)) (V (Proc.devRef .tc main_arg1))) (V (Proc.devRef .tc main_arg6)) (V (Proc.devRef .tc main_arg7)) (V (Proc.devRef .tc main_arg8)) (V (Proc.devRef .tc main_arg9)) := by
  rw [opsL2a, opsL2b]
  after_results_simp
  rfl

set_option maxRecDepth 8192 in
set_option maxHeartbeats 4000000 in
/-- The stretch leaves argument 0 as it was. -/
theorem l2_arg0 (V : Valuation τ sig (Elt F)) :
    after opsL2b (after opsL2a V) (Proc.devRef .tc main_arg0) = (V (Proc.devRef .tc main_arg0)) := by
  rw [opsL2a, opsL2b]
  after_results_simp

set_option maxRecDepth 8192 in
set_option maxHeartbeats 4000000 in
/-- The stretch leaves argument 1 as it was. -/
theorem l2_arg1 (V : Valuation τ sig (Elt F)) :
    after opsL2b (after opsL2a V) (Proc.devRef .tc main_arg1) = (V (Proc.devRef .tc main_arg1)) := by
  rw [opsL2a, opsL2b]
  after_results_simp

set_option maxRecDepth 8192 in
set_option maxHeartbeats 4000000 in
/-- The stretch leaves argument 2 as it was. -/
theorem l2_arg2 (V : Valuation τ sig (Elt F)) :
    after opsL2b (after opsL2a V) (Proc.devRef .tc main_arg2) = (V (Proc.devRef .tc main_arg2)) := by
  rw [opsL2a, opsL2b]
  after_results_simp

set_option maxRecDepth 8192 in
set_option maxHeartbeats 4000000 in
/-- The stretch leaves argument 3 as it was. -/
theorem l2_arg3 (V : Valuation τ sig (Elt F)) :
    after opsL2b (after opsL2a V) (Proc.devRef .tc main_arg3) = (V (Proc.devRef .tc main_arg3)) := by
  rw [opsL2a, opsL2b]
  after_results_simp

set_option maxRecDepth 8192 in
set_option maxHeartbeats 4000000 in
/-- The stretch leaves argument 4 as it was. -/
theorem l2_arg4 (V : Valuation τ sig (Elt F)) :
    after opsL2b (after opsL2a V) (Proc.devRef .tc main_arg4) = (V (Proc.devRef .tc main_arg4)) := by
  rw [opsL2a, opsL2b]
  after_results_simp

set_option maxRecDepth 8192 in
set_option maxHeartbeats 4000000 in
/-- The stretch leaves argument 5 as it was. -/
theorem l2_arg5 (V : Valuation τ sig (Elt F)) :
    after opsL2b (after opsL2a V) (Proc.devRef .tc main_arg5) = (V (Proc.devRef .tc main_arg5)) := by
  rw [opsL2a, opsL2b]
  after_results_simp

set_option maxRecDepth 8192 in
set_option maxHeartbeats 4000000 in
/-- The stretch leaves argument 6 as it was. -/
theorem l2_arg6 (V : Valuation τ sig (Elt F)) :
    after opsL2b (after opsL2a V) (Proc.devRef .tc main_arg6) = (V (Proc.devRef .tc main_arg6)) := by
  rw [opsL2a, opsL2b]
  after_results_simp

set_option maxRecDepth 8192 in
set_option maxHeartbeats 4000000 in
/-- The stretch leaves argument 7 as it was. -/
theorem l2_arg7 (V : Valuation τ sig (Elt F)) :
    after opsL2b (after opsL2a V) (Proc.devRef .tc main_arg7) = (V (Proc.devRef .tc main_arg7)) := by
  rw [opsL2a, opsL2b]
  after_results_simp

set_option maxRecDepth 8192 in
set_option maxHeartbeats 4000000 in
/-- The stretch leaves argument 8 as it was. -/
theorem l2_arg8 (V : Valuation τ sig (Elt F)) :
    after opsL2b (after opsL2a V) (Proc.devRef .tc main_arg8) = (V (Proc.devRef .tc main_arg8)) := by
  rw [opsL2a, opsL2b]
  after_results_simp

set_option maxRecDepth 8192 in
set_option maxHeartbeats 4000000 in
/-- The stretch leaves argument 9 as it was. -/
theorem l2_arg9 (V : Valuation τ sig (Elt F)) :
    after opsL2b (after opsL2a V) (Proc.devRef .tc main_arg9) = (V (Proc.devRef .tc main_arg9)) := by
  rw [opsL2a, opsL2b]
  after_results_simp

set_option maxRecDepth 8192 in
set_option maxHeartbeats 4000000 in
/-- The stretch leaves argument 10 as it was. -/
theorem l2_arg10 (V : Valuation τ sig (Elt F)) :
    after opsL2b (after opsL2a V) (Proc.devRef .tc main_arg10) = (V (Proc.devRef .tc main_arg10)) := by
  rw [opsL2a, opsL2b]
  after_results_simp

set_option maxRecDepth 8192 in
set_option maxHeartbeats 4000000 in
/-- The stretch leaves argument 11 as it was. -/
theorem l2_arg11 (V : Valuation τ sig (Elt F)) :
    after opsL2b (after opsL2a V) (Proc.devRef .tc main_arg11) = (V (Proc.devRef .tc main_arg11)) := by
  rw [opsL2a, opsL2b]
  after_results_simp

set_option maxRecDepth 8192 in
set_option maxHeartbeats 4000000 in
/-- The stretch leaves argument 12 as it was. -/
theorem l2_arg12 (V : Valuation τ sig (Elt F)) :
    after opsL2b (after opsL2a V) (Proc.devRef .tc main_arg12) = (V (Proc.devRef .tc main_arg12)) := by
  rw [opsL2a, opsL2b]
  after_results_simp

set_option maxRecDepth 8192 in
set_option maxHeartbeats 4000000 in
/-- The stretch leaves argument 13 as it was. -/
theorem l2_arg13 (V : Valuation τ sig (Elt F)) :
    after opsL2b (after opsL2a V) (Proc.devRef .tc main_arg13) = (V (Proc.devRef .tc main_arg13)) := by
  rw [opsL2a, opsL2b]
  after_results_simp

set_option maxRecDepth 8192 in
set_option maxHeartbeats 4000000 in
/-- The stretch leaves argument 14 as it was. -/
theorem l2_arg14 (V : Valuation τ sig (Elt F)) :
    after opsL2b (after opsL2a V) (Proc.devRef .tc main_arg14) = (V (Proc.devRef .tc main_arg14)) := by
  rw [opsL2a, opsL2b]
  after_results_simp

set_option maxRecDepth 8192 in
set_option maxHeartbeats 4000000 in
/-- The stretch leaves argument 15 as it was. -/
theorem l2_arg15 (V : Valuation τ sig (Elt F)) :
    after opsL2b (after opsL2a V) (Proc.devRef .tc main_arg15) = (V (Proc.devRef .tc main_arg15)) := by
  rw [opsL2a, opsL2b]
  after_results_simp

end Cert.ReferenceIdeal.Hand

end
-- ==== Proof.RefRunL3.lean ====
/-
  Layer 3 of the reference read back: from any starting contents its operations leave, at the layer's result buffer,
  the layer's term of layer 2's result and the argument arrays, and every argument array as it was.
-/
import proofs.«182203_j60619168416159_1_alg».proof.Proof.RefOps
import proofs.«182203_j60619168416159_1_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- What the stretch leaves at its result buffer, from any starting contents: the layer's term of the contents it reads. -/
theorem l3_val (V : Valuation τ sig (Elt F)) :
    after opsL3 V (Proc.devRef .tc main_v95)
      = Term.layer3 (Term.feat3 (V (Proc.devRef .tc main_v63)) (V (Proc.devRef .tc main_arg1))) (V (Proc.devRef .tc main_arg10)) (V (Proc.devRef .tc main_arg11)) (V (Proc.devRef .tc main_arg12)) (V (Proc.devRef .tc main_arg13)) := by
  rw [opsL3]
  after_results_simp
  rfl

set_option maxRecDepth 8192 in
set_option maxHeartbeats 4000000 in
/-- The stretch leaves argument 0 as it was. -/
theorem l3_arg0 (V : Valuation τ sig (Elt F)) :
    after opsL3 V (Proc.devRef .tc main_arg0) = (V (Proc.devRef .tc main_arg0)) := by
  rw [opsL3]
  after_results_simp

set_option maxRecDepth 8192 in
set_option maxHeartbeats 4000000 in
/-- The stretch leaves argument 1 as it was. -/
theorem l3_arg1 (V : Valuation τ sig (Elt F)) :
    after opsL3 V (Proc.devRef .tc main_arg1) = (V (Proc.devRef .tc main_arg1)) := by
  rw [opsL3]
  after_results_simp

set_option maxRecDepth 8192 in
set_option maxHeartbeats 4000000 in
/-- The stretch leaves argument 2 as it was. -/
theorem l3_arg2 (V : Valuation τ sig (Elt F)) :
    after opsL3 V (Proc.devRef .tc main_arg2) = (V (Proc.devRef .tc main_arg2)) := by
  rw [opsL3]
  after_results_simp

set_option maxRecDepth 8192 in
set_option maxHeartbeats 4000000 in
/-- The stretch leaves argument 3 as it was. -/
theorem l3_arg3 (V : Valuation τ sig (Elt F)) :
    after opsL3 V (Proc.devRef .tc main_arg3) = (V (Proc.devRef .tc main_arg3)) := by
  rw [opsL3]
  after_results_simp

set_option maxRecDepth 8192 in
set_option maxHeartbeats 4000000 in
/-- The stretch leaves argument 4 as it was. -/
theorem l3_arg4 (V : Valuation τ sig (Elt F)) :
    after opsL3 V (Proc.devRef .tc main_arg4) = (V (Proc.devRef .tc main_arg4)) := by
  rw [opsL3]
  after_results_simp

set_option maxRecDepth 8192 in
set_option maxHeartbeats 4000000 in
/-- The stretch leaves argument 5 as it was. -/
theorem l3_arg5 (V : Valuation τ sig (Elt F)) :
    after opsL3 V (Proc.devRef .tc main_arg5) = (V (Proc.devRef .tc main_arg5)) := by
  rw [opsL3]
  after_results_simp

set_option maxRecDepth 8192 in
set_option maxHeartbeats 4000000 in
/-- The stretch leaves argument 6 as it was. -/
theorem l3_arg6 (V : Valuation τ sig (Elt F)) :
    after opsL3 V (Proc.devRef .tc main_arg6) = (V (Proc.devRef .tc main_arg6)) := by
  rw [opsL3]
  after_results_simp

set_option maxRecDepth 8192 in
set_option maxHeartbeats 4000000 in
/-- The stretch leaves argument 7 as it was. -/
theorem l3_arg7 (V : Valuation τ sig (Elt F)) :
    after opsL3 V (Proc.devRef .tc main_arg7) = (V (Proc.devRef .tc main_arg7)) := by
  rw [opsL3]
  after_results_simp

set_option maxRecDepth 8192 in
set_option maxHeartbeats 4000000 in
/-- The stretch leaves argument 8 as it was. -/
theorem l3_arg8 (V : Valuation τ sig (Elt F)) :
    after opsL3 V (Proc.devRef .tc main_arg8) = (V (Proc.devRef .tc main_arg8)) := by
  rw [opsL3]
  after_results_simp

set_option maxRecDepth 8192 in
set_option maxHeartbeats 4000000 in
/-- The stretch leaves argument 9 as it was. -/
theorem l3_arg9 (V : Valuation τ sig (Elt F)) :
    after opsL3 V (Proc.devRef .tc main_arg9) = (V (Proc.devRef .tc main_arg9)) := by
  rw [opsL3]
  after_results_simp

set_option maxRecDepth 8192 in
set_option maxHeartbeats 4000000 in
/-- The stretch leaves argument 10 as it was. -/
theorem l3_arg10 (V : Valuation τ sig (Elt F)) :
    after opsL3 V (Proc.devRef .tc main_arg10) = (V (Proc.devRef .tc main_arg10)) := by
  rw [opsL3]
  after_results_simp

set_option maxRecDepth 8192 in
set_option maxHeartbeats 4000000 in
/-- The stretch leaves argument 11 as it was. -/
theorem l3_arg11 (V : Valuation τ sig (Elt F)) :
    after opsL3 V (Proc.devRef .tc main_arg11) = (V (Proc.devRef .tc main_arg11)) := by
  rw [opsL3]
  after_results_simp

set_option maxRecDepth 8192 in
set_option maxHeartbeats 4000000 in
/-- The stretch leaves argument 12 as it was. -/
theorem l3_arg12 (V : Valuation τ sig (Elt F)) :
    after opsL3 V (Proc.devRef .tc main_arg12) = (V (Proc.devRef .tc main_arg12)) := by
  rw [opsL3]
  after_results_simp

set_option maxRecDepth 8192 in
set_option maxHeartbeats 4000000 in
/-- The stretch leaves argument 13 as it was. -/
theorem l3_arg13 (V : Valuation τ sig (Elt F)) :
    after opsL3 V (Proc.devRef .tc main_arg13) = (V (Proc.devRef .tc main_arg13)) := by
  rw [opsL3]
  after_results_simp

set_option maxRecDepth 8192 in
set_option maxHeartbeats 4000000 in
/-- The stretch leaves argument 14 as it was. -/
theorem l3_arg14 (V : Valuation τ sig (Elt F)) :
    after opsL3 V (Proc.devRef .tc main_arg14) = (V (Proc.devRef .tc main_arg14)) := by
  rw [opsL3]
  after_results_simp

set_option maxRecDepth 8192 in
set_option maxHeartbeats 4000000 in
/-- The stretch leaves argument 15 as it was. -/
theorem l3_arg15 (V : Valuation τ sig (Elt F)) :
    after opsL3 V (Proc.devRef .tc main_arg15) = (V (Proc.devRef .tc main_arg15)) := by
  rw [opsL3]
  after_results_simp

end Cert.ReferenceIdeal.Hand

end
-- ==== Proof.RefRunHd.lean ====
/-
  The pooling and the head of the reference read back: from any starting contents the operations leave, at the result
  buffer, the head's term of the maximum over the vertices of layer 3's result, and every argument array as it was.
-/
import proofs.«182203_j60619168416159_1_alg».proof.Proof.RefOps
import proofs.«182203_j60619168416159_1_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- What the stretch leaves at its result buffer, from any starting contents: the layer's term of the contents it reads. -/
theorem hd_val (V : Valuation τ sig (Elt F)) :
    after opsHd1 (after opsHd0 V) (Proc.devRef .tc main_v101)
      = Term.head (Term.pooled (V (Proc.devRef .tc main_v95))) (V (Proc.devRef .tc main_arg14)) (V (Proc.devRef .tc main_arg15)) := by
  rw [opsHd0, opsHd1]
  after_results_simp
  rfl

set_option maxRecDepth 8192 in
set_option maxHeartbeats 4000000 in
/-- The stretch leaves argument 0 as it was. -/
theorem hd_arg0 (V : Valuation τ sig (Elt F)) :
    after opsHd1 (after opsHd0 V) (Proc.devRef .tc main_arg0) = (V (Proc.devRef .tc main_arg0)) := by
  rw [opsHd0, opsHd1]
  after_results_simp

set_option maxRecDepth 8192 in
set_option maxHeartbeats 4000000 in
/-- The stretch leaves argument 1 as it was. -/
theorem hd_arg1 (V : Valuation τ sig (Elt F)) :
    after opsHd1 (after opsHd0 V) (Proc.devRef .tc main_arg1) = (V (Proc.devRef .tc main_arg1)) := by
  rw [opsHd0, opsHd1]
  after_results_simp

set_option maxRecDepth 8192 in
set_option maxHeartbeats 4000000 in
/-- The stretch leaves argument 2 as it was. -/
theorem hd_arg2 (V : Valuation τ sig (Elt F)) :
    after opsHd1 (after opsHd0 V) (Proc.devRef .tc main_arg2) = (V (Proc.devRef .tc main_arg2)) := by
  rw [opsHd0, opsHd1]
  after_results_simp

set_option maxRecDepth 8192 in
set_option maxHeartbeats 4000000 in
/-- The stretch leaves argument 3 as it was. -/
theorem hd_arg3 (V : Valuation τ sig (Elt F)) :
    after opsHd1 (after opsHd0 V) (Proc.devRef .tc main_arg3) = (V (Proc.devRef .tc main_arg3)) := by
  rw [opsHd0, opsHd1]
  after_results_simp

set_option maxRecDepth 8192 in
set_option maxHeartbeats 4000000 in
/-- The stretch leaves argument 4 as it was. -/
theorem hd_arg4 (V : Valuation τ sig (Elt F)) :
    after opsHd1 (after opsHd0 V) (Proc.devRef .tc main_arg4) = (V (Proc.devRef .tc main_arg4)) := by
  rw [opsHd0, opsHd1]
  after_results_simp

set_option maxRecDepth 8192 in
set_option maxHeartbeats 4000000 in
/-- The stretch leaves argument 5 as it was. -/
theorem hd_arg5 (V : Valuation τ sig (Elt F)) :
    after opsHd1 (after opsHd0 V) (Proc.devRef .tc main_arg5) = (V (Proc.devRef .tc main_arg5)) := by
  rw [opsHd0, opsHd1]
  after_results_simp

set_option maxRecDepth 8192 in
set_option maxHeartbeats 4000000 in
/-- The stretch leaves argument 6 as it was. -/
theorem hd_arg6 (V : Valuation τ sig (Elt F)) :
    after opsHd1 (after opsHd0 V) (Proc.devRef .tc main_arg6) = (V (Proc.devRef .tc main_arg6)) := by
  rw [opsHd0, opsHd1]
  after_results_simp

set_option maxRecDepth 8192 in
set_option maxHeartbeats 4000000 in
/-- The stretch leaves argument 7 as it was. -/
theorem hd_arg7 (V : Valuation τ sig (Elt F)) :
    after opsHd1 (after opsHd0 V) (Proc.devRef .tc main_arg7) = (V (Proc.devRef .tc main_arg7)) := by
  rw [opsHd0, opsHd1]
  after_results_simp

set_option maxRecDepth 8192 in
set_option maxHeartbeats 4000000 in
/-- The stretch leaves argument 8 as it was. -/
theorem hd_arg8 (V : Valuation τ sig (Elt F)) :
    after opsHd1 (after opsHd0 V) (Proc.devRef .tc main_arg8) = (V (Proc.devRef .tc main_arg8)) := by
  rw [opsHd0, opsHd1]
  after_results_simp

set_option maxRecDepth 8192 in
set_option maxHeartbeats 4000000 in
/-- The stretch leaves argument 9 as it was. -/
theorem hd_arg9 (V : Valuation τ sig (Elt F)) :
    after opsHd1 (after opsHd0 V) (Proc.devRef .tc main_arg9) = (V (Proc.devRef .tc main_arg9)) := by
  rw [opsHd0, opsHd1]
  after_results_simp

set_option maxRecDepth 8192 in
set_option maxHeartbeats 4000000 in
/-- The stretch leaves argument 10 as it was. -/
theorem hd_arg10 (V : Valuation τ sig (Elt F)) :
    after opsHd1 (after opsHd0 V) (Proc.devRef .tc main_arg10) = (V (Proc.devRef .tc main_arg10)) := by
  rw [opsHd0, opsHd1]
  after_results_simp

set_option maxRecDepth 8192 in
set_option maxHeartbeats 4000000 in
/-- The stretch leaves argument 11 as it was. -/
theorem hd_arg11 (V : Valuation τ sig (Elt F)) :
    after opsHd1 (after opsHd0 V) (Proc.devRef .tc main_arg11) = (V (Proc.devRef .tc main_arg11)) := by
  rw [opsHd0, opsHd1]
  after_results_simp

set_option maxRecDepth 8192 in
set_option maxHeartbeats 4000000 in
/-- The stretch leaves argument 12 as it was. -/
theorem hd_arg12 (V : Valuation τ sig (Elt F)) :
    after opsHd1 (after opsHd0 V) (Proc.devRef .tc main_arg12) = (V (Proc.devRef .tc main_arg12)) := by
  rw [opsHd0, opsHd1]
  after_results_simp

set_option maxRecDepth 8192 in
set_option maxHeartbeats 4000000 in
/-- The stretch leaves argument 13 as it was. -/
theorem hd_arg13 (V : Valuation τ sig (Elt F)) :
    after opsHd1 (after opsHd0 V) (Proc.devRef .tc main_arg13) = (V (Proc.devRef .tc main_arg13)) := by
  rw [opsHd0, opsHd1]
  after_results_simp

set_option maxRecDepth 8192 in
set_option maxHeartbeats 4000000 in
/-- The stretch leaves argument 14 as it was. -/
theorem hd_arg14 (V : Valuation τ sig (Elt F)) :
    after opsHd1 (after opsHd0 V) (Proc.devRef .tc main_arg14) = (V (Proc.devRef .tc main_arg14)) := by
  rw [opsHd0, opsHd1]
  after_results_simp

set_option maxRecDepth 8192 in
set_option maxHeartbeats 4000000 in
/-- The stretch leaves argument 15 as it was. -/
theorem hd_arg15 (V : Valuation τ sig (Elt F)) :
    after opsHd1 (after opsHd0 V) (Proc.devRef .tc main_arg15) = (V (Proc.devRef .tc main_arg15)) := by
  rw [opsHd0, opsHd1]
  after_results_simp

end Cert.ReferenceIdeal.Hand

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.RefRun.lean ====
/-
  The reference program's run: every weakly fair execution of its host operations ends with the result buffer at the
  composed term of the argument arrays (three normalised layers, the maximum over the vertices, the linear head) and
  the sixteen argument arrays unchanged. The line of operations is read a stretch at a time — layer 1, layer 2, layer 3,
  the pooling with the head — each stretch's result a term of what the stretch before left.
-/
import proofs.«182203_j60619168416159_1_alg».proof.Proof.RefOps
import proofs.«182203_j60619168416159_1_alg».proof.Proof.RefRunL1
import proofs.«182203_j60619168416159_1_alg».proof.Proof.RefRunL2
import proofs.«182203_j60619168416159_1_alg».proof.Proof.RefRunL3
import proofs.«182203_j60619168416159_1_alg».proof.Proof.RefRunHd
import proofs.«182203_j60619168416159_1_alg».proof.Proof.RefTerm
import proofs.«182203_j60619168416159_1_alg».proof.Proof.LibHostStretches
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo Cert.HostLine

variable {F : FTy → Type} [FloatOps F]

/-- The whole line run is its stretches run in turn. -/
theorem after_ops (V : Valuation τ sig (Elt F)) :
    after ops V = after opsHd1 (after opsHd0 (after opsL3 (after opsL2b (after opsL2a (after opsL1 V))))) := by
  rw [ops, after_append, after_append, after_append, after_append, after_append]

/-- The result buffer ends at the reference's term of the argument arrays. -/
theorem out_eq (V : Valuation τ sig (Elt F)) :
    after ops V (Proc.devRef .tc main_v101)
      = Term.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [after_ops, hd_val, l3_val, l2_val, l1_val]
  rw [l3_arg14, l3_arg15, l2_arg1, l2_arg10, l2_arg11, l2_arg12, l2_arg13, l2_arg14, l2_arg15, l1_arg1, l1_arg6, l1_arg7, l1_arg8, l1_arg9, l1_arg10, l1_arg11, l1_arg12, l1_arg13, l1_arg14, l1_arg15]
  rfl

/-- Argument 0 is left as it was. -/
theorem arg0_eq (V : Valuation τ sig (Elt F)) : after ops V (Proc.devRef .tc main_arg0) = (V (Proc.devRef .tc main_arg0)) := by
  rw [after_ops, hd_arg0, l3_arg0, l2_arg0, l1_arg0]

/-- Argument 1 is left as it was. -/
theorem arg1_eq (V : Valuation τ sig (Elt F)) : after ops V (Proc.devRef .tc main_arg1) = (V (Proc.devRef .tc main_arg1)) := by
  rw [after_ops, hd_arg1, l3_arg1, l2_arg1, l1_arg1]

/-- Argument 2 is left as it was. -/
theorem arg2_eq (V : Valuation τ sig (Elt F)) : after ops V (Proc.devRef .tc main_arg2) = (V (Proc.devRef .tc main_arg2)) := by
  rw [after_ops, hd_arg2, l3_arg2, l2_arg2, l1_arg2]

/-- Argument 3 is left as it was. -/
theorem arg3_eq (V : Valuation τ sig (Elt F)) : after ops V (Proc.devRef .tc main_arg3) = (V (Proc.devRef .tc main_arg3)) := by
  rw [after_ops, hd_arg3, l3_arg3, l2_arg3, l1_arg3]

/-- Argument 4 is left as it was. -/
theorem arg4_eq (V : Valuation τ sig (Elt F)) : after ops V (Proc.devRef .tc main_arg4) = (V (Proc.devRef .tc main_arg4)) := by
  rw [after_ops, hd_arg4, l3_arg4, l2_arg4, l1_arg4]

/-- Argument 5 is left as it was. -/
theorem arg5_eq (V : Valuation τ sig (Elt F)) : after ops V (Proc.devRef .tc main_arg5) = (V (Proc.devRef .tc main_arg5)) := by
  rw [after_ops, hd_arg5, l3_arg5, l2_arg5, l1_arg5]

/-- Argument 6 is left as it was. -/
theorem arg6_eq (V : Valuation τ sig (Elt F)) : after ops V (Proc.devRef .tc main_arg6) = (V (Proc.devRef .tc main_arg6)) := by
  rw [after_ops, hd_arg6, l3_arg6, l2_arg6, l1_arg6]

/-- Argument 7 is left as it was. -/
theorem arg7_eq (V : Valuation τ sig (Elt F)) : after ops V (Proc.devRef .tc main_arg7) = (V (Proc.devRef .tc main_arg7)) := by
  rw [after_ops, hd_arg7, l3_arg7, l2_arg7, l1_arg7]

/-- Argument 8 is left as it was. -/
theorem arg8_eq (V : Valuation τ sig (Elt F)) : after ops V (Proc.devRef .tc main_arg8) = (V (Proc.devRef .tc main_arg8)) := by
  rw [after_ops, hd_arg8, l3_arg8, l2_arg8, l1_arg8]

/-- Argument 9 is left as it was. -/
theorem arg9_eq (V : Valuation τ sig (Elt F)) : after ops V (Proc.devRef .tc main_arg9) = (V (Proc.devRef .tc main_arg9)) := by
  rw [after_ops, hd_arg9, l3_arg9, l2_arg9, l1_arg9]

/-- Argument 10 is left as it was. -/
theorem arg10_eq (V : Valuation τ sig (Elt F)) : after ops V (Proc.devRef .tc main_arg10) = (V (Proc.devRef .tc main_arg10)) := by
  rw [after_ops, hd_arg10, l3_arg10, l2_arg10, l1_arg10]

/-- Argument 11 is left as it was. -/
theorem arg11_eq (V : Valuation τ sig (Elt F)) : after ops V (Proc.devRef .tc main_arg11) = (V (Proc.devRef .tc main_arg11)) := by
  rw [after_ops, hd_arg11, l3_arg11, l2_arg11, l1_arg11]

/-- Argument 12 is left as it was. -/
theorem arg12_eq (V : Valuation τ sig (Elt F)) : after ops V (Proc.devRef .tc main_arg12) = (V (Proc.devRef .tc main_arg12)) := by
  rw [after_ops, hd_arg12, l3_arg12, l2_arg12, l1_arg12]

/-- Argument 13 is left as it was. -/
theorem arg13_eq (V : Valuation τ sig (Elt F)) : after ops V (Proc.devRef .tc main_arg13) = (V (Proc.devRef .tc main_arg13)) := by
  rw [after_ops, hd_arg13, l3_arg13, l2_arg13, l1_arg13]

/-- Argument 14 is left as it was. -/
theorem arg14_eq (V : Valuation τ sig (Elt F)) : after ops V (Proc.devRef .tc main_arg14) = (V (Proc.devRef .tc main_arg14)) := by
  rw [after_ops, hd_arg14, l3_arg14, l2_arg14, l1_arg14]

/-- Argument 15 is left as it was. -/
theorem arg15_eq (V : Valuation τ sig (Elt F)) : after ops V (Proc.devRef .tc main_arg15) = (V (Proc.devRef .tc main_arg15)) := by
  rw [after_ops, hd_arg15, l3_arg15, l2_arg15, l1_arg15]

/-- On every device, for any float values, from any memory with zero counters: every weakly fair execution of the
    reference terminates with the result buffer at the reference's term of the argument arrays, the arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v101).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_seq scopedRefs_eq scopedSems_eq defs main (fun _ => ops) main_eq (fun _ => ops_sub) m ρ (fun _ => ops_fresh))

end Cert.ReferenceIdeal.Hand

end
-- ==== Proof.lean ====
/-
  The claim: the Pallas program of a three-layer spiral network — per layer a gather of nine neighbour rows on the
  host, a tiled linear map that also accumulates each output channel's sum and sum of squares over the 30 tiles, the
  batch statistics turned into a per-channel scale and shift on the host, a pointwise normalise-and-clip (for the last
  layer fused with a running maximum over the vertices), then a small dense head — computes, on the extended reals and
  for real (finite) inputs, the same [8,256] array as the plain reference: gather, linear map, mean and centred
  variance over all 96000 rows, (y − μ)·rsqrt(σ² + ε)·g + β, clip at zero, maximum over the vertices, head.

  The two spellings of the normalisation agree for real entries (E[y²] − μ² is the mean squared deviation, and
  y·(g·ρ) + (β − μ·g·ρ) = (y − μ)·ρ·g + β by distributivity, which needs every term real; σ² ≥ 0 and ε > 0 keep the
  inverse square root a positive real), every layer's output is again real, and sums and maxima regroup freely over the
  tiles. The kernel program's run is read off its generated frame (thirteen segments: host stretches and six regions),
  the reference's run is read back operation by operation; both end at the same term of the arguments.
-/
import proofs.«182203_j60619168416159_1_alg».proof.Defs
import proofs.«182203_j60619168416159_1_alg».proof.Proof.Gen.Kernel
import proofs.«182203_j60619168416159_1_alg».proof.Proof.Gen.Kernel.Frame
import proofs.«182203_j60619168416159_1_alg».proof.Proof.Gen.KernelIdeal
import proofs.«182203_j60619168416159_1_alg».proof.Proof.Gen.KernelIdeal.Frame
import proofs.«182203_j60619168416159_1_alg».proof.Proof.Gen.ReferenceIdeal
import proofs.«182203_j60619168416159_1_alg».proof.Proof.Gen.Pre_finite_inputs
import proofs.«182203_j60619168416159_1_alg».proof.Proof.KRun
import proofs.«182203_j60619168416159_1_alg».proof.Proof.KOut
import proofs.«182203_j60619168416159_1_alg».proof.Proof.RefRun
import Idealize.ShloMosaic.Adequacy
import Idealize.ShloMosaic.Init

noncomputable section

namespace Cert.Proof

open Idealize.ShloMosaic Idealize.SL.Sem

/-- The word-level program terminates with its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference terminates with its arguments unchanged: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- Both programs end at the reference's term of the (agreeing) arguments. -/
theorem algebraic : Cert.algebraic_KernelIdeal_ReferenceIdeal := by
  intro m ρ m' ρ' hpre hagree
  refine ⟨fun c => Cert.ReferenceIdeal.Term.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.Gen.kernel_out m ρ hpre c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
